-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x128 : Shape := ⟨4, ![64, 32, 32, 128]⟩
abbrev S1x128 : Shape := ⟨2, ![1, 128]⟩
abbrev S3x3x128x128 : Shape := ⟨4, ![3, 3, 128, 128]⟩
abbrev S128x8 : Shape := ⟨2, ![128, 8]⟩
abbrev S1x8 : Shape := ⟨2, ![1, 8]⟩
abbrev S8x128 : Shape := ⟨2, ![8, 128]⟩
abbrev S_ : Shape := ⟨0, ![]⟩

class Facts : Prop where
  bcast_S_S64x32x32x128 : S_.BroadcastsInDim S64x32x32x128 (![] : Fin 0 → Fin S64x32x32x128.rank)
  reducesTo_S64x32x32x128_S_d0_1_2_3 : S64x32x32x128.ReducesTo [0, 1, 2, 3] S_
  h_S_ : 0 < S_.numel
  bcast_S_S1x128 : S_.BroadcastsInDim S1x128 (![] : Fin 0 → Fin S1x128.rank)
  reducesTo_S1x128_S_d0_1 : S1x128.ReducesTo [0, 1] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S128x8 : S_.BroadcastsInDim S128x8 (![] : Fin 0 → Fin S128x8.rank)
  reducesTo_S128x8_S_d0_1 : S128x8.ReducesTo [0, 1] S_
  bcast_S_S1x8 : S_.BroadcastsInDim S1x8 (![] : Fin 0 → Fin S1x8.rank)
  reducesTo_S1x8_S_d0_1 : S1x8.ReducesTo [0, 1] S_
  bcast_S_S8x128 : S_.BroadcastsInDim S8x128 (![] : Fin 0 → Fin S8x128.rank)
  reducesTo_S8x128_S_d0_1 : S8x128.ReducesTo [0, 1] S_

variable [Facts]

def fn_part3 {F : FTy → Type} [FloatOps F] (main_arg11 : FVec F S8x128 .f32) (main_arg12 : FVec F S1x128 .f32) (main_v48 : IVec S_ 1) (main_v49 : FVec F S1x8 .f32) (main_v50 : FVec F S1x8 .f32) : IVec S_ 1 :=
  let main_v51 : IVec S1x8 1 := cmpf .olt main_v49 main_v50
  let main_c_19 : IVec S_ 1 := constantI S_ 1 1#1
  let main_v52 : IVec S_ 1 := (fun x v => Host.reduce IntOp.andi x v reducesTo_S1x8_S_d0_1 h_S_) main_v51 main_c_19
  let main_v53 : IVec S_ 1 := andi main_v48 main_v52
  let main_v54 : FVec F S8x128 .f32 := Host.absf main_arg11
  let main_cst_20 : FVec F S_ .f32 := constant S_ .f32 0x7F800000#32
  let main_v55 : FVec F S8x128 .f32 := broadcastInDim S8x128 ![] bcast_S_S8x128 main_cst_20
  let main_v56 : IVec S8x128 1 := cmpf .olt main_v54 main_v55
  let main_c_21 : IVec S_ 1 := constantI S_ 1 1#1
  let main_v57 : IVec S_ 1 := (fun x v => Host.reduce IntOp.andi x v reducesTo_S8x128_S_d0_1 h_S_) main_v56 main_c_21
  let main_v58 : IVec S_ 1 := andi main_v53 main_v57
  let main_v59 : FVec F S1x128 .f32 := Host.absf main_arg12
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  main_v63

def fn_part2 {F : FTy → Type} [FloatOps F] (main_arg7 : FVec F S1x128 .f32) (main_arg8 : FVec F S1x128 .f32) (main_arg9 : FVec F S128x8 .f32) (main_arg10 : FVec F S1x8 .f32) (main_arg11 : FVec F S8x128 .f32) (main_arg12 : FVec F S1x128 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x8 .f32 := Host.absf main_arg9
  let main_cst_16 : FVec F S_ .f32 := constant S_ .f32 0x7F800000#32
  let main_v45 : FVec F S128x8 .f32 := broadcastInDim S128x8 ![] bcast_S_S128x8 main_cst_16
  let main_v46 : IVec S128x8 1 := cmpf .olt main_v44 main_v45
  let main_c_17 : IVec S_ 1 := constantI S_ 1 1#1
  let main_v47 : IVec S_ 1 := (fun x v => Host.reduce IntOp.andi x v reducesTo_S128x8_S_d0_1 h_S_) main_v46 main_c_17
  let main_v48 : IVec S_ 1 := andi main_v43 main_v47
  let main_v49 : FVec F S1x8 .f32 := Host.absf main_arg10
  let main_cst_18 : FVec F S_ .f32 := constant S_ .f32 0x7F800000#32
  let main_v50 : FVec F S1x8 .f32 := broadcastInDim S1x8 ![] bcast_S_S1x8 main_cst_18
  fn_part3 (F := F) main_arg11 main_arg12 main_v48 main_v49 main_v50

def fn_part1 {F : FTy → Type} [FloatOps F] (main_arg4 : FVec F S1x128 .f32) (main_arg5 : FVec F S1x128 .f32) (main_arg6 : FVec F S3x3x128x128 .f32) (main_arg7 : FVec F S1x128 .f32) (main_arg8 : FVec F S1x128 .f32) (main_arg9 : FVec F S128x8 .f32) (main_arg10 : FVec F S1x8 .f32) (main_arg11 : FVec F S8x128 .f32) (main_arg12 : FVec F S1x128 .f32) (main_v13 : IVec S_ 1) (main_v16 : IVec S3x3x128x128 1) : IVec S_ 1 :=
  let main_c_5 : IVec S_ 1 := constantI S_ 1 1#1
  let main_v17 : IVec S_ 1 := (fun x v => Host.reduce IntOp.andi x v reducesTo_S3x3x128x128_S_d0_1_2_3 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S3x3x128x128 .f32 := Host.absf main_arg6
  let main_cst_10 : FVec F S_ .f32 := constant S_ .f32 0x7F800000#32
  let main_v30 : FVec F S3x3x128x128 .f32 := broadcastInDim S3x3x128x128 ![] bcast_S_S3x3x128x128 main_cst_10
  let main_v31 : IVec S3x3x128x128 1 := cmpf .olt main_v29 main_v30
  let main_c_11 : IVec S_ 1 := constantI S_ 1 1#1
  let main_v32 : IVec S_ 1 := (fun x v => Host.reduce IntOp.andi x v reducesTo_S3x3x128x128_S_d0_1_2_3 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x32x32x128 .f32) (main_arg1 : FVec F S1x128 .f32) (main_arg2 : FVec F S1x128 .f32) (main_arg3 : FVec F S3x3x128x128 .f32) (main_arg4 : FVec F S1x128 .f32) (main_arg5 : FVec F S1x128 .f32) (main_arg6 : FVec F S3x3x128x128 .f32) (main_arg7 : FVec F S1x128 .f32) (main_arg8 : FVec F S1x128 .f32) (main_arg9 : FVec F S128x8 .f32) (main_arg10 : FVec F S1x8 .f32) (main_arg11 : FVec F S8x128 .f32) (main_arg12 : FVec F S1x128 .f32) : IVec S_ 1 :=
  let main_v0 : FVec F S64x32x32x128 .f32 := Host.absf main_arg0
  let main_cst : FVec F S_ .f32 := constant S_ .f32 0x7F800000#32
  let main_v1 : FVec F S64x32x32x128 .f32 := broadcastInDim S64x32x32x128 ![] bcast_S_S64x32x32x128 main_cst
  let main_v2 : IVec S64x32x32x128 1 := cmpf .olt main_v0 main_v1
  let main_c : IVec S_ 1 := constantI S_ 1 1#1
  let main_v3 : IVec S_ 1 := (fun x v => Host.reduce IntOp.andi x v reducesTo_S64x32x32x128_S_d0_1_2_3 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S3x3x128x128 .f32 := Host.absf main_arg3
  let main_cst_4 : FVec F S_ .f32 := constant S_ .f32 0x7F800000#32
  let main_v15 : FVec F S3x3x128x128 .f32 := broadcastInDim S3x3x128x128 ![] bcast_S_S3x3x128x128 main_cst_4
  let main_v16 : IVec S3x3x128x128 1 := cmpf .olt main_v14 main_v15
  fn_part1 (F := F) main_arg4 main_arg5 main_arg6 main_arg7 main_arg8 main_arg9 main_arg10 main_arg11 main_arg12 main_v13 main_v16
-- ==== Kernel.lean ====
abbrev S64x32x32x128 : Shape := ⟨4, ![64, 32, 32, 128]⟩
abbrev S1x128 : Shape := ⟨2, ![1, 128]⟩
abbrev S3x3x128x128 : Shape := ⟨4, ![3, 3, 128, 128]⟩
abbrev S128x8 : Shape := ⟨2, ![128, 8]⟩
abbrev S1x8 : Shape := ⟨2, ![1, 8]⟩
abbrev S8x128 : Shape := ⟨2, ![8, 128]⟩
abbrev S1152x128 : Shape := ⟨2, ![1152, 128]⟩
abbrev S65536x128 : Shape := ⟨2, ![65536, 128]⟩
abbrev S16x2x128 : Shape := ⟨3, ![16, 2, 128]⟩
abbrev S4096x128 : Shape := ⟨2, ![4096, 128]⟩
abbrev S1x2x128 : Shape := ⟨3, ![1, 2, 128]⟩
abbrev S128 : Shape := ⟨1, ![128]⟩
abbrev S2x128 : Shape := ⟨2, ![2, 128]⟩
abbrev S_ : Shape := ⟨0, ![]⟩
abbrev S64x2x128 : Shape := ⟨3, ![64, 2, 128]⟩
abbrev S1x32x32x128 : Shape := ⟨4, ![1, 32, 32, 128]⟩
abbrev S34x34x128 : Shape := ⟨3, ![34, 34, 128]⟩
abbrev S1024x128 : Shape := ⟨2, ![1024, 128]⟩
abbrev S1x34x128 : Shape := ⟨3, ![1, 34, 128]⟩
abbrev S34x1x128 : Shape := ⟨3, ![34, 1, 128]⟩
abbrev S34x2x128 : Shape := ⟨3, ![34, 2, 128]⟩
abbrev S32x32x128 : Shape := ⟨3, ![32, 32, 128]⟩
abbrev S32x34x128 : Shape := ⟨3, ![32, 34, 128]⟩
abbrev S1024x1152 : Shape := ⟨2, ![1024, 1152]⟩

abbrev nBuf : Space → Nat
  | .hbm => 90
  | .vmem => 36
  | .smem => 0
  | _ => 0

abbrev bufTy : (tb : Table) → Fin (tcTables nBuf tb) → BufTy
  | .hbm, ⟨0, _⟩ => ⟨S64x32x32x128, .f32⟩
  | .hbm, ⟨1, _⟩ => ⟨S1x128, .f32⟩
  | .hbm, ⟨2, _⟩ => ⟨S1x128, .f32⟩
  | .hbm, ⟨3, _⟩ => ⟨S3x3x128x128, .f32⟩
  | .hbm, ⟨4, _⟩ => ⟨S1x128, .f32⟩
  | .hbm, ⟨5, _⟩ => ⟨S1x128, .f32⟩
  | .hbm, ⟨6, _⟩ => ⟨S3x3x128x128, .f32⟩
  | .hbm, ⟨7, _⟩ => ⟨S1x128, .f32⟩
  | .hbm, ⟨8, _⟩ => ⟨S1x128, .f32⟩
  | .hbm, ⟨9, _⟩ => ⟨S128x8, .f32⟩
  | .hbm, ⟨10, _⟩ => ⟨S1x8, .f32⟩
  | .hbm, ⟨11, _⟩ => ⟨S8x128, .f32⟩
  | .hbm, ⟨12, _⟩ => ⟨S1x128, .f32⟩
  | .hbm, ⟨13, _⟩ => ⟨S1152x128, .f32⟩
  | .hbm, ⟨14, _⟩ => ⟨S1152x128, .bf16⟩
  | .hbm, ⟨15, _⟩ => ⟨S1152x128, .f32⟩
  | .hbm, ⟨16, _⟩ => ⟨S1152x128, .bf16⟩
  | .hbm, ⟨17, _⟩ => ⟨S65536x128, .f32⟩
  | .hbm, ⟨18, _⟩ => ⟨S16x2x128, .f32⟩
  | .hbm, ⟨19, _⟩ => ⟨S_, .f32⟩
  | .hbm, ⟨20, _⟩ => ⟨S2x128, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S64x32x32x128, .bf16⟩
  | .hbm, ⟨42, _⟩ => ⟨S64x2x128, .f32⟩
  | .hbm, ⟨43, _⟩ => ⟨S_, .f32⟩
  | .hbm, ⟨44, _⟩ => ⟨S2x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S64x32x32x128, .bf16⟩
  | .hbm, ⟨66, _⟩ => ⟨S64x2x128, .f32⟩
  | .hbm, ⟨67, _⟩ => ⟨S_, .f32⟩
  | .hbm, ⟨68, _⟩ => ⟨S2x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S_, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S64x32x32x128, .f32⟩
  | .local _ .vmem, ⟨0, _⟩ => ⟨S4096x128, .f32⟩
  | .local _ .vmem, ⟨1, _⟩ => ⟨S4096x128, .f32⟩
  | .local _ .vmem, ⟨2, _⟩ => ⟨S1x2x128, .f32⟩
  | .local _ .vmem, ⟨3, _⟩ => ⟨S1x2x128, .f32⟩
  | .local _ .vmem, ⟨4, _⟩ => ⟨S1x32x32x128, .f32⟩
  | .local _ .vmem, ⟨5, _⟩ => ⟨S1x32x32x128, .f32⟩
  | .local _ .vmem, ⟨6, _⟩ => ⟨S1x128, .f32⟩
  | .local _ .vmem, ⟨7, _⟩ => ⟨S1x128, .f32⟩
  | .local _ .vmem, ⟨8, _⟩ => ⟨S1152x128, .bf16⟩
  | .local _ .vmem, ⟨9, _⟩ => ⟨S1x32x32x128, .bf16⟩
  | .local _ .vmem, ⟨10, _⟩ => ⟨S1x32x32x128, .bf16⟩
  | .local _ .vmem, ⟨11, _⟩ => ⟨S1x2x128, .f32⟩
  | .local _ .vmem, ⟨12, _⟩ => ⟨S1x2x128, .f32⟩
  | .local _ .vmem, ⟨13, _⟩ => ⟨S34x34x128, .bf16⟩
  | .local _ .vmem, ⟨14, _⟩ => ⟨S1x32x32x128, .bf16⟩
  | .local _ .vmem, ⟨15, _⟩ => ⟨S1x32x32x128, .bf16⟩
  | .local _ .vmem, ⟨16, _⟩ => ⟨S1x128, .f32⟩
  | .local _ .vmem, ⟨17, _⟩ => ⟨S1x128, .f32⟩
  | .local _ .vmem, ⟨18, _⟩ => ⟨S1152x128, .bf16⟩
  | .local _ .vmem, ⟨19, _⟩ => ⟨S1x32x32x128, .bf16⟩
  | .local _ .vmem, ⟨20, _⟩ => ⟨S1x32x32x128, .bf16⟩
  | .local _ .vmem, ⟨21, _⟩ => ⟨S1x2x128, .f32⟩
  | .local _ .vmem, ⟨22, _⟩ => ⟨S1x2x128, .f32⟩
  | .local _ .vmem, ⟨23, _⟩ => ⟨S34x34x128, .bf16⟩
  | .local _ .vmem, ⟨24, _⟩ => ⟨S1x32x32x128, .bf16⟩
  | .local _ .vmem, ⟨25, _⟩ => ⟨S1x32x32x128, .bf16⟩
  | .local _ .vmem, ⟨26, _⟩ => ⟨S1x32x32x128, .f32⟩
  | .local _ .vmem, ⟨27, _⟩ => ⟨S1x32x32x128, .f32⟩
  | .local _ .vmem, ⟨28, _⟩ => ⟨S1x128, .f32⟩
  | .local _ .vmem, ⟨29, _⟩ => ⟨S1x128, .f32⟩
  | .local _ .vmem, ⟨30, _⟩ => ⟨S128x8, .f32⟩
  | .local _ .vmem, ⟨31, _⟩ => ⟨S1x8, .f32⟩
  | .local _ .vmem, ⟨32, _⟩ => ⟨S8x128, .f32⟩
  | .local _ .vmem, ⟨33, _⟩ => ⟨S1x128, .f32⟩
  | .local _ .vmem, ⟨34, _⟩ => ⟨S1x32x32x128, .f32⟩
  | .local _ .vmem, ⟨35, _⟩ => ⟨S1x32x32x128, .f32⟩
  | _, _ => ⟨S64x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem8_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1152x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x32x32x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x32x32x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1152x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x32x32x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x2x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![64], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x32x32x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x32x32x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1x32x32x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  shapeCasts_S3x3x128x128_S1152x128 : S3x3x128x128.ShapeCasts S1152x128
  bitsLt_bf16_f32 : FTy.bits .bf16 < FTy.bits .f32
  shapeCasts_S64x32x32x128_S65536x128 : S64x32x32x128.ShapeCasts S65536x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S128 : S4096x128.Reduces [0] S128
  shapeCasts_S128_S1x128 : S128.ShapeCasts S1x128
  concatenates_S1x128_S1x128_S2x128_d0 : Shape.Concatenates [S1x128, S1x128] S2x128 0
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  reducesTo_S16x2x128_S2x128_d0 : S16x2x128.ReducesTo [0] S2x128
  h_S_ : 0 < S_.numel
  slices_S2x128_S1x128_0_0 : S2x128.Slices ![0, 0] S1x128
  slices_S2x128_S1x128_1_0 : S2x128.Slices ![1, 0] S1x128
  bcast_S_S1x128 : S_.BroadcastsInDim S1x128 (![] : Fin 0 → Fin S1x128.rank)
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S1024x128 : S1x32x32x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S34x34x128_S1x34x128_0_0_0 : ∀ a, (![0, 0, 0] : Fin 3 → Nat) a + S1x34x128.size a ≤ S34x34x128.size a
  h_S1x34x128 : 0 < S1x34x128.numel
  shapeCasts_S1x34x128_S1x34x128 : S1x34x128.ShapeCasts S1x34x128
  packedbf16_S34x34x128_S1x34x128_0_0_0 : (Rect.unit (s := S34x34x128) ![0, 0, 0] S1x34x128.size inb_S34x34x128_S1x34x128_0_0_0).PackedRows (EltTy.packing .bf16)
  inb_S34x34x128_S1x34x128_33_0_0 : ∀ a, (![33, 0, 0] : Fin 3 → Nat) a + S1x34x128.size a ≤ S34x34x128.size a
  packedbf16_S34x34x128_S1x34x128_33_0_0 : (Rect.unit (s := S34x34x128) ![33, 0, 0] S1x34x128.size inb_S34x34x128_S1x34x128_33_0_0).PackedRows (EltTy.packing .bf16)
  inb_S34x34x128_S34x1x128_0_0_0 : ∀ a, (![0, 0, 0] : Fin 3 → Nat) a + S34x1x128.size a ≤ S34x34x128.size a
  h_S34x1x128 : 0 < S34x1x128.numel
  shapeCasts_S34x1x128_S34x1x128 : S34x1x128.ShapeCasts S34x1x128
  inb_S34x34x128_S34x2x128_0_0_0 : ∀ a, (![0, 0, 0] : Fin 3 → Nat) a + S34x2x128.size a ≤ S34x34x128.size a
  h_S34x2x128 : 0 < S34x2x128.numel
  slices_S34x2x128_S34x1x128_0_0_0 : S34x2x128.Slices ![0, 0, 0] S34x1x128
  packedbf16_S34x34x128_S34x2x128_0_0_0 : (Rect.unit (s := S34x34x128) ![0, 0, 0] S34x2x128.size inb_S34x34x128_S34x2x128_0_0_0).PackedRows (EltTy.packing .bf16)
  inb_S34x34x128_S34x1x128_0_33_0 : ∀ a, (![0, 33, 0] : Fin 3 → Nat) a + S34x1x128.size a ≤ S34x34x128.size a
  inb_S34x34x128_S34x2x128_0_32_0 : ∀ a, (![0, 32, 0] : Fin 3 → Nat) a + S34x2x128.size a ≤ S34x34x128.size a
  slices_S34x2x128_S34x1x128_0_1_0 : S34x2x128.Slices ![0, 1, 0] S34x1x128
  packedbf16_S34x34x128_S34x2x128_0_32_0 : (Rect.unit (s := S34x34x128) ![0, 32, 0] S34x2x128.size inb_S34x34x128_S34x2x128_0_32_0).PackedRows (EltTy.packing .bf16)
  shapeCasts_S1024x128_S32x32x128 : S1024x128.ShapeCasts S32x32x128
  inb_S34x34x128_S32x32x128_1_1_0 : ∀ a, (![1, 1, 0] : Fin 3 → Nat) a + S32x32x128.size a ≤ S34x34x128.size a
  h_S32x32x128 : 0 < S32x32x128.numel
  shapeCasts_S32x32x128_S32x32x128 : S32x32x128.ShapeCasts S32x32x128
  inb_S34x34x128_S32x34x128_1_0_0 : ∀ a, (![1, 0, 0] : Fin 3 → Nat) a + S32x34x128.size a ≤ S34x34x128.size a
  h_S32x34x128 : 0 < S32x34x128.numel
  slices_S32x34x128_S32x32x128_0_1_0 : S32x34x128.Slices ![0, 1, 0] S32x32x128
  packedbf16_S34x34x128_S32x34x128_1_0_0 : (Rect.unit (s := S34x34x128) ![1, 0, 0] S32x34x128.size inb_S34x34x128_S32x34x128_1_0_0).PackedRows (EltTy.packing .bf16)
  inb_S34x34x128_S34x34x128_0_0_0 : ∀ a, (![0, 0, 0] : Fin 3 → Nat) a + S34x34x128.size a ≤ S34x34x128.size a
  h_S34x34x128 : 0 < S34x34x128.numel
  slices_S34x34x128_o0_0_0_S32x32x128 : S34x34x128.Slices ![0, 0, 0] S32x32x128
  shapeCasts_S32x32x128_S1024x128 : S32x32x128.ShapeCasts S1024x128
  slices_S34x34x128_o0_1_0_S32x32x128 : S34x34x128.Slices ![0, 1, 0] S32x32x128
  slices_S34x34x128_o0_2_0_S32x32x128 : S34x34x128.Slices ![0, 2, 0] S32x32x128
  slices_S34x34x128_o1_0_0_S32x32x128 : S34x34x128.Slices ![1, 0, 0] S32x32x128
  slices_S34x34x128_o1_1_0_S32x32x128 : S34x34x128.Slices ![1, 1, 0] S32x32x128
  slices_S34x34x128_o1_2_0_S32x32x128 : S34x34x128.Slices ![1, 2, 0] S32x32x128
  slices_S34x34x128_o2_0_0_S32x32x128 : S34x34x128.Slices ![2, 0, 0] S32x32x128
  slices_S34x34x128_o2_1_0_S32x32x128 : S34x34x128.Slices ![2, 1, 0] S32x32x128
  slices_S34x34x128_o2_2_0_S32x32x128 : S34x34x128.Slices ![2, 2, 0] S32x32x128
  concatenates_S1024x128_S1024x128_S1024x128_S1024x128_S1024x128_S1024x128_S1024x128_S1024x128_S1024x128_S1024x1152_d1 : Shape.Concatenates [S1024x128, S1024x128, S1024x128, S1024x128, S1024x128, S1024x128, S1024x128, S1024x128, S1024x128] S1024x1152 1
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  reduces_S1024x128_S128 : S1024x128.Reduces [0] S128
  shapeCasts_S1024x128_S1x32x32x128 : S1024x128.ShapeCasts S1x32x32x128
  packedbf16_S1x32x32x128_S1x32x32x128_0_0_0_0 : (Rect.unit (s := S1x32x32x128) ![0, 0, 0, 0] S1x32x32x128.size inb_S1x32x32x128_S1x32x32x128_0_0_0_0).PackedRows (EltTy.packing .bf16)
  reducesTo_S64x2x128_S2x128_d0 : S64x2x128.ReducesTo [0] S2x128
  shapeCasts_S1x32x32x128_S1x32x32x128 : S1x32x32x128.ShapeCasts S1x32x32x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  inb_S8x128_S8x128_0_0 : ∀ a, (![0, 0] : Fin 2 → Nat) a + S8x128.size a ≤ S8x128.size a
  h_S8x128 : 0 < S8x128.numel
  dot_S1024x1152_S1152x128_S1024x128_1_0_0_1_n_n_wf : DotDims.WF S1024x1152 S1152x128 S1024x128 [1] [0] [0] [1] [] []
  dot_S1x128_S128x8_S1x8_1_0_0_1_n_n_wf : DotDims.WF S1x128 S128x8 S1x8 [1] [0] [0] [1] [] []
  dot_S1x8_S8x128_S1x128_1_0_0_1_n_n_wf : DotDims.WF S1x8 S8x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128.size a ≤ S16x2x128.size a
  hwx0_1 : ∀ i : grid0.Coords, EltTy.bits .f32 = 32 ∨ (Rect.block (s := S16x2x128) S1x2x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x32x128.size a ≤ S64x32x32x128.size a
  hwx1_0 : ∀ i : grid1.Coords, EltTy.bits .f32 = 32 ∨ (Rect.block (s := S64x32x32x128) S1x32x32x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1152x128.size a ≤ S1152x128.size a
  hwx1_3 : ∀ i : grid1.Coords, EltTy.bits .bf16 = 32 ∨ (Rect.block (s := S1152x128) S1152x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x32x128.size a ≤ S64x32x32x128.size a
  hwx1_4 : ∀ i : grid1.Coords, EltTy.bits .bf16 = 32 ∨ (Rect.block (s := S64x32x32x128) S1x32x32x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2x128.size a ≤ S64x2x128.size a
  hwx1_5 : ∀ i : grid1.Coords, EltTy.bits .f32 = 32 ∨ (Rect.block (s := S64x2x128) S1x2x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x32x128.size a ≤ S64x32x32x128.size a
  hwx2_0 : ∀ i : grid2.Coords, EltTy.bits .bf16 = 32 ∨ (Rect.block (s := S64x32x32x128) S1x32x32x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1152x128.size a ≤ S1152x128.size a
  hwx2_3 : ∀ i : grid2.Coords, EltTy.bits .bf16 = 32 ∨ (Rect.block (s := S1152x128) S1152x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x32x32x128.size a ≤ S64x32x32x128.size a
  hwx2_4 : ∀ i : grid2.Coords, EltTy.bits .bf16 = 32 ∨ (Rect.block (s := S64x32x32x128) S1x32x32x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2x128.size a ≤ S64x2x128.size a
  hwx2_5 : ∀ i : grid2.Coords, EltTy.bits .f32 = 32 ∨ (Rect.block (s := S64x2x128) S1x2x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x32x32x128.size a ≤ S64x32x32x128.size a
  hwx3_0 : ∀ i : grid3.Coords, EltTy.bits .bf16 = 32 ∨ (Rect.block (s := S64x32x32x128) S1x32x32x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x32x32x128.size a ≤ S64x32x32x128.size a
  hwx3_1 : ∀ i : grid3.Coords, EltTy.bits .f32 = 32 ∨ (Rect.block (s := S64x32x32x128) S1x32x32x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x8.size a ≤ S128x8.size a
  hwx3_4 : ∀ i : grid3.Coords, EltTy.bits .f32 = 32 ∨ (Rect.block (s := S128x8) S128x8.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x8.size a ≤ S1x8.size a
  hwx3_5 : ∀ i : grid3.Coords, EltTy.bits .f32 = 32 ∨ (Rect.block (s := S1x8) S1x8.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S8x128.size a ≤ S8x128.size a
  hwx3_6 : ∀ i : grid3.Coords, EltTy.bits .f32 = 32 ∨ (Rect.block (s := S8x128) S8x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x32x32x128.size a ≤ S64x32x32x128.size a
  hwx3_8 : ∀ i : grid3.Coords, EltTy.bits .f32 = 32 ∨ (Rect.block (s := S64x32x32x128) S1x32x32x128.size (cc3_transform_8 i) (hinb3_8 i)).WholeWords (EltTy.packing .f32)

variable [Facts₀]

def dot_S1024x1152_S1152x128_S1024x128_1_0_0_1_n_n : DotDims S1024x1152 S1152x128 S1024x128 where
  lhsContracting := [1]
  rhsContracting := [0]
  lhsNonContracting := [0]
  rhsNonContracting := [1]
  lhsBatch := []
  rhsBatch := []
  wf := dot_S1024x1152_S1152x128_S1024x128_1_0_0_1_n_n_wf
def dot_S1x128_S128x8_S1x8_1_0_0_1_n_n : DotDims S1x128 S128x8 S1x8 where
  lhsContracting := [1]
  rhsContracting := [0]
  lhsNonContracting := [0]
  rhsNonContracting := [1]
  lhsBatch := []
  rhsBatch := []
  wf := dot_S1x128_S128x8_S1x8_1_0_0_1_n_n_wf
def dot_S1x8_S8x128_S1x128_1_0_0_1_n_n : DotDims S1x8 S8x128 S1x128 where
  lhsContracting := [1]
  rhsContracting := [0]
  lhsNonContracting := [0]
  rhsNonContracting := [1]
  lhsBatch := []
  rhsBatch := []
  wf := dot_S1x8_S8x128_S1x128_1_0_0_1_n_n_wf

abbrev win0_0 : Pipeline.Window sig grid0 :=
  Pipeline.Window.ofSpec (Memref.whole main_v4) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x32x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1152x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S1x32x32x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_1) S1x2x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23_0) S1x32x32x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1152x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41_0) S1x32x32x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41_1) S1x2x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41_0) S1x32x32x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S1x32x32x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x8.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S1x8.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S8x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v59) S1x32x32x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S64x32x32x128 : Shape := ⟨4, ![64, 32, 32, 128]⟩
abbrev S1x128 : Shape := ⟨2, ![1, 128]⟩
abbrev S3x3x128x128 : Shape := ⟨4, ![3, 3, 128, 128]⟩
abbrev S128x8 : Shape := ⟨2, ![128, 8]⟩
abbrev S1x8 : Shape := ⟨2, ![1, 8]⟩
abbrev S8x128 : Shape := ⟨2, ![8, 128]⟩
abbrev S1152x128 : Shape := ⟨2, ![1152, 128]⟩
abbrev S65536x128 : Shape := ⟨2, ![65536, 128]⟩
abbrev S2x128 : Shape := ⟨2, ![2, 128]⟩
abbrev S128x128 : Shape := ⟨2, ![128, 128]⟩
abbrev S128 : Shape := ⟨1, ![128]⟩
abbrev S_ : Shape := ⟨0, ![]⟩
abbrev S64x2x128 : Shape := ⟨3, ![64, 2, 128]⟩
abbrev S1x32x32x128 : Shape := ⟨4, ![1, 32, 32, 128]⟩
abbrev S1x2x128 : Shape := ⟨3, ![1, 2, 128]⟩
abbrev S34x34x128 : Shape := ⟨3, ![34, 34, 128]⟩
abbrev S1024x128 : Shape := ⟨2, ![1024, 128]⟩
abbrev S1x34x128 : Shape := ⟨3, ![1, 34, 128]⟩
abbrev S34x1x128 : Shape := ⟨3, ![34, 1, 128]⟩
abbrev S32x32x128 : Shape := ⟨3, ![32, 32, 128]⟩
abbrev S1024x1152 : Shape := ⟨2, ![1024, 1152]⟩

abbrev nBuf : Space → Nat
  | .hbm => 86
  | .vmem => 35
  | .smem => 0
  | _ => 0

abbrev bufTy : (tb : Table) → Fin (tcTables nBuf tb) → BufTy
  | .hbm, ⟨0, _⟩ => ⟨S64x32x32x128, .f32⟩
  | .hbm, ⟨1, _⟩ => ⟨S1x128, .f32⟩
  | .hbm, ⟨2, _⟩ => ⟨S1x128, .f32⟩
  | .hbm, ⟨3, _⟩ => ⟨S3x3x128x128, .f32⟩
  | .hbm, ⟨4, _⟩ => ⟨S1x128, .f32⟩
  | .hbm, ⟨5, _⟩ => ⟨S1x128, .f32⟩
  | .hbm, ⟨6, _⟩ => ⟨S3x3x128x128, .f32⟩
  | .hbm, ⟨7, _⟩ => ⟨S1x128, .f32⟩
  | .hbm, ⟨8, _⟩ => ⟨S1x128, .f32⟩
  | .hbm, ⟨9, _⟩ => ⟨S128x8, .f32⟩
  | .hbm, ⟨10, _⟩ => ⟨S1x8, .f32⟩
  | .hbm, ⟨11, _⟩ => ⟨S8x128, .f32⟩
  | .hbm, ⟨12, _⟩ => ⟨S1x128, .f32⟩
  | .hbm, ⟨13, _⟩ => ⟨S1152x128, .f32⟩
  | .hbm, ⟨14, _⟩ => ⟨S1152x128, .f32⟩
  | .hbm, ⟨15, _⟩ => ⟨S65536x128, .f32⟩
  | .hbm, ⟨16, _⟩ => ⟨S2x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S64x32x32x128, .f32⟩
  | .hbm, ⟨38, _⟩ => ⟨S64x2x128, .f32⟩
  | .hbm, ⟨39, _⟩ => ⟨S_, .f32⟩
  | .hbm, ⟨40, _⟩ => ⟨S2x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S64x32x32x128, .f32⟩
  | .hbm, ⟨62, _⟩ => ⟨S64x2x128, .f32⟩
  | .hbm, ⟨63, _⟩ => ⟨S_, .f32⟩
  | .hbm, ⟨64, _⟩ => ⟨S2x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S64x32x32x128, .f32⟩
  | .local _ .vmem, ⟨0, _⟩ => ⟨S128x128, .f32⟩
  | .local _ .vmem, ⟨1, _⟩ => ⟨S128x128, .f32⟩
  | .local _ .vmem, ⟨2, _⟩ => ⟨S2x128, .f32⟩
  | .local _ .vmem, ⟨3, _⟩ => ⟨S1x32x32x128, .f32⟩
  | .local _ .vmem, ⟨4, _⟩ => ⟨S1x32x32x128, .f32⟩
  | .local _ .vmem, ⟨5, _⟩ => ⟨S1x128, .f32⟩
  | .local _ .vmem, ⟨6, _⟩ => ⟨S1x128, .f32⟩
  | .local _ .vmem, ⟨7, _⟩ => ⟨S1152x128, .f32⟩
  | .local _ .vmem, ⟨8, _⟩ => ⟨S1x32x32x128, .f32⟩
  | .local _ .vmem, ⟨9, _⟩ => ⟨S1x32x32x128, .f32⟩
  | .local _ .vmem, ⟨10, _⟩ => ⟨S1x2x128, .f32⟩
  | .local _ .vmem, ⟨11, _⟩ => ⟨S1x2x128, .f32⟩
  | .local _ .vmem, ⟨12, _⟩ => ⟨S34x34x128, .f32⟩
  | .local _ .vmem, ⟨13, _⟩ => ⟨S1x32x32x128, .f32⟩
  | .local _ .vmem, ⟨14, _⟩ => ⟨S1x32x32x128, .f32⟩
  | .local _ .vmem, ⟨15, _⟩ => ⟨S1x128, .f32⟩
  | .local _ .vmem, ⟨16, _⟩ => ⟨S1x128, .f32⟩
  | .local _ .vmem, ⟨17, _⟩ => ⟨S1152x128, .f32⟩
  | .local _ .vmem, ⟨18, _⟩ => ⟨S1x32x32x128, .f32⟩
  | .local _ .vmem, ⟨19, _⟩ => ⟨S1x32x32x128, .f32⟩
  | .local _ .vmem, ⟨20, _⟩ => ⟨S1x2x128, .f32⟩
  | .local _ .vmem, ⟨21, _⟩ => ⟨S1x2x128, .f32⟩
  | .local _ .vmem, ⟨22, _⟩ => ⟨S34x34x128, .f32⟩
  | .local _ .vmem, ⟨23, _⟩ => ⟨S1x32x32x128, .f32⟩
  | .local _ .vmem, ⟨24, _⟩ => ⟨S1x32x32x128, .f32⟩
  | .local _ .vmem, ⟨25, _⟩ => ⟨S1x32x32x128, .f32⟩
  | .local _ .vmem, ⟨26, _⟩ => ⟨S1x32x32x128, .f32⟩
  | .local _ .vmem, ⟨27, _⟩ => ⟨S1x128, .f32⟩
  | .local _ .vmem, ⟨28, _⟩ => ⟨S1x128, .f32⟩
  | .local _ .vmem, ⟨29, _⟩ => ⟨S128x8, .f32⟩
  | .local _ .vmem, ⟨30, _⟩ => ⟨S1x8, .f32⟩
  | .local _ .vmem, ⟨31, _⟩ => ⟨S8x128, .f32⟩
  | .local _ .vmem, ⟨32, _⟩ => ⟨S1x128, .f32⟩
  | .local _ .vmem, ⟨33, _⟩ => ⟨S1x32x32x128, .f32⟩
  | .local _ .vmem, ⟨34, _⟩ => ⟨S1x32x32x128, .f32⟩
  | _, _ => ⟨S64x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg8_1 : Ref sig .tc := ⟨.vmem, 34, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem8_1 : DmaSem sig := 32

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1152x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x32x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x32x32x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1152x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x32x32x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x2x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![64], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x32x32x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x32x32x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1x32x32x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  shapeCasts_S3x3x128x128_S1152x128 : S3x3x128x128.ShapeCasts S1152x128
  shapeCasts_S64x32x32x128_S65536x128 : S64x32x32x128.ShapeCasts S65536x128
  inb_S2x128_S2x128_0_0 : ∀ a, (![0, 0] : Fin 2 → Nat) a + S2x128.size a ≤ S2x128.size a
  h_S2x128 : 0 < S2x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128_S128 : S128x128.Reduces [0] S128
  shapeCasts_S128_S1x128 : S128.ShapeCasts S1x128
  shapeCasts_S2x128_S2x128 : S2x128.ShapeCasts S2x128
  concatenates_S1x128_S1x128_S2x128_d0 : Shape.Concatenates [S1x128, S1x128] S2x128 0
  slices_S2x128_S1x128_0_0 : S2x128.Slices ![0, 0] S1x128
  slices_S2x128_S1x128_1_0 : S2x128.Slices ![1, 0] S1x128
  bcast_S_S1x128 : S_.BroadcastsInDim S1x128 (![] : Fin 0 → Fin S1x128.rank)
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S1024x128 : S1x32x32x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S34x34x128_S1x34x128_0_0_0 : ∀ a, (![0, 0, 0] : Fin 3 → Nat) a + S1x34x128.size a ≤ S34x34x128.size a
  h_S1x34x128 : 0 < S1x34x128.numel
  shapeCasts_S1x34x128_S1x34x128 : S1x34x128.ShapeCasts S1x34x128
  inb_S34x34x128_S1x34x128_33_0_0 : ∀ a, (![33, 0, 0] : Fin 3 → Nat) a + S1x34x128.size a ≤ S34x34x128.size a
  inb_S34x34x128_S34x1x128_0_0_0 : ∀ a, (![0, 0, 0] : Fin 3 → Nat) a + S34x1x128.size a ≤ S34x34x128.size a
  h_S34x1x128 : 0 < S34x1x128.numel
  shapeCasts_S34x1x128_S34x1x128 : S34x1x128.ShapeCasts S34x1x128
  inb_S34x34x128_S34x1x128_0_33_0 : ∀ a, (![0, 33, 0] : Fin 3 → Nat) a + S34x1x128.size a ≤ S34x34x128.size a
  shapeCasts_S1024x128_S32x32x128 : S1024x128.ShapeCasts S32x32x128
  inb_S34x34x128_S32x32x128_1_1_0 : ∀ a, (![1, 1, 0] : Fin 3 → Nat) a + S32x32x128.size a ≤ S34x34x128.size a
  h_S32x32x128 : 0 < S32x32x128.numel
  shapeCasts_S32x32x128_S32x32x128 : S32x32x128.ShapeCasts S32x32x128
  inb_S34x34x128_S34x34x128_0_0_0 : ∀ a, (![0, 0, 0] : Fin 3 → Nat) a + S34x34x128.size a ≤ S34x34x128.size a
  h_S34x34x128 : 0 < S34x34x128.numel
  slices_S34x34x128_o0_0_0_S32x32x128 : S34x34x128.Slices ![0, 0, 0] S32x32x128
  shapeCasts_S32x32x128_S1024x128 : S32x32x128.ShapeCasts S1024x128
  slices_S34x34x128_o0_1_0_S32x32x128 : S34x34x128.Slices ![0, 1, 0] S32x32x128
  slices_S34x34x128_o0_2_0_S32x32x128 : S34x34x128.Slices ![0, 2, 0] S32x32x128
  slices_S34x34x128_o1_0_0_S32x32x128 : S34x34x128.Slices ![1, 0, 0] S32x32x128
  slices_S34x34x128_o1_1_0_S32x32x128 : S34x34x128.Slices ![1, 1, 0] S32x32x128
  slices_S34x34x128_o1_2_0_S32x32x128 : S34x34x128.Slices ![1, 2, 0] S32x32x128
  slices_S34x34x128_o2_0_0_S32x32x128 : S34x34x128.Slices ![2, 0, 0] S32x32x128
  slices_S34x34x128_o2_1_0_S32x32x128 : S34x34x128.Slices ![2, 1, 0] S32x32x128
  slices_S34x34x128_o2_2_0_S32x32x128 : S34x34x128.Slices ![2, 2, 0] S32x32x128
  concatenates_S1024x128_S1024x128_S1024x128_S1024x128_S1024x128_S1024x128_S1024x128_S1024x128_S1024x128_S1024x1152_d1 : Shape.Concatenates [S1024x128, S1024x128, S1024x128, S1024x128, S1024x128, S1024x128, S1024x128, S1024x128, S1024x128] S1024x1152 1
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S1024x128_S1x32x32x128 : S1024x128.ShapeCasts S1x32x32x128
  reduces_S1024x128_S128 : S1024x128.Reduces [0] S128
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  reducesTo_S64x2x128_S2x128_d0 : S64x2x128.ReducesTo [0] S2x128
  h_S_ : 0 < S_.numel
  shapeCasts_S1x32x32x128_S1x32x32x128 : S1x32x32x128.ShapeCasts S1x32x32x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  inb_S8x128_S8x128_0_0 : ∀ a, (![0, 0] : Fin 2 → Nat) a + S8x128.size a ≤ S8x128.size a
  h_S8x128 : 0 < S8x128.numel
  dot_S1024x1152_S1152x128_S1024x128_1_0_0_1_n_n_wf : DotDims.WF S1024x1152 S1152x128 S1024x128 [1] [0] [0] [1] [] []
  dot_S1x128_S128x8_S1x8_1_0_0_1_n_n_wf : DotDims.WF S1x128 S128x8 S1x8 [1] [0] [0] [1] [] []
  dot_S1x8_S8x128_S1x128_1_0_0_1_n_n_wf : DotDims.WF S1x8 S8x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S65536x128.size a
  hwx0_0 : ∀ i : grid0.Coords, EltTy.bits .f32 = 32 ∨ (Rect.block (s := S65536x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x32x128.size a ≤ S64x32x32x128.size a
  hwx1_0 : ∀ i : grid1.Coords, EltTy.bits .f32 = 32 ∨ (Rect.block (s := S64x32x32x128) S1x32x32x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1152x128.size a ≤ S1152x128.size a
  hwx1_3 : ∀ i : grid1.Coords, EltTy.bits .f32 = 32 ∨ (Rect.block (s := S1152x128) S1152x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x32x128.size a ≤ S64x32x32x128.size a
  hwx1_4 : ∀ i : grid1.Coords, EltTy.bits .f32 = 32 ∨ (Rect.block (s := S64x32x32x128) S1x32x32x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2x128.size a ≤ S64x2x128.size a
  hwx1_5 : ∀ i : grid1.Coords, EltTy.bits .f32 = 32 ∨ (Rect.block (s := S64x2x128) S1x2x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x32x128.size a ≤ S64x32x32x128.size a
  hwx2_0 : ∀ i : grid2.Coords, EltTy.bits .f32 = 32 ∨ (Rect.block (s := S64x32x32x128) S1x32x32x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1152x128.size a ≤ S1152x128.size a
  hwx2_3 : ∀ i : grid2.Coords, EltTy.bits .f32 = 32 ∨ (Rect.block (s := S1152x128) S1152x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x32x32x128.size a ≤ S64x32x32x128.size a
  hwx2_4 : ∀ i : grid2.Coords, EltTy.bits .f32 = 32 ∨ (Rect.block (s := S64x32x32x128) S1x32x32x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2x128.size a ≤ S64x2x128.size a
  hwx2_5 : ∀ i : grid2.Coords, EltTy.bits .f32 = 32 ∨ (Rect.block (s := S64x2x128) S1x2x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x32x32x128.size a ≤ S64x32x32x128.size a
  hwx3_0 : ∀ i : grid3.Coords, EltTy.bits .f32 = 32 ∨ (Rect.block (s := S64x32x32x128) S1x32x32x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x32x32x128.size a ≤ S64x32x32x128.size a
  hwx3_1 : ∀ i : grid3.Coords, EltTy.bits .f32 = 32 ∨ (Rect.block (s := S64x32x32x128) S1x32x32x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x8.size a ≤ S128x8.size a
  hwx3_4 : ∀ i : grid3.Coords, EltTy.bits .f32 = 32 ∨ (Rect.block (s := S128x8) S128x8.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x8.size a ≤ S1x8.size a
  hwx3_5 : ∀ i : grid3.Coords, EltTy.bits .f32 = 32 ∨ (Rect.block (s := S1x8) S1x8.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S8x128.size a ≤ S8x128.size a
  hwx3_6 : ∀ i : grid3.Coords, EltTy.bits .f32 = 32 ∨ (Rect.block (s := S8x128) S8x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x32x32x128.size a ≤ S64x32x32x128.size a
  hwx3_8 : ∀ i : grid3.Coords, EltTy.bits .f32 = 32 ∨ (Rect.block (s := S64x32x32x128) S1x32x32x128.size (cc3_transform_8 i) (hinb3_8 i)).WholeWords (EltTy.packing .f32)

variable [Facts₀]

def dot_S1024x1152_S1152x128_S1024x128_1_0_0_1_n_n : DotDims S1024x1152 S1152x128 S1024x128 where
  lhsContracting := [1]
  rhsContracting := [0]
  lhsNonContracting := [0]
  rhsNonContracting := [1]
  lhsBatch := []
  rhsBatch := []
  wf := dot_S1024x1152_S1152x128_S1024x128_1_0_0_1_n_n_wf
def dot_S1x128_S128x8_S1x8_1_0_0_1_n_n : DotDims S1x128 S128x8 S1x8 where
  lhsContracting := [1]
  rhsContracting := [0]
  lhsNonContracting := [0]
  rhsNonContracting := [1]
  lhsBatch := []
  rhsBatch := []
  wf := dot_S1x128_S128x8_S1x8_1_0_0_1_n_n_wf
def dot_S1x8_S8x128_S1x128_1_0_0_1_n_n : DotDims S1x8 S8x128 S1x128 where
  lhsContracting := [1]
  rhsContracting := [0]
  lhsNonContracting := [0]
  rhsNonContracting := [1]
  lhsBatch := []
  rhsBatch := []
  wf := dot_S1x8_S8x128_S1x128_1_0_0_1_n_n_wf

abbrev win0_0 : Pipeline.Window sig grid0 :=
  Pipeline.Window.ofSpec (Memref.whole main_v2) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x32x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1152x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20_0) S1x32x32x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20_1) S1x2x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20_0) S1x32x32x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1152x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38_0) S1x32x32x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v38_1) S1x2x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38_0) S1x32x32x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S1x32x32x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x8.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S1x8.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S8x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v56) S1x32x32x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== Proof.K.Stats.lean ====
/-
  Region 0: the per-chunk channel statistics. The 65536 rows of the flattened activation are cut into 16 chunks of
  4096 rows; grid point `t` reads chunk `t` whole and writes one [1, 2, 128] block: row 0 the column sums of the chunk,
  row 1 the column sums of its squares. The block is a function of chunk `t` alone, so the region is a map over the
  chunks: nothing is carried from one point to the next.
-/
import proofs.«128858_g2000205668668362_pallasbulk_730_2_alg».proof.Proof.Gen.Kernel.Launch
import proofs.«128858_g2000205668668362_pallasbulk_730_2_alg».proof.Proof.Gen.Kernel.Skeleton
import proofs.«128858_g2000205668668362_pallasbulk_730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def chunk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds chunk `t` at point `t`, for any proof data whose array is the
    entry contents and whose body leaves the chunk in place. -/
theorem before0_0_of {c : Dev nD} (dat : Dat τ (Elt F) Unit ℕ (UR sig nD τ) ℕ cfg0 c) (hA : dat.A 0 = V c (Pipeline.arrRef spec0 0))
    (hafter : ∀ t, dat.after 0 t = chunk0 V c 0 t) (t : Fin cfg0.N) (d) : dat.before 0 t d = chunk0 V c 0 t :=
  (dat.before_in_eq_fetched 0 rfl (fun _ => rfl) (fun _ _ _ => rfl) (fun t => by rw [hafter]; unfold Dat.blockOf chunk0; rw [hA]; try rfl) t d).trans
    (by unfold Dat.fetched Dat.blockOf chunk0; rw [hA]; try rfl)

/-! ## What the body reads and writes -/

/-- The whole chunk. -/
abbrev wholeChunk : Rect S4096x128 := Rect.unit (s := S4096x128) ![0, 0] S4096x128.size inb_S4096x128_S4096x128_0_0
/-- The whole statistics block. -/
abbrev wholeStats : Rect S1x2x128 := Rect.unit (s := S1x2x128) ![0, 0, 0] S1x2x128.size inb_S1x2x128_S1x2x128_0_0_0

/-- The statistics block the body leaves, from the chunk: its one store, of the column sums and the column sums of
    squares stacked. -/
def statsOf (x0 : Vec F S4096x128 .f32) : Vec F S1x2x128 .f32 :=
  View.canon [⟨wholeStats, k0_pay1 (View.ld x0 wholeChunk)⟩]

/-- The one store writes the whole block. -/
theorem statsCover (p0 : Vec F S1x2x128 .f32) (y : S1x2x128.Idx) :
    ∃ pc ∈ ([⟨wholeStats, p0⟩] : List (View.Piece (Elt F) S1x2x128 .f32)), y ∈ pc.1.set :=
  View.cover_of_tiled [⟨wholeStats, p0⟩] S1x2x128.size (by rfl) y

/-! ## The body's triple -/

set_option maxHeartbeats 1000000 in
/-- The body on whole staging memrefs, the chunk's at contents `x0` and the block's at anything, runs to its return
    with the chunk's as it was and the block's at `statsOf x0`. -/
theorem stats_body (c : Dev nD) (E : Set ℕ) (i : grid0.Coords) (arg0 : Memref sig .tc .vmem S4096x128 .f32) (harg0 : arg0.IsWhole) (arg1 : Memref sig .tc .vmem S1x2x128 .f32) (harg1 : arg1.IsWhole)
    (x0 : Vec F S4096x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (statsOf x0)) -∗ K ⟨⟩))
      ⊢ wp frame (wpE (defs₀ (F := F)) Variants.none c none) E (cc0__stats_kernel i arg0 harg0 arg1 harg1) K := by
  simp only [cc0__stats_kernel_eq_skeleton]; unfold cc0__stats_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (statsCover _)

/-! ## The proof data -/

/-- Pipeline 0's proof data on core `c`: the arrays as the region finds them; after the body at point `t` the input's
    buffer at chunk `t` and the output's at that chunk's statistics; the invariant leaves every other scoped buffer and the
    generator register alone; nothing owed; full shares. -/
def dat0 (c : Dev nD) : Dat τ (Elt F) Unit ℕ (UR sig nD τ) ℕ cfg0 c where
  A w := V c (Pipeline.arrRef spec0 w)
  after w t := match w with
    | ⟨0, _⟩ => chunk0 V c 0 t
    | ⟨1, _⟩ => statsOf (chunk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = chunk0 V c 0 t := by dsimp only [dat0]
theorem after0_1 (c : Dev nD) (t : Fin cfg0.N) : (dat0 V c).after 1 t = statsOf (chunk0 V c 0 t) := by dsimp only [dat0]

theorem before0_0 (c : Dev nD) (t : Fin cfg0.N) (d) : (dat0 V c).before 0 t d = chunk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds chunk `t`, so `stats_body` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (stats_body c Set.univ _ _ _ _ _ (chunk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Padded.lean ====
/-
  The conv body's scratch. Each grid point first re-zeroes the one-pixel halo of the [34, 34, 128] scratch and then writes the
  image into its interior. Two of the halo stores and the interior store are narrower than the words they touch, so each
  reads a wider rectangle back, replaces part of it and stores the whole: columns 0–1 with column 0 zeroed, columns 32–33
  with column 33 zeroed, rows 1–32 with columns 1–32 set to the image. What such a store writes back outside the part it
  replaces is what the earlier stores left there — and that is always a zero of the halo, never the buffer's earlier
  contents: column 1 of rows 0 and 33 was zeroed by the row stores, column 32 of those rows likewise, and columns 0 and 33
  of rows 1–32 by the two column stores. So after the five stores the buffer is the zero-padded image at every index,
  whatever it held when the grid point began.
-/
import proofs.«128858_g2000205668668362_pallasbulk_730_2_alg».proof.Proof.Gen.Kernel.Launch
import proofs.«128858_g2000205668668362_pallasbulk_730_2_alg».proof.Proof.Gen.Kernel.Skeleton
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe
open Idealize.SL.Sem

variable {F : FTy → Type} [FloatOps F]

/-- Inside its window an `updateSlice` whose update is constant gives that constant. -/
theorem updateSlice_of_in {α : Type} {s u : Shape} (old : s.Idx → α) (upd : u.Idx → α) (start : Fin s.rank → Nat) (h : s.Slices start u)
    (y : s.Idx) (z : α) (hz : ∀ x, upd x = z)
    (hin : ∀ a : Fin s.rank, start a ≤ (y a).val ∧ (y a).val < start a + u.size (a.cast h.1.symm)) :
    updateSlice old upd start h y = z := by
  unfold updateSlice; rw [dif_pos hin]; exact hz _

/-- Outside its window an `updateSlice` gives the background. -/
theorem updateSlice_of_out {α : Type} {s u : Shape} (old : s.Idx → α) (upd : u.Idx → α) (start : Fin s.rank → Nat) (h : s.Slices start u)
    (y : s.Idx) (hout : ¬ ∀ a : Fin s.rank, start a ≤ (y a).val ∧ (y a).val < start a + u.size (a.cast h.1.symm)) :
    updateSlice old upd start h y = old y := by
  unfold updateSlice; rw [dif_neg hout]

/-- Two `updateSlice`s with the same update agree at an index where their backgrounds agree outside the window. -/
theorem updateSlice_congr_old {α : Type} {s u : Shape} (old old' : s.Idx → α) (upd : u.Idx → α) (start : Fin s.rank → Nat) (h : s.Slices start u)
    (y : s.Idx)
    (hout : (¬ ∀ a : Fin s.rank, start a ≤ (y a).val ∧ (y a).val < start a + u.size (a.cast h.1.symm)) → old y = old' y) :
    updateSlice old upd start h y = updateSlice old' upd start h y := by
  unfold updateSlice
  by_cases hc : ∀ a : Fin s.rank, start a ≤ (y a).val ∧ (y a).val < start a + u.size (a.cast h.1.symm)
  · rw [dif_pos hc, dif_pos hc]
  · rw [dif_neg hc, dif_neg hc]; exact hout hc

/-- Outside its window on one axis an `updateSlice` gives the background. -/
theorem updateSlice_of_out_axis {α : Type} {s u : Shape} (old : s.Idx → α) (upd : u.Idx → α) (start : Fin s.rank → Nat) (h : s.Slices start u)
    (y : s.Idx) (a : Fin s.rank) (ha : (y a).val < start a ∨ start a + u.size (a.cast h.1.symm) ≤ (y a).val) :
    updateSlice old upd start h y = old y :=
  updateSlice_of_out old upd start h y (fun hall => by have := hall a; omega)

section UnitRect

variable {s : Shape} {e : EltTy} {Val : EltTy → Type} [∀ e, Nonempty (Val e)]

/-- An index inside a unit-stride rectangle, in the rectangle's own coordinates: each coordinate less the offset. -/
def localIdx (off size : Fin s.rank → Nat) (inb : ∀ a, off a + size a ≤ s.size a) (y : s.Idx)
    (hy : ∀ a, off a ≤ (y a).val ∧ (y a).val < off a + size a) : (Rect.unit (s := s) off size inb).shape.Idx :=
  fun a => ⟨(y a).val - off a, by have := hy a; show (y a).val - off a < size a; omega⟩

theorem localIdx_val (off size : Fin s.rank → Nat) (inb) (y : s.Idx) (hy) (a : Fin s.rank) :
    (localIdx off size inb y hy a).val = (y a).val - off a := rfl

/-- The local coordinates embed back to the index. -/
theorem emb_localIdx (off size : Fin s.rank → Nat) (inb) (y : s.Idx) (hy) :
    (Rect.unit (s := s) off size inb).emb (localIdx off size inb y hy) = y := by
  funext a
  apply Fin.ext
  rw [Rect.emb_apply, Rect.off_unit, Rect.stride_unit, localIdx_val]
  have := hy a
  omega

/-- Under the last store, at an index inside its rectangle, the contents are the store's payload at the local
    coordinates. -/
theorem canon_unit_hit (off size : Fin s.rank → Nat) (inb) (w : (Rect.unit (s := s) off size inb).shape.Idx → Val e)
    (L : List (View.Piece Val s e)) (y : s.Idx) (hy : ∀ a, off a ≤ (y a).val ∧ (y a).val < off a + size a) :
    View.canon (⟨Rect.unit (s := s) off size inb, w⟩ :: L) y = w (localIdx off size inb y hy) := by
  have h := View.canon_cons_emb (Rect.unit (s := s) off size inb) w L (localIdx off size inb y hy)
  rw [emb_localIdx] at h
  exact h

/-- At an index outside the last store's rectangle on some axis, the contents are what the earlier stores left. -/
theorem canon_unit_miss (off size : Fin s.rank → Nat) (inb) (w : (Rect.unit (s := s) off size inb).shape.Idx → Val e)
    (L : List (View.Piece Val s e)) (y : s.Idx) (a : Fin s.rank) (h : (y a).val < off a ∨ off a + size a ≤ (y a).val) :
    View.canon (⟨Rect.unit (s := s) off size inb, w⟩ :: L) y = View.canon L y :=
  View.canon_cons_of_not_mem _ L (fun hm => by
    have := (Rect.mem_set_unit (off := off) (size := size) (inb := inb)).mp hm a
    omega)

/-- An index whose coordinates lie in the rectangle's intervals is in its element set. -/
theorem mem_unit_of (off size : Fin s.rank → Nat) (inb) (y : s.Idx) (hy : ∀ a, off a ≤ (y a).val ∧ (y a).val < off a + size a) :
    y ∈ (Rect.unit (s := s) off size inb).set := Rect.mem_set_unit.mpr hy

end UnitRect

/-- A property of the three axes, axis by axis. -/
theorem all3 {P : Fin 3 → Prop} (h0 : P ⟨0, by omega⟩) (h1 : P ⟨1, by omega⟩) (h2 : P ⟨2, by omega⟩) : ∀ a, P a
  | ⟨0, _⟩ => h0
  | ⟨1, _⟩ => h1
  | ⟨2, _⟩ => h2

section Padded

open ValueIdx (ix3)

variable {κ : Kind} {sp : Space} (v : View sig κ sp S34x34x128 .bf16) (f : v.ty.Contents (Elt F))
  (z : Elt F .bf16)
  (p1 p2 : S1x34x128.Idx → Elt F .bf16) (p3 p4 : S34x1x128.Idx → Elt F .bf16)
  (a : S32x32x128.Idx → Elt F .bf16)

abbrev rRow0 : Rect S34x34x128 := Rect.unit (s := S34x34x128) ![0, 0, 0] S1x34x128.size inb_S34x34x128_S1x34x128_0_0_0
abbrev rRow33 : Rect S34x34x128 := Rect.unit (s := S34x34x128) ![33, 0, 0] S1x34x128.size inb_S34x34x128_S1x34x128_33_0_0
abbrev rCol0 : Rect S34x34x128 := Rect.unit (s := S34x34x128) ![0, 0, 0] S34x2x128.size inb_S34x34x128_S34x2x128_0_0_0
abbrev rCol32 : Rect S34x34x128 := Rect.unit (s := S34x34x128) ![0, 32, 0] S34x2x128.size inb_S34x34x128_S34x2x128_0_32_0
abbrev rRows : Rect S34x34x128 := Rect.unit (s := S34x34x128) ![1, 0, 0] S32x34x128.size inb_S34x34x128_S32x34x128_1_0_0
abbrev rAll : Rect S34x34x128 := Rect.unit (s := S34x34x128) ![0, 0, 0] S34x34x128.size inb_S34x34x128_S34x34x128_0_0_0

/-- Rows 0 and 33 stored whole. -/
def rowsL : List (View.Piece (Elt F) S34x34x128 .bf16) :=
  [⟨rRow33, p2⟩, ⟨rRow0, p1⟩]

/-- Then columns 0–1 read back and stored with column 0 replaced. -/
def col0L : List (View.Piece (Elt F) S34x34x128 .bf16) :=
  ⟨rCol0, updateSlice (v.readAt (Elt F) rCol0.toLoadRect (v.writes (Elt F) f (rowsL p1 p2))) p3 ![0, 0, 0] slices_S34x2x128_S34x1x128_0_0_0⟩ :: rowsL p1 p2

/-- Then columns 32–33 read back and stored with column 33 replaced. -/
def col33L : List (View.Piece (Elt F) S34x34x128 .bf16) :=
  ⟨rCol32, updateSlice (v.readAt (Elt F) rCol32.toLoadRect (v.writes (Elt F) f (col0L v f p1 p2 p3))) p4 ![0, 1, 0] slices_S34x2x128_S34x1x128_0_1_0⟩ :: col0L v f p1 p2 p3

/-- Then rows 1–32 read back and stored with columns 1–32 replaced by the image. -/
def interiorL : List (View.Piece (Elt F) S34x34x128 .bf16) :=
  ⟨rRows, updateSlice (v.readAt (Elt F) rRows.toLoadRect (v.writes (Elt F) f (col33L v f p1 p2 p3 p4))) a ![0, 1, 0] slices_S32x34x128_S32x32x128_0_1_0⟩ :: col33L v f p1 p2 p3 p4

/-- The zero-padded image: zero everywhere, then the image stored at rows 1–32, columns 1–32. Nothing of the buffer's
    earlier contents is in it. -/
def paddedL : List (View.Piece (Elt F) S34x34x128 .bf16) :=
  [⟨rRows, updateSlice (fun _ => z) a ![0, 1, 0] slices_S32x34x128_S32x32x128_0_1_0⟩, ⟨rAll, fun _ => z⟩]

variable (h1 : ∀ x, p1 x = z) (h2 : ∀ x, p2 x = z) (h3 : ∀ x, p3 x = z) (h4 : ∀ x, p4 x = z)

/-- Every index's coordinates are inside the buffer. -/
theorem in_all (i j : Fin 34) (k : Fin 128) :
    ∀ a : Fin S34x34x128.rank, (![0, 0, 0] : Fin 3 → Nat) a ≤ ((ix3 i j k : S34x34x128.Idx) a).val ∧ ((ix3 i j k : S34x34x128.Idx) a).val < (![0, 0, 0] : Fin 3 → Nat) a + S34x34x128.size a :=
  all3 (by show 0 ≤ i.val ∧ i.val < 0 + 34; omega) (by show 0 ≤ j.val ∧ j.val < 0 + 34; omega) (by show 0 ≤ k.val ∧ k.val < 0 + 128; omega)

include h1 h2 in
/-- After the two row stores, rows 0 and 33 are covered and hold zero. -/
theorem rows_zero (i j : Fin 34) (k : Fin 128) (hy : i.val = 0 ∨ i.val = 33) :
    (∃ p ∈ rowsL p1 p2, ix3 i j k ∈ p.1.set) ∧ View.canon (rowsL p1 p2) (ix3 i j k) = z := by
  have bj := j.isLt
  have bk := k.isLt
  rcases hy with hy | hy
  · have hin : ∀ a : Fin S34x34x128.rank, (![0, 0, 0] : Fin 3 → Nat) a ≤ ((ix3 i j k : S34x34x128.Idx) a).val ∧ ((ix3 i j k : S34x34x128.Idx) a).val < (![0, 0, 0] : Fin 3 → Nat) a + S1x34x128.size a :=
      all3 (by show 0 ≤ i.val ∧ i.val < 0 + 1; omega) (by show 0 ≤ j.val ∧ j.val < 0 + 34; omega) (by show 0 ≤ k.val ∧ k.val < 0 + 128; omega)
    refine ⟨⟨⟨rRow0, p1⟩, List.mem_cons_of_mem _ List.mem_cons_self, mem_unit_of _ _ inb_S34x34x128_S1x34x128_0_0_0 _ hin⟩, ?_⟩
    unfold rowsL
    rw [canon_unit_miss _ _ inb_S34x34x128_S1x34x128_33_0_0 _ _ _ (⟨0, by decide⟩ : Fin S34x34x128.rank) (Or.inl (by show i.val < 33; omega)),
      canon_unit_hit _ _ inb_S34x34x128_S1x34x128_0_0_0 _ _ _ hin]
    exact h1 _
  · have hin : ∀ a : Fin S34x34x128.rank, (![33, 0, 0] : Fin 3 → Nat) a ≤ ((ix3 i j k : S34x34x128.Idx) a).val ∧ ((ix3 i j k : S34x34x128.Idx) a).val < (![33, 0, 0] : Fin 3 → Nat) a + S1x34x128.size a :=
      all3 (by show 33 ≤ i.val ∧ i.val < 33 + 1; omega) (by show 0 ≤ j.val ∧ j.val < 0 + 34; omega) (by show 0 ≤ k.val ∧ k.val < 0 + 128; omega)
    refine ⟨⟨⟨rRow33, p2⟩, List.mem_cons_self, mem_unit_of _ _ inb_S34x34x128_S1x34x128_33_0_0 _ hin⟩, ?_⟩
    unfold rowsL
    rw [canon_unit_hit _ _ inb_S34x34x128_S1x34x128_33_0_0 _ _ _ hin]
    exact h2 _

include h1 h2 h3 in
/-- After the first column store, rows 0 and 33 and column 0 are covered and hold zero. -/
theorem col0_zero (i j : Fin 34) (k : Fin 128) (hy : i.val = 0 ∨ i.val = 33 ∨ j.val = 0) :
    (∃ p ∈ col0L v f p1 p2 p3, ix3 i j k ∈ p.1.set) ∧ View.canon (col0L v f p1 p2 p3) (ix3 i j k) = z := by
  have bi := i.isLt
  have bk := k.isLt
  by_cases hj : j.val < 2
  · -- inside columns 0–1
    have hin : ∀ a : Fin S34x34x128.rank, (![0, 0, 0] : Fin 3 → Nat) a ≤ ((ix3 i j k : S34x34x128.Idx) a).val ∧ ((ix3 i j k : S34x34x128.Idx) a).val < (![0, 0, 0] : Fin 3 → Nat) a + S34x2x128.size a :=
      all3 (by show 0 ≤ i.val ∧ i.val < 0 + 34; omega) (by show 0 ≤ j.val ∧ j.val < 0 + 2; omega) (by show 0 ≤ k.val ∧ k.val < 0 + 128; omega)
    refine ⟨⟨⟨rCol0, _⟩, List.mem_cons_self, mem_unit_of _ _ inb_S34x34x128_S34x2x128_0_0_0 _ hin⟩, ?_⟩
    unfold col0L
    rw [canon_unit_hit _ _ inb_S34x34x128_S34x2x128_0_0_0 _ _ _ hin]
    by_cases hj0 : j.val = 0
    · refine updateSlice_of_in _ _ _ _ _ z h3 ?_
      exact all3 (by show 0 ≤ i.val - 0 ∧ i.val - 0 < 0 + 34; omega) (by show 0 ≤ j.val - 0 ∧ j.val - 0 < 0 + 1; omega) (by show 0 ≤ k.val - 0 ∧ k.val - 0 < 0 + 128; omega)
    · have hi : i.val = 0 ∨ i.val = 33 := by omega
      rw [updateSlice_of_out_axis _ _ _ _ _ (⟨1, by decide⟩ : Fin 3) (Or.inr (by show 0 + 1 ≤ j.val - 0; omega))]
      rw [View.readAt_apply]
      have hidx : (rCol0 : Rect S34x34x128).toLoadRect.idx (localIdx _ _ inb_S34x34x128_S34x2x128_0_0_0 (ix3 i j k) hin) = ix3 i j k :=
        emb_localIdx _ _ inb_S34x34x128_S34x2x128_0_0_0 _ hin
      rw [hidx]
      obtain ⟨hc, hz⟩ := rows_zero z p1 p2 h1 h2 i j k hi
      rw [View.read_writes_apply_eq_canon v f _ _ hc]
      exact hz
  · -- right of columns 0–1: what the row stores left
    have hi : i.val = 0 ∨ i.val = 33 := by omega
    obtain ⟨⟨p, hp, hm⟩, hz⟩ := rows_zero z p1 p2 h1 h2 i j k hi
    refine ⟨⟨p, List.mem_cons_of_mem _ hp, hm⟩, ?_⟩
    unfold col0L
    rw [canon_unit_miss _ _ inb_S34x34x128_S34x2x128_0_0_0 _ _ _ (⟨1, by decide⟩ : Fin S34x34x128.rank) (Or.inr (by show 0 + 2 ≤ j.val; omega))]
    exact hz

include h1 h2 h3 h4 in
/-- After the second column store, rows 0 and 33 and columns 0 and 33 — the whole halo — are covered and hold zero. -/
theorem halo_zero (i j : Fin 34) (k : Fin 128) (hy : i.val = 0 ∨ i.val = 33 ∨ j.val = 0 ∨ j.val = 33) :
    (∃ p ∈ col33L v f p1 p2 p3 p4, ix3 i j k ∈ p.1.set) ∧ View.canon (col33L v f p1 p2 p3 p4) (ix3 i j k) = z := by
  have bi := i.isLt
  have bj := j.isLt
  have bk := k.isLt
  by_cases hj : 32 ≤ j.val
  · -- inside columns 32–33
    have hin : ∀ a : Fin S34x34x128.rank, (![0, 32, 0] : Fin 3 → Nat) a ≤ ((ix3 i j k : S34x34x128.Idx) a).val ∧ ((ix3 i j k : S34x34x128.Idx) a).val < (![0, 32, 0] : Fin 3 → Nat) a + S34x2x128.size a :=
      all3 (by show 0 ≤ i.val ∧ i.val < 0 + 34; omega) (by show 32 ≤ j.val ∧ j.val < 32 + 2; omega) (by show 0 ≤ k.val ∧ k.val < 0 + 128; omega)
    refine ⟨⟨⟨rCol32, _⟩, List.mem_cons_self, mem_unit_of _ _ inb_S34x34x128_S34x2x128_0_32_0 _ hin⟩, ?_⟩
    unfold col33L
    rw [canon_unit_hit _ _ inb_S34x34x128_S34x2x128_0_32_0 _ _ _ hin]
    by_cases hj33 : j.val = 33
    · refine updateSlice_of_in _ _ _ _ _ z h4 ?_
      exact all3 (by show 0 ≤ i.val - 0 ∧ i.val - 0 < 0 + 34; omega) (by show 1 ≤ j.val - 32 ∧ j.val - 32 < 1 + 1; omega) (by show 0 ≤ k.val - 0 ∧ k.val - 0 < 0 + 128; omega)
    · have hi : i.val = 0 ∨ i.val = 33 ∨ j.val = 0 := by omega
      rw [updateSlice_of_out_axis _ _ _ _ _ (⟨1, by decide⟩ : Fin 3) (Or.inl (by show j.val - 32 < 1; omega))]
      rw [View.readAt_apply]
      have hidx : (rCol32 : Rect S34x34x128).toLoadRect.idx (localIdx _ _ inb_S34x34x128_S34x2x128_0_32_0 (ix3 i j k) hin) = ix3 i j k :=
        emb_localIdx _ _ inb_S34x34x128_S34x2x128_0_32_0 _ hin
      rw [hidx]
      obtain ⟨hc, hz⟩ := col0_zero v f z p1 p2 p3 h1 h2 h3 i j k hi
      rw [View.read_writes_apply_eq_canon v f _ _ hc]
      exact hz
  · -- left of columns 32–33: what the earlier stores left
    have hi : i.val = 0 ∨ i.val = 33 ∨ j.val = 0 := by omega
    obtain ⟨⟨p, hp, hm⟩, hz⟩ := col0_zero v f z p1 p2 p3 h1 h2 h3 i j k hi
    refine ⟨⟨p, List.mem_cons_of_mem _ hp, hm⟩, ?_⟩
    unfold col33L
    rw [canon_unit_miss _ _ inb_S34x34x128_S34x2x128_0_32_0 _ _ _ (⟨1, by decide⟩ : Fin S34x34x128.rank) (Or.inl (by show j.val < 32; omega))]
    exact hz

include h1 h2 h3 h4 in
/-- THE PADDED SCRATCH. After the five stores the buffer reads as the zero-padded image at every index, whatever it held
    before: on rows 1–32 the last store's columns 1–32 are the image and its columns 0 and 33 re-store the halo's zeros;
    rows 0 and 33 are the halo's zeros. -/
theorem interior_eq_padded (i j : Fin 34) (k : Fin 128) :
    View.canon (interiorL v f p1 p2 p3 p4 a) (ix3 i j k) = View.canon (paddedL z a) (ix3 i j k) := by
  have bi := i.isLt
  have bj := j.isLt
  have bk := k.isLt
  unfold interiorL paddedL
  by_cases hi : 1 ≤ i.val ∧ i.val ≤ 32
  · have hin : ∀ a : Fin S34x34x128.rank, (![1, 0, 0] : Fin 3 → Nat) a ≤ ((ix3 i j k : S34x34x128.Idx) a).val ∧ ((ix3 i j k : S34x34x128.Idx) a).val < (![1, 0, 0] : Fin 3 → Nat) a + S32x34x128.size a :=
      all3 (by show 1 ≤ i.val ∧ i.val < 1 + 32; omega) (by show 0 ≤ j.val ∧ j.val < 0 + 34; omega) (by show 0 ≤ k.val ∧ k.val < 0 + 128; omega)
    rw [canon_unit_hit _ _ inb_S34x34x128_S32x34x128_1_0_0 _ _ _ hin, canon_unit_hit _ _ inb_S34x34x128_S32x34x128_1_0_0 _ _ _ hin]
    refine updateSlice_congr_old _ _ _ _ _ _ (fun hc => ?_)
    have hj : j.val = 0 ∨ j.val = 33 := by
      by_contra hne
      exact hc (all3 (by show 0 ≤ i.val - 1 ∧ i.val - 1 < 0 + 32; omega) (by show 1 ≤ j.val - 0 ∧ j.val - 0 < 1 + 32; omega) (by show 0 ≤ k.val - 0 ∧ k.val - 0 < 0 + 128; omega))
    rw [View.readAt_apply]
    have hidx : (rRows : Rect S34x34x128).toLoadRect.idx (localIdx _ _ inb_S34x34x128_S32x34x128_1_0_0 (ix3 i j k) hin) = ix3 i j k :=
      emb_localIdx _ _ inb_S34x34x128_S32x34x128_1_0_0 _ hin
    rw [hidx]
    obtain ⟨hc', hz⟩ := halo_zero v f z p1 p2 p3 p4 h1 h2 h3 h4 i j k (by omega)
    rw [View.read_writes_apply_eq_canon v f _ _ hc']
    exact hz
  · have hi' : i.val = 0 ∨ i.val = 33 := by omega
    have hmiss : ((ix3 i j k : S34x34x128.Idx) (⟨0, by decide⟩ : Fin S34x34x128.rank)).val < (![1, 0, 0] : Fin 3 → Nat) (⟨0, by decide⟩ : Fin S34x34x128.rank) ∨ (![1, 0, 0] : Fin 3 → Nat) (⟨0, by decide⟩ : Fin S34x34x128.rank) + S32x34x128.size (⟨0, by decide⟩ : Fin S34x34x128.rank) ≤ ((ix3 i j k : S34x34x128.Idx) (⟨0, by decide⟩ : Fin S34x34x128.rank)).val := by
      show i.val < 1 ∨ 1 + 32 ≤ i.val; omega
    rw [canon_unit_miss _ _ inb_S34x34x128_S32x34x128_1_0_0 _ _ _ _ hmiss, canon_unit_miss _ _ inb_S34x34x128_S32x34x128_1_0_0 _ _ _ _ hmiss,
      canon_unit_hit _ _ inb_S34x34x128_S34x34x128_0_0_0 _ _ _ (in_all i j k)]
    exact (halo_zero v f z p1 p2 p3 p4 h1 h2 h3 h4 i j k (by omega)).2

include h1 h2 h3 h4 in
/-- The same as functions of the index. -/
theorem interior_eq_padded' : View.canon (interiorL v f p1 p2 p3 p4 a) = View.canon (paddedL z a) := by
  funext y
  rw [ValueIdx.eq_ix3 y]
  exact interior_eq_padded v f z p1 p2 p3 p4 a h1 h2 h3 h4 _ _ _

end Padded

end Cert.Kernel.Hand

end
-- ==== Proof.K.Conv1.lean ====
/-
  Region 1: the first 3×3 convolution. Grid point `t` is image `t`. The body applies the folded batch-norm affine to the
  image block, writes the result into the interior of a [34, 34, 128] scratch whose one-pixel halo it has just zeroed, reads the
  padded image back, gathers its nine shifted [32, 32, 128] windows side by side into a [1024, 1152] matrix and multiplies by the
  [1152, 128] weights. It stores that product as the image's output block and, beside it, the column sums of the product and of
  its squares. Both blocks depend on image `t` and the three parameter arrays alone: the scratch is rewritten at every point and
  nothing of its earlier contents survives (Padded.lean), so the region is a map over the images.
-/
import proofs.«128858_g2000205668668362_pallasbulk_730_2_alg».proof.Proof.Gen.Kernel.Launch
import proofs.«128858_g2000205668668362_pallasbulk_730_2_alg».proof.Proof.Gen.Kernel.Skeleton
import proofs.«128858_g2000205668668362_pallasbulk_730_2_alg».proof.Proof.Gen.Kernel.Points
import proofs.«128858_g2000205668668362_pallasbulk_730_2_alg».proof.Proof.K.Padded
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point — fetched there, or (the three parameter
    windows, whose block never moves) left from the first point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes of the staged windows: every access is a whole block -/

abbrev whole1_0 : Rect S1x32x32x128 := Rect.unit (s := S1x32x32x128) ![0, 0, 0, 0] S1x32x32x128.size inb_S1x32x32x128_S1x32x32x128_0_0_0_0
abbrev whole1_1 : Rect S1x128 := Rect.unit (s := S1x128) ![0, 0] S1x128.size inb_S1x128_S1x128_0_0
abbrev whole1_2 : Rect S1x128 := Rect.unit (s := S1x128) ![0, 0] S1x128.size inb_S1x128_S1x128_0_0
abbrev whole1_3 : Rect S1152x128 := Rect.unit (s := S1152x128) ![0, 0] S1152x128.size inb_S1152x128_S1152x128_0_0
abbrev whole1_4 : Rect S1x32x32x128 := Rect.unit (s := S1x32x32x128) ![0, 0, 0, 0] S1x32x32x128.size inb_S1x32x32x128_S1x32x32x128_0_0_0_0
abbrev whole1_5 : Rect S1x2x128 := Rect.unit (s := S1x2x128) ![0, 0, 0] S1x2x128.size inb_S1x2x128_S1x2x128_0_0_0

/-! ## The halo's zero -/

/-- The zero the halo stores write. -/
def halo0_1 : Elt F .bf16 := (Scalar.ofBits .bf16 0x0000#16 : F .bf16)

theorem row0_zero_1 (x : S1x34x128.Idx) : (k1_pay5 : FVec F S1x34x128 .bf16) x = halo0_1 := by
  unfold k1_pay5; rw [shapeCast_self]; rfl
theorem row33_zero_1 (x : S1x34x128.Idx) : (k1_pay6 : FVec F S1x34x128 .bf16) x = halo0_1 := by
  unfold k1_pay6; rw [shapeCast_self]; rfl
theorem col0_zero_1' (x : S34x1x128.Idx) : (k1_pay7 : FVec F S34x1x128 .bf16) x = halo0_1 := by
  unfold k1_pay7; rw [shapeCast_self]; rfl
theorem col33_zero_1' (x : S34x1x128.Idx) : (k1_pay8 : FVec F S34x1x128 .bf16) x = halo0_1 := by
  unfold k1_pay8; rw [shapeCast_self]; rfl

/-! ## What the body computes -/

/-- The image after the affine, as the interior store writes it. -/
def imgOf_1 (x0 : Vec F S1x32x32x128 .f32) (x1 : Vec F S1x128 .f32) (x2 : Vec F S1x128 .f32) : S32x32x128.Idx → Elt F .bf16 :=
  k1_pay1 (k1_pay9 (View.ld x0 whole1_0) (View.ld x1 whole1_1) (View.ld x2 whole1_2))

/-- The whole scratch as the body reads it back: the zero-padded image. -/
def paddedOf_1 (x0 : Vec F S1x32x32x128 .f32) (x1 : Vec F S1x128 .f32) (x2 : Vec F S1x128 .f32) : Vec F S34x34x128 .bf16 :=
  View.ld (View.canon (paddedL halo0_1 (imgOf_1 x0 x1 x2))) rAll

/-- The output image block: the product, re-laid as [1, 32, 32, 128]. -/
def convOf_1 (x0 : Vec F S1x32x32x128 .f32) (x1 : Vec F S1x128 .f32) (x2 : Vec F S1x128 .f32) (x3 : Vec F S1152x128 .bf16) : Vec F S1x32x32x128 .bf16 :=
  View.canon [⟨whole1_4, k1_pay4 (paddedOf_1 x0 x1 x2) (View.ld x3 whole1_3)⟩]

/-- The statistics block: the product's column sums and the column sums of its squares. -/
def convStatsOf_1 (x0 : Vec F S1x32x32x128 .f32) (x1 : Vec F S1x128 .f32) (x2 : Vec F S1x128 .f32) (x3 : Vec F S1152x128 .bf16) : Vec F S1x2x128 .f32 :=
  View.canon [⟨whole1_5, k1_pay3 (paddedOf_1 x0 x1 x2) (View.ld x3 whole1_3)⟩]

theorem convCover_1 (p0 : Vec F S1x32x32x128 .bf16) (y : S1x32x32x128.Idx) :
    ∃ pc ∈ ([⟨whole1_4, p0⟩] : List (View.Piece (Elt F) S1x32x32x128 .bf16)), y ∈ pc.1.set :=
  View.cover_of_tiled [⟨whole1_4, p0⟩] S1x32x32x128.size (by rfl) y

theorem convStatsCover_1 (p0 : Vec F S1x2x128 .f32) (y : S1x2x128.Idx) :
    ∃ pc ∈ ([⟨whole1_5, p0⟩] : List (View.Piece (Elt F) S1x2x128 .f32)), y ∈ pc.1.set :=
  View.cover_of_tiled [⟨whole1_5, p0⟩] S1x2x128.size (by rfl) y

/-- What the body loads of the whole scratch after its five stores is the zero-padded image, whatever the scratch held. -/
theorem scratch_load_1 {κ : Kind} {sp : Space} (v : View sig κ sp S34x34x128 .bf16) (f7 : v.ty.Contents (Elt F))
    (x0 : Vec F S1x32x32x128 .f32) (x1 : Vec F S1x128 .f32) (x2 : Vec F S1x128 .f32) :
    v.readCov (interiorL v f7 k1_pay5 k1_pay6 k1_pay7 k1_pay8 (imgOf_1 x0 x1 x2)) rAll.toLoadRect = paddedOf_1 x0 x1 x2 := by
  rw [View.readCov_eq_canon']
  unfold paddedOf_1
  rw [interior_eq_padded' v f7 halo0_1 _ _ _ _ _ row0_zero_1 row33_zero_1 col0_zero_1' col33_zero_1']

/-! ## The body's triple -/

set_option maxHeartbeats 4000000 in
/-- The body on whole memrefs — the inputs' at contents `xW`, the two outputs' and the scratch at anything — runs to its
    return with the inputs' as they were, the outputs' at `convOf_1` and `convStatsOf_1` of the inputs, the scratch at something. -/
theorem conv_body_1 (c : Dev nD) (E : Set ℕ) (i : grid1.Coords) (arg0 : Memref sig .tc .vmem S1x32x32x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1152x128 .bf16) (harg3 : arg3.IsWhole) (arg4 : Memref sig .tc .vmem S1x32x32x128 .bf16) (harg4 : arg4.IsWhole) (arg5 : Memref sig .tc .vmem S1x2x128 .f32) (harg5 : arg5.IsWhole)
    (arg6 : Memref sig .tc .vmem S34x34x128 .bf16) (harg6 : arg6.IsWhole)
    (x0 : Vec F S1x32x32x128 .f32) (x1 : Vec F S1x128 .f32) (x2 : Vec F S1x128 .f32) (x3 : Vec F S1152x128 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (convOf_1 x0 x1 x2 x3) ∗ owns (c : Thread nD τ) arg5 fullShare (convStatsOf_1 x0 x1 x2 x3)
            ∗ (∃ d, owns (c : Thread nD τ) arg6 fullShare d)) -∗ K ⟨⟩))
      ⊢ wp frame (wpE (defs₀ (F := F)) Variants.none c none) E (cc1__conv_kernel i arg0 harg0 arg1 harg1 arg2 harg2 arg3 harg3 arg4 harg4 arg5 harg5 arg6 harg6) K := by
  simp only [cc1__conv_kernel_eq_skeleton]; unfold cc1__conv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (convCover_1 _)]
    unfold convOf_1
    rw [← scratch_load_1 arg6.view f6]
    rfl
  isplitl [H5]
  · iexists _; isplitr
    swap; · iexact H5
    ipureintro
    sl_unfold_run_names
    rw [View.read_writes_eq_canon _ _ _ (convStatsCover_1 _)]
    unfold convStatsOf_1
    rw [← scratch_load_1 arg6.view f6]
    rfl
  iexists _; iexists _; isplitr
  swap; · iexact H6
  ipureintro; rfl

/-! ## The proof data -/

/-- Pipeline 1's proof data on core `c`: the arrays as the region finds them; after the body at point `t` each input's
    buffer at its block and the two outputs' at `convOf_1` / `convStatsOf_1` of the input blocks; the invariant holds every
    scoped buffer no window stages — the scratch among them — at SOME contents, and the generator register; nothing owed;
    full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => convOf_1 (blk1 V c 0 t) (blk1 V c 1 t) (blk1 V c 2 t) (blk1 V c 3 t)
    | ⟨5, _⟩ => convStatsOf_1 (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = convOf_1 (blk1 V c 0 t) (blk1 V c 1 t) (blk1 V c 2 t) (blk1 V c 3 t) := by dsimp only [dat1]
theorem after1_5 (c : Dev nD) (t : Fin cfg1.N) : (dat1 V c).after 5 t = convStatsOf_1 (blk1 V c 0 t) (blk1 V c 1 t) (blk1 V c 2 t) (blk1 V c 3 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: each input's memref holds its block; the scratch is taken out of the invariant at whatever it
    holds, handed to the body, and put back at whatever the body leaves; the rest of the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5]
  unfold Pipeline.ΦA
  rw [scopedRest1_split]
  iintro ⟨⟨⟨⟨%f6, H6⟩, Hrest⟩, Hp⟩, Ho, ⟨%d0, H0⟩, ⟨%d1, H1⟩, ⟨%d2, H2⟩, ⟨%d3, H3⟩, ⟨%d4, H4⟩, ⟨%d5, H5⟩⟩
  iapply (conv_body_1 c Set.univ _ _ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]
  · iexists f6; rw [owns_whole (c : Thread nD τ) cc1_scratch0 fullShare f6]; iexact H6
  iintro ⟨H0, H1, H2, H3, H4, H5, ⟨%g6, H6⟩⟩
  isplitl [H6 Hrest Hp]
  · isplitl [H6 Hrest]
    · isplitl [H6]
      · iexists g6; rw [← owns_whole (c : Thread nD τ) cc1_scratch0 fullShare g6]; iexact H6
      iexact Hrest
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Conv2.lean ====
/-
  Region 2: the second 3×3 convolution. Grid point `t` is image `t`. The body applies the folded batch-norm affine and the SiLU to the
  image block, writes the result into the interior of a [34, 34, 128] scratch whose one-pixel halo it has just zeroed, reads the
  padded image back, gathers its nine shifted [32, 32, 128] windows side by side into a [1024, 1152] matrix and multiplies by the
  [1152, 128] weights. It stores that product as the image's output block and, beside it, the column sums of the product and of
  its squares. Both blocks depend on image `t` and the three parameter arrays alone: the scratch is rewritten at every point and
  nothing of its earlier contents survives (Padded.lean), so the region is a map over the images.
-/
import proofs.«128858_g2000205668668362_pallasbulk_730_2_alg».proof.Proof.Gen.Kernel.Launch
import proofs.«128858_g2000205668668362_pallasbulk_730_2_alg».proof.Proof.Gen.Kernel.Skeleton
import proofs.«128858_g2000205668668362_pallasbulk_730_2_alg».proof.Proof.Gen.Kernel.Points
import proofs.«128858_g2000205668668362_pallasbulk_730_2_alg».proof.Proof.K.Padded
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point — fetched there, or (the three parameter
    windows, whose block never moves) left from the first point. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes of the staged windows: every access is a whole block -/

abbrev whole2_0 : Rect S1x32x32x128 := Rect.unit (s := S1x32x32x128) ![0, 0, 0, 0] S1x32x32x128.size inb_S1x32x32x128_S1x32x32x128_0_0_0_0
abbrev whole2_1 : Rect S1x128 := Rect.unit (s := S1x128) ![0, 0] S1x128.size inb_S1x128_S1x128_0_0
abbrev whole2_2 : Rect S1x128 := Rect.unit (s := S1x128) ![0, 0] S1x128.size inb_S1x128_S1x128_0_0
abbrev whole2_3 : Rect S1152x128 := Rect.unit (s := S1152x128) ![0, 0] S1152x128.size inb_S1152x128_S1152x128_0_0
abbrev whole2_4 : Rect S1x32x32x128 := Rect.unit (s := S1x32x32x128) ![0, 0, 0, 0] S1x32x32x128.size inb_S1x32x32x128_S1x32x32x128_0_0_0_0
abbrev whole2_5 : Rect S1x2x128 := Rect.unit (s := S1x2x128) ![0, 0, 0] S1x2x128.size inb_S1x2x128_S1x2x128_0_0_0

/-! ## The halo's zero -/

/-- The zero the halo stores write. -/
def halo0_2 : Elt F .bf16 := (Scalar.ofBits .bf16 0x0000#16 : F .bf16)

theorem row0_zero_2 (x : S1x34x128.Idx) : (k2_pay3 : FVec F S1x34x128 .bf16) x = halo0_2 := by
  unfold k2_pay3; rw [shapeCast_self]; rfl
theorem row33_zero_2 (x : S1x34x128.Idx) : (k2_pay4 : FVec F S1x34x128 .bf16) x = halo0_2 := by
  unfold k2_pay4; rw [shapeCast_self]; rfl
theorem col0_zero_2' (x : S34x1x128.Idx) : (k2_pay5 : FVec F S34x1x128 .bf16) x = halo0_2 := by
  unfold k2_pay5; rw [shapeCast_self]; rfl
theorem col33_zero_2' (x : S34x1x128.Idx) : ((k2_pay6 (Scalar.ofBits .bf16 0x0000#16)) : FVec F S34x1x128 .bf16) x = halo0_2 := by
  unfold k2_pay6; rw [shapeCast_self]; rfl

/-! ## What the body computes -/

/-- The image after the affine and the SiLU, as the interior store writes it. -/
def imgOf_2 (x0 : Vec F S1x32x32x128 .bf16) (x1 : Vec F S1x128 .f32) (x2 : Vec F S1x128 .f32) : S32x32x128.Idx → Elt F .bf16 :=
  k2_pay7 (k2_pay2 (View.ld x0 whole2_0) (View.ld x1 whole2_1) (View.ld x2 whole2_2))

/-- The whole scratch as the body reads it back: the zero-padded image. -/
def paddedOf_2 (x0 : Vec F S1x32x32x128 .bf16) (x1 : Vec F S1x128 .f32) (x2 : Vec F S1x128 .f32) : Vec F S34x34x128 .bf16 :=
  View.ld (View.canon (paddedL halo0_2 (imgOf_2 x0 x1 x2))) rAll

/-- The output image block: the product, re-laid as [1, 32, 32, 128]. -/
def convOf_2 (x0 : Vec F S1x32x32x128 .bf16) (x1 : Vec F S1x128 .f32) (x2 : Vec F S1x128 .f32) (x3 : Vec F S1152x128 .bf16) : Vec F S1x32x32x128 .bf16 :=
  View.canon [⟨whole2_4, k2_pay1 (k2_pay8 (paddedOf_2 x0 x1 x2) (View.ld x3 whole2_3))⟩]

/-- The statistics block: the product's column sums and the column sums of its squares. -/
def convStatsOf_2 (x0 : Vec F S1x32x32x128 .bf16) (x1 : Vec F S1x128 .f32) (x2 : Vec F S1x128 .f32) (x3 : Vec F S1152x128 .bf16) : Vec F S1x2x128 .f32 :=
  View.canon [⟨whole2_5, k2_pay9 (paddedOf_2 x0 x1 x2) (View.ld x3 whole2_3)⟩]

theorem convCover_2 (p0 : Vec F S1x32x32x128 .bf16) (y : S1x32x32x128.Idx) :
    ∃ pc ∈ ([⟨whole2_4, p0⟩] : List (View.Piece (Elt F) S1x32x32x128 .bf16)), y ∈ pc.1.set :=
  View.cover_of_tiled [⟨whole2_4, p0⟩] S1x32x32x128.size (by rfl) y

theorem convStatsCover_2 (p0 : Vec F S1x2x128 .f32) (y : S1x2x128.Idx) :
    ∃ pc ∈ ([⟨whole2_5, p0⟩] : List (View.Piece (Elt F) S1x2x128 .f32)), y ∈ pc.1.set :=
  View.cover_of_tiled [⟨whole2_5, p0⟩] S1x2x128.size (by rfl) y

/-- What the body loads of the whole scratch after its five stores is the zero-padded image, whatever the scratch held. -/
theorem scratch_load_2 {κ : Kind} {sp : Space} (v : View sig κ sp S34x34x128 .bf16) (f7 : v.ty.Contents (Elt F))
    (x0 : Vec F S1x32x32x128 .bf16) (x1 : Vec F S1x128 .f32) (x2 : Vec F S1x128 .f32) :
    v.readCov (interiorL v f7 k2_pay3 k2_pay4 k2_pay5 (k2_pay6 (Scalar.ofBits .bf16 0x0000#16)) (imgOf_2 x0 x1 x2)) rAll.toLoadRect = paddedOf_2 x0 x1 x2 := by
  rw [View.readCov_eq_canon']
  unfold paddedOf_2
  rw [interior_eq_padded' v f7 halo0_2 _ _ _ _ _ row0_zero_2 row33_zero_2 col0_zero_2' col33_zero_2']

/-! ## The body's triple -/

set_option maxHeartbeats 4000000 in
/-- The body on whole memrefs — the inputs' at contents `xW`, the two outputs' and the scratch at anything — runs to its
    return with the inputs' as they were, the outputs' at `convOf_2` and `convStatsOf_2` of the inputs, the scratch at something. -/
theorem conv_body_2 (c : Dev nD) (E : Set ℕ) (i : grid2.Coords) (arg0 : Memref sig .tc .vmem S1x32x32x128 .bf16) (harg0 : arg0.IsWhole) (arg1 : Memref sig .tc .vmem S1x128 .f32) (harg1 : arg1.IsWhole) (arg2 : Memref sig .tc .vmem S1x128 .f32) (harg2 : arg2.IsWhole) (arg3 : Memref sig .tc .vmem S1152x128 .bf16) (harg3 : arg3.IsWhole) (arg4 : Memref sig .tc .vmem S1x32x32x128 .bf16) (harg4 : arg4.IsWhole) (arg5 : Memref sig .tc .vmem S1x2x128 .f32) (harg5 : arg5.IsWhole)
    (arg6 : Memref sig .tc .vmem S34x34x128 .bf16) (harg6 : arg6.IsWhole)
    (x0 : Vec F S1x32x32x128 .bf16) (x1 : Vec F S1x128 .f32) (x2 : Vec F S1x128 .f32) (x3 : Vec F S1152x128 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (convOf_2 x0 x1 x2 x3) ∗ owns (c : Thread nD τ) arg5 fullShare (convStatsOf_2 x0 x1 x2 x3)
            ∗ (∃ d, owns (c : Thread nD τ) arg6 fullShare d)) -∗ K ⟨⟩))
      ⊢ wp frame (wpE (defs₀ (F := F)) Variants.none c none) E (cc2__conv_kernel i arg0 harg0 arg1 harg1 arg2 harg2 arg3 harg3 arg4 harg4 arg5 harg5 arg6 harg6) K := by
  simp only [cc2__conv_kernel_eq_skeleton]; unfold cc2__conv_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (convCover_2 _)]
    unfold convOf_2
    rw [← scratch_load_2 arg6.view f6]
    rfl
  isplitl [H5]
  · iexists _; isplitr
    swap; · iexact H5
    ipureintro
    sl_unfold_run_names
    rw [View.read_writes_eq_canon _ _ _ (convStatsCover_2 _)]
    unfold convStatsOf_2
    rw [← scratch_load_2 arg6.view f6]
    rfl
  iexists _; iexists _; isplitr
  swap; · iexact H6
  ipureintro; rfl

/-! ## The proof data -/

/-- Pipeline 2's proof data on core `c`: the arrays as the region finds them; after the body at point `t` each input's
    buffer at its block and the two outputs' at `convOf_2` / `convStatsOf_2` of the input blocks; the invariant holds every
    scoped buffer no window stages — the scratch among them — at SOME contents, and the generator register; nothing owed;
    full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => convOf_2 (blk2 V c 0 t) (blk2 V c 1 t) (blk2 V c 2 t) (blk2 V c 3 t)
    | ⟨5, _⟩ => convStatsOf_2 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = convOf_2 (blk2 V c 0 t) (blk2 V c 1 t) (blk2 V c 2 t) (blk2 V c 3 t) := by dsimp only [dat2]
theorem after2_5 (c : Dev nD) (t : Fin cfg2.N) : (dat2 V c).after 5 t = convStatsOf_2 (blk2 V c 0 t) (blk2 V c 1 t) (blk2 V c 2 t) (blk2 V c 3 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: each input's memref holds its block; the scratch is taken out of the invariant at whatever it
    holds, handed to the body, and put back at whatever the body leaves; the rest of the invariant and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl,
    after2_0, after2_1, after2_2, after2_3, after2_4, after2_5]
  unfold Pipeline.ΦA
  rw [scopedRest2_split]
  iintro ⟨⟨⟨⟨%f6, H6⟩, Hrest⟩, Hp⟩, Ho, ⟨%d0, H0⟩, ⟨%d1, H1⟩, ⟨%d2, H2⟩, ⟨%d3, H3⟩, ⟨%d4, H4⟩, ⟨%d5, H5⟩⟩
  iapply (conv_body_2 c Set.univ _ _ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]
  · iexists f6; rw [owns_whole (c : Thread nD τ) cc2_scratch0 fullShare f6]; iexact H6
  iintro ⟨H0, H1, H2, H3, H4, H5, ⟨%g6, H6⟩⟩
  isplitl [H6 Hrest Hp]
  · isplitl [H6 Hrest]
    · isplitl [H6]
      · iexists g6; rw [← owns_whole (c : Thread nD τ) cc2_scratch0 fullShare g6]; iexact H6
      iexact Hrest
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Gate.lean ====
/-
  Region 3: the squeeze-and-excitation gate and the residual. Grid point `t` is image `t`. The body reads the image's
  conv output and the image itself (one [1, 32, 32, 128] block each) and six small parameter arrays whole, and writes the
  image's output block: with z = y · scale + shift (per channel) and g the gate computed from the channel means of z
  through the two small dense layers, the block is silu(z · g + x). The block depends on image `t` alone, so the region
  is a map over the images.
-/
import proofs.«128858_g2000205668668362_pallasbulk_730_2_alg».proof.Proof.Gen.Kernel.Launch
import proofs.«128858_g2000205668668362_pallasbulk_730_2_alg».proof.Proof.Gen.Kernel.Skeleton
import proofs.«128858_g2000205668668362_pallasbulk_730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point — fetched there, or (the six parameter
    windows, whose block never moves) left from the first point — for any proof data whose array is the entry contents
    and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = blk3 V c 7 t) (t : Fin cfg3.N) (d) : dat.before 7 t d = blk3 V c 7 t :=
  (dat.before_in_eq_fetched 7 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes: every access is a whole block -/

abbrev whole3_0 : Rect S1x32x32x128 := Rect.unit (s := S1x32x32x128) ![0, 0, 0, 0] S1x32x32x128.size inb_S1x32x32x128_S1x32x32x128_0_0_0_0
abbrev whole3_1 : Rect S1x32x32x128 := Rect.unit (s := S1x32x32x128) ![0, 0, 0, 0] S1x32x32x128.size inb_S1x32x32x128_S1x32x32x128_0_0_0_0
abbrev whole3_2 : Rect S1x128 := Rect.unit (s := S1x128) ![0, 0] S1x128.size inb_S1x128_S1x128_0_0
abbrev whole3_3 : Rect S1x128 := Rect.unit (s := S1x128) ![0, 0] S1x128.size inb_S1x128_S1x128_0_0
abbrev whole3_4 : Rect S128x8 := Rect.unit (s := S128x8) ![0, 0] S128x8.size inb_S128x8_S128x8_0_0
abbrev whole3_5 : Rect S1x8 := Rect.unit (s := S1x8) ![0, 0] S1x8.size inb_S1x8_S1x8_0_0
abbrev whole3_6 : Rect S8x128 := Rect.unit (s := S8x128) ![0, 0] S8x128.size inb_S8x128_S8x128_0_0
abbrev whole3_7 : Rect S1x128 := Rect.unit (s := S1x128) ![0, 0] S1x128.size inb_S1x128_S1x128_0_0
abbrev whole3_8 : Rect S1x32x32x128 := Rect.unit (s := S1x32x32x128) ![0, 0, 0, 0] S1x32x32x128.size inb_S1x32x32x128_S1x32x32x128_0_0_0_0

/-- The output block the body leaves, from the eight input blocks: its one store. -/
def gatedOf (x0 : Vec F S1x32x32x128 .bf16) (x1 : Vec F S1x32x32x128 .f32) (x2 : Vec F S1x128 .f32) (x3 : Vec F S1x128 .f32) (x4 : Vec F S128x8 .f32) (x5 : Vec F S1x8 .f32) (x6 : Vec F S8x128 .f32) (x7 : Vec F S1x128 .f32) : Vec F S1x32x32x128 .f32 :=
  View.canon [⟨whole3_8, k3_pay1 (k3_pay2 (View.ld x0 whole3_0) (View.ld x2 whole3_2) (View.ld x3 whole3_3)) (k3_pay3 (View.ld x0 whole3_0) (View.ld x2 whole3_2) (View.ld x3 whole3_3) (View.ld x4 whole3_4) (View.ld x5 whole3_5) (View.ld x6 whole3_6) (View.ld x7 whole3_7)) (View.ld x1 whole3_1)⟩]

/-- The one store writes the whole block. -/
theorem gatedCover (p0 : Vec F S1x32x32x128 .f32) (y : S1x32x32x128.Idx) :
    ∃ pc ∈ ([⟨whole3_8, p0⟩] : List (View.Piece (Elt F) S1x32x32x128 .f32)), y ∈ pc.1.set :=
  View.cover_of_tiled [⟨whole3_8, p0⟩] S1x32x32x128.size (by rfl) y

/-! ## The body's triple -/

set_option maxHeartbeats 4000000 in
/-- The body on whole staging memrefs, the inputs' at contents `xW` and the output's at anything, runs to its return
    with the inputs' as they were and the output's at `gatedOf` of the inputs. -/
theorem gate_body (c : Dev nD) (E : Set ℕ) (i : grid3.Coords) (arg0 : Memref sig .tc .vmem S1x32x32x128 .bf16) (harg0 : arg0.IsWhole) (arg1 : Memref sig .tc .vmem S1x32x32x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x8 .f32) (harg4 : arg4.IsWhole) (arg5 : Memref sig .tc .vmem S1x8 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x32x32x128 .f32) (harg8 : arg8.IsWhole)
    (x0 : Vec F S1x32x32x128 .bf16) (x1 : Vec F S1x32x32x128 .f32) (x2 : Vec F S1x128 .f32) (x3 : Vec F S1x128 .f32) (x4 : Vec F S128x8 .f32) (x5 : Vec F S1x8 .f32) (x6 : Vec F S8x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (gatedOf x0 x1 x2 x3 x4 x5 x6 x7)) -∗ K ⟨⟩))
      ⊢ wp frame (wpE (defs₀ (F := F)) Variants.none c none) E (cc3__bn_se_residual_kernel i arg0 harg0 arg1 harg1 arg2 harg2 arg3 harg3 arg4 harg4 arg5 harg5 arg6 harg6 arg7 harg7 arg8 harg8) K := by
  simp only [cc3__bn_se_residual_kernel_eq_skeleton]; unfold cc3__bn_se_residual_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (gatedCover _)

/-! ## The proof data -/

/-- Pipeline 3's proof data on core `c`: the arrays as the region finds them; after the body at point `t` each input's
    buffer at its block and the output's at `gatedOf` of the input blocks; the invariant leaves every other scoped buffer
    and the generator register alone; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => gatedOf (blk3 V c 0 t) (blk3 V c 1 t) (blk3 V c 2 t) (blk3 V c 3 t) (blk3 V c 4 t) (blk3 V c 5 t) (blk3 V c 6 t) (blk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = gatedOf (blk3 V c 0 t) (blk3 V c 1 t) (blk3 V c 2 t) (blk3 V c 3 t) (blk3 V c 4 t) (blk3 V c 5 t) (blk3 V c 6 t) (blk3 V c 7 t) := by dsimp only [dat3]

theorem before3_0 (c : Dev nD) (t : Fin cfg3.N) (d) : (dat3 V c).before 0 t d = blk3 V c 0 t :=
  before3_0_of V (dat3 V c) (A_eq3 V c 0) (after3_0 V c) t d
theorem before3_1 (c : Dev nD) (t : Fin cfg3.N) (d) : (dat3 V c).before 1 t d = blk3 V c 1 t :=
  before3_1_of V (dat3 V c) (A_eq3 V c 1) (after3_1 V c) t d
theorem before3_2 (c : Dev nD) (t : Fin cfg3.N) (d) : (dat3 V c).before 2 t d = blk3 V c 2 t :=
  before3_2_of V (dat3 V c) (A_eq3 V c 2) (after3_2 V c) t d
theorem before3_3 (c : Dev nD) (t : Fin cfg3.N) (d) : (dat3 V c).before 3 t d = blk3 V c 3 t :=
  before3_3_of V (dat3 V c) (A_eq3 V c 3) (after3_3 V c) t d
theorem before3_4 (c : Dev nD) (t : Fin cfg3.N) (d) : (dat3 V c).before 4 t d = blk3 V c 4 t :=
  before3_4_of V (dat3 V c) (A_eq3 V c 4) (after3_4 V c) t d
theorem before3_5 (c : Dev nD) (t : Fin cfg3.N) (d) : (dat3 V c).before 5 t d = blk3 V c 5 t :=
  before3_5_of V (dat3 V c) (A_eq3 V c 5) (after3_5 V c) t d
theorem before3_6 (c : Dev nD) (t : Fin cfg3.N) (d) : (dat3 V c).before 6 t d = blk3 V c 6 t :=
  before3_6_of V (dat3 V c) (A_eq3 V c 6) (after3_6 V c) t d
theorem before3_7 (c : Dev nD) (t : Fin cfg3.N) (d) : (dat3 V c).before 7 t d = blk3 V c 7 t :=
  before3_7_of V (dat3 V c) (A_eq3 V c 7) (after3_7 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 1000000 in
/-- The body at any point: each input's memref holds its block, so `gate_body` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_body c Set.univ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole run. @main is four stretches of host operations, each followed by one kernel region. Between two items every
  unscoped buffer of a core is held at a known valuation: the launch memory, then each host stretch applied to it
  (`StableHlo.after`), then at each region's exit its windows' arrays at what its pipeline leaves (an input array as
  entered; an output array with every grid point's block written back) and every other buffer as entered. The four
  regions' records are stated over these thread states; the library's several-region launch theorem then gives: every weakly
  fair execution of @main terminates, without a fault, and at the end every unscoped buffer holds the last valuation's
  contents. No host stretch writes an argument and no region has an argument among its outputs, so the last valuation
  at an argument is the launch memory; at the result buffer it is what region 3's pipeline leaves.
-/
import proofs.«128858_g2000205668668362_pallasbulk_730_2_alg».proof.Proof.K.Stats
import proofs.«128858_g2000205668668362_pallasbulk_730_2_alg».proof.Proof.K.Conv1
import proofs.«128858_g2000205668668362_pallasbulk_730_2_alg».proof.Proof.K.Conv2
import proofs.«128858_g2000205668668362_pallasbulk_730_2_alg».proof.Proof.K.Gate
import proofs.«128858_g2000205668668362_pallasbulk_730_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: what region 0 is entered from. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1`: what region 1 is entered from. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- At region 1's exit: its arrays at what the pipeline leaves (the inputs as entered, each output's write-backs folded),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2`: what region 2 is entered from. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- At region 2's exit: its arrays at what the pipeline leaves (the inputs as entered, each output's write-backs folded),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After `hostOps3`: what region 3 is entered from. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- At region 3's exit: its arrays at what the pipeline leaves (the inputs as entered, each output's write-backs folded),
    every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-! ## The arguments end as launched -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := (W8_arr m ρ c 1).trans (((dat3 (U7 m ρ) c).arrAt_in 1 rfl _).trans (A_eq3 (U7 m ρ) c 1))
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := (W8_arr m ρ c 4).trans (((dat3 (U7 m ρ) c).arrAt_in 4 rfl _).trans (A_eq3 (U7 m ρ) c 4))
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := (W8_arr m ρ c 5).trans (((dat3 (U7 m ρ) c).arrAt_in 5 rfl _).trans (A_eq3 (U7 m ρ) c 5))
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := (W8_arr m ρ c 6).trans (((dat3 (U7 m ρ) c).arrAt_in 6 rfl _).trans (A_eq3 (U7 m ρ) c 6))
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := (W8_arr m ρ c 7).trans (((dat3 (U7 m ρ) c).arrAt_in 7 rfl _).trans (A_eq3 (U7 m ρ) c 7))
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev Lno : GSem nD τ sig → Finset Unit := fun _ => ∅
abbrev lvno : GSem nD τ sig → Unit → ℕ := fun _ _ => 0
/-- What rides beside the buffers through every item: the core's generator register at some state, and that it owes
    nothing. -/
abbrev rest (c : Dev nD) : sProp 𝕄 := iprop((∃ r, prngReg c r) ∗ ∃ W, owes (c : Thread nD τ) (0 : CellTallies nD τ sig Unit) W)
/-- A host stretch as a segment over the unscoped references from the contents `W`, `rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last valuation, the generator register
    at some state. -/
abbrev lastState (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its windows' arrays are
    split out of the unscoped buffers and put back at what the pipeline leaves; the generator register goes into the
    invariant and comes back; nothing is owed; the kernel has no semaphore of its own. -/
def region0 : Pipeline.RegionSeg (pcfgs (F := F)) adm (pdats m ρ) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lno lvno 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays are
    split out of the unscoped buffers and put back at what the pipeline leaves; the generator register goes into the
    invariant and comes back; nothing is owed; the kernel has no semaphore of its own. -/
def region1 : Pipeline.RegionSeg (pcfgs (F := F)) adm (pdats m ρ) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lno lvno 1 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its windows' arrays are
    split out of the unscoped buffers and put back at what the pipeline leaves; the generator register goes into the
    invariant and comes back; nothing is owed; the kernel has no semaphore of its own. -/
def region2 : Pipeline.RegionSeg (pcfgs (F := F)) adm (pdats m ρ) () defs₀ 𝒱₀ Lno lvno 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lno lvno 2 fun _ _ => rfl
  pre c := iprop(StableHlo.held (c : Thread nD τ) (Pipeline.ucRefs τ sig) (W5 m ρ c) ∗ rest c)
  post c := iprop(StableHlo.held (c : Thread nD τ) (Pipeline.ucRefs τ sig) (W6 m ρ c) ∗ rest c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its windows' arrays are
    split out of the unscoped buffers and put back at what the pipeline leaves; the generator register goes into the
    invariant and comes back; nothing is owed; the kernel has no semaphore of its own. -/
def region3 : Pipeline.RegionSeg (pcfgs (F := F)) adm (pdats m ρ) () defs₀ 𝒱₀ Lno lvno 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ Lno lvno 3 fun _ _ => rfl
  pre c := iprop(StableHlo.held (c : Thread nD τ) (Pipeline.ucRefs τ sig) (W7 m ρ c) ∗ rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 items in order. -/
abbrev items : List (Pipeline.Seg (pcfgs (F := F)) adm (pdats m ρ) () defs₀ 𝒱₀ Lno lvno) :=
  [
    .host (hostSeg hostOps0 hostOps0_sub hostOps0_fresh (W0 m ρ)),
    .region (region0 m ρ),
    .host (hostSeg hostOps1 hostOps1_sub hostOps1_fresh (W2 m ρ)),
    .region (region1 m ρ),
    .host (hostSeg hostOps2 hostOps2_sub hostOps2_fresh (W4 m ρ)),
    .region (region2 m ρ),
    .host (hostSeg hostOps3 hostOps3_sub hostOps3_fresh (W6 m ρ)),
    .region (region3 m ρ) ]

/-- @main is the run of the items. -/
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and at
    the end every unscoped buffer of every core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ Lno lvno m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME, at any `F`: @main runs to its end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c)⟩) (run_all m ρ)

/-- The result buffer at the end is what the last region's pipeline leaves in its output window's array. -/
theorem run_result : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v59 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c)⟩) (run_all m ρ)

end Cert.Kernel.Hand

end
-- ==== Proof.KI.Stats.lean ====
/-
  Region 0: the per-chunk channel statistics. The 65536 rows of the flattened activation are cut into 16 chunks of
  4096 rows; grid point `t` reads chunk `t` whole and writes one [1, 2, 128] block: row 0 the column sums of the chunk,
  row 1 the column sums of its squares. The block is a function of chunk `t` alone, so the region is a map over the
  chunks: nothing is carried from one point to the next.
-/
import proofs.«128858_g2000205668668362_pallasbulk_730_2_alg».proof.Proof.Gen.KernelIdeal.Launch
import proofs.«128858_g2000205668668362_pallasbulk_730_2_alg».proof.Proof.Gen.KernelIdeal.Skeleton
import proofs.«128858_g2000205668668362_pallasbulk_730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def chunk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds chunk `t` at point `t`, for any proof data whose array is the
    entry contents and whose body leaves the chunk in place. -/
theorem before0_0_of {c : Dev nD} (dat : Dat τ (Elt F) Unit ℕ (UR sig nD τ) ℕ cfg0 c) (hA : dat.A 0 = V c (Pipeline.arrRef spec0 0))
    (hafter : ∀ t, dat.after 0 t = chunk0 V c 0 t) (t : Fin cfg0.N) (d) : dat.before 0 t d = chunk0 V c 0 t :=
  (dat.before_in_eq_fetched 0 rfl (fun _ => rfl) (fun _ _ _ => rfl) (fun t => by rw [hafter]; unfold Dat.blockOf chunk0; rw [hA]; try rfl) t d).trans
    (by unfold Dat.fetched Dat.blockOf chunk0; rw [hA]; try rfl)

/-! ## What the body reads and writes -/

/-- The whole chunk. -/
abbrev wholeChunk : Rect S4096x128 := Rect.unit (s := S4096x128) ![0, 0] S4096x128.size inb_S4096x128_S4096x128_0_0
/-- The whole statistics block. -/
abbrev wholeStats : Rect S1x2x128 := Rect.unit (s := S1x2x128) ![0, 0, 0] S1x2x128.size inb_S1x2x128_S1x2x128_0_0_0

/-- The statistics block the body leaves, from the chunk: its one store, of the column sums and the column sums of
    squares stacked. -/
def statsOf (x0 : Vec F S4096x128 .f32) : Vec F S1x2x128 .f32 :=
  View.canon [⟨wholeStats, k0_pay1 (View.ld x0 wholeChunk)⟩]

/-- The one store writes the whole block. -/
theorem statsCover (p0 : Vec F S1x2x128 .f32) (y : S1x2x128.Idx) :
    ∃ pc ∈ ([⟨wholeStats, p0⟩] : List (View.Piece (Elt F) S1x2x128 .f32)), y ∈ pc.1.set :=
  View.cover_of_tiled [⟨wholeStats, p0⟩] S1x2x128.size (by rfl) y

/-! ## The body's triple -/

set_option maxHeartbeats 1000000 in
/-- The body on whole staging memrefs, the chunk's at contents `x0` and the block's at anything, runs to its return
    with the chunk's as it was and the block's at `statsOf x0`. -/
theorem stats_body (c : Dev nD) (E : Set ℕ) (i : grid0.Coords) (arg0 : Memref sig .tc .vmem S4096x128 .f32) (harg0 : arg0.IsWhole) (arg1 : Memref sig .tc .vmem S1x2x128 .f32) (harg1 : arg1.IsWhole)
    (x0 : Vec F S4096x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (statsOf x0)) -∗ K ⟨⟩))
      ⊢ wp frame (wpE (defs₀ (F := F)) Variants.none c none) E (cc0__stats_kernel i arg0 harg0 arg1 harg1) K := by
  simp only [cc0__stats_kernel_eq_skeleton]; unfold cc0__stats_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (statsCover _)

/-! ## The proof data -/

/-- Pipeline 0's proof data on core `c`: the arrays as the region finds them; after the body at point `t` the input's
    buffer at chunk `t` and the output's at that chunk's statistics; the invariant leaves every other scoped buffer and the
    generator register alone; nothing owed; full shares. -/
def dat0 (c : Dev nD) : Dat τ (Elt F) Unit ℕ (UR sig nD τ) ℕ cfg0 c where
  A w := V c (Pipeline.arrRef spec0 w)
  after w t := match w with
    | ⟨0, _⟩ => chunk0 V c 0 t
    | ⟨1, _⟩ => statsOf (chunk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = chunk0 V c 0 t := by dsimp only [dat0]
theorem after0_1 (c : Dev nD) (t : Fin cfg0.N) : (dat0 V c).after 1 t = statsOf (chunk0 V c 0 t) := by dsimp only [dat0]

theorem before0_0 (c : Dev nD) (t : Fin cfg0.N) (d) : (dat0 V c).before 0 t d = chunk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds chunk `t`, so `stats_body` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (stats_body c Set.univ _ _ _ _ _ (chunk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Padded.lean ====
/-
  The conv body's scratch. Each grid point first re-zeroes the one-pixel halo of the [34, 34, 128] scratch and then writes the
  image into its interior. Two of the halo stores and the interior store are narrower than the words they touch, so each
  reads a wider rectangle back, replaces part of it and stores the whole: columns 0–1 with column 0 zeroed, columns 32–33
  with column 33 zeroed, rows 1–32 with columns 1–32 set to the image. What such a store writes back outside the part it
  replaces is what the earlier stores left there — and that is always a zero of the halo, never the buffer's earlier
  contents: column 1 of rows 0 and 33 was zeroed by the row stores, column 32 of those rows likewise, and columns 0 and 33
  of rows 1–32 by the two column stores. So after the five stores the buffer is the zero-padded image at every index,
  whatever it held when the grid point began.
-/
import proofs.«128858_g2000205668668362_pallasbulk_730_2_alg».proof.Proof.Gen.KernelIdeal.Launch
import proofs.«128858_g2000205668668362_pallasbulk_730_2_alg».proof.Proof.Gen.KernelIdeal.Skeleton
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-- Inside its window an `updateSlice` whose update is constant gives that constant. -/
theorem updateSlice_of_in {α : Type} {s u : Shape} (old : s.Idx → α) (upd : u.Idx → α) (start : Fin s.rank → Nat) (h : s.Slices start u)
    (y : s.Idx) (z : α) (hz : ∀ x, upd x = z)
    (hin : ∀ a : Fin s.rank, start a ≤ (y a).val ∧ (y a).val < start a + u.size (a.cast h.1.symm)) :
    updateSlice old upd start h y = z := by
  unfold updateSlice; rw [dif_pos hin]; exact hz _

/-- Outside its window an `updateSlice` gives the background. -/
theorem updateSlice_of_out {α : Type} {s u : Shape} (old : s.Idx → α) (upd : u.Idx → α) (start : Fin s.rank → Nat) (h : s.Slices start u)
    (y : s.Idx) (hout : ¬ ∀ a : Fin s.rank, start a ≤ (y a).val ∧ (y a).val < start a + u.size (a.cast h.1.symm)) :
    updateSlice old upd start h y = old y := by
  unfold updateSlice; rw [dif_neg hout]

/-- Two `updateSlice`s with the same update agree at an index where their backgrounds agree outside the window. -/
theorem updateSlice_congr_old {α : Type} {s u : Shape} (old old' : s.Idx → α) (upd : u.Idx → α) (start : Fin s.rank → Nat) (h : s.Slices start u)
    (y : s.Idx)
    (hout : (¬ ∀ a : Fin s.rank, start a ≤ (y a).val ∧ (y a).val < start a + u.size (a.cast h.1.symm)) → old y = old' y) :
    updateSlice old upd start h y = updateSlice old' upd start h y := by
  unfold updateSlice
  by_cases hc : ∀ a : Fin s.rank, start a ≤ (y a).val ∧ (y a).val < start a + u.size (a.cast h.1.symm)
  · rw [dif_pos hc, dif_pos hc]
  · rw [dif_neg hc, dif_neg hc]; exact hout hc

/-- Outside its window on one axis an `updateSlice` gives the background. -/
theorem updateSlice_of_out_axis {α : Type} {s u : Shape} (old : s.Idx → α) (upd : u.Idx → α) (start : Fin s.rank → Nat) (h : s.Slices start u)
    (y : s.Idx) (a : Fin s.rank) (ha : (y a).val < start a ∨ start a + u.size (a.cast h.1.symm) ≤ (y a).val) :
    updateSlice old upd start h y = old y :=
  updateSlice_of_out old upd start h y (fun hall => by have := hall a; omega)

section UnitRect

variable {s : Shape} {e : EltTy} {Val : EltTy → Type} [∀ e, Nonempty (Val e)]

/-- An index inside a unit-stride rectangle, in the rectangle's own coordinates: each coordinate less the offset. -/
def localIdx (off size : Fin s.rank → Nat) (inb : ∀ a, off a + size a ≤ s.size a) (y : s.Idx)
    (hy : ∀ a, off a ≤ (y a).val ∧ (y a).val < off a + size a) : (Rect.unit (s := s) off size inb).shape.Idx :=
  fun a => ⟨(y a).val - off a, by have := hy a; show (y a).val - off a < size a; omega⟩

theorem localIdx_val (off size : Fin s.rank → Nat) (inb) (y : s.Idx) (hy) (a : Fin s.rank) :
    (localIdx off size inb y hy a).val = (y a).val - off a := rfl

/-- The local coordinates embed back to the index. -/
theorem emb_localIdx (off size : Fin s.rank → Nat) (inb) (y : s.Idx) (hy) :
    (Rect.unit (s := s) off size inb).emb (localIdx off size inb y hy) = y := by
  funext a
  apply Fin.ext
  rw [Rect.emb_apply, Rect.off_unit, Rect.stride_unit, localIdx_val]
  have := hy a
  omega

/-- Under the last store, at an index inside its rectangle, the contents are the store's payload at the local
    coordinates. -/
theorem canon_unit_hit (off size : Fin s.rank → Nat) (inb) (w : (Rect.unit (s := s) off size inb).shape.Idx → Val e)
    (L : List (View.Piece Val s e)) (y : s.Idx) (hy : ∀ a, off a ≤ (y a).val ∧ (y a).val < off a + size a) :
    View.canon (⟨Rect.unit (s := s) off size inb, w⟩ :: L) y = w (localIdx off size inb y hy) := by
  have h := View.canon_cons_emb (Rect.unit (s := s) off size inb) w L (localIdx off size inb y hy)
  rw [emb_localIdx] at h
  exact h

/-- At an index outside the last store's rectangle on some axis, the contents are what the earlier stores left. -/
theorem canon_unit_miss (off size : Fin s.rank → Nat) (inb) (w : (Rect.unit (s := s) off size inb).shape.Idx → Val e)
    (L : List (View.Piece Val s e)) (y : s.Idx) (a : Fin s.rank) (h : (y a).val < off a ∨ off a + size a ≤ (y a).val) :
    View.canon (⟨Rect.unit (s := s) off size inb, w⟩ :: L) y = View.canon L y :=
  View.canon_cons_of_not_mem _ L (fun hm => by
    have := (Rect.mem_set_unit (off := off) (size := size) (inb := inb)).mp hm a
    omega)

/-- An index whose coordinates lie in the rectangle's intervals is in its element set. -/
theorem mem_unit_of (off size : Fin s.rank → Nat) (inb) (y : s.Idx) (hy : ∀ a, off a ≤ (y a).val ∧ (y a).val < off a + size a) :
    y ∈ (Rect.unit (s := s) off size inb).set := Rect.mem_set_unit.mpr hy

end UnitRect

/-- A property of the three axes, axis by axis. -/
theorem all3 {P : Fin 3 → Prop} (h0 : P ⟨0, by omega⟩) (h1 : P ⟨1, by omega⟩) (h2 : P ⟨2, by omega⟩) : ∀ a, P a
  | ⟨0, _⟩ => h0
  | ⟨1, _⟩ => h1
  | ⟨2, _⟩ => h2

section Padded

open ValueIdx (ix3)

variable {κ : Kind} {sp : Space} (v : View sig κ sp S34x34x128 .bf16) (f : v.ty.Contents (Elt F))
  (z : Elt F .bf16)
  (p1 p2 : S1x34x128.Idx → Elt F .bf16) (p3 p4 : S34x1x128.Idx → Elt F .bf16)
  (a : S32x32x128.Idx → Elt F .bf16)

abbrev rRow0 : Rect S34x34x128 := Rect.unit (s := S34x34x128) ![0, 0, 0] S1x34x128.size inb_S34x34x128_S1x34x128_0_0_0
abbrev rRow33 : Rect S34x34x128 := Rect.unit (s := S34x34x128) ![33, 0, 0] S1x34x128.size inb_S34x34x128_S1x34x128_33_0_0
abbrev rCol0 : Rect S34x34x128 := Rect.unit (s := S34x34x128) ![0, 0, 0] S34x2x128.size inb_S34x34x128_S34x2x128_0_0_0
abbrev rCol32 : Rect S34x34x128 := Rect.unit (s := S34x34x128) ![0, 32, 0] S34x2x128.size inb_S34x34x128_S34x2x128_0_32_0
abbrev rRows : Rect S34x34x128 := Rect.unit (s := S34x34x128) ![1, 0, 0] S32x34x128.size inb_S34x34x128_S32x34x128_1_0_0
abbrev rAll : Rect S34x34x128 := Rect.unit (s := S34x34x128) ![0, 0, 0] S34x34x128.size inb_S34x34x128_S34x34x128_0_0_0

/-- Rows 0 and 33 stored whole. -/
def rowsL : List (View.Piece (Elt F) S34x34x128 .bf16) :=
  [⟨rRow33, p2⟩, ⟨rRow0, p1⟩]

/-- Then columns 0–1 read back and stored with column 0 replaced. -/
def col0L : List (View.Piece (Elt F) S34x34x128 .bf16) :=
  ⟨rCol0, updateSlice (v.readAt (Elt F) rCol0.toLoadRect (v.writes (Elt F) f (rowsL p1 p2))) p3 ![0, 0, 0] slices_S34x2x128_S34x1x128_0_0_0⟩ :: rowsL p1 p2

/-- Then columns 32–33 read back and stored with column 33 replaced. -/
def col33L : List (View.Piece (Elt F) S34x34x128 .bf16) :=
  ⟨rCol32, updateSlice (v.readAt (Elt F) rCol32.toLoadRect (v.writes (Elt F) f (col0L v f p1 p2 p3))) p4 ![0, 1, 0] slices_S34x2x128_S34x1x128_0_1_0⟩ :: col0L v f p1 p2 p3

/-- Then rows 1–32 read back and stored with columns 1–32 replaced by the image. -/
def interiorL : List (View.Piece (Elt F) S34x34x128 .bf16) :=
  ⟨rRows, updateSlice (v.readAt (Elt F) rRows.toLoadRect (v.writes (Elt F) f (col33L v f p1 p2 p3 p4))) a ![0, 1, 0] slices_S32x34x128_S32x32x128_0_1_0⟩ :: col33L v f p1 p2 p3 p4

/-- The zero-padded image: zero everywhere, then the image stored at rows 1–32, columns 1–32. Nothing of the buffer's
    earlier contents is in it. -/
def paddedL : List (View.Piece (Elt F) S34x34x128 .bf16) :=
  [⟨rRows, updateSlice (fun _ => z) a ![0, 1, 0] slices_S32x34x128_S32x32x128_0_1_0⟩, ⟨rAll, fun _ => z⟩]

variable (h1 : ∀ x, p1 x = z) (h2 : ∀ x, p2 x = z) (h3 : ∀ x, p3 x = z) (h4 : ∀ x, p4 x = z)

/-- Every index's coordinates are inside the buffer. -/
theorem in_all (i j : Fin 34) (k : Fin 128) :
    ∀ a : Fin S34x34x128.rank, (![0, 0, 0] : Fin 3 → Nat) a ≤ ((ix3 i j k : S34x34x128.Idx) a).val ∧ ((ix3 i j k : S34x34x128.Idx) a).val < (![0, 0, 0] : Fin 3 → Nat) a + S34x34x128.size a :=
  all3 (by show 0 ≤ i.val ∧ i.val < 0 + 34; omega) (by show 0 ≤ j.val ∧ j.val < 0 + 34; omega) (by show 0 ≤ k.val ∧ k.val < 0 + 128; omega)

include h1 h2 in
/-- After the two row stores, rows 0 and 33 are covered and hold zero. -/
theorem rows_zero (i j : Fin 34) (k : Fin 128) (hy : i.val = 0 ∨ i.val = 33) :
    (∃ p ∈ rowsL p1 p2, ix3 i j k ∈ p.1.set) ∧ View.canon (rowsL p1 p2) (ix3 i j k) = z := by
  have bj := j.isLt
  have bk := k.isLt
  rcases hy with hy | hy
  · have hin : ∀ a : Fin S34x34x128.rank, (![0, 0, 0] : Fin 3 → Nat) a ≤ ((ix3 i j k : S34x34x128.Idx) a).val ∧ ((ix3 i j k : S34x34x128.Idx) a).val < (![0, 0, 0] : Fin 3 → Nat) a + S1x34x128.size a :=
      all3 (by show 0 ≤ i.val ∧ i.val < 0 + 1; omega) (by show 0 ≤ j.val ∧ j.val < 0 + 34; omega) (by show 0 ≤ k.val ∧ k.val < 0 + 128; omega)
    refine ⟨⟨⟨rRow0, p1⟩, List.mem_cons_of_mem _ List.mem_cons_self, mem_unit_of _ _ inb_S34x34x128_S1x34x128_0_0_0 _ hin⟩, ?_⟩
    unfold rowsL
    rw [canon_unit_miss _ _ inb_S34x34x128_S1x34x128_33_0_0 _ _ _ (⟨0, by decide⟩ : Fin S34x34x128.rank) (Or.inl (by show i.val < 33; omega)),
      canon_unit_hit _ _ inb_S34x34x128_S1x34x128_0_0_0 _ _ _ hin]
    exact h1 _
  · have hin : ∀ a : Fin S34x34x128.rank, (![33, 0, 0] : Fin 3 → Nat) a ≤ ((ix3 i j k : S34x34x128.Idx) a).val ∧ ((ix3 i j k : S34x34x128.Idx) a).val < (![33, 0, 0] : Fin 3 → Nat) a + S1x34x128.size a :=
      all3 (by show 33 ≤ i.val ∧ i.val < 33 + 1; omega) (by show 0 ≤ j.val ∧ j.val < 0 + 34; omega) (by show 0 ≤ k.val ∧ k.val < 0 + 128; omega)
    refine ⟨⟨⟨rRow33, p2⟩, List.mem_cons_self, mem_unit_of _ _ inb_S34x34x128_S1x34x128_33_0_0 _ hin⟩, ?_⟩
    unfold rowsL
    rw [canon_unit_hit _ _ inb_S34x34x128_S1x34x128_33_0_0 _ _ _ hin]
    exact h2 _

include h1 h2 h3 in
/-- After the first column store, rows 0 and 33 and column 0 are covered and hold zero. -/
theorem col0_zero (i j : Fin 34) (k : Fin 128) (hy : i.val = 0 ∨ i.val = 33 ∨ j.val = 0) :
    (∃ p ∈ col0L v f p1 p2 p3, ix3 i j k ∈ p.1.set) ∧ View.canon (col0L v f p1 p2 p3) (ix3 i j k) = z := by
  have bi := i.isLt
  have bk := k.isLt
  by_cases hj : j.val < 2
  · -- inside columns 0–1
    have hin : ∀ a : Fin S34x34x128.rank, (![0, 0, 0] : Fin 3 → Nat) a ≤ ((ix3 i j k : S34x34x128.Idx) a).val ∧ ((ix3 i j k : S34x34x128.Idx) a).val < (![0, 0, 0] : Fin 3 → Nat) a + S34x2x128.size a :=
      all3 (by show 0 ≤ i.val ∧ i.val < 0 + 34; omega) (by show 0 ≤ j.val ∧ j.val < 0 + 2; omega) (by show 0 ≤ k.val ∧ k.val < 0 + 128; omega)
    refine ⟨⟨⟨rCol0, _⟩, List.mem_cons_self, mem_unit_of _ _ inb_S34x34x128_S34x2x128_0_0_0 _ hin⟩, ?_⟩
    unfold col0L
    rw [canon_unit_hit _ _ inb_S34x34x128_S34x2x128_0_0_0 _ _ _ hin]
    by_cases hj0 : j.val = 0
    · refine updateSlice_of_in _ _ _ _ _ z h3 ?_
      exact all3 (by show 0 ≤ i.val - 0 ∧ i.val - 0 < 0 + 34; omega) (by show 0 ≤ j.val - 0 ∧ j.val - 0 < 0 + 1; omega) (by show 0 ≤ k.val - 0 ∧ k.val - 0 < 0 + 128; omega)
    · have hi : i.val = 0 ∨ i.val = 33 := by omega
      rw [updateSlice_of_out_axis _ _ _ _ _ (⟨1, by decide⟩ : Fin 3) (Or.inr (by show 0 + 1 ≤ j.val - 0; omega))]
      rw [View.readAt_apply]
      have hidx : (rCol0 : Rect S34x34x128).toLoadRect.idx (localIdx _ _ inb_S34x34x128_S34x2x128_0_0_0 (ix3 i j k) hin) = ix3 i j k :=
        emb_localIdx _ _ inb_S34x34x128_S34x2x128_0_0_0 _ hin
      rw [hidx]
      obtain ⟨hc, hz⟩ := rows_zero z p1 p2 h1 h2 i j k hi
      rw [View.read_writes_apply_eq_canon v f _ _ hc]
      exact hz
  · -- right of columns 0–1: what the row stores left
    have hi : i.val = 0 ∨ i.val = 33 := by omega
    obtain ⟨⟨p, hp, hm⟩, hz⟩ := rows_zero z p1 p2 h1 h2 i j k hi
    refine ⟨⟨p, List.mem_cons_of_mem _ hp, hm⟩, ?_⟩
    unfold col0L
    rw [canon_unit_miss _ _ inb_S34x34x128_S34x2x128_0_0_0 _ _ _ (⟨1, by decide⟩ : Fin S34x34x128.rank) (Or.inr (by show 0 + 2 ≤ j.val; omega))]
    exact hz

include h1 h2 h3 h4 in
/-- After the second column store, rows 0 and 33 and columns 0 and 33 — the whole halo — are covered and hold zero. -/
theorem halo_zero (i j : Fin 34) (k : Fin 128) (hy : i.val = 0 ∨ i.val = 33 ∨ j.val = 0 ∨ j.val = 33) :
    (∃ p ∈ col33L v f p1 p2 p3 p4, ix3 i j k ∈ p.1.set) ∧ View.canon (col33L v f p1 p2 p3 p4) (ix3 i j k) = z := by
  have bi := i.isLt
  have bj := j.isLt
  have bk := k.isLt
  by_cases hj : 32 ≤ j.val
  · -- inside columns 32–33
    have hin : ∀ a : Fin S34x34x128.rank, (![0, 32, 0] : Fin 3 → Nat) a ≤ ((ix3 i j k : S34x34x128.Idx) a).val ∧ ((ix3 i j k : S34x34x128.Idx) a).val < (![0, 32, 0] : Fin 3 → Nat) a + S34x2x128.size a :=
      all3 (by show 0 ≤ i.val ∧ i.val < 0 + 34; omega) (by show 32 ≤ j.val ∧ j.val < 32 + 2; omega) (by show 0 ≤ k.val ∧ k.val < 0 + 128; omega)
    refine ⟨⟨⟨rCol32, _⟩, List.mem_cons_self, mem_unit_of _ _ inb_S34x34x128_S34x2x128_0_32_0 _ hin⟩, ?_⟩
    unfold col33L
    rw [canon_unit_hit _ _ inb_S34x34x128_S34x2x128_0_32_0 _ _ _ hin]
    by_cases hj33 : j.val = 33
    · refine updateSlice_of_in _ _ _ _ _ z h4 ?_
      exact all3 (by show 0 ≤ i.val - 0 ∧ i.val - 0 < 0 + 34; omega) (by show 1 ≤ j.val - 32 ∧ j.val - 32 < 1 + 1; omega) (by show 0 ≤ k.val - 0 ∧ k.val - 0 < 0 + 128; omega)
    · have hi : i.val = 0 ∨ i.val = 33 ∨ j.val = 0 := by omega
      rw [updateSlice_of_out_axis _ _ _ _ _ (⟨1, by decide⟩ : Fin 3) (Or.inl (by show j.val - 32 < 1; omega))]
      rw [View.readAt_apply]
      have hidx : (rCol32 : Rect S34x34x128).toLoadRect.idx (localIdx _ _ inb_S34x34x128_S34x2x128_0_32_0 (ix3 i j k) hin) = ix3 i j k :=
        emb_localIdx _ _ inb_S34x34x128_S34x2x128_0_32_0 _ hin
      rw [hidx]
      obtain ⟨hc, hz⟩ := col0_zero v f z p1 p2 p3 h1 h2 h3 i j k hi
      rw [View.read_writes_apply_eq_canon v f _ _ hc]
      exact hz
  · -- left of columns 32–33: what the earlier stores left
    have hi : i.val = 0 ∨ i.val = 33 ∨ j.val = 0 := by omega
    obtain ⟨⟨p, hp, hm⟩, hz⟩ := col0_zero v f z p1 p2 p3 h1 h2 h3 i j k hi
    refine ⟨⟨p, List.mem_cons_of_mem _ hp, hm⟩, ?_⟩
    unfold col33L
    rw [canon_unit_miss _ _ inb_S34x34x128_S34x2x128_0_32_0 _ _ _ (⟨1, by decide⟩ : Fin S34x34x128.rank) (Or.inl (by show j.val < 32; omega))]
    exact hz

include h1 h2 h3 h4 in
/-- THE PADDED SCRATCH. After the five stores the buffer reads as the zero-padded image at every index, whatever it held
    before: on rows 1–32 the last store's columns 1–32 are the image and its columns 0 and 33 re-store the halo's zeros;
    rows 0 and 33 are the halo's zeros. -/
theorem interior_eq_padded (i j : Fin 34) (k : Fin 128) :
    View.canon (interiorL v f p1 p2 p3 p4 a) (ix3 i j k) = View.canon (paddedL z a) (ix3 i j k) := by
  have bi := i.isLt
  have bj := j.isLt
  have bk := k.isLt
  unfold interiorL paddedL
  by_cases hi : 1 ≤ i.val ∧ i.val ≤ 32
  · have hin : ∀ a : Fin S34x34x128.rank, (![1, 0, 0] : Fin 3 → Nat) a ≤ ((ix3 i j k : S34x34x128.Idx) a).val ∧ ((ix3 i j k : S34x34x128.Idx) a).val < (![1, 0, 0] : Fin 3 → Nat) a + S32x34x128.size a :=
      all3 (by show 1 ≤ i.val ∧ i.val < 1 + 32; omega) (by show 0 ≤ j.val ∧ j.val < 0 + 34; omega) (by show 0 ≤ k.val ∧ k.val < 0 + 128; omega)
    rw [canon_unit_hit _ _ inb_S34x34x128_S32x34x128_1_0_0 _ _ _ hin, canon_unit_hit _ _ inb_S34x34x128_S32x34x128_1_0_0 _ _ _ hin]
    refine updateSlice_congr_old _ _ _ _ _ _ (fun hc => ?_)
    have hj : j.val = 0 ∨ j.val = 33 := by
      by_contra hne
      exact hc (all3 (by show 0 ≤ i.val - 1 ∧ i.val - 1 < 0 + 32; omega) (by show 1 ≤ j.val - 0 ∧ j.val - 0 < 1 + 32; omega) (by show 0 ≤ k.val - 0 ∧ k.val - 0 < 0 + 128; omega))
    rw [View.readAt_apply]
    have hidx : (rRows : Rect S34x34x128).toLoadRect.idx (localIdx _ _ inb_S34x34x128_S32x34x128_1_0_0 (ix3 i j k) hin) = ix3 i j k :=
      emb_localIdx _ _ inb_S34x34x128_S32x34x128_1_0_0 _ hin
    rw [hidx]
    obtain ⟨hc', hz⟩ := halo_zero v f z p1 p2 p3 p4 h1 h2 h3 h4 i j k (by omega)
    rw [View.read_writes_apply_eq_canon v f _ _ hc']
    exact hz
  · have hi' : i.val = 0 ∨ i.val = 33 := by omega
    have hmiss : ((ix3 i j k : S34x34x128.Idx) (⟨0, by decide⟩ : Fin S34x34x128.rank)).val < (![1, 0, 0] : Fin 3 → Nat) (⟨0, by decide⟩ : Fin S34x34x128.rank) ∨ (![1, 0, 0] : Fin 3 → Nat) (⟨0, by decide⟩ : Fin S34x34x128.rank) + S32x34x128.size (⟨0, by decide⟩ : Fin S34x34x128.rank) ≤ ((ix3 i j k : S34x34x128.Idx) (⟨0, by decide⟩ : Fin S34x34x128.rank)).val := by
      show i.val < 1 ∨ 1 + 32 ≤ i.val; omega
    rw [canon_unit_miss _ _ inb_S34x34x128_S32x34x128_1_0_0 _ _ _ _ hmiss, canon_unit_miss _ _ inb_S34x34x128_S32x34x128_1_0_0 _ _ _ _ hmiss,
      canon_unit_hit _ _ inb_S34x34x128_S34x34x128_0_0_0 _ _ _ (in_all i j k)]
    exact (halo_zero v f z p1 p2 p3 p4 h1 h2 h3 h4 i j k (by omega)).2

include h1 h2 h3 h4 in
/-- The same as functions of the index. -/
theorem interior_eq_padded' : View.canon (interiorL v f p1 p2 p3 p4 a) = View.canon (paddedL z a) := by
  funext y
  rw [ValueIdx.eq_ix3 y]
  exact interior_eq_padded v f z p1 p2 p3 p4 a h1 h2 h3 h4 _ _ _

end Padded

end Cert.KernelIdeal.Hand

end
-- ==== Proof.KI.Conv1.lean ====
/-
  Region 1: the first 3×3 convolution. Grid point `t` is image `t`. The body applies the folded batch-norm affine to the
  image block, writes the result into the interior of a [34, 34, 128] scratch whose one-pixel halo it has just zeroed, reads the
  padded image back, gathers its nine shifted [32, 32, 128] windows side by side into a [1024, 1152] matrix and multiplies by the
  [1152, 128] weights. It stores that product as the image's output block and, beside it, the column sums of the product and of
  its squares. Both blocks depend on image `t` and the three parameter arrays alone: the scratch is rewritten at every point and
  nothing of its earlier contents survives (Padded.lean), so the region is a map over the images.
-/
import proofs.«128858_g2000205668668362_pallasbulk_730_2_alg».proof.Proof.Gen.KernelIdeal.Launch
import proofs.«128858_g2000205668668362_pallasbulk_730_2_alg».proof.Proof.Gen.KernelIdeal.Skeleton
import proofs.«128858_g2000205668668362_pallasbulk_730_2_alg».proof.Proof.Gen.KernelIdeal.Points
import proofs.«128858_g2000205668668362_pallasbulk_730_2_alg».proof.Proof.KI.Padded
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point — fetched there, or (the three parameter
    windows, whose block never moves) left from the first point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes of the staged windows: every access is a whole block -/

abbrev whole1_0 : Rect S1x32x32x128 := Rect.unit (s := S1x32x32x128) ![0, 0, 0, 0] S1x32x32x128.size inb_S1x32x32x128_S1x32x32x128_0_0_0_0
abbrev whole1_1 : Rect S1x128 := Rect.unit (s := S1x128) ![0, 0] S1x128.size inb_S1x128_S1x128_0_0
abbrev whole1_2 : Rect S1x128 := Rect.unit (s := S1x128) ![0, 0] S1x128.size inb_S1x128_S1x128_0_0
abbrev whole1_3 : Rect S1152x128 := Rect.unit (s := S1152x128) ![0, 0] S1152x128.size inb_S1152x128_S1152x128_0_0
abbrev whole1_4 : Rect S1x32x32x128 := Rect.unit (s := S1x32x32x128) ![0, 0, 0, 0] S1x32x32x128.size inb_S1x32x32x128_S1x32x32x128_0_0_0_0
abbrev whole1_5 : Rect S1x2x128 := Rect.unit (s := S1x2x128) ![0, 0, 0] S1x2x128.size inb_S1x2x128_S1x2x128_0_0_0

/-! ## The halo's zero -/

/-- The zero the halo stores write. -/
def halo0_1 : Elt F .bf16 := (Scalar.ofBits .bf16 0x0000#16 : F .bf16)

theorem row0_zero_1 (x : S1x34x128.Idx) : (k1_pay5 : FVec F S1x34x128 .bf16) x = halo0_1 := by
  unfold k1_pay5; rw [shapeCast_self]; rfl
theorem row33_zero_1 (x : S1x34x128.Idx) : (k1_pay6 : FVec F S1x34x128 .bf16) x = halo0_1 := by
  unfold k1_pay6; rw [shapeCast_self]; rfl
theorem col0_zero_1' (x : S34x1x128.Idx) : (k1_pay7 : FVec F S34x1x128 .bf16) x = halo0_1 := by
  unfold k1_pay7; rw [shapeCast_self]; rfl
theorem col33_zero_1' (x : S34x1x128.Idx) : (k1_pay8 : FVec F S34x1x128 .bf16) x = halo0_1 := by
  unfold k1_pay8; rw [shapeCast_self]; rfl

/-! ## What the body computes -/

/-- The image after the affine, as the interior store writes it. -/
def imgOf_1 (x0 : Vec F S1x32x32x128 .f32) (x1 : Vec F S1x128 .f32) (x2 : Vec F S1x128 .f32) : S32x32x128.Idx → Elt F .bf16 :=
  k1_pay1 (k1_pay9 (View.ld x0 whole1_0) (View.ld x1 whole1_1) (View.ld x2 whole1_2))

/-- The whole scratch as the body reads it back: the zero-padded image. -/
def paddedOf_1 (x0 : Vec F S1x32x32x128 .f32) (x1 : Vec F S1x128 .f32) (x2 : Vec F S1x128 .f32) : Vec F S34x34x128 .bf16 :=
  View.ld (View.canon (paddedL halo0_1 (imgOf_1 x0 x1 x2))) rAll

/-- The output image block: the product, re-laid as [1, 32, 32, 128]. -/
def convOf_1 (x0 : Vec F S1x32x32x128 .f32) (x1 : Vec F S1x128 .f32) (x2 : Vec F S1x128 .f32) (x3 : Vec F S1152x128 .bf16) : Vec F S1x32x32x128 .bf16 :=
  View.canon [⟨whole1_4, k1_pay4 (paddedOf_1 x0 x1 x2) (View.ld x3 whole1_3)⟩]

/-- The statistics block: the product's column sums and the column sums of its squares. -/
def convStatsOf_1 (x0 : Vec F S1x32x32x128 .f32) (x1 : Vec F S1x128 .f32) (x2 : Vec F S1x128 .f32) (x3 : Vec F S1152x128 .bf16) : Vec F S1x2x128 .f32 :=
  View.canon [⟨whole1_5, k1_pay3 (paddedOf_1 x0 x1 x2) (View.ld x3 whole1_3)⟩]

theorem convCover_1 (p0 : Vec F S1x32x32x128 .bf16) (y : S1x32x32x128.Idx) :
    ∃ pc ∈ ([⟨whole1_4, p0⟩] : List (View.Piece (Elt F) S1x32x32x128 .bf16)), y ∈ pc.1.set :=
  View.cover_of_tiled [⟨whole1_4, p0⟩] S1x32x32x128.size (by rfl) y

theorem convStatsCover_1 (p0 : Vec F S1x2x128 .f32) (y : S1x2x128.Idx) :
    ∃ pc ∈ ([⟨whole1_5, p0⟩] : List (View.Piece (Elt F) S1x2x128 .f32)), y ∈ pc.1.set :=
  View.cover_of_tiled [⟨whole1_5, p0⟩] S1x2x128.size (by rfl) y

/-- What the body loads of the whole scratch after its five stores is the zero-padded image, whatever the scratch held. -/
theorem scratch_load_1 {κ : Kind} {sp : Space} (v : View sig κ sp S34x34x128 .bf16) (f7 : v.ty.Contents (Elt F))
    (x0 : Vec F S1x32x32x128 .f32) (x1 : Vec F S1x128 .f32) (x2 : Vec F S1x128 .f32) :
    v.readCov (interiorL v f7 k1_pay5 k1_pay6 k1_pay7 k1_pay8 (imgOf_1 x0 x1 x2)) rAll.toLoadRect = paddedOf_1 x0 x1 x2 := by
  rw [View.readCov_eq_canon']
  unfold paddedOf_1
  rw [interior_eq_padded' v f7 halo0_1 _ _ _ _ _ row0_zero_1 row33_zero_1 col0_zero_1' col33_zero_1']

/-! ## The body's triple -/

set_option maxHeartbeats 4000000 in
/-- The body on whole memrefs — the inputs' at contents `xW`, the two outputs' and the scratch at anything — runs to its
    return with the inputs' as they were, the outputs' at `convOf_1` and `convStatsOf_1` of the inputs, the scratch at something. -/
theorem conv_body_1 (c : Dev nD) (E : Set ℕ) (i : grid1.Coords) (arg0 : Memref sig .tc .vmem S1x32x32x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1152x128 .bf16) (harg3 : arg3.IsWhole) (arg4 : Memref sig .tc .vmem S1x32x32x128 .bf16) (harg4 : arg4.IsWhole) (arg5 : Memref sig .tc .vmem S1x2x128 .f32) (harg5 : arg5.IsWhole)
    (arg6 : Memref sig .tc .vmem S34x34x128 .bf16) (harg6 : arg6.IsWhole)
    (x0 : Vec F S1x32x32x128 .f32) (x1 : Vec F S1x128 .f32) (x2 : Vec F S1x128 .f32) (x3 : Vec F S1152x128 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (convOf_1 x0 x1 x2 x3) ∗ owns (c : Thread nD τ) arg5 fullShare (convStatsOf_1 x0 x1 x2 x3)
            ∗ (∃ d, owns (c : Thread nD τ) arg6 fullShare d)) -∗ K ⟨⟩))
      ⊢ wp frame (wpE (defs₀ (F := F)) Variants.none c none) E (cc1__conv_kernel i arg0 harg0 arg1 harg1 arg2 harg2 arg3 harg3 arg4 harg4 arg5 harg5 arg6 harg6) K := by
  simp only [cc1__conv_kernel_eq_skeleton]; unfold cc1__conv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (convCover_1 _)]
    unfold convOf_1
    rw [← scratch_load_1 arg6.view f6]
    rfl
  isplitl [H5]
  · iexists _; isplitr
    swap; · iexact H5
    ipureintro
    sl_unfold_run_names
    rw [View.read_writes_eq_canon _ _ _ (convStatsCover_1 _)]
    unfold convStatsOf_1
    rw [← scratch_load_1 arg6.view f6]
    rfl
  iexists _; iexists _; isplitr
  swap; · iexact H6
  ipureintro; rfl

/-! ## The proof data -/

/-- Pipeline 1's proof data on core `c`: the arrays as the region finds them; after the body at point `t` each input's
    buffer at its block and the two outputs' at `convOf_1` / `convStatsOf_1` of the input blocks; the invariant holds every
    scoped buffer no window stages — the scratch among them — at SOME contents, and the generator register; nothing owed;
    full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => convOf_1 (blk1 V c 0 t) (blk1 V c 1 t) (blk1 V c 2 t) (blk1 V c 3 t)
    | ⟨5, _⟩ => convStatsOf_1 (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = convOf_1 (blk1 V c 0 t) (blk1 V c 1 t) (blk1 V c 2 t) (blk1 V c 3 t) := by dsimp only [dat1]
theorem after1_5 (c : Dev nD) (t : Fin cfg1.N) : (dat1 V c).after 5 t = convStatsOf_1 (blk1 V c 0 t) (blk1 V c 1 t) (blk1 V c 2 t) (blk1 V c 3 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: each input's memref holds its block; the scratch is taken out of the invariant at whatever it
    holds, handed to the body, and put back at whatever the body leaves; the rest of the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5]
  unfold Pipeline.ΦA
  rw [scopedRest1_split]
  iintro ⟨⟨⟨⟨%f6, H6⟩, Hrest⟩, Hp⟩, Ho, ⟨%d0, H0⟩, ⟨%d1, H1⟩, ⟨%d2, H2⟩, ⟨%d3, H3⟩, ⟨%d4, H4⟩, ⟨%d5, H5⟩⟩
  iapply (conv_body_1 c Set.univ _ _ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]
  · iexists f6; rw [owns_whole (c : Thread nD τ) cc1_scratch0 fullShare f6]; iexact H6
  iintro ⟨H0, H1, H2, H3, H4, H5, ⟨%g6, H6⟩⟩
  isplitl [H6 Hrest Hp]
  · isplitl [H6 Hrest]
    · isplitl [H6]
      · iexists g6; rw [← owns_whole (c : Thread nD τ) cc1_scratch0 fullShare g6]; iexact H6
      iexact Hrest
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Conv2.lean ====
/-
  Region 2: the second 3×3 convolution. Grid point `t` is image `t`. The body applies the folded batch-norm affine and the SiLU to the
  image block, writes the result into the interior of a [34, 34, 128] scratch whose one-pixel halo it has just zeroed, reads the
  padded image back, gathers its nine shifted [32, 32, 128] windows side by side into a [1024, 1152] matrix and multiplies by the
  [1152, 128] weights. It stores that product as the image's output block and, beside it, the column sums of the product and of
  its squares. Both blocks depend on image `t` and the three parameter arrays alone: the scratch is rewritten at every point and
  nothing of its earlier contents survives (Padded.lean), so the region is a map over the images.
-/
import proofs.«128858_g2000205668668362_pallasbulk_730_2_alg».proof.Proof.Gen.KernelIdeal.Launch
import proofs.«128858_g2000205668668362_pallasbulk_730_2_alg».proof.Proof.Gen.KernelIdeal.Skeleton
import proofs.«128858_g2000205668668362_pallasbulk_730_2_alg».proof.Proof.Gen.KernelIdeal.Points
import proofs.«128858_g2000205668668362_pallasbulk_730_2_alg».proof.Proof.KI.Padded
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point — fetched there, or (the three parameter
    windows, whose block never moves) left from the first point. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes of the staged windows: every access is a whole block -/

abbrev whole2_0 : Rect S1x32x32x128 := Rect.unit (s := S1x32x32x128) ![0, 0, 0, 0] S1x32x32x128.size inb_S1x32x32x128_S1x32x32x128_0_0_0_0
abbrev whole2_1 : Rect S1x128 := Rect.unit (s := S1x128) ![0, 0] S1x128.size inb_S1x128_S1x128_0_0
abbrev whole2_2 : Rect S1x128 := Rect.unit (s := S1x128) ![0, 0] S1x128.size inb_S1x128_S1x128_0_0
abbrev whole2_3 : Rect S1152x128 := Rect.unit (s := S1152x128) ![0, 0] S1152x128.size inb_S1152x128_S1152x128_0_0
abbrev whole2_4 : Rect S1x32x32x128 := Rect.unit (s := S1x32x32x128) ![0, 0, 0, 0] S1x32x32x128.size inb_S1x32x32x128_S1x32x32x128_0_0_0_0
abbrev whole2_5 : Rect S1x2x128 := Rect.unit (s := S1x2x128) ![0, 0, 0] S1x2x128.size inb_S1x2x128_S1x2x128_0_0_0

/-! ## The halo's zero -/

/-- The zero the halo stores write. -/
def halo0_2 : Elt F .bf16 := (Scalar.ofBits .bf16 0x0000#16 : F .bf16)

theorem row0_zero_2 (x : S1x34x128.Idx) : (k2_pay3 : FVec F S1x34x128 .bf16) x = halo0_2 := by
  unfold k2_pay3; rw [shapeCast_self]; rfl
theorem row33_zero_2 (x : S1x34x128.Idx) : (k2_pay4 : FVec F S1x34x128 .bf16) x = halo0_2 := by
  unfold k2_pay4; rw [shapeCast_self]; rfl
theorem col0_zero_2' (x : S34x1x128.Idx) : (k2_pay5 : FVec F S34x1x128 .bf16) x = halo0_2 := by
  unfold k2_pay5; rw [shapeCast_self]; rfl
theorem col33_zero_2' (x : S34x1x128.Idx) : ((k2_pay6 (Scalar.ofBits .bf16 0x0000#16)) : FVec F S34x1x128 .bf16) x = halo0_2 := by
  unfold k2_pay6; rw [shapeCast_self]; rfl

/-! ## What the body computes -/

/-- The image after the affine and the SiLU, as the interior store writes it. -/
def imgOf_2 (x0 : Vec F S1x32x32x128 .bf16) (x1 : Vec F S1x128 .f32) (x2 : Vec F S1x128 .f32) : S32x32x128.Idx → Elt F .bf16 :=
  k2_pay7 (k2_pay2 (View.ld x0 whole2_0) (View.ld x1 whole2_1) (View.ld x2 whole2_2))

/-- The whole scratch as the body reads it back: the zero-padded image. -/
def paddedOf_2 (x0 : Vec F S1x32x32x128 .bf16) (x1 : Vec F S1x128 .f32) (x2 : Vec F S1x128 .f32) : Vec F S34x34x128 .bf16 :=
  View.ld (View.canon (paddedL halo0_2 (imgOf_2 x0 x1 x2))) rAll

/-- The output image block: the product, re-laid as [1, 32, 32, 128]. -/
def convOf_2 (x0 : Vec F S1x32x32x128 .bf16) (x1 : Vec F S1x128 .f32) (x2 : Vec F S1x128 .f32) (x3 : Vec F S1152x128 .bf16) : Vec F S1x32x32x128 .bf16 :=
  View.canon [⟨whole2_4, k2_pay1 (k2_pay8 (paddedOf_2 x0 x1 x2) (View.ld x3 whole2_3))⟩]

/-- The statistics block: the product's column sums and the column sums of its squares. -/
def convStatsOf_2 (x0 : Vec F S1x32x32x128 .bf16) (x1 : Vec F S1x128 .f32) (x2 : Vec F S1x128 .f32) (x3 : Vec F S1152x128 .bf16) : Vec F S1x2x128 .f32 :=
  View.canon [⟨whole2_5, k2_pay9 (paddedOf_2 x0 x1 x2) (View.ld x3 whole2_3)⟩]

theorem convCover_2 (p0 : Vec F S1x32x32x128 .bf16) (y : S1x32x32x128.Idx) :
    ∃ pc ∈ ([⟨whole2_4, p0⟩] : List (View.Piece (Elt F) S1x32x32x128 .bf16)), y ∈ pc.1.set :=
  View.cover_of_tiled [⟨whole2_4, p0⟩] S1x32x32x128.size (by rfl) y

theorem convStatsCover_2 (p0 : Vec F S1x2x128 .f32) (y : S1x2x128.Idx) :
    ∃ pc ∈ ([⟨whole2_5, p0⟩] : List (View.Piece (Elt F) S1x2x128 .f32)), y ∈ pc.1.set :=
  View.cover_of_tiled [⟨whole2_5, p0⟩] S1x2x128.size (by rfl) y

/-- What the body loads of the whole scratch after its five stores is the zero-padded image, whatever the scratch held. -/
theorem scratch_load_2 {κ : Kind} {sp : Space} (v : View sig κ sp S34x34x128 .bf16) (f7 : v.ty.Contents (Elt F))
    (x0 : Vec F S1x32x32x128 .bf16) (x1 : Vec F S1x128 .f32) (x2 : Vec F S1x128 .f32) :
    v.readCov (interiorL v f7 k2_pay3 k2_pay4 k2_pay5 (k2_pay6 (Scalar.ofBits .bf16 0x0000#16)) (imgOf_2 x0 x1 x2)) rAll.toLoadRect = paddedOf_2 x0 x1 x2 := by
  rw [View.readCov_eq_canon']
  unfold paddedOf_2
  rw [interior_eq_padded' v f7 halo0_2 _ _ _ _ _ row0_zero_2 row33_zero_2 col0_zero_2' col33_zero_2']

/-! ## The body's triple -/

set_option maxHeartbeats 4000000 in
/-- The body on whole memrefs — the inputs' at contents `xW`, the two outputs' and the scratch at anything — runs to its
    return with the inputs' as they were, the outputs' at `convOf_2` and `convStatsOf_2` of the inputs, the scratch at something. -/
theorem conv_body_2 (c : Dev nD) (E : Set ℕ) (i : grid2.Coords) (arg0 : Memref sig .tc .vmem S1x32x32x128 .bf16) (harg0 : arg0.IsWhole) (arg1 : Memref sig .tc .vmem S1x128 .f32) (harg1 : arg1.IsWhole) (arg2 : Memref sig .tc .vmem S1x128 .f32) (harg2 : arg2.IsWhole) (arg3 : Memref sig .tc .vmem S1152x128 .bf16) (harg3 : arg3.IsWhole) (arg4 : Memref sig .tc .vmem S1x32x32x128 .bf16) (harg4 : arg4.IsWhole) (arg5 : Memref sig .tc .vmem S1x2x128 .f32) (harg5 : arg5.IsWhole)
    (arg6 : Memref sig .tc .vmem S34x34x128 .bf16) (harg6 : arg6.IsWhole)
    (x0 : Vec F S1x32x32x128 .bf16) (x1 : Vec F S1x128 .f32) (x2 : Vec F S1x128 .f32) (x3 : Vec F S1152x128 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (convOf_2 x0 x1 x2 x3) ∗ owns (c : Thread nD τ) arg5 fullShare (convStatsOf_2 x0 x1 x2 x3)
            ∗ (∃ d, owns (c : Thread nD τ) arg6 fullShare d)) -∗ K ⟨⟩))
      ⊢ wp frame (wpE (defs₀ (F := F)) Variants.none c none) E (cc2__conv_kernel i arg0 harg0 arg1 harg1 arg2 harg2 arg3 harg3 arg4 harg4 arg5 harg5 arg6 harg6) K := by
  simp only [cc2__conv_kernel_eq_skeleton]; unfold cc2__conv_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (convCover_2 _)]
    unfold convOf_2
    rw [← scratch_load_2 arg6.view f6]
    rfl
  isplitl [H5]
  · iexists _; isplitr
    swap; · iexact H5
    ipureintro
    sl_unfold_run_names
    rw [View.read_writes_eq_canon _ _ _ (convStatsCover_2 _)]
    unfold convStatsOf_2
    rw [← scratch_load_2 arg6.view f6]
    rfl
  iexists _; iexists _; isplitr
  swap; · iexact H6
  ipureintro; rfl

/-! ## The proof data -/

/-- Pipeline 2's proof data on core `c`: the arrays as the region finds them; after the body at point `t` each input's
    buffer at its block and the two outputs' at `convOf_2` / `convStatsOf_2` of the input blocks; the invariant holds every
    scoped buffer no window stages — the scratch among them — at SOME contents, and the generator register; nothing owed;
    full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => convOf_2 (blk2 V c 0 t) (blk2 V c 1 t) (blk2 V c 2 t) (blk2 V c 3 t)
    | ⟨5, _⟩ => convStatsOf_2 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = convOf_2 (blk2 V c 0 t) (blk2 V c 1 t) (blk2 V c 2 t) (blk2 V c 3 t) := by dsimp only [dat2]
theorem after2_5 (c : Dev nD) (t : Fin cfg2.N) : (dat2 V c).after 5 t = convStatsOf_2 (blk2 V c 0 t) (blk2 V c 1 t) (blk2 V c 2 t) (blk2 V c 3 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: each input's memref holds its block; the scratch is taken out of the invariant at whatever it
    holds, handed to the body, and put back at whatever the body leaves; the rest of the invariant and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl,
    after2_0, after2_1, after2_2, after2_3, after2_4, after2_5]
  unfold Pipeline.ΦA
  rw [scopedRest2_split]
  iintro ⟨⟨⟨⟨%f6, H6⟩, Hrest⟩, Hp⟩, Ho, ⟨%d0, H0⟩, ⟨%d1, H1⟩, ⟨%d2, H2⟩, ⟨%d3, H3⟩, ⟨%d4, H4⟩, ⟨%d5, H5⟩⟩
  iapply (conv_body_2 c Set.univ _ _ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]
  · iexists f6; rw [owns_whole (c : Thread nD τ) cc2_scratch0 fullShare f6]; iexact H6
  iintro ⟨H0, H1, H2, H3, H4, H5, ⟨%g6, H6⟩⟩
  isplitl [H6 Hrest Hp]
  · isplitl [H6 Hrest]
    · isplitl [H6]
      · iexists g6; rw [← owns_whole (c : Thread nD τ) cc2_scratch0 fullShare g6]; iexact H6
      iexact Hrest
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Gate.lean ====
/-
  Region 3: the squeeze-and-excitation gate and the residual. Grid point `t` is image `t`. The body reads the image's
  conv output and the image itself (one [1, 32, 32, 128] block each) and six small parameter arrays whole, and writes the
  image's output block: with z = y · scale + shift (per channel) and g the gate computed from the channel means of z
  through the two small dense layers, the block is silu(z · g + x). The block depends on image `t` alone, so the region
  is a map over the images.
-/
import proofs.«128858_g2000205668668362_pallasbulk_730_2_alg».proof.Proof.Gen.KernelIdeal.Launch
import proofs.«128858_g2000205668668362_pallasbulk_730_2_alg».proof.Proof.Gen.KernelIdeal.Skeleton
import proofs.«128858_g2000205668668362_pallasbulk_730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point — fetched there, or (the six parameter
    windows, whose block never moves) left from the first point — for any proof data whose array is the entry contents
    and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = blk3 V c 7 t) (t : Fin cfg3.N) (d) : dat.before 7 t d = blk3 V c 7 t :=
  (dat.before_in_eq_fetched 7 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes: every access is a whole block -/

abbrev whole3_0 : Rect S1x32x32x128 := Rect.unit (s := S1x32x32x128) ![0, 0, 0, 0] S1x32x32x128.size inb_S1x32x32x128_S1x32x32x128_0_0_0_0
abbrev whole3_1 : Rect S1x32x32x128 := Rect.unit (s := S1x32x32x128) ![0, 0, 0, 0] S1x32x32x128.size inb_S1x32x32x128_S1x32x32x128_0_0_0_0
abbrev whole3_2 : Rect S1x128 := Rect.unit (s := S1x128) ![0, 0] S1x128.size inb_S1x128_S1x128_0_0
abbrev whole3_3 : Rect S1x128 := Rect.unit (s := S1x128) ![0, 0] S1x128.size inb_S1x128_S1x128_0_0
abbrev whole3_4 : Rect S128x8 := Rect.unit (s := S128x8) ![0, 0] S128x8.size inb_S128x8_S128x8_0_0
abbrev whole3_5 : Rect S1x8 := Rect.unit (s := S1x8) ![0, 0] S1x8.size inb_S1x8_S1x8_0_0
abbrev whole3_6 : Rect S8x128 := Rect.unit (s := S8x128) ![0, 0] S8x128.size inb_S8x128_S8x128_0_0
abbrev whole3_7 : Rect S1x128 := Rect.unit (s := S1x128) ![0, 0] S1x128.size inb_S1x128_S1x128_0_0
abbrev whole3_8 : Rect S1x32x32x128 := Rect.unit (s := S1x32x32x128) ![0, 0, 0, 0] S1x32x32x128.size inb_S1x32x32x128_S1x32x32x128_0_0_0_0

/-- The output block the body leaves, from the eight input blocks: its one store. -/
def gatedOf (x0 : Vec F S1x32x32x128 .bf16) (x1 : Vec F S1x32x32x128 .f32) (x2 : Vec F S1x128 .f32) (x3 : Vec F S1x128 .f32) (x4 : Vec F S128x8 .f32) (x5 : Vec F S1x8 .f32) (x6 : Vec F S8x128 .f32) (x7 : Vec F S1x128 .f32) : Vec F S1x32x32x128 .f32 :=
  View.canon [⟨whole3_8, k3_pay1 (k3_pay2 (View.ld x0 whole3_0) (View.ld x2 whole3_2) (View.ld x3 whole3_3)) (k3_pay3 (View.ld x0 whole3_0) (View.ld x2 whole3_2) (View.ld x3 whole3_3) (View.ld x4 whole3_4) (View.ld x5 whole3_5) (View.ld x6 whole3_6) (View.ld x7 whole3_7)) (View.ld x1 whole3_1)⟩]

/-- The one store writes the whole block. -/
theorem gatedCover (p0 : Vec F S1x32x32x128 .f32) (y : S1x32x32x128.Idx) :
    ∃ pc ∈ ([⟨whole3_8, p0⟩] : List (View.Piece (Elt F) S1x32x32x128 .f32)), y ∈ pc.1.set :=
  View.cover_of_tiled [⟨whole3_8, p0⟩] S1x32x32x128.size (by rfl) y

/-! ## The body's triple -/

set_option maxHeartbeats 4000000 in
/-- The body on whole staging memrefs, the inputs' at contents `xW` and the output's at anything, runs to its return
    with the inputs' as they were and the output's at `gatedOf` of the inputs. -/
theorem gate_body (c : Dev nD) (E : Set ℕ) (i : grid3.Coords) (arg0 : Memref sig .tc .vmem S1x32x32x128 .bf16) (harg0 : arg0.IsWhole) (arg1 : Memref sig .tc .vmem S1x32x32x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x8 .f32) (harg4 : arg4.IsWhole) (arg5 : Memref sig .tc .vmem S1x8 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x32x32x128 .f32) (harg8 : arg8.IsWhole)
    (x0 : Vec F S1x32x32x128 .bf16) (x1 : Vec F S1x32x32x128 .f32) (x2 : Vec F S1x128 .f32) (x3 : Vec F S1x128 .f32) (x4 : Vec F S128x8 .f32) (x5 : Vec F S1x8 .f32) (x6 : Vec F S8x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (gatedOf x0 x1 x2 x3 x4 x5 x6 x7)) -∗ K ⟨⟩))
      ⊢ wp frame (wpE (defs₀ (F := F)) Variants.none c none) E (cc3__bn_se_residual_kernel i arg0 harg0 arg1 harg1 arg2 harg2 arg3 harg3 arg4 harg4 arg5 harg5 arg6 harg6 arg7 harg7 arg8 harg8) K := by
  simp only [cc3__bn_se_residual_kernel_eq_skeleton]; unfold cc3__bn_se_residual_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (gatedCover _)

/-! ## The proof data -/

/-- Pipeline 3's proof data on core `c`: the arrays as the region finds them; after the body at point `t` each input's
    buffer at its block and the output's at `gatedOf` of the input blocks; the invariant leaves every other scoped buffer
    and the generator register alone; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => gatedOf (blk3 V c 0 t) (blk3 V c 1 t) (blk3 V c 2 t) (blk3 V c 3 t) (blk3 V c 4 t) (blk3 V c 5 t) (blk3 V c 6 t) (blk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = gatedOf (blk3 V c 0 t) (blk3 V c 1 t) (blk3 V c 2 t) (blk3 V c 3 t) (blk3 V c 4 t) (blk3 V c 5 t) (blk3 V c 6 t) (blk3 V c 7 t) := by dsimp only [dat3]

theorem before3_0 (c : Dev nD) (t : Fin cfg3.N) (d) : (dat3 V c).before 0 t d = blk3 V c 0 t :=
  before3_0_of V (dat3 V c) (A_eq3 V c 0) (after3_0 V c) t d
theorem before3_1 (c : Dev nD) (t : Fin cfg3.N) (d) : (dat3 V c).before 1 t d = blk3 V c 1 t :=
  before3_1_of V (dat3 V c) (A_eq3 V c 1) (after3_1 V c) t d
theorem before3_2 (c : Dev nD) (t : Fin cfg3.N) (d) : (dat3 V c).before 2 t d = blk3 V c 2 t :=
  before3_2_of V (dat3 V c) (A_eq3 V c 2) (after3_2 V c) t d
theorem before3_3 (c : Dev nD) (t : Fin cfg3.N) (d) : (dat3 V c).before 3 t d = blk3 V c 3 t :=
  before3_3_of V (dat3 V c) (A_eq3 V c 3) (after3_3 V c) t d
theorem before3_4 (c : Dev nD) (t : Fin cfg3.N) (d) : (dat3 V c).before 4 t d = blk3 V c 4 t :=
  before3_4_of V (dat3 V c) (A_eq3 V c 4) (after3_4 V c) t d
theorem before3_5 (c : Dev nD) (t : Fin cfg3.N) (d) : (dat3 V c).before 5 t d = blk3 V c 5 t :=
  before3_5_of V (dat3 V c) (A_eq3 V c 5) (after3_5 V c) t d
theorem before3_6 (c : Dev nD) (t : Fin cfg3.N) (d) : (dat3 V c).before 6 t d = blk3 V c 6 t :=
  before3_6_of V (dat3 V c) (A_eq3 V c 6) (after3_6 V c) t d
theorem before3_7 (c : Dev nD) (t : Fin cfg3.N) (d) : (dat3 V c).before 7 t d = blk3 V c 7 t :=
  before3_7_of V (dat3 V c) (A_eq3 V c 7) (after3_7 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 1000000 in
/-- The body at any point: each input's memref holds its block, so `gate_body` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_body c Set.univ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole run. @main is four stretches of host operations, each followed by one kernel region. Between two items every
  unscoped buffer of a core is held at a known valuation: the launch memory, then each host stretch applied to it
  (`StableHlo.after`), then at each region's exit its windows' arrays at what its pipeline leaves (an input array as
  entered; an output array with every grid point's block written back) and every other buffer as entered. The four
  regions' records are stated over these thread states; the library's several-region launch theorem then gives: every weakly
  fair execution of @main terminates, without a fault, and at the end every unscoped buffer holds the last valuation's
  contents. No host stretch writes an argument and no region has an argument among its outputs, so the last valuation
  at an argument is the launch memory; at the result buffer it is what region 3's pipeline leaves.
-/
import proofs.«128858_g2000205668668362_pallasbulk_730_2_alg».proof.Proof.KI.Stats
import proofs.«128858_g2000205668668362_pallasbulk_730_2_alg».proof.Proof.KI.Conv1
import proofs.«128858_g2000205668668362_pallasbulk_730_2_alg».proof.Proof.KI.Conv2
import proofs.«128858_g2000205668668362_pallasbulk_730_2_alg».proof.Proof.KI.Gate
import proofs.«128858_g2000205668668362_pallasbulk_730_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: what region 0 is entered from. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1`: what region 1 is entered from. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- At region 1's exit: its arrays at what the pipeline leaves (the inputs as entered, each output's write-backs folded),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2`: what region 2 is entered from. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- At region 2's exit: its arrays at what the pipeline leaves (the inputs as entered, each output's write-backs folded),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After `hostOps3`: what region 3 is entered from. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- At region 3's exit: its arrays at what the pipeline leaves (the inputs as entered, each output's write-backs folded),
    every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-! ## The arguments end as launched -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := (W8_arr m ρ c 1).trans (((dat3 (U7 m ρ) c).arrAt_in 1 rfl _).trans (A_eq3 (U7 m ρ) c 1))
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := (W8_arr m ρ c 4).trans (((dat3 (U7 m ρ) c).arrAt_in 4 rfl _).trans (A_eq3 (U7 m ρ) c 4))
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := (W8_arr m ρ c 5).trans (((dat3 (U7 m ρ) c).arrAt_in 5 rfl _).trans (A_eq3 (U7 m ρ) c 5))
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := (W8_arr m ρ c 6).trans (((dat3 (U7 m ρ) c).arrAt_in 6 rfl _).trans (A_eq3 (U7 m ρ) c 6))
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := (W8_arr m ρ c 7).trans (((dat3 (U7 m ρ) c).arrAt_in 7 rfl _).trans (A_eq3 (U7 m ρ) c 7))
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev Lno : GSem nD τ sig → Finset Unit := fun _ => ∅
abbrev lvno : GSem nD τ sig → Unit → ℕ := fun _ _ => 0
/-- What rides beside the buffers through every item: the core's generator register at some state, and that it owes
    nothing. -/
abbrev rest (c : Dev nD) : sProp 𝕄 := iprop((∃ r, prngReg c r) ∗ ∃ W, owes (c : Thread nD τ) (0 : CellTallies nD τ sig Unit) W)
/-- A host stretch as a segment over the unscoped references from the contents `W`, `rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last valuation, the generator register
    at some state. -/
abbrev lastState (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its windows' arrays are
    split out of the unscoped buffers and put back at what the pipeline leaves; the generator register goes into the
    invariant and comes back; nothing is owed; the kernel has no semaphore of its own. -/
def region0 : Pipeline.RegionSeg (pcfgs (F := F)) adm (pdats m ρ) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lno lvno 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays are
    split out of the unscoped buffers and put back at what the pipeline leaves; the generator register goes into the
    invariant and comes back; nothing is owed; the kernel has no semaphore of its own. -/
def region1 : Pipeline.RegionSeg (pcfgs (F := F)) adm (pdats m ρ) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lno lvno 1 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its windows' arrays are
    split out of the unscoped buffers and put back at what the pipeline leaves; the generator register goes into the
    invariant and comes back; nothing is owed; the kernel has no semaphore of its own. -/
def region2 : Pipeline.RegionSeg (pcfgs (F := F)) adm (pdats m ρ) () defs₀ 𝒱₀ Lno lvno 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lno lvno 2 fun _ _ => rfl
  pre c := iprop(StableHlo.held (c : Thread nD τ) (Pipeline.ucRefs τ sig) (W5 m ρ c) ∗ rest c)
  post c := iprop(StableHlo.held (c : Thread nD τ) (Pipeline.ucRefs τ sig) (W6 m ρ c) ∗ rest c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its windows' arrays are
    split out of the unscoped buffers and put back at what the pipeline leaves; the generator register goes into the
    invariant and comes back; nothing is owed; the kernel has no semaphore of its own. -/
def region3 : Pipeline.RegionSeg (pcfgs (F := F)) adm (pdats m ρ) () defs₀ 𝒱₀ Lno lvno 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ Lno lvno 3 fun _ _ => rfl
  pre c := iprop(StableHlo.held (c : Thread nD τ) (Pipeline.ucRefs τ sig) (W7 m ρ c) ∗ rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 items in order. -/
abbrev items : List (Pipeline.Seg (pcfgs (F := F)) adm (pdats m ρ) () defs₀ 𝒱₀ Lno lvno) :=
  [
    .host (hostSeg hostOps0 hostOps0_sub hostOps0_fresh (W0 m ρ)),
    .region (region0 m ρ),
    .host (hostSeg hostOps1 hostOps1_sub hostOps1_fresh (W2 m ρ)),
    .region (region1 m ρ),
    .host (hostSeg hostOps2 hostOps2_sub hostOps2_fresh (W4 m ρ)),
    .region (region2 m ρ),
    .host (hostSeg hostOps3 hostOps3_sub hostOps3_fresh (W6 m ρ)),
    .region (region3 m ρ) ]

/-- @main is the run of the items. -/
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and at
    the end every unscoped buffer of every core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ Lno lvno m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME, at any `F`: @main runs to its end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c)⟩) (run_all m ρ)

/-- The result buffer at the end is what the last region's pipeline leaves in its output window's array. -/
theorem run_result : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v59 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c)⟩) (run_all m ρ)

end Cert.KernelIdeal.Hand

end
-- ==== Proof.RI.Stats.lean ====
/-
  Region 0: the channel statistics as a running total. The 65536 rows of the flattened activation are cut into 512
  tiles of 128 rows; grid point `t` reads tile `t` and adds to the one [2, 128] block — row 0 the column sums of the
  tile, row 1 the column sums of its squares — after clearing that block at the first point. The block is the same
  at every point and is written back only after the last, so what it holds after point `t` is the total over the
  tiles `0 .. t`: a recursion on `t`, with two control cases (the first point, which clears; every later point,
  which continues from what the point before left).
-/
import proofs.«128858_g2000205668668362_pallasbulk_730_2_alg».proof.Proof.Gen.ReferenceIdeal.Launch
import proofs.«128858_g2000205668668362_pallasbulk_730_2_alg».proof.Proof.Gen.ReferenceIdeal.Skeleton
import proofs.«128858_g2000205668668362_pallasbulk_730_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds tile `t` at point `t`, for any proof data whose array is the
    entry contents and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-! ## The body's one branch -/

/-- The condition of the body's `if`: the grid coordinate is zero. -/
abbrev atFirst (i : grid0.Coords) : Prop := (Scalar.cmpi .ne (Scalar.extui (Scalar.cmpi .eq (BitVec.ofNat 32 (i 0).val) 0#32)) 0#32) = 1#1
/-- It holds at the first point only. -/
theorem atFirst_iff : ∀ t : Fin cfg0.N, atFirst (grid0.coords t) ↔ t.val % 512 = 0 :=
  (by decide +kernel : ∀ t : Fin grid0.N, atFirst (grid0.coords t) ↔ t.val % 512 = 0)

/-- The statistics block's one staging buffer, through which its contents are stated. -/
abbrev statsView : View sig .tc .vmem S2x128 .f32 := (Memref.whole cc0_stg1_0 : Memref sig .tc .vmem S2x128 .f32).view

/-! ## The body's triple, case by case -/

set_option maxHeartbeats 1000000 in
/-- At the first point: the body on whole staging memrefs, the tile's at contents `x0` and the block's at anything, runs
    to its return with the tile's as it was and the block's with the pieces of its two stores written (the cleared block,
    then the tile's statistics added to it). The list of pieces is part of what is stated: each store's rectangle with
    the value it stores, the last store first. -/
noncomputable def runFirst (c : Dev nD) (i : grid0.Coords) (arg1 : Memref sig .tc .vmem S128x128 .f32) (harg1 : arg1.IsWhole) (arg2 : Memref sig .tc .vmem S2x128 .f32) (harg2 : arg2.IsWhole) (hc0 : atFirst i)
    (x0 : Vec F S128x128 .f32) :
    { L1 : List (View.Piece (Elt F) S2x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_channel_stats_kernel i arg1 harg1 arg2 harg2) K } := by
  refine ⟨?_, fun E K => ?run⟩
  case run =>
    simp only [cc0_channel_stats_kernel_eq_skeleton]; unfold cc0_channel_stats_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- At a later point: the same, the block's memref at its running contents `xo1`, which the body reads and adds to. -/
noncomputable def runLater (c : Dev nD) (i : grid0.Coords) (arg1 : Memref sig .tc .vmem S128x128 .f32) (harg1 : arg1.IsWhole) (arg2 : Memref sig .tc .vmem S2x128 .f32) (harg2 : arg2.IsWhole) (hc0 : ¬atFirst i)
    (x0 : Vec F S128x128 .f32) (xo1 : Vec F S2x128 .f32) :
    { L1 : List (View.Piece (Elt F) S2x128 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_channel_stats_kernel i arg1 harg1 arg2 harg2) K } := by
  refine ⟨?_, fun E K => ?run⟩
  case run =>
    simp only [cc0_channel_stats_kernel_eq_skeleton]; unfold cc0_channel_stats_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

/-! ## What each case leaves in the block -/

/-- The first point's pieces tile the block (each of its two stores writes all of it), so they cover it. -/
theorem coverFirst (c : Dev nD) (i : grid0.Coords) (arg1 : Memref sig .tc .vmem S128x128 .f32) (harg1 : arg1.IsWhole) (arg2 : Memref sig .tc .vmem S2x128 .f32) (harg2 : arg2.IsWhole) (hc0 : atFirst i)
    (x0 : Vec F S128x128 .f32) (y : S2x128.Idx) :
    ∃ pc ∈ (runFirst c i arg1 harg1 arg2 harg2 hc0 x0).1, y ∈ pc.1.set :=
  View.cover_of_tiledL (runFirst c i arg1 harg1 arg2 harg2 hc0 x0).1 S2x128.size (by sl_kernel_rfl) y

/-- What the first point leaves in the block: its pieces read back. -/
def totalFirst (c : Dev nD) (i : grid0.Coords) (arg1 : Memref sig .tc .vmem S128x128 .f32) (harg1 : arg1.IsWhole) (arg2 : Memref sig .tc .vmem S2x128 .f32) (harg2 : arg2.IsWhole) (hc0 : atFirst i)
    (x0 : Vec F S128x128 .f32) : Vec F S2x128 .f32 :=
  statsView.read (Elt F) (statsView.writes (Elt F) statsView.junk (runFirst c i arg1 harg1 arg2 harg2 hc0 x0).1)

/-- A later point's one store writes all of the block. -/
theorem coverLater (c : Dev nD) (i : grid0.Coords) (arg1 : Memref sig .tc .vmem S128x128 .f32) (harg1 : arg1.IsWhole) (arg2 : Memref sig .tc .vmem S2x128 .f32) (harg2 : arg2.IsWhole) (hc0 : ¬atFirst i)
    (x0 : Vec F S128x128 .f32) (xo1 : Vec F S2x128 .f32) (y : S2x128.Idx) :
    ∃ pc ∈ (runLater c i arg1 harg1 arg2 harg2 hc0 x0 xo1).1, y ∈ pc.1.set :=
  View.cover_of_tiledL (runLater c i arg1 harg1 arg2 harg2 hc0 x0 xo1).1 S2x128.size (by sl_kernel_rfl) y

/-- What a later point leaves in the block, from what it found there: its piece read back. -/
def totalLater (c : Dev nD) (i : grid0.Coords) (arg1 : Memref sig .tc .vmem S128x128 .f32) (harg1 : arg1.IsWhole) (arg2 : Memref sig .tc .vmem S2x128 .f32) (harg2 : arg2.IsWhole) (hc0 : ¬atFirst i)
    (x0 : Vec F S128x128 .f32) (xo1 : Vec F S2x128 .f32) : Vec F S2x128 .f32 :=
  statsView.read (Elt F) (statsView.writes (Elt F) statsView.junk (runLater c i arg1 harg1 arg2 harg2 hc0 x0 xo1).1)

/-! ## The running total, point by point -/

/-- THE RECURSION. What the block holds after the body at position `n`: at the first point what that case leaves from
    tile 0; at a later one what that case leaves from tile `n` over what position `n - 1` left. -/
def runningTotal (c : Dev nD) : (n : ℕ) → n < cfg0.N → Vec F S2x128 .f32
  | 0, hn => totalFirst c (grid0.coords ⟨0, hn⟩) (st0_0 ⟨0, hn⟩) (hstage0_0 ((cfg0.slots ⟨0, hn⟩ 0).cast nbuf0_0)) (st0_1 ⟨0, hn⟩) (hstage0_1 ((cfg0.slots ⟨0, hn⟩ 1).cast nbuf0_1)) ((atFirst_iff ⟨0, hn⟩).mpr (Nat.zero_mod _)) (tile0 V c 0 ⟨0, hn⟩)
  | n + 1, hn =>
    if h0 : (n + 1) % 512 = 0 then
      totalFirst c (grid0.coords ⟨n + 1, hn⟩) (st0_0 ⟨n + 1, hn⟩) (hstage0_0 ((cfg0.slots ⟨n + 1, hn⟩ 0).cast nbuf0_0)) (st0_1 ⟨n + 1, hn⟩) (hstage0_1 ((cfg0.slots ⟨n + 1, hn⟩ 1).cast nbuf0_1)) ((atFirst_iff ⟨n + 1, hn⟩).mpr h0) (tile0 V c 0 ⟨n + 1, hn⟩)
    else
      totalLater c (grid0.coords ⟨n + 1, hn⟩) (st0_0 ⟨n + 1, hn⟩) (hstage0_0 ((cfg0.slots ⟨n + 1, hn⟩ 0).cast nbuf0_0)) (st0_1 ⟨n + 1, hn⟩) (hstage0_1 ((cfg0.slots ⟨n + 1, hn⟩ 1).cast nbuf0_1)) (fun h => h0 ((atFirst_iff ⟨n + 1, hn⟩).mp h)) (tile0 V c 0 ⟨n + 1, hn⟩) (runningTotal c n (Nat.lt_of_succ_lt hn))

/-- At the first point. -/
theorem runningTotal_first (c : Dev nD) (t : Fin cfg0.N) (h0 : t.val % 512 = 0) :
    runningTotal V c t.val t.isLt = totalFirst c (grid0.coords t) (st0_0 t) (hstage0_0 ((cfg0.slots t 0).cast nbuf0_0)) (st0_1 t) (hstage0_1 ((cfg0.slots t 1).cast nbuf0_1)) ((atFirst_iff t).mpr h0) (tile0 V c 0 t) := by
  obtain ⟨n, hn⟩ := t
  cases n with
  | zero => exact rfl
  | succ n => exact (dif_pos h0).trans rfl

/-- At a later point: over what the point before left. -/
theorem runningTotal_later (c : Dev nD) (t : Fin cfg0.N) (h0 : ¬t.val % 512 = 0) :
    runningTotal V c t.val t.isLt = totalLater c (grid0.coords t) (st0_0 t) (hstage0_0 ((cfg0.slots t 0).cast nbuf0_0)) (st0_1 t) (hstage0_1 ((cfg0.slots t 1).cast nbuf0_1)) (fun h => h0 ((atFirst_iff t).mp h)) (tile0 V c 0 t) (runningTotal V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- Pipeline 0's proof data on core `c`: the arrays as the region finds them; after the body at point `t` the input's
    buffer at tile `t` and the block's at the running total through tile `t`; the invariant leaves every other scoped
    buffer and the generator register alone; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => runningTotal V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = runningTotal V c t.val t.isLt := by dsimp only [dat0]

theorem before0_0 (c : Dev nD) (t : Fin cfg0.N) (d) : (dat0 V c).before 0 t d = tile0 V c 0 t :=
  before0_0_of V (dat0 V c) (A_eq0 V c 0) (after0_0 V c) t d

/-- At a later point the block's staging buffer holds what the body left at the point before: the point is not the
    first, and the block is written back after the last point only. -/
theorem before0_1_later (c : Dev nD) (t : Fin cfg0.N) (h0 : ¬t.val % 512 = 0) (d) :
    (dat0 V c).before 1 t d = runningTotal V c (t.val - 1) (Nat.lt_of_le_of_lt (Nat.sub_le _ _) t.isLt) := by
  have hN : t.val < 512 := lt_of_lt_of_eq t.isLt (show cfg0.N = 512 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds tile `t`; the closed form of the condition says which case the point
    is in, and at a later point the block's memref holds what the point before left; so that case's run applies. The
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 512 := lt_of_lt_of_eq t.isLt (show cfg0.N = 512 from N_0)
  by_cases h0 : t.val % 512 = 0
  · rw [runningTotal_first V c t h0]
    unfold totalFirst
    iintro ⟨HΦ, Ho, ⟨%d0, H0⟩, ⟨%d1, H1⟩⟩
    iapply ((runFirst c (grid0.coords t) _ _ _ _ ((atFirst_iff t).mpr h0) (tile0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _)
  · rw [runningTotal_later V c t h0]
    simp only [before0_1_later V c t h0]
    unfold totalLater
    iintro ⟨HΦ, Ho, ⟨%d0, H0⟩, ⟨%d1, H1⟩⟩
    iapply ((runLater c (grid0.coords t) _ _ _ _ (fun h => h0 ((atFirst_iff t).mp h)) (tile0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverLater c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RI.Conv1.lean ====
/-
  Region 1: the first 3×3 convolution. Grid point `t` is image `t`. The body applies the folded batch-norm affine to the
  image block, writes the result into the interior of a [34, 34, 128] scratch whose one-pixel halo it has just zeroed, reads the
  padded image back, gathers its nine shifted [32, 32, 128] windows side by side into a [1024, 1152] matrix and multiplies by the
  [1152, 128] weights. It stores that product as the image's output block and, beside it, the column sums of the product and of
  its squares. Both blocks depend on image `t` and the three parameter arrays alone: the scratch is rewritten at every point and
  no store reads it, so nothing of its earlier contents survives and the region is a map over the images.
-/
import proofs.«128858_g2000205668668362_pallasbulk_730_2_alg».proof.Proof.Gen.ReferenceIdeal.Launch
import proofs.«128858_g2000205668668362_pallasbulk_730_2_alg».proof.Proof.Gen.ReferenceIdeal.Skeleton
import proofs.«128858_g2000205668668362_pallasbulk_730_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point — fetched there, or (the three parameter
    windows, whose block never moves) left from the first point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes of the staged windows: every access is a whole block -/

abbrev whole1_0 : Rect S1x32x32x128 := Rect.unit (s := S1x32x32x128) ![0, 0, 0, 0] S1x32x32x128.size inb_S1x32x32x128_S1x32x32x128_0_0_0_0
abbrev whole1_1 : Rect S1x128 := Rect.unit (s := S1x128) ![0, 0] S1x128.size inb_S1x128_S1x128_0_0
abbrev whole1_2 : Rect S1x128 := Rect.unit (s := S1x128) ![0, 0] S1x128.size inb_S1x128_S1x128_0_0
abbrev whole1_3 : Rect S1152x128 := Rect.unit (s := S1152x128) ![0, 0] S1152x128.size inb_S1152x128_S1152x128_0_0
abbrev whole1_4 : Rect S1x32x32x128 := Rect.unit (s := S1x32x32x128) ![0, 0, 0, 0] S1x32x32x128.size inb_S1x32x32x128_S1x32x32x128_0_0_0_0
abbrev whole1_5 : Rect S1x2x128 := Rect.unit (s := S1x2x128) ![0, 0, 0] S1x2x128.size inb_S1x2x128_S1x2x128_0_0_0

/-! ## The scratch's five stores -/

abbrev rAll_1 : Rect S34x34x128 := Rect.unit (s := S34x34x128) ![0, 0, 0] S34x34x128.size inb_S34x34x128_S34x34x128_0_0_0

/-- The five stores on the scratch, last first: the image at rows 1–32, columns 1–32; column 33; column 0; row 33; row 0.
    None reads the scratch, so what they leave does not depend on what it held. -/
def storesL_1 (p1 p2 : S1x34x128.Idx → Elt F .f32) (p3 p4 : S34x1x128.Idx → Elt F .f32) (a : S32x32x128.Idx → Elt F .f32) :
    List (View.Piece (Elt F) S34x34x128 .f32) :=
  [⟨Rect.unit (s := S34x34x128) ![1, 1, 0] S32x32x128.size inb_S34x34x128_S32x32x128_1_1_0, a⟩,
    ⟨Rect.unit (s := S34x34x128) ![0, 33, 0] S34x1x128.size inb_S34x34x128_S34x1x128_0_33_0, p4⟩,
    ⟨Rect.unit (s := S34x34x128) ![0, 0, 0] S34x1x128.size inb_S34x34x128_S34x1x128_0_0_0, p3⟩,
    ⟨Rect.unit (s := S34x34x128) ![33, 0, 0] S1x34x128.size inb_S34x34x128_S1x34x128_33_0_0, p2⟩,
    ⟨Rect.unit (s := S34x34x128) ![0, 0, 0] S1x34x128.size inb_S34x34x128_S1x34x128_0_0_0, p1⟩]

/-! ## What the body computes -/

/-- The image after the affine, as the interior store writes it. -/
def imgOf_1 (x0 : Vec F S1x32x32x128 .f32) (x1 : Vec F S1x128 .f32) (x2 : Vec F S1x128 .f32) : S32x32x128.Idx → Elt F .f32 :=
  k1_pay1 (k1_pay9 (View.ld x0 whole1_0) (View.ld x1 whole1_1) (View.ld x2 whole1_2))

/-- The whole scratch as the body reads it back: what the five stores leave. -/
def paddedOf_1 (x0 : Vec F S1x32x32x128 .f32) (x1 : Vec F S1x128 .f32) (x2 : Vec F S1x128 .f32) : Vec F S34x34x128 .f32 :=
  View.ld (View.canon (storesL_1 k1_pay5 k1_pay6 k1_pay7 k1_pay8 (imgOf_1 x0 x1 x2))) rAll_1

/-- The output image block: the product, re-laid as [1, 32, 32, 128]. -/
def convOf_1 (x0 : Vec F S1x32x32x128 .f32) (x1 : Vec F S1x128 .f32) (x2 : Vec F S1x128 .f32) (x3 : Vec F S1152x128 .f32) : Vec F S1x32x32x128 .f32 :=
  View.canon [⟨whole1_4, k1_pay3 (paddedOf_1 x0 x1 x2) (View.ld x3 whole1_3)⟩]

/-- The statistics block: the product's column sums and the column sums of its squares. -/
def convStatsOf_1 (x0 : Vec F S1x32x32x128 .f32) (x1 : Vec F S1x128 .f32) (x2 : Vec F S1x128 .f32) (x3 : Vec F S1152x128 .f32) : Vec F S1x2x128 .f32 :=
  View.canon [⟨whole1_5, k1_pay4 (paddedOf_1 x0 x1 x2) (View.ld x3 whole1_3)⟩]

theorem convCover_1 (p0 : Vec F S1x32x32x128 .f32) (y : S1x32x32x128.Idx) :
    ∃ pc ∈ ([⟨whole1_4, p0⟩] : List (View.Piece (Elt F) S1x32x32x128 .f32)), y ∈ pc.1.set :=
  View.cover_of_tiled [⟨whole1_4, p0⟩] S1x32x32x128.size (by rfl) y

theorem convStatsCover_1 (p0 : Vec F S1x2x128 .f32) (y : S1x2x128.Idx) :
    ∃ pc ∈ ([⟨whole1_5, p0⟩] : List (View.Piece (Elt F) S1x2x128 .f32)), y ∈ pc.1.set :=
  View.cover_of_tiled [⟨whole1_5, p0⟩] S1x2x128.size (by rfl) y

/-- What the body loads of the whole scratch after its five stores is what they leave, whatever view it is read through. -/
theorem scratch_load_1 {κ : Kind} {sp : Space} (v : View sig κ sp S34x34x128 .f32)
    (x0 : Vec F S1x32x32x128 .f32) (x1 : Vec F S1x128 .f32) (x2 : Vec F S1x128 .f32) :
    v.readCov (storesL_1 k1_pay5 k1_pay6 k1_pay7 k1_pay8 (imgOf_1 x0 x1 x2)) rAll_1.toLoadRect = paddedOf_1 x0 x1 x2 := by
  rw [View.readCov_eq_canon']
  rfl

/-! ## The body's triple -/

set_option maxHeartbeats 4000000 in
/-- The body on whole memrefs — the inputs' at contents `xW`, the two outputs' and the scratch at anything — runs to its
    return with the inputs' as they were, the outputs' at `convOf_1` and `convStatsOf_1` of the inputs, the scratch at something. -/
theorem conv_body_1 (c : Dev nD) (E : Set ℕ) (i : grid1.Coords) (arg0 : Memref sig .tc .vmem S1x32x32x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1152x128 .f32) (harg3 : arg3.IsWhole) (arg4 : Memref sig .tc .vmem S1x32x32x128 .f32) (harg4 : arg4.IsWhole) (arg5 : Memref sig .tc .vmem S1x2x128 .f32) (harg5 : arg5.IsWhole)
    (arg6 : Memref sig .tc .vmem S34x34x128 .f32) (harg6 : arg6.IsWhole)
    (x0 : Vec F S1x32x32x128 .f32) (x1 : Vec F S1x128 .f32) (x2 : Vec F S1x128 .f32) (x3 : Vec F S1152x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (convOf_1 x0 x1 x2 x3) ∗ owns (c : Thread nD τ) arg5 fullShare (convStatsOf_1 x0 x1 x2 x3)
            ∗ (∃ d, owns (c : Thread nD τ) arg6 fullShare d)) -∗ K ⟨⟩))
      ⊢ wp frame (wpE (defs₀ (F := F)) Variants.none c none) E (cc1_affine_conv3x3_kernel i arg0 harg0 arg1 harg1 arg2 harg2 arg3 harg3 arg4 harg4 arg5 harg5 arg6 harg6) K := by
  simp only [cc1_affine_conv3x3_kernel_eq_skeleton]; unfold cc1_affine_conv3x3_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (convCover_1 _)]
    unfold convOf_1
    rw [← scratch_load_1 arg6.view]
    rfl
  isplitl [H5]
  · iexists _; isplitr
    swap; · iexact H5
    ipureintro
    sl_unfold_run_names
    rw [View.read_writes_eq_canon _ _ _ (convStatsCover_1 _)]
    unfold convStatsOf_1
    rw [← scratch_load_1 arg6.view]
    rfl
  iexists _; iexists _; isplitr
  swap; · iexact H6
  ipureintro; rfl

/-! ## The proof data -/

/-- Pipeline 1's proof data on core `c`: the arrays as the region finds them; after the body at point `t` each input's
    buffer at its block and the two outputs' at `convOf_1` / `convStatsOf_1` of the input blocks; the invariant holds every
    scoped buffer no window stages — the scratch among them — at SOME contents, and the generator register; nothing owed;
    full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => convOf_1 (blk1 V c 0 t) (blk1 V c 1 t) (blk1 V c 2 t) (blk1 V c 3 t)
    | ⟨5, _⟩ => convStatsOf_1 (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = convOf_1 (blk1 V c 0 t) (blk1 V c 1 t) (blk1 V c 2 t) (blk1 V c 3 t) := by dsimp only [dat1]
theorem after1_5 (c : Dev nD) (t : Fin cfg1.N) : (dat1 V c).after 5 t = convStatsOf_1 (blk1 V c 0 t) (blk1 V c 1 t) (blk1 V c 2 t) (blk1 V c 3 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: each input's memref holds its block; the scratch is taken out of the invariant at whatever it
    holds, handed to the body, and put back at whatever the body leaves; the rest of the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5]
  unfold Pipeline.ΦA
  rw [scopedRest1_split]
  iintro ⟨⟨⟨⟨%f6, H6⟩, Hrest⟩, Hp⟩, Ho, ⟨%d0, H0⟩, ⟨%d1, H1⟩, ⟨%d2, H2⟩, ⟨%d3, H3⟩, ⟨%d4, H4⟩, ⟨%d5, H5⟩⟩
  iapply (conv_body_1 c Set.univ _ _ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]
  · iexists f6; rw [owns_whole (c : Thread nD τ) cc1_scratch0 fullShare f6]; iexact H6
  iintro ⟨H0, H1, H2, H3, H4, H5, ⟨%g6, H6⟩⟩
  isplitl [H6 Hrest Hp]
  · isplitl [H6 Hrest]
    · isplitl [H6]
      · iexists g6; rw [← owns_whole (c : Thread nD τ) cc1_scratch0 fullShare g6]; iexact H6
      iexact Hrest
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RI.Conv2.lean ====
/-
  Region 2: the second 3×3 convolution. Grid point `t` is image `t`. The body applies the folded batch-norm affine and the SiLU to the
  image block, writes the result into the interior of a [34, 34, 128] scratch whose one-pixel halo it has just zeroed, reads the
  padded image back, gathers its nine shifted [32, 32, 128] windows side by side into a [1024, 1152] matrix and multiplies by the
  [1152, 128] weights. It stores that product as the image's output block and, beside it, the column sums of the product and of
  its squares. Both blocks depend on image `t` and the three parameter arrays alone: the scratch is rewritten at every point and
  no store reads it, so nothing of its earlier contents survives and the region is a map over the images.
-/
import proofs.«128858_g2000205668668362_pallasbulk_730_2_alg».proof.Proof.Gen.ReferenceIdeal.Launch
import proofs.«128858_g2000205668668362_pallasbulk_730_2_alg».proof.Proof.Gen.ReferenceIdeal.Skeleton
import proofs.«128858_g2000205668668362_pallasbulk_730_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point — fetched there, or (the three parameter
    windows, whose block never moves) left from the first point. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes of the staged windows: every access is a whole block -/

abbrev whole2_0 : Rect S1x32x32x128 := Rect.unit (s := S1x32x32x128) ![0, 0, 0, 0] S1x32x32x128.size inb_S1x32x32x128_S1x32x32x128_0_0_0_0
abbrev whole2_1 : Rect S1x128 := Rect.unit (s := S1x128) ![0, 0] S1x128.size inb_S1x128_S1x128_0_0
abbrev whole2_2 : Rect S1x128 := Rect.unit (s := S1x128) ![0, 0] S1x128.size inb_S1x128_S1x128_0_0
abbrev whole2_3 : Rect S1152x128 := Rect.unit (s := S1152x128) ![0, 0] S1152x128.size inb_S1152x128_S1152x128_0_0
abbrev whole2_4 : Rect S1x32x32x128 := Rect.unit (s := S1x32x32x128) ![0, 0, 0, 0] S1x32x32x128.size inb_S1x32x32x128_S1x32x32x128_0_0_0_0
abbrev whole2_5 : Rect S1x2x128 := Rect.unit (s := S1x2x128) ![0, 0, 0] S1x2x128.size inb_S1x2x128_S1x2x128_0_0_0

/-! ## The scratch's five stores -/

abbrev rAll_2 : Rect S34x34x128 := Rect.unit (s := S34x34x128) ![0, 0, 0] S34x34x128.size inb_S34x34x128_S34x34x128_0_0_0

/-- The five stores on the scratch, last first: the image at rows 1–32, columns 1–32; column 33; column 0; row 33; row 0.
    None reads the scratch, so what they leave does not depend on what it held. -/
def storesL_2 (p1 p2 : S1x34x128.Idx → Elt F .f32) (p3 p4 : S34x1x128.Idx → Elt F .f32) (a : S32x32x128.Idx → Elt F .f32) :
    List (View.Piece (Elt F) S34x34x128 .f32) :=
  [⟨Rect.unit (s := S34x34x128) ![1, 1, 0] S32x32x128.size inb_S34x34x128_S32x32x128_1_1_0, a⟩,
    ⟨Rect.unit (s := S34x34x128) ![0, 33, 0] S34x1x128.size inb_S34x34x128_S34x1x128_0_33_0, p4⟩,
    ⟨Rect.unit (s := S34x34x128) ![0, 0, 0] S34x1x128.size inb_S34x34x128_S34x1x128_0_0_0, p3⟩,
    ⟨Rect.unit (s := S34x34x128) ![33, 0, 0] S1x34x128.size inb_S34x34x128_S1x34x128_33_0_0, p2⟩,
    ⟨Rect.unit (s := S34x34x128) ![0, 0, 0] S1x34x128.size inb_S34x34x128_S1x34x128_0_0_0, p1⟩]

/-! ## What the body computes -/

/-- The image after the affine and the SiLU, as the interior store writes it. -/
def imgOf_2 (x0 : Vec F S1x32x32x128 .f32) (x1 : Vec F S1x128 .f32) (x2 : Vec F S1x128 .f32) : S32x32x128.Idx → Elt F .f32 :=
  k2_pay7 (k2_pay1 (View.ld x0 whole2_0) (View.ld x1 whole2_1) (View.ld x2 whole2_2))

/-- The whole scratch as the body reads it back: what the five stores leave. -/
def paddedOf_2 (x0 : Vec F S1x32x32x128 .f32) (x1 : Vec F S1x128 .f32) (x2 : Vec F S1x128 .f32) : Vec F S34x34x128 .f32 :=
  View.ld (View.canon (storesL_2 k2_pay2 k2_pay3 k2_pay4 (k2_pay6 k2_pay5) (imgOf_2 x0 x1 x2))) rAll_2

/-- The output image block: the product, re-laid as [1, 32, 32, 128]. -/
def convOf_2 (x0 : Vec F S1x32x32x128 .f32) (x1 : Vec F S1x128 .f32) (x2 : Vec F S1x128 .f32) (x3 : Vec F S1152x128 .f32) : Vec F S1x32x32x128 .f32 :=
  View.canon [⟨whole2_4, k2_pay9 (paddedOf_2 x0 x1 x2) (View.ld x3 whole2_3)⟩]

/-- The statistics block: the product's column sums and the column sums of its squares. -/
def convStatsOf_2 (x0 : Vec F S1x32x32x128 .f32) (x1 : Vec F S1x128 .f32) (x2 : Vec F S1x128 .f32) (x3 : Vec F S1152x128 .f32) : Vec F S1x2x128 .f32 :=
  View.canon [⟨whole2_5, k2_pay10 (paddedOf_2 x0 x1 x2) (View.ld x3 whole2_3)⟩]

theorem convCover_2 (p0 : Vec F S1x32x32x128 .f32) (y : S1x32x32x128.Idx) :
    ∃ pc ∈ ([⟨whole2_4, p0⟩] : List (View.Piece (Elt F) S1x32x32x128 .f32)), y ∈ pc.1.set :=
  View.cover_of_tiled [⟨whole2_4, p0⟩] S1x32x32x128.size (by rfl) y

theorem convStatsCover_2 (p0 : Vec F S1x2x128 .f32) (y : S1x2x128.Idx) :
    ∃ pc ∈ ([⟨whole2_5, p0⟩] : List (View.Piece (Elt F) S1x2x128 .f32)), y ∈ pc.1.set :=
  View.cover_of_tiled [⟨whole2_5, p0⟩] S1x2x128.size (by rfl) y

/-- What the body loads of the whole scratch after its five stores is what they leave, whatever view it is read through. -/
theorem scratch_load_2 {κ : Kind} {sp : Space} (v : View sig κ sp S34x34x128 .f32)
    (x0 : Vec F S1x32x32x128 .f32) (x1 : Vec F S1x128 .f32) (x2 : Vec F S1x128 .f32) :
    v.readCov (storesL_2 k2_pay2 k2_pay3 k2_pay4 (k2_pay6 k2_pay5) (imgOf_2 x0 x1 x2)) rAll_2.toLoadRect = paddedOf_2 x0 x1 x2 := by
  rw [View.readCov_eq_canon']
  rfl

/-! ## The body's triple -/

set_option maxHeartbeats 4000000 in
/-- The body on whole memrefs — the inputs' at contents `xW`, the two outputs' and the scratch at anything — runs to its
    return with the inputs' as they were, the outputs' at `convOf_2` and `convStatsOf_2` of the inputs, the scratch at something. -/
theorem conv_body_2 (c : Dev nD) (E : Set ℕ) (i : grid2.Coords) (arg0 : Memref sig .tc .vmem S1x32x32x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1152x128 .f32) (harg3 : arg3.IsWhole) (arg4 : Memref sig .tc .vmem S1x32x32x128 .f32) (harg4 : arg4.IsWhole) (arg5 : Memref sig .tc .vmem S1x2x128 .f32) (harg5 : arg5.IsWhole)
    (arg6 : Memref sig .tc .vmem S34x34x128 .f32) (harg6 : arg6.IsWhole)
    (x0 : Vec F S1x32x32x128 .f32) (x1 : Vec F S1x128 .f32) (x2 : Vec F S1x128 .f32) (x3 : Vec F S1152x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (convOf_2 x0 x1 x2 x3) ∗ owns (c : Thread nD τ) arg5 fullShare (convStatsOf_2 x0 x1 x2 x3)
            ∗ (∃ d, owns (c : Thread nD τ) arg6 fullShare d)) -∗ K ⟨⟩))
      ⊢ wp frame (wpE (defs₀ (F := F)) Variants.none c none) E (cc2_affine_conv3x3_kernel i arg0 harg0 arg1 harg1 arg2 harg2 arg3 harg3 arg4 harg4 arg5 harg5 arg6 harg6) K := by
  simp only [cc2_affine_conv3x3_kernel_eq_skeleton]; unfold cc2_affine_conv3x3_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (convCover_2 _)]
    unfold convOf_2
    rw [← scratch_load_2 arg6.view]
    rfl
  isplitl [H5]
  · iexists _; isplitr
    swap; · iexact H5
    ipureintro
    sl_unfold_run_names
    rw [View.read_writes_eq_canon _ _ _ (convStatsCover_2 _)]
    unfold convStatsOf_2
    rw [← scratch_load_2 arg6.view]
    rfl
  iexists _; iexists _; isplitr
  swap; · iexact H6
  ipureintro; rfl

/-! ## The proof data -/

/-- Pipeline 2's proof data on core `c`: the arrays as the region finds them; after the body at point `t` each input's
    buffer at its block and the two outputs' at `convOf_2` / `convStatsOf_2` of the input blocks; the invariant holds every
    scoped buffer no window stages — the scratch among them — at SOME contents, and the generator register; nothing owed;
    full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => convOf_2 (blk2 V c 0 t) (blk2 V c 1 t) (blk2 V c 2 t) (blk2 V c 3 t)
    | ⟨5, _⟩ => convStatsOf_2 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = convOf_2 (blk2 V c 0 t) (blk2 V c 1 t) (blk2 V c 2 t) (blk2 V c 3 t) := by dsimp only [dat2]
theorem after2_5 (c : Dev nD) (t : Fin cfg2.N) : (dat2 V c).after 5 t = convStatsOf_2 (blk2 V c 0 t) (blk2 V c 1 t) (blk2 V c 2 t) (blk2 V c 3 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: each input's memref holds its block; the scratch is taken out of the invariant at whatever it
    holds, handed to the body, and put back at whatever the body leaves; the rest of the invariant and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl,
    after2_0, after2_1, after2_2, after2_3, after2_4, after2_5]
  unfold Pipeline.ΦA
  rw [scopedRest2_split]
  iintro ⟨⟨⟨⟨%f6, H6⟩, Hrest⟩, Hp⟩, Ho, ⟨%d0, H0⟩, ⟨%d1, H1⟩, ⟨%d2, H2⟩, ⟨%d3, H3⟩, ⟨%d4, H4⟩, ⟨%d5, H5⟩⟩
  iapply (conv_body_2 c Set.univ _ _ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]
  · iexists f6; rw [owns_whole (c : Thread nD τ) cc2_scratch0 fullShare f6]; iexact H6
  iintro ⟨H0, H1, H2, H3, H4, H5, ⟨%g6, H6⟩⟩
  isplitl [H6 Hrest Hp]
  · isplitl [H6 Hrest]
    · isplitl [H6]
      · iexists g6; rw [← owns_whole (c : Thread nD τ) cc2_scratch0 fullShare g6]; iexact H6
      iexact Hrest
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Hand

end
-- ==== Proof.RI.Gate.lean ====
/-
  Region 3: the squeeze-and-excitation gate and the residual. Grid point `t` is image `t`. The body reads the image's
  conv output and the image itself (one [1, 32, 32, 128] block each) and six small parameter arrays whole, and writes the
  image's output block: with z = y · scale + shift (per channel) and g the gate computed from the channel means of z
  through the two small dense layers, the block is silu(z · g + x). The block depends on image `t` alone, so the region
  is a map over the images.
-/
import proofs.«128858_g2000205668668362_pallasbulk_730_2_alg».proof.Proof.Gen.ReferenceIdeal.Launch
import proofs.«128858_g2000205668668362_pallasbulk_730_2_alg».proof.Proof.Gen.ReferenceIdeal.Skeleton
import proofs.«128858_g2000205668668362_pallasbulk_730_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s buffers hold when the region is entered
variable (V : (c : Dev nD) → (b : Ref sig .tc) → Buf (Elt F) ((c : Thread nD τ).loc b))

/-! ## A window's block at a point -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point — fetched there, or (the six parameter
    windows, whose block never moves) left from the first point — for any proof data whose array is the entry contents
    and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = blk3 V c 7 t) (t : Fin cfg3.N) (d) : dat.before 7 t d = blk3 V c 7 t :=
  (dat.before_in_eq_fetched 7 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes: every access is a whole block -/

abbrev whole3_0 : Rect S1x32x32x128 := Rect.unit (s := S1x32x32x128) ![0, 0, 0, 0] S1x32x32x128.size inb_S1x32x32x128_S1x32x32x128_0_0_0_0
abbrev whole3_1 : Rect S1x32x32x128 := Rect.unit (s := S1x32x32x128) ![0, 0, 0, 0] S1x32x32x128.size inb_S1x32x32x128_S1x32x32x128_0_0_0_0
abbrev whole3_2 : Rect S1x128 := Rect.unit (s := S1x128) ![0, 0] S1x128.size inb_S1x128_S1x128_0_0
abbrev whole3_3 : Rect S1x128 := Rect.unit (s := S1x128) ![0, 0] S1x128.size inb_S1x128_S1x128_0_0
abbrev whole3_4 : Rect S128x8 := Rect.unit (s := S128x8) ![0, 0] S128x8.size inb_S128x8_S128x8_0_0
abbrev whole3_5 : Rect S1x8 := Rect.unit (s := S1x8) ![0, 0] S1x8.size inb_S1x8_S1x8_0_0
abbrev whole3_6 : Rect S8x128 := Rect.unit (s := S8x128) ![0, 0] S8x128.size inb_S8x128_S8x128_0_0
abbrev whole3_7 : Rect S1x128 := Rect.unit (s := S1x128) ![0, 0] S1x128.size inb_S1x128_S1x128_0_0
abbrev whole3_8 : Rect S1x32x32x128 := Rect.unit (s := S1x32x32x128) ![0, 0, 0, 0] S1x32x32x128.size inb_S1x32x32x128_S1x32x32x128_0_0_0_0

/-- The output block the body leaves, from the eight input blocks: its one store. -/
def gatedOf (x0 : Vec F S1x32x32x128 .f32) (x1 : Vec F S1x32x32x128 .f32) (x2 : Vec F S1x128 .f32) (x3 : Vec F S1x128 .f32) (x4 : Vec F S128x8 .f32) (x5 : Vec F S1x8 .f32) (x6 : Vec F S8x128 .f32) (x7 : Vec F S1x128 .f32) : Vec F S1x32x32x128 .f32 :=
  View.canon [⟨whole3_8, k3_pay1 (k3_pay2 (View.ld x0 whole3_0) (View.ld x2 whole3_2) (View.ld x3 whole3_3)) (k3_pay3 (View.ld x0 whole3_0) (View.ld x2 whole3_2) (View.ld x3 whole3_3) (View.ld x4 whole3_4) (View.ld x5 whole3_5) (View.ld x6 whole3_6) (View.ld x7 whole3_7)) (Scalar.ofBits .f32 0x3F800000#32) (View.ld x1 whole3_1)⟩]

/-- The one store writes the whole block. -/
theorem gatedCover (p0 : Vec F S1x32x32x128 .f32) (y : S1x32x32x128.Idx) :
    ∃ pc ∈ ([⟨whole3_8, p0⟩] : List (View.Piece (Elt F) S1x32x32x128 .f32)), y ∈ pc.1.set :=
  View.cover_of_tiled [⟨whole3_8, p0⟩] S1x32x32x128.size (by rfl) y

/-! ## The body's triple -/

set_option maxHeartbeats 4000000 in
/-- The body on whole staging memrefs, the inputs' at contents `xW` and the output's at anything, runs to its return
    with the inputs' as they were and the output's at `gatedOf` of the inputs. -/
theorem gate_body (c : Dev nD) (E : Set ℕ) (i : grid3.Coords) (arg0 : Memref sig .tc .vmem S1x32x32x128 .f32) (harg0 : arg0.IsWhole) (arg1 : Memref sig .tc .vmem S1x32x32x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x8 .f32) (harg4 : arg4.IsWhole) (arg5 : Memref sig .tc .vmem S1x8 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x32x32x128 .f32) (harg8 : arg8.IsWhole)
    (x0 : Vec F S1x32x32x128 .f32) (x1 : Vec F S1x32x32x128 .f32) (x2 : Vec F S1x128 .f32) (x3 : Vec F S1x128 .f32) (x4 : Vec F S128x8 .f32) (x5 : Vec F S1x8 .f32) (x6 : Vec F S8x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (gatedOf x0 x1 x2 x3 x4 x5 x6 x7)) -∗ K ⟨⟩))
      ⊢ wp frame (wpE (defs₀ (F := F)) Variants.none c none) E (cc3_bn_se_residual_kernel i arg0 harg0 arg1 harg1 arg2 harg2 arg3 harg3 arg4 harg4 arg5 harg5 arg6 harg6 arg7 harg7 arg8 harg8) K := by
  simp only [cc3_bn_se_residual_kernel_eq_skeleton]; unfold cc3_bn_se_residual_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (gatedCover _)

/-! ## The proof data -/

/-- Pipeline 3's proof data on core `c`: the arrays as the region finds them; after the body at point `t` each input's
    buffer at its block and the output's at `gatedOf` of the input blocks; the invariant leaves every other scoped buffer
    and the generator register alone; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => gatedOf (blk3 V c 0 t) (blk3 V c 1 t) (blk3 V c 2 t) (blk3 V c 3 t) (blk3 V c 4 t) (blk3 V c 5 t) (blk3 V c 6 t) (blk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = gatedOf (blk3 V c 0 t) (blk3 V c 1 t) (blk3 V c 2 t) (blk3 V c 3 t) (blk3 V c 4 t) (blk3 V c 5 t) (blk3 V c 6 t) (blk3 V c 7 t) := by dsimp only [dat3]

theorem before3_0 (c : Dev nD) (t : Fin cfg3.N) (d) : (dat3 V c).before 0 t d = blk3 V c 0 t :=
  before3_0_of V (dat3 V c) (A_eq3 V c 0) (after3_0 V c) t d
theorem before3_1 (c : Dev nD) (t : Fin cfg3.N) (d) : (dat3 V c).before 1 t d = blk3 V c 1 t :=
  before3_1_of V (dat3 V c) (A_eq3 V c 1) (after3_1 V c) t d
theorem before3_2 (c : Dev nD) (t : Fin cfg3.N) (d) : (dat3 V c).before 2 t d = blk3 V c 2 t :=
  before3_2_of V (dat3 V c) (A_eq3 V c 2) (after3_2 V c) t d
theorem before3_3 (c : Dev nD) (t : Fin cfg3.N) (d) : (dat3 V c).before 3 t d = blk3 V c 3 t :=
  before3_3_of V (dat3 V c) (A_eq3 V c 3) (after3_3 V c) t d
theorem before3_4 (c : Dev nD) (t : Fin cfg3.N) (d) : (dat3 V c).before 4 t d = blk3 V c 4 t :=
  before3_4_of V (dat3 V c) (A_eq3 V c 4) (after3_4 V c) t d
theorem before3_5 (c : Dev nD) (t : Fin cfg3.N) (d) : (dat3 V c).before 5 t d = blk3 V c 5 t :=
  before3_5_of V (dat3 V c) (A_eq3 V c 5) (after3_5 V c) t d
theorem before3_6 (c : Dev nD) (t : Fin cfg3.N) (d) : (dat3 V c).before 6 t d = blk3 V c 6 t :=
  before3_6_of V (dat3 V c) (A_eq3 V c 6) (after3_6 V c) t d
theorem before3_7 (c : Dev nD) (t : Fin cfg3.N) (d) : (dat3 V c).before 7 t d = blk3 V c 7 t :=
  before3_7_of V (dat3 V c) (A_eq3 V c 7) (after3_7 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 1000000 in
/-- The body at any point: each input's memref holds its block, so `gate_body` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_body c Set.univ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.ReferenceIdeal.Hand

end
-- ==== Proof.RI.Run.lean ====
/-
  The whole run. @main is four stretches of host operations, each followed by one kernel region. Between two items every
  unscoped buffer of a core is held at a known valuation: the launch memory, then each host stretch applied to it
  (`StableHlo.after`), then at each region's exit its windows' arrays at what its pipeline leaves (an input array as
  entered; an output array with every grid point's block written back) and every other buffer as entered. The four
  regions' records are stated over these thread states; the library's several-region launch theorem then gives: every weakly
  fair execution of @main terminates, without a fault, and at the end every unscoped buffer holds the last valuation's
  contents. No host stretch writes an argument and no region has an argument among its outputs, so the last valuation
  at an argument is the launch memory; at the result buffer it is what region 3's pipeline leaves.
-/
import proofs.«128858_g2000205668668362_pallasbulk_730_2_alg».proof.Proof.RI.Stats
import proofs.«128858_g2000205668668362_pallasbulk_730_2_alg».proof.Proof.RI.Conv1
import proofs.«128858_g2000205668668362_pallasbulk_730_2_alg».proof.Proof.RI.Conv2
import proofs.«128858_g2000205668668362_pallasbulk_730_2_alg».proof.Proof.RI.Gate
import proofs.«128858_g2000205668668362_pallasbulk_730_2_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: what region 0 is entered from. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1`: what region 1 is entered from. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- At region 1's exit: its arrays at what the pipeline leaves (the inputs as entered, each output's write-backs folded),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2`: what region 2 is entered from. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- At region 2's exit: its arrays at what the pipeline leaves (the inputs as entered, each output's write-backs folded),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After `hostOps3`: what region 3 is entered from. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- At region 3's exit: its arrays at what the pipeline leaves (the inputs as entered, each output's write-backs folded),
    every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-! ## The arguments end as launched -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := (W8_arr m ρ c 1).trans (((dat3 (U7 m ρ) c).arrAt_in 1 rfl _).trans (A_eq3 (U7 m ρ) c 1))
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := (W8_arr m ρ c 4).trans (((dat3 (U7 m ρ) c).arrAt_in 4 rfl _).trans (A_eq3 (U7 m ρ) c 4))
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := (W8_arr m ρ c 5).trans (((dat3 (U7 m ρ) c).arrAt_in 5 rfl _).trans (A_eq3 (U7 m ρ) c 5))
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := (W8_arr m ρ c 6).trans (((dat3 (U7 m ρ) c).arrAt_in 6 rfl _).trans (A_eq3 (U7 m ρ) c 6))
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := (W8_arr m ρ c 7).trans (((dat3 (U7 m ρ) c).arrAt_in 7 rfl _).trans (A_eq3 (U7 m ρ) c 7))
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev Lno : GSem nD τ sig → Finset Unit := fun _ => ∅
abbrev lvno : GSem nD τ sig → Unit → ℕ := fun _ _ => 0
/-- What rides beside the buffers through every item: the core's generator register at some state, and that it owes
    nothing. -/
abbrev rest (c : Dev nD) : sProp 𝕄 := iprop((∃ r, prngReg c r) ∗ ∃ W, owes (c : Thread nD τ) (0 : CellTallies nD τ sig Unit) W)
/-- A host stretch as a segment over the unscoped references from the contents `W`, `rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last valuation, the generator register
    at some state. -/
abbrev lastState (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its windows' arrays are
    split out of the unscoped buffers and put back at what the pipeline leaves; the generator register goes into the
    invariant and comes back; nothing is owed; the kernel has no semaphore of its own. -/
def region0 : Pipeline.RegionSeg (pcfgs (F := F)) adm (pdats m ρ) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lno lvno 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays are
    split out of the unscoped buffers and put back at what the pipeline leaves; the generator register goes into the
    invariant and comes back; nothing is owed; the kernel has no semaphore of its own. -/
def region1 : Pipeline.RegionSeg (pcfgs (F := F)) adm (pdats m ρ) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lno lvno 1 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its windows' arrays are
    split out of the unscoped buffers and put back at what the pipeline leaves; the generator register goes into the
    invariant and comes back; nothing is owed; the kernel has no semaphore of its own. -/
def region2 : Pipeline.RegionSeg (pcfgs (F := F)) adm (pdats m ρ) () defs₀ 𝒱₀ Lno lvno 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lno lvno 2 fun _ _ => rfl
  pre c := iprop(StableHlo.held (c : Thread nD τ) (Pipeline.ucRefs τ sig) (W5 m ρ c) ∗ rest c)
  post c := iprop(StableHlo.held (c : Thread nD τ) (Pipeline.ucRefs τ sig) (W6 m ρ c) ∗ rest c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its windows' arrays are
    split out of the unscoped buffers and put back at what the pipeline leaves; the generator register goes into the
    invariant and comes back; nothing is owed; the kernel has no semaphore of its own. -/
def region3 : Pipeline.RegionSeg (pcfgs (F := F)) adm (pdats m ρ) () defs₀ 𝒱₀ Lno lvno 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ Lno lvno 3 fun _ _ => rfl
  pre c := iprop(StableHlo.held (c : Thread nD τ) (Pipeline.ucRefs τ sig) (W7 m ρ c) ∗ rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 items in order. -/
abbrev items : List (Pipeline.Seg (pcfgs (F := F)) adm (pdats m ρ) () defs₀ 𝒱₀ Lno lvno) :=
  [
    .host (hostSeg hostOps0 hostOps0_sub hostOps0_fresh (W0 m ρ)),
    .region (region0 m ρ),
    .host (hostSeg hostOps1 hostOps1_sub hostOps1_fresh (W2 m ρ)),
    .region (region1 m ρ),
    .host (hostSeg hostOps2 hostOps2_sub hostOps2_fresh (W4 m ρ)),
    .region (region2 m ρ),
    .host (hostSeg hostOps3 hostOps3_sub hostOps3_fresh (W6 m ρ)),
    .region (region3 m ρ) ]

/-- @main is the run of the items. -/
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and at
    the end every unscoped buffer of every core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ Lno lvno m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME, at any `F`: @main runs to its end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c)⟩) (run_all m ρ)

/-- The result buffer at the end is what the last region's pipeline leaves in its output window's array. -/
theorem run_result : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v56 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c)⟩) (run_all m ρ)

end Cert.ReferenceIdeal.Hand

end
-- ==== Proof.KI.StatsArr.lean ====
/-
  Region 0's output array: the sixteen chunks' statistics. Point `t` writes chunk `t`'s [1, 2, 128] block and nothing else, and
  the sixteen blocks tile the array.
-/
import proofs.«128858_g2000205668668362_pallasbulk_730_2_alg».proof.Proof.KI.Stats
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0, output window 1: the array it leaves, index by index -/

/-- The printed index map of the window, decided over the grid: point `t` writes slab `t` along axis 0. -/
theorem slab0_1 : ∀ t : Fin cfg0.N, win0_1.index t (0 : Fin 3) = t.val ∧ win0_1.index t (1 : Fin 3) = 0 ∧ win0_1.index t (2 : Fin 3) = 0 :=
  (by decide +kernel : ∀ t : Fin grid0.N, _)

/-- The grid point whose block holds an index: its coordinate on axis 0. -/
def pointOf0_1 (i : S16x2x128.Idx) : Fin cfg0.N := ⟨(i 0).val, by rw [show cfg0.N = 16 from N_0]; exact (i 0).isLt⟩

/-- An index's coordinates inside its block. -/
def localOf0_1 (i : S16x2x128.Idx) : S1x2x128.Idx := ValueIdx.ix3 (0 : Fin 1) (⟨(i 1).val, (i 1).isLt⟩ : Fin 2) (⟨(i 2).val, (i 2).isLt⟩ : Fin 128)

/-- What the array ends holding: at index `i`, what point `i 0` leaves in its block, at the index's coordinates inside
    the block. -/
def statsArr (c : Dev nD) : S16x2x128.Idx → Elt F .f32 := fun i =>
  (statsOf (chunk0 V c 0 (pointOf0_1 i))) (localOf0_1 i)

/-- `statsArr` at an index of point `t`'s block with local coordinates `j`. -/
theorem statsArr_at (c : Dev nD) (t : Fin cfg0.N) (j : S1x2x128.Idx) (i : S16x2x128.Idx) (hp : pointOf0_1 i = t) (hl : localOf0_1 i = j) :
    statsArr V c i = (statsOf (chunk0 V c 0 t)) j := by
  subst hp; subst hl; rfl

/-- An index of the array is in point `t`'s block iff each coordinate is in the block's range on its axis. -/
theorem mem_blk0_1 (t : Fin cfg0.N) (i : S16x2x128.Idx) :
    i ∈ ((cfg0.win 1).blk t).view.set ↔ ∀ a : Fin 3, win0_1.index t a * S1x2x128.size a ≤ (i a).val ∧ (i a).val < win0_1.index t a * S1x2x128.size a + S1x2x128.size a := by
  show i ∈ ((View.whole main_v5).slice (win0_1.rect t)).set ↔ _
  rw [View.set_slice_whole, Rect.mem_set_unit]
  exact Iff.rfl

set_option maxHeartbeats 1000000 in
/-- What point `t` writes back is block `t` of `statsArr`. -/
theorem flushed0_1 (c : Dev nD) (t : Fin cfg0.N) :
    (dat0 V c).flushed 1 t = ((cfg0.win 1).blk t).view.read (Elt F) (statsArr V c) := by
  show (cfg0.win 1).cut (grid0.coords t) ((dat0 V c).after 1 t) = _
  rw [after0_1]
  obtain ⟨e0, e1, e2⟩ := slab0_1 t
  funext j
  show (statsOf (chunk0 V c 0 t)) j = statsArr V c (((cfg0.win 1).blk t).view.emb j)
  have hp : pointOf0_1 (((cfg0.win 1).blk t).view.emb j) = t := by
    apply Fin.ext
    show win0_1.index t (0 : Fin 3) * 1 + 1 * (j 0).val = t.val
    have hj : (j 0).val < 1 := (j 0).isLt
    omega
  have hl : localOf0_1 (((cfg0.win 1).blk t).view.emb j) = j := by
    funext a
    apply Fin.ext
    match a with
    | ⟨0, _⟩ => show 0 = (j 0).val; have hj : (j 0).val < 1 := (j 0).isLt; omega
    | ⟨1, _⟩ => show win0_1.index t (1 : Fin 3) * 2 + 1 * (j 1).val = (j 1).val; omega
    | ⟨2, _⟩ => show win0_1.index t (2 : Fin 3) * 128 + 1 * (j 2).val = (j 2).val; omega
  exact (statsArr_at V c t j _ hp hl).symm

/-- Every index of the array is in some point's block. -/
theorem cover0_1 (i : S16x2x128.Idx) :
    ∃ t : Fin cfg0.N, (cfg0.win 1).flush t = true ∧ i ∈ ((cfg0.win 1).blk t).view.set := by
  refine ⟨pointOf0_1 i, flush0_1 _, ?_⟩
  rw [mem_blk0_1]
  obtain ⟨e0, e1, e2⟩ := slab0_1 (pointOf0_1 i)
  have hv : (pointOf0_1 i).val = (i 0).val := rfl
  intro a
  match a with
    | ⟨0, _⟩ => show win0_1.index (pointOf0_1 i) (0 : Fin 3) * 1 ≤ (i 0).val ∧ (i 0).val < win0_1.index (pointOf0_1 i) (0 : Fin 3) * 1 + 1; omega
    | ⟨1, _⟩ => show win0_1.index (pointOf0_1 i) (1 : Fin 3) * 2 ≤ (i 1).val ∧ (i 1).val < win0_1.index (pointOf0_1 i) (1 : Fin 3) * 2 + 2; have hi : (i 1).val < 2 := (i 1).isLt; omega
    | ⟨2, _⟩ => show win0_1.index (pointOf0_1 i) (2 : Fin 3) * 128 ≤ (i 2).val ∧ (i 2).val < win0_1.index (pointOf0_1 i) (2 : Fin 3) * 128 + 128; have hi : (i 2).val < 128 := (i 2).isLt; omega

/-- THE ARRAY after the region: `statsArr`. -/
theorem final0_1 (c : Dev nD) : (dat0 V c).arrAt 1 cfg0.N = statsArr V c :=
  (dat0 V c).arrAt_eq_of_cover 1 (statsArr V c) (fun t _ => flushed0_1 V c t) (cover0_1)

end Cert.KernelIdeal.Hand

end
-- ==== Proof.KI.StatsSum.lean ====
/-
  Region 0's statistics, summed. Each of the sixteen grid points leaves in its [1, 2, 128] block the column sums of its
  4096-row chunk of the flattened activation (row 0) and the column sums of the chunk's squares (row 1); the host then
  adds the sixteen blocks. Read over the extended reals, where addition is exact, the result holds at (0, ch) the sum of
  column `ch` over all 65536 rows and at (1, ch) the sum of the squares of that column, written as a sum over the 16
  chunks of the sums over each chunk's 4096 rows.
-/
import proofs.«128858_g2000205668668362_pallasbulk_730_2_alg».proof.Proof.KI.StatsArr
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx

variable {F : FTy → Type} [FloatOps F]

-- what core `c`'s buffers hold when the region is entered
variable (V : (c : Dev nD) → (b : Ref sig .tc) → Buf (Elt F) ((c : Thread nD τ).loc b))

/-! ## The host's sum of the sixteen blocks -/

/-- The sixteen blocks added: the host's reduction of the [16, 2, 128] array over its first axis, from zero. -/
def sumOver16 (p : Vec F S16x2x128 .f32) : Vec F S2x128 .f32 := Host.reduceAdd p (constant S_ .f32 0x00000000#32) reducesTo_S16x2x128_S2x128_d0 h_S_

/-! ## A chunk's statistics, entry by entry -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block the body leaves is its one store's payload on the chunk read whole. -/
theorem statsOf_eq (x0 : Vec F S4096x128 .f32) : statsOf x0 = k0_pay1 x0 := by
  unfold statsOf
  rw [View.canon_unit_zero (S := S1x2x128) zeros3, View.ld_unit_zero (S := S4096x128) zeros2]

/-- The column sums of a chunk, as a [1, 128] row. -/
def colSums (x : Vec F S4096x128 .f32) : FVec F S1x128 .f32 :=
  shapeCast S1x128 (multiReduction .add [0] S128 (shapeCast S4096x128 x shapeCasts_S4096x128_S4096x128) 0x00000000#32 reduces_S4096x128_S128 (.inl rfl) rfl) shapeCasts_S128_S1x128

/-- The column sums of a chunk's squares, as a [1, 128] row. -/
def colSumsSq (x : Vec F S4096x128 .f32) : FVec F S1x128 .f32 :=
  shapeCast S1x128 (multiReduction .add [0] S128 (mulf (shapeCast S4096x128 x shapeCasts_S4096x128_S4096x128) (shapeCast S4096x128 x shapeCasts_S4096x128_S4096x128)) 0x00000000#32 reduces_S4096x128_S128 (.inl rfl) rfl) shapeCasts_S128_S1x128

/-- The payload is the two rows stacked, with a unit axis put in front. -/
theorem chunkStats_eq (x : Vec F S4096x128 .f32) :
    k0_pay1 x = shapeCast S1x2x128 (concatenate S2x128 0 [⟨S1x128, colSums x⟩, ⟨S1x128, colSumsSq x⟩] concatenates_S1x128_S1x128_S2x128_d0) shapeCasts_S2x128_S1x2x128 := rfl

/-- Where chunk `t`'s entry (p, ch) sits in the flattened activation: row `4096 t + p`. -/
theorem chunkIndex0 : ∀ t : Fin cfg0.N, win0_0.index t 0 = t.val ∧ win0_0.index t 1 = 0 :=
  (by decide +kernel : ∀ t : Fin grid0.N, win0_0.index t 0 = t.val ∧ win0_0.index t 1 = 0)

theorem chunk0_apply (c : Dev nD) (t : Fin cfg0.N) (p : Fin 4096) (ch : Fin 128) :
    (chunk0 V c 0 t : Vec F S4096x128 .f32) (ix2 p ch)
      = V c main_v4 (ix2 (⟨t.val * 4096 + p.val, by have := t.isLt; have : cfg0.N = 16 := N_0; omega⟩ : Fin 65536) ch) := by
  unfold chunk0
  rw [View.read_apply]
  show V c main_v4 _ = V c main_v4 _
  congr 1
  funext a
  apply Fin.ext
  match a with
  | ⟨0, _⟩ => show win0_0.index t 0 * 4096 + 1 * p.val = t.val * 4096 + p.val; rw [(chunkIndex0 t).1]; omega
  | ⟨1, _⟩ => show win0_0.index t 1 * 128 + 1 * ch.val = ch.val; rw [(chunkIndex0 t).2]; omega

section AtIdeal

/-- An entry's contribution to row `r` of the statistics: itself to row 0, its square to row 1. -/
def statOf (r : Fin 2) (x : EReal) : EReal := if r.val = 0 then x else x * x

theorem statOf_zero (x : EReal) : statOf 0 x = x := if_pos rfl
theorem statOf_one (x : EReal) : statOf 1 x = x * x := if_neg (by decide)

/-- The reduced index (ch) with the row `p` put back is (p, ch). -/
theorem lift_row (ch : Fin 128) (p : Fin 4096) : reduces_S4096x128_S128.lift (ix1 ch) p = ix2 p ch := by
  funext a
  match a with
  | ⟨0, _⟩ => exact Fin.ext rfl
  | ⟨1, _⟩ => exact Fin.ext rfl

/-- Over the extended reals the column sums at lane `ch` are the sum over the chunk's rows. -/
theorem colSums_apply (x : Vec Ideal S4096x128 .f32) (u : Fin 1) (ch : Fin 128) :
    colSums x (ix2 u ch) = ∑ p : Fin 4096, x (ix2 p ch) := by
  unfold colSums
  refine (shapeCast_a_1a_apply _ _ u ch).trans ?_
  refine (Ideal.multiReduction_add_single _ _ reduces_S4096x128_S128 _ _ (ix1 ch)).trans ?_
  refine Finset.sum_congr rfl fun p _ => ?_
  rw [shapeCast_self]
  exact congrArg x (lift_row ch p)

/-- And those of the squares the sum of the squares. -/
theorem colSumsSq_apply (x : Vec Ideal S4096x128 .f32) (u : Fin 1) (ch : Fin 128) :
    colSumsSq x (ix2 u ch) = ∑ p : Fin 4096, x (ix2 p ch) * x (ix2 p ch) := by
  unfold colSumsSq
  refine (shapeCast_a_1a_apply _ _ u ch).trans ?_
  refine (Ideal.multiReduction_add_single _ _ reduces_S4096x128_S128 _ _ (ix1 ch)).trans ?_
  refine Finset.sum_congr rfl fun p _ => ?_
  rw [shapeCast_self]
  show x (reduces_S4096x128_S128.lift (ix1 ch) p) * x (reduces_S4096x128_S128.lift (ix1 ch) p) = _
  rw [lift_row ch p]

/-- A chunk's statistics at an entry: its column sum (row 0) or the column sum of its squares (row 1). -/
theorem chunkStats_apply (x : Vec Ideal S4096x128 .f32) (u : Fin 1) (r : Fin 2) (ch : Fin 128) :
    k0_pay1 x (ix3 u r ch) = ∑ p : Fin 4096, statOf r (x (ix2 p ch)) := by
  rw [chunkStats_eq]
  refine (shapeCast_ab_1ab_apply _ _ u r ch).trans ?_
  match r with
  | ⟨0, _⟩ =>
    refine (concatenate_pair_apply_left (0 : Fin 2) (colSums x) (colSumsSq x) concatenates_S1x128_S1x128_S2x128_d0
      (ix2 (0 : Fin 2) ch) rfl (ix2 (0 : Fin 1) ch) (fun b => by match b with | ⟨0, _⟩ => rfl | ⟨1, _⟩ => rfl)).trans ?_
    rw [colSums_apply]
    exact Finset.sum_congr rfl fun p _ => (statOf_zero _).symm
  | ⟨1, _⟩ =>
    refine (concatenate_pair_apply_right (0 : Fin 2) (colSums x) (colSumsSq x) concatenates_S1x128_S1x128_S2x128_d0
      (ix2 (1 : Fin 2) ch) rfl rfl (ix2 (0 : Fin 1) ch)
      (fun b hb => by match b with | ⟨0, _⟩ => exact absurd rfl hb | ⟨1, _⟩ => rfl) rfl).trans ?_
    rw [colSumsSq_apply]
    exact Finset.sum_congr rfl fun p _ => (statOf_one _).symm

/-- The [16, 2, 128] array reduces over its first axis to [2, 128]. -/
theorem reduces16 : S16x2x128.Reduces [0] S2x128 := by decide

/-- The reduced index (r, ch) with the block number `k` put back is (k, r, ch). -/
theorem lift_block (r : Fin 2) (ch : Fin 128) (k : Fin 16) : reduces16.lift (ix2 r ch) k = ix3 k r ch := by
  funext a
  match a with
  | ⟨0, _⟩ => exact Fin.ext rfl
  | ⟨1, _⟩ => exact Fin.ext rfl
  | ⟨2, _⟩ => exact Fin.ext rfl

/-- Over the extended reals the host's sum at (r, ch) is the sum of the sixteen blocks' entries there. -/
theorem sumOver16_apply (p : Vec Ideal S16x2x128 .f32) (r : Fin 2) (ch : Fin 128) :
    sumOver16 p (ix2 r ch) = ∑ t : Fin 16, p (ix3 t r ch) := by
  show Ideal.hostReduceAdd reducesTo_S16x2x128_S2x128_d0 p (Ideal.ofBits .f32 0x00000000#32) (ix2 r ch) = _
  rw [Ideal.hostReduceAdd_single reducesTo_S16x2x128_S2x128_d0 reduces16, Ideal.ofBits_zero_f32, zero_add]
  exact Finset.sum_congr rfl fun k _ => congrArg p (lift_block r ch k)

-- what core `c`'s buffers hold when the region is entered, over the extended reals
variable (W : (c : Dev nD) → (b : Ref sig .tc) → Buf (Elt Ideal) ((c : Thread nD τ).loc b))

/-- Entry (i, ch) of the flattened activation as core `c` finds it, an extended real. -/
abbrev actAt (c : Dev nD) (i : Fin 65536) (ch : Fin 128) : EReal := W c main_v4 (ix2 i ch)

/-- Block `t` of the array the region leaves, at (r, ch): chunk `t`'s column sum, or that of its squares. -/
theorem statsArr_apply (c : Dev nD) (t : Fin 16) (r : Fin 2) (ch : Fin 128) :
    statsArr W c (ix3 t r ch) = (∑ p : Fin 4096, statOf r (actAt W c ⟨t.val * 4096 + p.val, by omega⟩ ch) : EReal) := by
  show statsOf (chunk0 W c 0 (pointOf0_1 (ix3 t r ch))) (localOf0_1 (ix3 t r ch)) = _
  rw [statsOf_eq]
  show k0_pay1 (chunk0 W c 0 (pointOf0_1 (ix3 t r ch))) (ix3 (0 : Fin 1) r ch) = _
  rw [chunkStats_apply]
  refine Finset.sum_congr rfl fun p _ => congrArg (statOf r) ?_
  exact chunk0_apply W c _ p ch

/-- THE VALUE. Over the extended reals the host's sum of the sixteen blocks holds, at (r, ch), the sum over the 16
    chunks and the 4096 rows of each of the entries of the flattened activation in column `ch` (row 0) or of their
    squares (row 1). -/
theorem sumOver16_statsArr_apply (c : Dev nD) (r : Fin 2) (ch : Fin 128) :
    sumOver16 (statsArr W c) (ix2 r ch)
      = (∑ t : Fin 16, ∑ p : Fin 4096, statOf r (actAt W c ⟨t.val * 4096 + p.val, by omega⟩ ch) : EReal) := by
  rw [sumOver16_apply]
  exact Finset.sum_congr rfl fun t _ => statsArr_apply W c t r ch

end AtIdeal

end Cert.KernelIdeal.Hand

end
-- ==== Proof.KI.Conv1Arr.lean ====
/-
  Region 1's two output arrays. Point `t` writes image `t`'s block of each and nothing else, and the 64 blocks tile each
  array: the image array ends holding, at (n, h, w, ch), the product for image n at (0, h, w, ch); the statistics array, at
  (n, r, ch), image n's statistics at (0, r, ch).
-/
import proofs.«128858_g2000205668668362_pallasbulk_730_2_alg».proof.Proof.KI.Conv1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 1, output window 4: the array it leaves, index by index -/

/-- The printed index map of the window, decided over the grid: point `t` writes slab `t` along axis 0. -/
theorem slab1_4 : ∀ t : Fin cfg1.N, win1_4.index t (0 : Fin 4) = t.val ∧ win1_4.index t (1 : Fin 4) = 0 ∧ win1_4.index t (2 : Fin 4) = 0 ∧ win1_4.index t (3 : Fin 4) = 0 :=
  (by decide +kernel : ∀ t : Fin grid1.N, _)

/-- The grid point whose block holds an index: its coordinate on axis 0. -/
def pointOf1_4 (i : S64x32x32x128.Idx) : Fin cfg1.N := ⟨(i 0).val, by rw [show cfg1.N = 64 from N_1]; exact (i 0).isLt⟩

/-- An index's coordinates inside its block. -/
def localOf1_4 (i : S64x32x32x128.Idx) : S1x32x32x128.Idx := ValueIdx.ix4 (0 : Fin 1) (⟨(i 1).val, (i 1).isLt⟩ : Fin 32) (⟨(i 2).val, (i 2).isLt⟩ : Fin 32) (⟨(i 3).val, (i 3).isLt⟩ : Fin 128)

/-- What the array ends holding: at index `i`, what point `i 0` leaves in its block, at the index's coordinates inside
    the block. -/
def convArr_1 (c : Dev nD) : S64x32x32x128.Idx → Elt F .bf16 := fun i =>
  (convOf_1 (blk1 V c 0 (pointOf1_4 i)) (blk1 V c 1 (pointOf1_4 i)) (blk1 V c 2 (pointOf1_4 i)) (blk1 V c 3 (pointOf1_4 i))) (localOf1_4 i)

/-- `convArr_1` at an index of point `t`'s block with local coordinates `j`. -/
theorem convArr_1_at (c : Dev nD) (t : Fin cfg1.N) (j : S1x32x32x128.Idx) (i : S64x32x32x128.Idx) (hp : pointOf1_4 i = t) (hl : localOf1_4 i = j) :
    convArr_1 V c i = (convOf_1 (blk1 V c 0 t) (blk1 V c 1 t) (blk1 V c 2 t) (blk1 V c 3 t)) j := by
  subst hp; subst hl; rfl

/-- An index of the array is in point `t`'s block iff each coordinate is in the block's range on its axis. -/
theorem mem_blk1_4 (t : Fin cfg1.N) (i : S64x32x32x128.Idx) :
    i ∈ ((cfg1.win 4).blk t).view.set ↔ ∀ a : Fin 4, win1_4.index t a * S1x32x32x128.size a ≤ (i a).val ∧ (i a).val < win1_4.index t a * S1x32x32x128.size a + S1x32x32x128.size a := by
  show i ∈ ((View.whole main_v23_0).slice (win1_4.rect t)).set ↔ _
  rw [View.set_slice_whole, Rect.mem_set_unit]
  exact Iff.rfl

set_option maxHeartbeats 1000000 in
/-- What point `t` writes back is block `t` of `convArr_1`. -/
theorem flushed1_4 (c : Dev nD) (t : Fin cfg1.N) :
    (dat1 V c).flushed 4 t = ((cfg1.win 4).blk t).view.read (Elt F) (convArr_1 V c) := by
  show (cfg1.win 4).cut (grid1.coords t) ((dat1 V c).after 4 t) = _
  rw [after1_4]
  obtain ⟨e0, e1, e2, e3⟩ := slab1_4 t
  funext j
  show (convOf_1 (blk1 V c 0 t) (blk1 V c 1 t) (blk1 V c 2 t) (blk1 V c 3 t)) j = convArr_1 V c (((cfg1.win 4).blk t).view.emb j)
  have hp : pointOf1_4 (((cfg1.win 4).blk t).view.emb j) = t := by
    apply Fin.ext
    show win1_4.index t (0 : Fin 4) * 1 + 1 * (j 0).val = t.val
    have hj : (j 0).val < 1 := (j 0).isLt
    omega
  have hl : localOf1_4 (((cfg1.win 4).blk t).view.emb j) = j := by
    funext a
    apply Fin.ext
    match a with
    | ⟨0, _⟩ => show 0 = (j 0).val; have hj : (j 0).val < 1 := (j 0).isLt; omega
    | ⟨1, _⟩ => show win1_4.index t (1 : Fin 4) * 32 + 1 * (j 1).val = (j 1).val; omega
    | ⟨2, _⟩ => show win1_4.index t (2 : Fin 4) * 32 + 1 * (j 2).val = (j 2).val; omega
    | ⟨3, _⟩ => show win1_4.index t (3 : Fin 4) * 128 + 1 * (j 3).val = (j 3).val; omega
  exact (convArr_1_at V c t j _ hp hl).symm

/-- Every index of the array is in some point's block. -/
theorem cover1_4 (i : S64x32x32x128.Idx) :
    ∃ t : Fin cfg1.N, (cfg1.win 4).flush t = true ∧ i ∈ ((cfg1.win 4).blk t).view.set := by
  refine ⟨pointOf1_4 i, flush1_4 _, ?_⟩
  rw [mem_blk1_4]
  obtain ⟨e0, e1, e2, e3⟩ := slab1_4 (pointOf1_4 i)
  have hv : (pointOf1_4 i).val = (i 0).val := rfl
  intro a
  match a with
    | ⟨0, _⟩ => show win1_4.index (pointOf1_4 i) (0 : Fin 4) * 1 ≤ (i 0).val ∧ (i 0).val < win1_4.index (pointOf1_4 i) (0 : Fin 4) * 1 + 1; omega
    | ⟨1, _⟩ => show win1_4.index (pointOf1_4 i) (1 : Fin 4) * 32 ≤ (i 1).val ∧ (i 1).val < win1_4.index (pointOf1_4 i) (1 : Fin 4) * 32 + 32; have hi : (i 1).val < 32 := (i 1).isLt; omega
    | ⟨2, _⟩ => show win1_4.index (pointOf1_4 i) (2 : Fin 4) * 32 ≤ (i 2).val ∧ (i 2).val < win1_4.index (pointOf1_4 i) (2 : Fin 4) * 32 + 32; have hi : (i 2).val < 32 := (i 2).isLt; omega
    | ⟨3, _⟩ => show win1_4.index (pointOf1_4 i) (3 : Fin 4) * 128 ≤ (i 3).val ∧ (i 3).val < win1_4.index (pointOf1_4 i) (3 : Fin 4) * 128 + 128; have hi : (i 3).val < 128 := (i 3).isLt; omega

/-- THE ARRAY after the region: `convArr_1`. -/
theorem final1_4 (c : Dev nD) : (dat1 V c).arrAt 4 cfg1.N = convArr_1 V c :=
  (dat1 V c).arrAt_eq_of_cover 4 (convArr_1 V c) (fun t _ => flushed1_4 V c t) (cover1_4)

/-! ## Region 1, output window 5: the array it leaves, index by index -/

/-- The printed index map of the window, decided over the grid: point `t` writes slab `t` along axis 0. -/
theorem slab1_5 : ∀ t : Fin cfg1.N, win1_5.index t (0 : Fin 3) = t.val ∧ win1_5.index t (1 : Fin 3) = 0 ∧ win1_5.index t (2 : Fin 3) = 0 :=
  (by decide +kernel : ∀ t : Fin grid1.N, _)

/-- The grid point whose block holds an index: its coordinate on axis 0. -/
def pointOf1_5 (i : S64x2x128.Idx) : Fin cfg1.N := ⟨(i 0).val, by rw [show cfg1.N = 64 from N_1]; exact (i 0).isLt⟩

/-- An index's coordinates inside its block. -/
def localOf1_5 (i : S64x2x128.Idx) : S1x2x128.Idx := ValueIdx.ix3 (0 : Fin 1) (⟨(i 1).val, (i 1).isLt⟩ : Fin 2) (⟨(i 2).val, (i 2).isLt⟩ : Fin 128)

/-- What the array ends holding: at index `i`, what point `i 0` leaves in its block, at the index's coordinates inside
    the block. -/
def convStatsArr_1 (c : Dev nD) : S64x2x128.Idx → Elt F .f32 := fun i =>
  (convStatsOf_1 (blk1 V c 0 (pointOf1_5 i)) (blk1 V c 1 (pointOf1_5 i)) (blk1 V c 2 (pointOf1_5 i)) (blk1 V c 3 (pointOf1_5 i))) (localOf1_5 i)

/-- `convStatsArr_1` at an index of point `t`'s block with local coordinates `j`. -/
theorem convStatsArr_1_at (c : Dev nD) (t : Fin cfg1.N) (j : S1x2x128.Idx) (i : S64x2x128.Idx) (hp : pointOf1_5 i = t) (hl : localOf1_5 i = j) :
    convStatsArr_1 V c i = (convStatsOf_1 (blk1 V c 0 t) (blk1 V c 1 t) (blk1 V c 2 t) (blk1 V c 3 t)) j := by
  subst hp; subst hl; rfl

/-- An index of the array is in point `t`'s block iff each coordinate is in the block's range on its axis. -/
theorem mem_blk1_5 (t : Fin cfg1.N) (i : S64x2x128.Idx) :
    i ∈ ((cfg1.win 5).blk t).view.set ↔ ∀ a : Fin 3, win1_5.index t a * S1x2x128.size a ≤ (i a).val ∧ (i a).val < win1_5.index t a * S1x2x128.size a + S1x2x128.size a := by
  show i ∈ ((View.whole main_v23_1).slice (win1_5.rect t)).set ↔ _
  rw [View.set_slice_whole, Rect.mem_set_unit]
  exact Iff.rfl

set_option maxHeartbeats 1000000 in
/-- What point `t` writes back is block `t` of `convStatsArr_1`. -/
theorem flushed1_5 (c : Dev nD) (t : Fin cfg1.N) :
    (dat1 V c).flushed 5 t = ((cfg1.win 5).blk t).view.read (Elt F) (convStatsArr_1 V c) := by
  show (cfg1.win 5).cut (grid1.coords t) ((dat1 V c).after 5 t) = _
  rw [after1_5]
  obtain ⟨e0, e1, e2⟩ := slab1_5 t
  funext j
  show (convStatsOf_1 (blk1 V c 0 t) (blk1 V c 1 t) (blk1 V c 2 t) (blk1 V c 3 t)) j = convStatsArr_1 V c (((cfg1.win 5).blk t).view.emb j)
  have hp : pointOf1_5 (((cfg1.win 5).blk t).view.emb j) = t := by
    apply Fin.ext
    show win1_5.index t (0 : Fin 3) * 1 + 1 * (j 0).val = t.val
    have hj : (j 0).val < 1 := (j 0).isLt
    omega
  have hl : localOf1_5 (((cfg1.win 5).blk t).view.emb j) = j := by
    funext a
    apply Fin.ext
    match a with
    | ⟨0, _⟩ => show 0 = (j 0).val; have hj : (j 0).val < 1 := (j 0).isLt; omega
    | ⟨1, _⟩ => show win1_5.index t (1 : Fin 3) * 2 + 1 * (j 1).val = (j 1).val; omega
    | ⟨2, _⟩ => show win1_5.index t (2 : Fin 3) * 128 + 1 * (j 2).val = (j 2).val; omega
  exact (convStatsArr_1_at V c t j _ hp hl).symm

/-- Every index of the array is in some point's block. -/
theorem cover1_5 (i : S64x2x128.Idx) :
    ∃ t : Fin cfg1.N, (cfg1.win 5).flush t = true ∧ i ∈ ((cfg1.win 5).blk t).view.set := by
  refine ⟨pointOf1_5 i, flush1_5 _, ?_⟩
  rw [mem_blk1_5]
  obtain ⟨e0, e1, e2⟩ := slab1_5 (pointOf1_5 i)
  have hv : (pointOf1_5 i).val = (i 0).val := rfl
  intro a
  match a with
    | ⟨0, _⟩ => show win1_5.index (pointOf1_5 i) (0 : Fin 3) * 1 ≤ (i 0).val ∧ (i 0).val < win1_5.index (pointOf1_5 i) (0 : Fin 3) * 1 + 1; omega
    | ⟨1, _⟩ => show win1_5.index (pointOf1_5 i) (1 : Fin 3) * 2 ≤ (i 1).val ∧ (i 1).val < win1_5.index (pointOf1_5 i) (1 : Fin 3) * 2 + 2; have hi : (i 1).val < 2 := (i 1).isLt; omega
    | ⟨2, _⟩ => show win1_5.index (pointOf1_5 i) (2 : Fin 3) * 128 ≤ (i 2).val ∧ (i 2).val < win1_5.index (pointOf1_5 i) (2 : Fin 3) * 128 + 128; have hi : (i 2).val < 128 := (i 2).isLt; omega

/-- THE ARRAY after the region: `convStatsArr_1`. -/
theorem final1_5 (c : Dev nD) : (dat1 V c).arrAt 5 cfg1.N = convStatsArr_1 V c :=
  (dat1 V c).arrAt_eq_of_cover 5 (convStatsArr_1 V c) (fun t _ => flushed1_5 V c t) (cover1_5)

end Cert.KernelIdeal.Hand

end
-- ==== Proof.KI.Conv2Arr.lean ====
/-
  Region 2's two output arrays. Point `t` writes image `t`'s block of each and nothing else, and the 64 blocks tile each
  array: the image array ends holding, at (n, h, w, ch), the product for image n at (0, h, w, ch); the statistics array, at
  (n, r, ch), image n's statistics at (0, r, ch).
-/
import proofs.«128858_g2000205668668362_pallasbulk_730_2_alg».proof.Proof.KI.Conv2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 2, output window 4: the array it leaves, index by index -/

/-- The printed index map of the window, decided over the grid: point `t` writes slab `t` along axis 0. -/
theorem slab2_4 : ∀ t : Fin cfg2.N, win2_4.index t (0 : Fin 4) = t.val ∧ win2_4.index t (1 : Fin 4) = 0 ∧ win2_4.index t (2 : Fin 4) = 0 ∧ win2_4.index t (3 : Fin 4) = 0 :=
  (by decide +kernel : ∀ t : Fin grid2.N, _)

/-- The grid point whose block holds an index: its coordinate on axis 0. -/
def pointOf2_4 (i : S64x32x32x128.Idx) : Fin cfg2.N := ⟨(i 0).val, by rw [show cfg2.N = 64 from N_2]; exact (i 0).isLt⟩

/-- An index's coordinates inside its block. -/
def localOf2_4 (i : S64x32x32x128.Idx) : S1x32x32x128.Idx := ValueIdx.ix4 (0 : Fin 1) (⟨(i 1).val, (i 1).isLt⟩ : Fin 32) (⟨(i 2).val, (i 2).isLt⟩ : Fin 32) (⟨(i 3).val, (i 3).isLt⟩ : Fin 128)

/-- What the array ends holding: at index `i`, what point `i 0` leaves in its block, at the index's coordinates inside
    the block. -/
def convArr_2 (c : Dev nD) : S64x32x32x128.Idx → Elt F .bf16 := fun i =>
  (convOf_2 (blk2 V c 0 (pointOf2_4 i)) (blk2 V c 1 (pointOf2_4 i)) (blk2 V c 2 (pointOf2_4 i)) (blk2 V c 3 (pointOf2_4 i))) (localOf2_4 i)

/-- `convArr_2` at an index of point `t`'s block with local coordinates `j`. -/
theorem convArr_2_at (c : Dev nD) (t : Fin cfg2.N) (j : S1x32x32x128.Idx) (i : S64x32x32x128.Idx) (hp : pointOf2_4 i = t) (hl : localOf2_4 i = j) :
    convArr_2 V c i = (convOf_2 (blk2 V c 0 t) (blk2 V c 1 t) (blk2 V c 2 t) (blk2 V c 3 t)) j := by
  subst hp; subst hl; rfl

/-- An index of the array is in point `t`'s block iff each coordinate is in the block's range on its axis. -/
theorem mem_blk2_4 (t : Fin cfg2.N) (i : S64x32x32x128.Idx) :
    i ∈ ((cfg2.win 4).blk t).view.set ↔ ∀ a : Fin 4, win2_4.index t a * S1x32x32x128.size a ≤ (i a).val ∧ (i a).val < win2_4.index t a * S1x32x32x128.size a + S1x32x32x128.size a := by
  show i ∈ ((View.whole main_v41_0).slice (win2_4.rect t)).set ↔ _
  rw [View.set_slice_whole, Rect.mem_set_unit]
  exact Iff.rfl

set_option maxHeartbeats 1000000 in
/-- What point `t` writes back is block `t` of `convArr_2`. -/
theorem flushed2_4 (c : Dev nD) (t : Fin cfg2.N) :
    (dat2 V c).flushed 4 t = ((cfg2.win 4).blk t).view.read (Elt F) (convArr_2 V c) := by
  show (cfg2.win 4).cut (grid2.coords t) ((dat2 V c).after 4 t) = _
  rw [after2_4]
  obtain ⟨e0, e1, e2, e3⟩ := slab2_4 t
  funext j
  show (convOf_2 (blk2 V c 0 t) (blk2 V c 1 t) (blk2 V c 2 t) (blk2 V c 3 t)) j = convArr_2 V c (((cfg2.win 4).blk t).view.emb j)
  have hp : pointOf2_4 (((cfg2.win 4).blk t).view.emb j) = t := by
    apply Fin.ext
    show win2_4.index t (0 : Fin 4) * 1 + 1 * (j 0).val = t.val
    have hj : (j 0).val < 1 := (j 0).isLt
    omega
  have hl : localOf2_4 (((cfg2.win 4).blk t).view.emb j) = j := by
    funext a
    apply Fin.ext
    match a with
    | ⟨0, _⟩ => show 0 = (j 0).val; have hj : (j 0).val < 1 := (j 0).isLt; omega
    | ⟨1, _⟩ => show win2_4.index t (1 : Fin 4) * 32 + 1 * (j 1).val = (j 1).val; omega
    | ⟨2, _⟩ => show win2_4.index t (2 : Fin 4) * 32 + 1 * (j 2).val = (j 2).val; omega
    | ⟨3, _⟩ => show win2_4.index t (3 : Fin 4) * 128 + 1 * (j 3).val = (j 3).val; omega
  exact (convArr_2_at V c t j _ hp hl).symm

/-- Every index of the array is in some point's block. -/
theorem cover2_4 (i : S64x32x32x128.Idx) :
    ∃ t : Fin cfg2.N, (cfg2.win 4).flush t = true ∧ i ∈ ((cfg2.win 4).blk t).view.set := by
  refine ⟨pointOf2_4 i, flush2_4 _, ?_⟩
  rw [mem_blk2_4]
  obtain ⟨e0, e1, e2, e3⟩ := slab2_4 (pointOf2_4 i)
  have hv : (pointOf2_4 i).val = (i 0).val := rfl
  intro a
  match a with
    | ⟨0, _⟩ => show win2_4.index (pointOf2_4 i) (0 : Fin 4) * 1 ≤ (i 0).val ∧ (i 0).val < win2_4.index (pointOf2_4 i) (0 : Fin 4) * 1 + 1; omega
    | ⟨1, _⟩ => show win2_4.index (pointOf2_4 i) (1 : Fin 4) * 32 ≤ (i 1).val ∧ (i 1).val < win2_4.index (pointOf2_4 i) (1 : Fin 4) * 32 + 32; have hi : (i 1).val < 32 := (i 1).isLt; omega
    | ⟨2, _⟩ => show win2_4.index (pointOf2_4 i) (2 : Fin 4) * 32 ≤ (i 2).val ∧ (i 2).val < win2_4.index (pointOf2_4 i) (2 : Fin 4) * 32 + 32; have hi : (i 2).val < 32 := (i 2).isLt; omega
    | ⟨3, _⟩ => show win2_4.index (pointOf2_4 i) (3 : Fin 4) * 128 ≤ (i 3).val ∧ (i 3).val < win2_4.index (pointOf2_4 i) (3 : Fin 4) * 128 + 128; have hi : (i 3).val < 128 := (i 3).isLt; omega

/-- THE ARRAY after the region: `convArr_2`. -/
theorem final2_4 (c : Dev nD) : (dat2 V c).arrAt 4 cfg2.N = convArr_2 V c :=
  (dat2 V c).arrAt_eq_of_cover 4 (convArr_2 V c) (fun t _ => flushed2_4 V c t) (cover2_4)

/-! ## Region 2, output window 5: the array it leaves, index by index -/

/-- The printed index map of the window, decided over the grid: point `t` writes slab `t` along axis 0. -/
theorem slab2_5 : ∀ t : Fin cfg2.N, win2_5.index t (0 : Fin 3) = t.val ∧ win2_5.index t (1 : Fin 3) = 0 ∧ win2_5.index t (2 : Fin 3) = 0 :=
  (by decide +kernel : ∀ t : Fin grid2.N, _)

/-- The grid point whose block holds an index: its coordinate on axis 0. -/
def pointOf2_5 (i : S64x2x128.Idx) : Fin cfg2.N := ⟨(i 0).val, by rw [show cfg2.N = 64 from N_2]; exact (i 0).isLt⟩

/-- An index's coordinates inside its block. -/
def localOf2_5 (i : S64x2x128.Idx) : S1x2x128.Idx := ValueIdx.ix3 (0 : Fin 1) (⟨(i 1).val, (i 1).isLt⟩ : Fin 2) (⟨(i 2).val, (i 2).isLt⟩ : Fin 128)

/-- What the array ends holding: at index `i`, what point `i 0` leaves in its block, at the index's coordinates inside
    the block. -/
def convStatsArr_2 (c : Dev nD) : S64x2x128.Idx → Elt F .f32 := fun i =>
  (convStatsOf_2 (blk2 V c 0 (pointOf2_5 i)) (blk2 V c 1 (pointOf2_5 i)) (blk2 V c 2 (pointOf2_5 i)) (blk2 V c 3 (pointOf2_5 i))) (localOf2_5 i)

/-- `convStatsArr_2` at an index of point `t`'s block with local coordinates `j`. -/
theorem convStatsArr_2_at (c : Dev nD) (t : Fin cfg2.N) (j : S1x2x128.Idx) (i : S64x2x128.Idx) (hp : pointOf2_5 i = t) (hl : localOf2_5 i = j) :
    convStatsArr_2 V c i = (convStatsOf_2 (blk2 V c 0 t) (blk2 V c 1 t) (blk2 V c 2 t) (blk2 V c 3 t)) j := by
  subst hp; subst hl; rfl

/-- An index of the array is in point `t`'s block iff each coordinate is in the block's range on its axis. -/
theorem mem_blk2_5 (t : Fin cfg2.N) (i : S64x2x128.Idx) :
    i ∈ ((cfg2.win 5).blk t).view.set ↔ ∀ a : Fin 3, win2_5.index t a * S1x2x128.size a ≤ (i a).val ∧ (i a).val < win2_5.index t a * S1x2x128.size a + S1x2x128.size a := by
  show i ∈ ((View.whole main_v41_1).slice (win2_5.rect t)).set ↔ _
  rw [View.set_slice_whole, Rect.mem_set_unit]
  exact Iff.rfl

set_option maxHeartbeats 1000000 in
/-- What point `t` writes back is block `t` of `convStatsArr_2`. -/
theorem flushed2_5 (c : Dev nD) (t : Fin cfg2.N) :
    (dat2 V c).flushed 5 t = ((cfg2.win 5).blk t).view.read (Elt F) (convStatsArr_2 V c) := by
  show (cfg2.win 5).cut (grid2.coords t) ((dat2 V c).after 5 t) = _
  rw [after2_5]
  obtain ⟨e0, e1, e2⟩ := slab2_5 t
  funext j
  show (convStatsOf_2 (blk2 V c 0 t) (blk2 V c 1 t) (blk2 V c 2 t) (blk2 V c 3 t)) j = convStatsArr_2 V c (((cfg2.win 5).blk t).view.emb j)
  have hp : pointOf2_5 (((cfg2.win 5).blk t).view.emb j) = t := by
    apply Fin.ext
    show win2_5.index t (0 : Fin 3) * 1 + 1 * (j 0).val = t.val
    have hj : (j 0).val < 1 := (j 0).isLt
    omega
  have hl : localOf2_5 (((cfg2.win 5).blk t).view.emb j) = j := by
    funext a
    apply Fin.ext
    match a with
    | ⟨0, _⟩ => show 0 = (j 0).val; have hj : (j 0).val < 1 := (j 0).isLt; omega
    | ⟨1, _⟩ => show win2_5.index t (1 : Fin 3) * 2 + 1 * (j 1).val = (j 1).val; omega
    | ⟨2, _⟩ => show win2_5.index t (2 : Fin 3) * 128 + 1 * (j 2).val = (j 2).val; omega
  exact (convStatsArr_2_at V c t j _ hp hl).symm

/-- Every index of the array is in some point's block. -/
theorem cover2_5 (i : S64x2x128.Idx) :
    ∃ t : Fin cfg2.N, (cfg2.win 5).flush t = true ∧ i ∈ ((cfg2.win 5).blk t).view.set := by
  refine ⟨pointOf2_5 i, flush2_5 _, ?_⟩
  rw [mem_blk2_5]
  obtain ⟨e0, e1, e2⟩ := slab2_5 (pointOf2_5 i)
  have hv : (pointOf2_5 i).val = (i 0).val := rfl
  intro a
  match a with
    | ⟨0, _⟩ => show win2_5.index (pointOf2_5 i) (0 : Fin 3) * 1 ≤ (i 0).val ∧ (i 0).val < win2_5.index (pointOf2_5 i) (0 : Fin 3) * 1 + 1; omega
    | ⟨1, _⟩ => show win2_5.index (pointOf2_5 i) (1 : Fin 3) * 2 ≤ (i 1).val ∧ (i 1).val < win2_5.index (pointOf2_5 i) (1 : Fin 3) * 2 + 2; have hi : (i 1).val < 2 := (i 1).isLt; omega
    | ⟨2, _⟩ => show win2_5.index (pointOf2_5 i) (2 : Fin 3) * 128 ≤ (i 2).val ∧ (i 2).val < win2_5.index (pointOf2_5 i) (2 : Fin 3) * 128 + 128; have hi : (i 2).val < 128 := (i 2).isLt; omega

/-- THE ARRAY after the region: `convStatsArr_2`. -/
theorem final2_5 (c : Dev nD) : (dat2 V c).arrAt 5 cfg2.N = convStatsArr_2 V c :=
  (dat2 V c).arrAt_eq_of_cover 5 (convStatsArr_2 V c) (fun t _ => flushed2_5 V c t) (cover2_5)

end Cert.KernelIdeal.Hand

end
-- ==== Proof.KI.GateArr.lean ====
/-
  Region 3's output array. Point `t` writes image `t`'s block and nothing else, and the 64 blocks tile the array: so the
  array ends holding, at index (n, h, w, ch), what the body leaves for image n at (0, h, w, ch).
-/
import proofs.«128858_g2000205668668362_pallasbulk_730_2_alg».proof.Proof.KI.Gate
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 3, output window 8: the array it leaves, index by index -/

/-- The printed index map of the window, decided over the grid: point `t` writes slab `t` along axis 0. -/
theorem slab3_8 : ∀ t : Fin cfg3.N, win3_8.index t (0 : Fin 4) = t.val ∧ win3_8.index t (1 : Fin 4) = 0 ∧ win3_8.index t (2 : Fin 4) = 0 ∧ win3_8.index t (3 : Fin 4) = 0 :=
  (by decide +kernel : ∀ t : Fin grid3.N, _)

/-- The grid point whose block holds an index: its coordinate on axis 0. -/
def pointOf3_8 (i : S64x32x32x128.Idx) : Fin cfg3.N := ⟨(i 0).val, by rw [show cfg3.N = 64 from N_3]; exact (i 0).isLt⟩

/-- An index's coordinates inside its block. -/
def localOf3_8 (i : S64x32x32x128.Idx) : S1x32x32x128.Idx := ValueIdx.ix4 (0 : Fin 1) (⟨(i 1).val, (i 1).isLt⟩ : Fin 32) (⟨(i 2).val, (i 2).isLt⟩ : Fin 32) (⟨(i 3).val, (i 3).isLt⟩ : Fin 128)

/-- What the array ends holding: at index `i`, what point `i 0` leaves in its block, at the index's coordinates inside
    the block. -/
def gatedArr (c : Dev nD) : S64x32x32x128.Idx → Elt F .f32 := fun i =>
  (gatedOf (blk3 V c 0 (pointOf3_8 i)) (blk3 V c 1 (pointOf3_8 i)) (blk3 V c 2 (pointOf3_8 i)) (blk3 V c 3 (pointOf3_8 i)) (blk3 V c 4 (pointOf3_8 i)) (blk3 V c 5 (pointOf3_8 i)) (blk3 V c 6 (pointOf3_8 i)) (blk3 V c 7 (pointOf3_8 i))) (localOf3_8 i)

/-- `gatedArr` at an index of point `t`'s block with local coordinates `j`. -/
theorem gatedArr_at (c : Dev nD) (t : Fin cfg3.N) (j : S1x32x32x128.Idx) (i : S64x32x32x128.Idx) (hp : pointOf3_8 i = t) (hl : localOf3_8 i = j) :
    gatedArr V c i = (gatedOf (blk3 V c 0 t) (blk3 V c 1 t) (blk3 V c 2 t) (blk3 V c 3 t) (blk3 V c 4 t) (blk3 V c 5 t) (blk3 V c 6 t) (blk3 V c 7 t)) j := by
  subst hp; subst hl; rfl

/-- An index of the array is in point `t`'s block iff each coordinate is in the block's range on its axis. -/
theorem mem_blk3_8 (t : Fin cfg3.N) (i : S64x32x32x128.Idx) :
    i ∈ ((cfg3.win 8).blk t).view.set ↔ ∀ a : Fin 4, win3_8.index t a * S1x32x32x128.size a ≤ (i a).val ∧ (i a).val < win3_8.index t a * S1x32x32x128.size a + S1x32x32x128.size a := by
  show i ∈ ((View.whole main_v59).slice (win3_8.rect t)).set ↔ _
  rw [View.set_slice_whole, Rect.mem_set_unit]
  exact Iff.rfl

set_option maxHeartbeats 1000000 in
/-- What point `t` writes back is block `t` of `gatedArr`. -/
theorem flushed3_8 (c : Dev nD) (t : Fin cfg3.N) :
    (dat3 V c).flushed 8 t = ((cfg3.win 8).blk t).view.read (Elt F) (gatedArr V c) := by
  show (cfg3.win 8).cut (grid3.coords t) ((dat3 V c).after 8 t) = _
  rw [after3_8]
  obtain ⟨e0, e1, e2, e3⟩ := slab3_8 t
  funext j
  show (gatedOf (blk3 V c 0 t) (blk3 V c 1 t) (blk3 V c 2 t) (blk3 V c 3 t) (blk3 V c 4 t) (blk3 V c 5 t) (blk3 V c 6 t) (blk3 V c 7 t)) j = gatedArr V c (((cfg3.win 8).blk t).view.emb j)
  have hp : pointOf3_8 (((cfg3.win 8).blk t).view.emb j) = t := by
    apply Fin.ext
    show win3_8.index t (0 : Fin 4) * 1 + 1 * (j 0).val = t.val
    have hj : (j 0).val < 1 := (j 0).isLt
    omega
  have hl : localOf3_8 (((cfg3.win 8).blk t).view.emb j) = j := by
    funext a
    apply Fin.ext
    match a with
    | ⟨0, _⟩ => show 0 = (j 0).val; have hj : (j 0).val < 1 := (j 0).isLt; omega
    | ⟨1, _⟩ => show win3_8.index t (1 : Fin 4) * 32 + 1 * (j 1).val = (j 1).val; omega
    | ⟨2, _⟩ => show win3_8.index t (2 : Fin 4) * 32 + 1 * (j 2).val = (j 2).val; omega
    | ⟨3, _⟩ => show win3_8.index t (3 : Fin 4) * 128 + 1 * (j 3).val = (j 3).val; omega
  exact (gatedArr_at V c t j _ hp hl).symm

/-- Every index of the array is in some point's block. -/
theorem cover3_8 (i : S64x32x32x128.Idx) :
    ∃ t : Fin cfg3.N, (cfg3.win 8).flush t = true ∧ i ∈ ((cfg3.win 8).blk t).view.set := by
  refine ⟨pointOf3_8 i, flush3_8 _, ?_⟩
  rw [mem_blk3_8]
  obtain ⟨e0, e1, e2, e3⟩ := slab3_8 (pointOf3_8 i)
  have hv : (pointOf3_8 i).val = (i 0).val := rfl
  intro a
  match a with
    | ⟨0, _⟩ => show win3_8.index (pointOf3_8 i) (0 : Fin 4) * 1 ≤ (i 0).val ∧ (i 0).val < win3_8.index (pointOf3_8 i) (0 : Fin 4) * 1 + 1; omega
    | ⟨1, _⟩ => show win3_8.index (pointOf3_8 i) (1 : Fin 4) * 32 ≤ (i 1).val ∧ (i 1).val < win3_8.index (pointOf3_8 i) (1 : Fin 4) * 32 + 32; have hi : (i 1).val < 32 := (i 1).isLt; omega
    | ⟨2, _⟩ => show win3_8.index (pointOf3_8 i) (2 : Fin 4) * 32 ≤ (i 2).val ∧ (i 2).val < win3_8.index (pointOf3_8 i) (2 : Fin 4) * 32 + 32; have hi : (i 2).val < 32 := (i 2).isLt; omega
    | ⟨3, _⟩ => show win3_8.index (pointOf3_8 i) (3 : Fin 4) * 128 ≤ (i 3).val ∧ (i 3).val < win3_8.index (pointOf3_8 i) (3 : Fin 4) * 128 + 128; have hi : (i 3).val < 128 := (i 3).isLt; omega

/-- THE ARRAY after the region: `gatedArr`. -/
theorem final3_8 (c : Dev nD) : (dat3 V c).arrAt 8 cfg3.N = gatedArr V c :=
  (dat3 V c).arrAt_eq_of_cover 8 (gatedArr V c) (fun t _ => flushed3_8 V c t) (cover3_8)

end Cert.KernelIdeal.Hand

end
-- ==== Proof.KI.Chain.lean ====
/-
  The chain of values through the run. Each region's output arrays are read off the run's valuations in closed form; each
  host stretch's results — the flattened input, the two weight matrices, and per stage the scale and the shift folded from the
  summed statistics — are read as the stretch's operations of what it was entered with; and a buffer that no host stretch
  writes and no region outputs keeps its contents from one boundary to the next.
-/
import proofs.«128858_g2000205668668362_pallasbulk_730_2_alg».proof.Proof.KI.Run
import proofs.«128858_g2000205668668362_pallasbulk_730_2_alg».proof.Proof.KI.StatsSum
import proofs.«128858_g2000205668668362_pallasbulk_730_2_alg».proof.Proof.KI.Conv1Arr
import proofs.«128858_g2000205668668362_pallasbulk_730_2_alg».proof.Proof.KI.Conv2Arr
import proofs.«128858_g2000205668668362_pallasbulk_730_2_alg».proof.Proof.KI.GateArr
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## Scale and shift from a statistics array -/

/-- The mean: the first row of the summed statistics over the count. -/
def bnMean (s2 : Vec F S2x128 .f32) : Vec F S1x128 .f32 :=
  Host.divf (extractStridedSlice S1x128 ![0, 0] s2 slices_S2x128_S1x128_0_0) (broadcastInDim S1x128 ![] bcast_S_S1x128 (constant S_ .f32 0x47800000#32))

/-- The scale: gamma over the root of (the clamped variance plus epsilon), the variance being the mean of squares less the
    squared mean. -/
def bnScale (s2 : Vec F S2x128 .f32) (g : Vec F S1x128 .f32) : Vec F S1x128 .f32 :=
  mulf g (Host.rsqrt (addf (maximumf (subf (Host.divf (extractStridedSlice S1x128 ![1, 0] s2 slices_S2x128_S1x128_1_0) (broadcastInDim S1x128 ![] bcast_S_S1x128 (constant S_ .f32 0x47800000#32))) (mulf (bnMean s2) (bnMean s2))) (broadcastInDim S1x128 ![] bcast_S_S1x128 (constant S_ .f32 0x00000000#32))) (broadcastInDim S1x128 ![] bcast_S_S1x128 (constant S_ .f32 0x3727C5AC#32))))

/-- The shift: beta less the mean times the scale. -/
def bnShift (s2 : Vec F S2x128 .f32) (g b : Vec F S1x128 .f32) : Vec F S1x128 .f32 :=
  subf b (mulf (bnMean s2) (bnScale s2 g))

/-- The 64 images' statistics added up. -/
def sumOver64 (p : Vec F S64x2x128 .f32) : Vec F S2x128 .f32 :=
  Host.reduceAdd p (constant S_ .f32 0x00000000#32) reducesTo_S64x2x128_S2x128_d0 h_S_

/-! ## The regions' outputs -/

theorem out0 (c : Dev nD) : W2 m ρ c (Proc.devRef .tc main_v5) = statsArr (U1 m ρ) c :=
  (W2_arr m ρ c 1).trans (final0_1 (U1 m ρ) c)
theorem out1_y (c : Dev nD) : W4 m ρ c (Proc.devRef .tc main_v23_0) = convArr_1 (U3 m ρ) c :=
  (W4_arr m ρ c 4).trans (final1_4 (U3 m ρ) c)
theorem out1_p (c : Dev nD) : W4 m ρ c (Proc.devRef .tc main_v23_1) = convStatsArr_1 (U3 m ρ) c :=
  (W4_arr m ρ c 5).trans (final1_5 (U3 m ρ) c)
theorem out2_y (c : Dev nD) : W6 m ρ c (Proc.devRef .tc main_v41_0) = convArr_2 (U5 m ρ) c :=
  (W6_arr m ρ c 4).trans (final2_4 (U5 m ρ) c)
theorem out2_p (c : Dev nD) : W6 m ρ c (Proc.devRef .tc main_v41_1) = convStatsArr_2 (U5 m ρ) c :=
  (W6_arr m ρ c 5).trans (final2_5 (U5 m ρ) c)
theorem out3 (c : Dev nD) : W8 m ρ c (Proc.devRef .tc main_v59) = gatedArr (U7 m ρ) c :=
  (W8_arr m ρ c 8).trans (final3_8 (U7 m ρ) c)

/-! ## The host stretches' results -/

set_option maxHeartbeats 2000000 in
theorem flat_read (c : Dev nD) :
    (W1 m ρ c (Proc.devRef .tc main_v4) : S65536x128.Idx → Elt F .f32)
      = shapeCast S65536x128 (W0 m ρ c (Proc.devRef .tc main_arg0)) shapeCasts_S64x32x32x128_S65536x128 := by
  show StableHlo.after hostOps0 _ (Proc.devRef .tc main_v4) = _
  after_results
  rfl

set_option maxHeartbeats 2000000 in
theorem w1_read (c : Dev nD) :
    (W1 m ρ c (Proc.devRef .tc main_v1) : S1152x128.Idx → Elt F .bf16)
      = (truncf .bf16 (shapeCast S1152x128 (W0 m ρ c (Proc.devRef .tc main_arg3)) shapeCasts_S3x3x128x128_S1152x128) bitsLt_bf16_f32 : Vec F S1152x128 .bf16) := by
  show StableHlo.after hostOps0 _ (Proc.devRef .tc main_v1) = _
  after_results
  rfl

set_option maxHeartbeats 2000000 in
theorem w2_read (c : Dev nD) :
    (W1 m ρ c (Proc.devRef .tc main_v3) : S1152x128.Idx → Elt F .bf16)
      = (truncf .bf16 (shapeCast S1152x128 (W0 m ρ c (Proc.devRef .tc main_arg6)) shapeCasts_S3x3x128x128_S1152x128) bitsLt_bf16_f32 : Vec F S1152x128 .bf16) := by
  show StableHlo.after hostOps0 _ (Proc.devRef .tc main_v3) = _
  after_results
  rfl

set_option maxHeartbeats 2000000 in
theorem scale0_read (c : Dev nD) :
    (W3 m ρ c (Proc.devRef .tc main_v20) : S1x128.Idx → Elt F .f32)
      = bnScale (sumOver16 (W2 m ρ c (Proc.devRef .tc main_v5))) (W2 m ρ c (Proc.devRef .tc main_arg1)) := by
  show StableHlo.after hostOps1 _ (Proc.devRef .tc main_v20) = _
  after_results
  rfl

set_option maxHeartbeats 2000000 in
theorem shift0_read (c : Dev nD) :
    (W3 m ρ c (Proc.devRef .tc main_v22) : S1x128.Idx → Elt F .f32)
      = bnShift (sumOver16 (W2 m ρ c (Proc.devRef .tc main_v5))) (W2 m ρ c (Proc.devRef .tc main_arg1)) (W2 m ρ c (Proc.devRef .tc main_arg2)) := by
  show StableHlo.after hostOps1 _ (Proc.devRef .tc main_v22) = _
  after_results
  rfl

set_option maxHeartbeats 2000000 in
theorem scale1_read (c : Dev nD) :
    (W5 m ρ c (Proc.devRef .tc main_v38) : S1x128.Idx → Elt F .f32)
      = bnScale (sumOver64 (W4 m ρ c (Proc.devRef .tc main_v23_1))) (W4 m ρ c (Proc.devRef .tc main_arg4)) := by
  show StableHlo.after hostOps2 _ (Proc.devRef .tc main_v38) = _
  after_results
  rfl

set_option maxHeartbeats 2000000 in
theorem shift1_read (c : Dev nD) :
    (W5 m ρ c (Proc.devRef .tc main_v40) : S1x128.Idx → Elt F .f32)
      = bnShift (sumOver64 (W4 m ρ c (Proc.devRef .tc main_v23_1))) (W4 m ρ c (Proc.devRef .tc main_arg4)) (W4 m ρ c (Proc.devRef .tc main_arg5)) := by
  show StableHlo.after hostOps2 _ (Proc.devRef .tc main_v40) = _
  after_results
  rfl

set_option maxHeartbeats 2000000 in
theorem scale2_read (c : Dev nD) :
    (W7 m ρ c (Proc.devRef .tc main_v56) : S1x128.Idx → Elt F .f32)
      = bnScale (sumOver64 (W6 m ρ c (Proc.devRef .tc main_v41_1))) (W6 m ρ c (Proc.devRef .tc main_arg7)) := by
  show StableHlo.after hostOps3 _ (Proc.devRef .tc main_v56) = _
  after_results
  rfl

set_option maxHeartbeats 2000000 in
theorem shift2_read (c : Dev nD) :
    (W7 m ρ c (Proc.devRef .tc main_v58) : S1x128.Idx → Elt F .f32)
      = bnShift (sumOver64 (W6 m ρ c (Proc.devRef .tc main_v41_1))) (W6 m ρ c (Proc.devRef .tc main_arg7)) (W6 m ρ c (Proc.devRef .tc main_arg8)) := by
  show StableHlo.after hostOps3 _ (Proc.devRef .tc main_v58) = _
  after_results
  rfl

/-! ## What passes through unchanged -/

theorem arg1_at2 (c : Dev nD) : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_writes_sub hostOps0 _ hostOps0_writes (by decide)

theorem arg2_at2 (c : Dev nD) : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide)

theorem arg0_at3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)

theorem arg4_at4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)

theorem arg5_at4 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)

theorem arg7_at6 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)

theorem arg8_at6 (c : Dev nD) : W6 m ρ c (Proc.devRef .tc main_arg8) = W0 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)

theorem arg0_at7 (c : Dev nD) : W7 m ρ c (Proc.devRef .tc main_arg0) = W0 m ρ c (Proc.devRef .tc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)

theorem arg9_at7 (c : Dev nD) : W7 m ρ c (Proc.devRef .tc main_arg9) = W0 m ρ c (Proc.devRef .tc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)

theorem arg10_at7 (c : Dev nD) : W7 m ρ c (Proc.devRef .tc main_arg10) = W0 m ρ c (Proc.devRef .tc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)

theorem arg11_at7 (c : Dev nD) : W7 m ρ c (Proc.devRef .tc main_arg11) = W0 m ρ c (Proc.devRef .tc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)

theorem arg12_at7 (c : Dev nD) : W7 m ρ c (Proc.devRef .tc main_arg12) = W0 m ρ c (Proc.devRef .tc main_arg12) :=
  calc W7 m ρ c (Proc.devRef .tc main_arg12)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)

theorem w1_at3 (c : Dev nD) : W3 m ρ c (Proc.devRef .tc main_v1) = W1 m ρ c (Proc.devRef .tc main_v1) :=
  calc W3 m ρ c (Proc.devRef .tc main_v1)
    _ = W2 m ρ c (Proc.devRef .tc main_v1) := StableHlo.after_of_writes_sub hostOps1 _ hostOps1_writes (by decide)
    _ = W1 m ρ c (Proc.devRef .tc main_v1) := W2_of_ne m ρ c main_v1 (by decide)

theorem w2_at5 (c : Dev nD) : W5 m ρ c (Proc.devRef .tc main_v3) = W1 m ρ c (Proc.devRef .tc main_v3) :=
  calc W5 m ρ c (Proc.devRef .tc main_v3)
    _ = W4 m ρ c (Proc.devRef .tc main_v3) := StableHlo.after_of_writes_sub hostOps2 _ hostOps2_writes (by decide)
    _ = W3 m ρ c (Proc.devRef .tc main_v3) := W4_of_ne m ρ c main_v3 (by decide)
    _ = W2 m ρ c (Proc.devRef .tc main_v3) := StableHlo.after_of_writes_sub hostOps1 _ hostOps1_writes (by decide)
    _ = W1 m ρ c (Proc.devRef .tc main_v3) := W2_of_ne m ρ c main_v3 (by decide)

theorem y1_at5 (c : Dev nD) : W5 m ρ c (Proc.devRef .tc main_v23_0) = W4 m ρ c (Proc.devRef .tc main_v23_0) :=
  calc W5 m ρ c (Proc.devRef .tc main_v23_0)
    _ = W4 m ρ c (Proc.devRef .tc main_v23_0) := StableHlo.after_of_writes_sub hostOps2 _ hostOps2_writes (by decide)

theorem y2_at7 (c : Dev nD) : W7 m ρ c (Proc.devRef .tc main_v41_0) = W6 m ρ c (Proc.devRef .tc main_v41_0) :=
  calc W7 m ρ c (Proc.devRef .tc main_v41_0)
    _ = W6 m ρ c (Proc.devRef .tc main_v41_0) := StableHlo.after_of_writes_sub hostOps3 _ hostOps3_writes (by decide)

end Cert.KernelIdeal.Hand

end
-- ==== Proof.RI.StatsArr.lean ====
/-
  Region 0, the array it leaves. What the statistics block holds after grid point `t` is a fold over the tiles
  `0 .. t` in point order — the cleared block plus tile 0's statistics, then plus each next tile's —, and the region's
  one write-back, after the last point, puts the fold over all 512 tiles in the [2, 128] statistics array, whose one
  block is the whole array. Read over the extended reals, where addition is exact and the order of the fold does not
  matter, that array holds at (0, ch) the sum of column `ch` of the flattened activation over all its 65536 rows and at
  (1, ch) the sum of the squares of that column.
-/
import proofs.«128858_g2000205668668362_pallasbulk_730_2_alg».proof.Proof.RI.Stats
import Idealize.ShloMosaic.Lib.Pipeline.Value
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

-- what core `c`'s buffers hold when the region is entered
variable (V : (c : Dev nD) → (b : Ref sig .tc) → Buf (Elt F) ((c : Thread nD τ).loc b))

/-! ## What each case leaves, as a value -/

theorem zeros2 : (![0, 0] : Fin 2 → Nat) = fun _ => 0 := funext fun a => by fin_cases a <;> rfl

/-- The cleared block: every entry the word of `+0.0`. -/
abbrev clearedStats : Vec F S2x128 .f32 := k0_pay1

/-- One step of the total: the block `acc` plus the statistics of the tile `x` (row 0 its column sums, row 1 the
    column sums of its squares). -/
abbrev addTileStats (acc : Vec F S2x128 .f32) (x : Vec F S128x128 .f32) : Vec F S2x128 .f32 := k0_pay2 x acc

/-- A later point leaves the block it found plus the tile's statistics: its one store writes the whole block, and its
    loads read the whole buffers. -/
theorem totalLater_eq (c : Dev nD) (i : grid0.Coords) (a1 : Memref sig .tc .vmem S128x128 .f32) (h1 : a1.IsWhole)
    (a2 : Memref sig .tc .vmem S2x128 .f32) (h2 : a2.IsWhole) (hc : ¬atFirst i) (x : Vec F S128x128 .f32) (xo : Vec F S2x128 .f32) :
    totalLater c i a1 h1 a2 h2 hc x xo = addTileStats xo x := by
  unfold totalLater
  rw [View.read_writes_eq_canon _ _ _ (coverLater c i a1 h1 a2 h2 hc x xo)]
  unfold runLater
  dsimp only
  rw [View.canon_unit_zero zeros2]
  simp only [View.readAt_eq_ld, h1.read_unread, h2.read_unread, View.ld_unit_zero (S := S128x128) zeros2, View.ld_unit_zero (S := S2x128) zeros2]

/-- The first point leaves the cleared block plus the tile's statistics: it stores the cleared block, reads it back, and
    stores the sum over it. -/
theorem totalFirst_eq (c : Dev nD) (i : grid0.Coords) (a1 : Memref sig .tc .vmem S128x128 .f32) (h1 : a1.IsWhole)
    (a2 : Memref sig .tc .vmem S2x128 .f32) (h2 : a2.IsWhole) (hc : atFirst i) (x : Vec F S128x128 .f32) :
    totalFirst c i a1 h1 a2 h2 hc x = addTileStats clearedStats x := by
  unfold totalFirst
  rw [View.read_writes_eq_canon _ _ _ (coverFirst c i a1 h1 a2 h2 hc x)]
  unfold runFirst
  dsimp only
  sl_unfold_words
  rw [View.canon_cons_unit_zero (S := S2x128) zeros2, View.readCov_unit_zero (S := S2x128) _ zeros2]
  simp only [View.readAt_eq_ld, h1.read_unread, View.ld_unit_zero (S := S128x128) zeros2]

/-! ## The running total as a fold over the tiles -/

/-- The total through tile `n`, in point order: the cleared block plus tile 0's statistics, then plus tile `n`'s. -/
def statsFold (c : Dev nD) : (n : ℕ) → n < cfg0.N → Vec F S2x128 .f32
  | 0, h => addTileStats clearedStats (tile0 V c 0 ⟨0, h⟩)
  | n + 1, h => addTileStats (statsFold c n (Nat.lt_of_succ_lt h)) (tile0 V c 0 ⟨n + 1, h⟩)

/-- What the block holds after point `n` is that fold: by induction on the point. -/
theorem runningTotal_eq (c : Dev nD) : ∀ (n : ℕ) (h : n < cfg0.N), runningTotal V c n h = statsFold V c n h
  | 0, h => (runningTotal_first V c ⟨0, h⟩ rfl).trans (totalFirst_eq ..)
  | n + 1, h => by
    have hN : cfg0.N = 512 := N_0
    have hB : ¬(⟨n + 1, h⟩ : Fin cfg0.N).val % 512 = 0 := by dsimp only; omega
    rw [runningTotal_later V c ⟨n + 1, h⟩ hB, totalLater_eq]
    show addTileStats (runningTotal V c n _) _ = addTileStats (statsFold V c n _) _
    rw [runningTotal_eq c n]

/-! ## The array the region leaves -/

/-- The last point. -/
def lastPoint : Fin cfg0.N := ⟨511, by rw [show cfg0.N = 512 from N_0]; decide⟩

/-- The total over all 512 tiles, as contents of the statistics array (its one block is the whole array). -/
abbrev statsResult (c : Dev nD) : Buf (Elt F) ((c : Thread nD τ).loc main_v3) := statsFold V c 511 (by rw [show cfg0.N = 512 from N_0]; decide)

/-- The one write-back, after the last point, writes it: block (0, 0) of the [2, 128] array read through zero offsets
    is the array. -/
theorem flushed0_1 (c : Dev nD) (t : Fin cfg0.N) (hf : (cfg0.win 1).flush t = true) :
    (dat0 V c).flushed 1 t = ((cfg0.win 1).blk t).view.read (Elt F) (statsResult V c) := by
  have hN : cfg0.N = 512 := N_0
  have h3 : t.val = 511 := by have := (flush0_1 t).mp hf; have := t.isLt; omega
  obtain rfl : t = lastPoint := Fin.ext h3
  show (cfg0.win 1).cut (grid0.coords lastPoint) ((dat0 V c).after 1 lastPoint) = _
  rw [after0_1, runningTotal_eq]
  have hz' : (fun a => win0_1.index lastPoint a * main_v3.ty.shape.size a) = fun _ => 0 := funext fun a => by fin_cases a <;> decide +kernel
  exact (Memref.read_access_unit_zero (Elt F) main_v3 hz' (fun a => by rw [congrFun hz' a]; simp) (statsResult V c)).symm

/-- So the statistics array ends holding the total over all the tiles. -/
theorem final0_1 (c : Dev nD) : (dat0 V c).arrAt 1 cfg0.N = statsResult V c :=
  (dat0 V c).arrAt_eq_of_cover 1 (statsResult V c) (flushed0_1 V c) fun i =>
    ⟨lastPoint, (flush0_1 lastPoint).mpr rfl, by
      show i ∈ ((View.whole main_v3).slice (win0_1.rect lastPoint)).set
      rw [View.set_slice_whole, Rect.mem_set_unit]
      intro a
      have h0 : (i 0 : Nat) < 2 := (i 0).isLt
      have h1 : (i 1 : Nat) < 128 := (i 1).isLt
      match a with
      | ⟨0, _⟩ => show win0_1.index lastPoint 0 * win0_1.size 0 ≤ (i 0 : Nat) ∧ (i 0 : Nat) < win0_1.index lastPoint 0 * win0_1.size 0 + win0_1.xsize (grid0.coords lastPoint) 0
                  rw [show win0_1.index lastPoint 0 * win0_1.size 0 = 0 from by decide +kernel, show win0_1.xsize (grid0.coords lastPoint) 0 = 2 from by decide +kernel]; omega
      | ⟨1, _⟩ => show win0_1.index lastPoint 1 * win0_1.size 1 ≤ (i 1 : Nat) ∧ (i 1 : Nat) < win0_1.index lastPoint 1 * win0_1.size 1 + win0_1.xsize (grid0.coords lastPoint) 1
                  rw [show win0_1.index lastPoint 1 * win0_1.size 1 = 0 from by decide +kernel, show win0_1.xsize (grid0.coords lastPoint) 1 = 128 from by decide +kernel]; omega⟩

/-! ## One step of the total, entry by entry -/

/-- The column sums of a tile, as a [1, 128] row. -/
def colSums (x : Vec F S128x128 .f32) : FVec F S1x128 .f32 :=
  shapeCast S1x128 (multiReduction .add [0] S128 (shapeCast S128x128 x shapeCasts_S128x128_S128x128) 0x00000000#32 reduces_S128x128_S128 (.inl rfl) rfl) shapeCasts_S128_S1x128

/-- The column sums of a tile's squares, as a [1, 128] row. -/
def colSumsSq (x : Vec F S128x128 .f32) : FVec F S1x128 .f32 :=
  shapeCast S1x128 (multiReduction .add [0] S128 (mulf (shapeCast S128x128 x shapeCasts_S128x128_S128x128) (shapeCast S128x128 x shapeCasts_S128x128_S128x128)) 0x00000000#32 reduces_S128x128_S128 (.inl rfl) rfl) shapeCasts_S128_S1x128

/-- One step adds to the block the two rows stacked. -/
theorem addTileStats_eq (acc : Vec F S2x128 .f32) (x : Vec F S128x128 .f32) :
    addTileStats acc x = addf (shapeCast S2x128 acc shapeCasts_S2x128_S2x128)
      (concatenate S2x128 0 [⟨S1x128, colSums x⟩, ⟨S1x128, colSumsSq x⟩] concatenates_S1x128_S1x128_S2x128_d0) := rfl

/-- Where tile `t`'s entry (q, ch) sits in the flattened activation: row `128 t + q`. -/
theorem tileIndex0 : ∀ t : Fin cfg0.N, win0_0.index t 0 = t.val ∧ win0_0.index t 1 = 0 :=
  (by decide +kernel : ∀ t : Fin grid0.N, win0_0.index t 0 = t.val ∧ win0_0.index t 1 = 0)

theorem tile0_apply (c : Dev nD) (t : Fin cfg0.N) (q ch : Fin 128) :
    (tile0 V c 0 t : Vec F S128x128 .f32) (ix2 q ch)
      = V c main_v2 (ix2 (⟨t.val * 128 + q.val, by have := t.isLt; have : cfg0.N = 512 := N_0; omega⟩ : Fin 65536) ch) := by
  unfold tile0
  rw [View.read_apply]
  show V c main_v2 _ = V c main_v2 _
  congr 1
  funext a
  apply Fin.ext
  match a with
  | ⟨0, _⟩ => show win0_0.index t 0 * 128 + 1 * q.val = t.val * 128 + q.val; rw [(tileIndex0 t).1]; omega
  | ⟨1, _⟩ => show win0_0.index t 1 * 128 + 1 * ch.val = ch.val; rw [(tileIndex0 t).2]; omega

section AtIdeal

/-- An entry's contribution to row `r` of the statistics: itself to row 0, its square to row 1. -/
def statOf (r : Fin 2) (x : EReal) : EReal := if r.val = 0 then x else x * x

theorem statOf_zero (x : EReal) : statOf 0 x = x := if_pos rfl
theorem statOf_one (x : EReal) : statOf 1 x = x * x := if_neg (by decide)

/-- The reduced index (ch) with the row `q` put back is (q, ch). -/
theorem lift_row (ch q : Fin 128) : reduces_S128x128_S128.lift (ix1 ch) q = ix2 q ch := by
  funext a
  match a with
  | ⟨0, _⟩ => exact Fin.ext rfl
  | ⟨1, _⟩ => exact Fin.ext rfl

/-- Over the extended reals the column sums at lane `ch` are the sum over the tile's rows. -/
theorem colSums_apply (x : Vec Ideal S128x128 .f32) (u : Fin 1) (ch : Fin 128) :
    colSums x (ix2 u ch) = ∑ q : Fin 128, x (ix2 q ch) := by
  unfold colSums
  refine (shapeCast_a_1a_apply _ _ u ch).trans ?_
  refine (Ideal.multiReduction_add_single _ _ reduces_S128x128_S128 _ _ (ix1 ch)).trans ?_
  refine Finset.sum_congr rfl fun q _ => ?_
  rw [shapeCast_self]
  exact congrArg x (lift_row ch q)

/-- And those of the squares the sum of the squares. -/
theorem colSumsSq_apply (x : Vec Ideal S128x128 .f32) (u : Fin 1) (ch : Fin 128) :
    colSumsSq x (ix2 u ch) = ∑ q : Fin 128, x (ix2 q ch) * x (ix2 q ch) := by
  unfold colSumsSq
  refine (shapeCast_a_1a_apply _ _ u ch).trans ?_
  refine (Ideal.multiReduction_add_single _ _ reduces_S128x128_S128 _ _ (ix1 ch)).trans ?_
  refine Finset.sum_congr rfl fun q _ => ?_
  rw [shapeCast_self]
  show x (reduces_S128x128_S128.lift (ix1 ch) q) * x (reduces_S128x128_S128.lift (ix1 ch) q) = _
  rw [lift_row ch q]

/-- One step at an entry: what was there plus the tile's column sum (row 0) or the column sum of its squares (row 1). -/
theorem addTileStats_apply (acc : Vec Ideal S2x128 .f32) (x : Vec Ideal S128x128 .f32) (r : Fin 2) (ch : Fin 128) :
    addTileStats acc x (ix2 r ch) = acc (ix2 r ch) + ∑ q : Fin 128, statOf r (x (ix2 q ch)) := by
  rw [addTileStats_eq]
  show shapeCast S2x128 acc shapeCasts_S2x128_S2x128 (ix2 r ch)
      + concatenate S2x128 0 [⟨S1x128, colSums x⟩, ⟨S1x128, colSumsSq x⟩] concatenates_S1x128_S1x128_S2x128_d0 (ix2 r ch) = _
  rw [shapeCast_self]
  congr 1
  match r with
  | ⟨0, _⟩ =>
    refine (concatenate_pair_apply_left (0 : Fin 2) (colSums x) (colSumsSq x) concatenates_S1x128_S1x128_S2x128_d0
      (ix2 (0 : Fin 2) ch) rfl (ix2 (0 : Fin 1) ch) (fun b => by match b with | ⟨0, _⟩ => rfl | ⟨1, _⟩ => rfl)).trans ?_
    rw [colSums_apply]
    exact Finset.sum_congr rfl fun q _ => (statOf_zero _).symm
  | ⟨1, _⟩ =>
    refine (concatenate_pair_apply_right (0 : Fin 2) (colSums x) (colSumsSq x) concatenates_S1x128_S1x128_S2x128_d0
      (ix2 (1 : Fin 2) ch) rfl rfl (ix2 (0 : Fin 1) ch)
      (fun b hb => by match b with | ⟨0, _⟩ => exact absurd rfl hb | ⟨1, _⟩ => rfl) rfl).trans ?_
    rw [colSumsSq_apply]
    exact Finset.sum_congr rfl fun q _ => (statOf_one _).symm

/-- The cleared block is zero at every entry. -/
theorem clearedStats_apply (j : S2x128.Idx) : (clearedStats : Vec Ideal S2x128 .f32) j = 0 :=
  Ideal.ofBits_zero_f32

-- what core `c`'s buffers hold when the region is entered, over the extended reals
variable (W : (c : Dev nD) → (b : Ref sig .tc) → Buf (Elt Ideal) ((c : Thread nD τ).loc b))

/-- Tile `t`'s contribution to entry (r, ch). -/
def tileSum (c : Dev nD) (r : Fin 2) (ch : Fin 128) (t : Fin cfg0.N) : EReal :=
  ∑ q : Fin 128, statOf r ((tile0 W c 0 t : Vec Ideal S128x128 .f32) (ix2 q ch))

/-- The total through tile `n` at an entry is the sum of the contributions of the tiles `0 .. n`: by induction on `n`. -/
theorem statsFold_apply (c : Dev nD) (r : Fin 2) (ch : Fin 128) : ∀ (n : ℕ) (h : n < cfg0.N),
    statsFold W c n h (ix2 r ch) = ∑ t : Fin (n + 1), tileSum W c r ch ⟨t.val, Nat.lt_of_lt_of_le t.isLt (Nat.succ_le_of_lt h)⟩
  | 0, h => by
    rw [Fin.sum_univ_one]
    show addTileStats clearedStats (tile0 W c 0 ⟨0, h⟩) (ix2 r ch) = _
    rw [addTileStats_apply, clearedStats_apply, zero_add]
    rfl
  | n + 1, h => by
    rw [Fin.sum_univ_castSucc]
    show addTileStats (statsFold W c n _) (tile0 W c 0 ⟨n + 1, h⟩) (ix2 r ch) = _
    rw [addTileStats_apply, statsFold_apply c r ch n]
    rfl

/-- Entry (i, ch) of the flattened activation as core `c` finds it, an extended real. -/
abbrev actAt (c : Dev nD) (i : Fin 65536) (ch : Fin 128) : EReal := W c main_v2 (ix2 i ch)

/-- THE VALUE. Over the extended reals the statistics array the region leaves holds, at (r, ch), the sum over the 512
    tiles and the 128 rows of each of the entries of the flattened activation in column `ch` (row 0) or of their
    squares (row 1). -/
theorem statsResult_apply (c : Dev nD) (r : Fin 2) (ch : Fin 128) :
    statsResult W c (ix2 r ch)
      = (∑ t : Fin 512, ∑ q : Fin 128, statOf r (actAt W c ⟨t.val * 128 + q.val, by omega⟩ ch) : EReal) := by
  show statsFold W c 511 _ (ix2 r ch) = _
  rw [statsFold_apply W c r ch 511]
  refine Finset.sum_congr rfl fun t _ => ?_
  unfold tileSum
  refine Finset.sum_congr rfl fun q _ => congrArg (statOf r) ?_
  exact tile0_apply W c _ q ch

/-- Row 0: the column sums of the whole activation. -/
theorem statsResult_row0 (c : Dev nD) (ch : Fin 128) :
    statsResult W c (ix2 (0 : Fin 2) ch)
      = (∑ t : Fin 512, ∑ q : Fin 128, actAt W c ⟨t.val * 128 + q.val, by omega⟩ ch : EReal) :=
  by
  rw [statsResult_apply W c 0 ch]
  simp only [statOf_zero]

/-- Row 1: the column sums of its squares. -/
theorem statsResult_row1 (c : Dev nD) (ch : Fin 128) :
    statsResult W c (ix2 (1 : Fin 2) ch)
      = (∑ t : Fin 512, ∑ q : Fin 128,
          actAt W c ⟨t.val * 128 + q.val, by omega⟩ ch * actAt W c ⟨t.val * 128 + q.val, by omega⟩ ch : EReal) :=
  by
  rw [statsResult_apply W c 1 ch]
  simp only [statOf_one]

end AtIdeal

end Cert.ReferenceIdeal.Hand

end
-- ==== Proof.RI.Conv1Arr.lean ====
/-
  Region 1's two output arrays. Point `t` writes image `t`'s block of each and nothing else, and the 64 blocks tile each
  array: the image array ends holding, at (n, h, w, ch), the product for image n at (0, h, w, ch); the statistics array, at
  (n, r, ch), image n's statistics at (0, r, ch).
-/
import proofs.«128858_g2000205668668362_pallasbulk_730_2_alg».proof.Proof.RI.Conv1
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 1, output window 4: the array it leaves, index by index -/

/-- The printed index map of the window, decided over the grid: point `t` writes slab `t` along axis 0. -/
theorem slab1_4 : ∀ t : Fin cfg1.N, win1_4.index t (0 : Fin 4) = t.val ∧ win1_4.index t (1 : Fin 4) = 0 ∧ win1_4.index t (2 : Fin 4) = 0 ∧ win1_4.index t (3 : Fin 4) = 0 :=
  (by decide +kernel : ∀ t : Fin grid1.N, _)

/-- The grid point whose block holds an index: its coordinate on axis 0. -/
def pointOf1_4 (i : S64x32x32x128.Idx) : Fin cfg1.N := ⟨(i 0).val, by rw [show cfg1.N = 64 from N_1]; exact (i 0).isLt⟩

/-- An index's coordinates inside its block. -/
def localOf1_4 (i : S64x32x32x128.Idx) : S1x32x32x128.Idx := ValueIdx.ix4 (0 : Fin 1) (⟨(i 1).val, (i 1).isLt⟩ : Fin 32) (⟨(i 2).val, (i 2).isLt⟩ : Fin 32) (⟨(i 3).val, (i 3).isLt⟩ : Fin 128)

/-- What the array ends holding: at index `i`, what point `i 0` leaves in its block, at the index's coordinates inside
    the block. -/
def convArr_1 (c : Dev nD) : S64x32x32x128.Idx → Elt F .f32 := fun i =>
  (convOf_1 (blk1 V c 0 (pointOf1_4 i)) (blk1 V c 1 (pointOf1_4 i)) (blk1 V c 2 (pointOf1_4 i)) (blk1 V c 3 (pointOf1_4 i))) (localOf1_4 i)

/-- `convArr_1` at an index of point `t`'s block with local coordinates `j`. -/
theorem convArr_1_at (c : Dev nD) (t : Fin cfg1.N) (j : S1x32x32x128.Idx) (i : S64x32x32x128.Idx) (hp : pointOf1_4 i = t) (hl : localOf1_4 i = j) :
    convArr_1 V c i = (convOf_1 (blk1 V c 0 t) (blk1 V c 1 t) (blk1 V c 2 t) (blk1 V c 3 t)) j := by
  subst hp; subst hl; rfl

/-- An index of the array is in point `t`'s block iff each coordinate is in the block's range on its axis. -/
theorem mem_blk1_4 (t : Fin cfg1.N) (i : S64x32x32x128.Idx) :
    i ∈ ((cfg1.win 4).blk t).view.set ↔ ∀ a : Fin 4, win1_4.index t a * S1x32x32x128.size a ≤ (i a).val ∧ (i a).val < win1_4.index t a * S1x32x32x128.size a + S1x32x32x128.size a := by
  show i ∈ ((View.whole main_v20_0).slice (win1_4.rect t)).set ↔ _
  rw [View.set_slice_whole, Rect.mem_set_unit]
  exact Iff.rfl

set_option maxHeartbeats 1000000 in
/-- What point `t` writes back is block `t` of `convArr_1`. -/
theorem flushed1_4 (c : Dev nD) (t : Fin cfg1.N) :
    (dat1 V c).flushed 4 t = ((cfg1.win 4).blk t).view.read (Elt F) (convArr_1 V c) := by
  show (cfg1.win 4).cut (grid1.coords t) ((dat1 V c).after 4 t) = _
  rw [after1_4]
  obtain ⟨e0, e1, e2, e3⟩ := slab1_4 t
  funext j
  show (convOf_1 (blk1 V c 0 t) (blk1 V c 1 t) (blk1 V c 2 t) (blk1 V c 3 t)) j = convArr_1 V c (((cfg1.win 4).blk t).view.emb j)
  have hp : pointOf1_4 (((cfg1.win 4).blk t).view.emb j) = t := by
    apply Fin.ext
    show win1_4.index t (0 : Fin 4) * 1 + 1 * (j 0).val = t.val
    have hj : (j 0).val < 1 := (j 0).isLt
    omega
  have hl : localOf1_4 (((cfg1.win 4).blk t).view.emb j) = j := by
    funext a
    apply Fin.ext
    match a with
    | ⟨0, _⟩ => show 0 = (j 0).val; have hj : (j 0).val < 1 := (j 0).isLt; omega
    | ⟨1, _⟩ => show win1_4.index t (1 : Fin 4) * 32 + 1 * (j 1).val = (j 1).val; omega
    | ⟨2, _⟩ => show win1_4.index t (2 : Fin 4) * 32 + 1 * (j 2).val = (j 2).val; omega
    | ⟨3, _⟩ => show win1_4.index t (3 : Fin 4) * 128 + 1 * (j 3).val = (j 3).val; omega
  exact (convArr_1_at V c t j _ hp hl).symm

/-- Every index of the array is in some point's block. -/
theorem cover1_4 (i : S64x32x32x128.Idx) :
    ∃ t : Fin cfg1.N, (cfg1.win 4).flush t = true ∧ i ∈ ((cfg1.win 4).blk t).view.set := by
  refine ⟨pointOf1_4 i, flush1_4 _, ?_⟩
  rw [mem_blk1_4]
  obtain ⟨e0, e1, e2, e3⟩ := slab1_4 (pointOf1_4 i)
  have hv : (pointOf1_4 i).val = (i 0).val := rfl
  intro a
  match a with
    | ⟨0, _⟩ => show win1_4.index (pointOf1_4 i) (0 : Fin 4) * 1 ≤ (i 0).val ∧ (i 0).val < win1_4.index (pointOf1_4 i) (0 : Fin 4) * 1 + 1; omega
    | ⟨1, _⟩ => show win1_4.index (pointOf1_4 i) (1 : Fin 4) * 32 ≤ (i 1).val ∧ (i 1).val < win1_4.index (pointOf1_4 i) (1 : Fin 4) * 32 + 32; have hi : (i 1).val < 32 := (i 1).isLt; omega
    | ⟨2, _⟩ => show win1_4.index (pointOf1_4 i) (2 : Fin 4) * 32 ≤ (i 2).val ∧ (i 2).val < win1_4.index (pointOf1_4 i) (2 : Fin 4) * 32 + 32; have hi : (i 2).val < 32 := (i 2).isLt; omega
    | ⟨3, _⟩ => show win1_4.index (pointOf1_4 i) (3 : Fin 4) * 128 ≤ (i 3).val ∧ (i 3).val < win1_4.index (pointOf1_4 i) (3 : Fin 4) * 128 + 128; have hi : (i 3).val < 128 := (i 3).isLt; omega

/-- THE ARRAY after the region: `convArr_1`. -/
theorem final1_4 (c : Dev nD) : (dat1 V c).arrAt 4 cfg1.N = convArr_1 V c :=
  (dat1 V c).arrAt_eq_of_cover 4 (convArr_1 V c) (fun t _ => flushed1_4 V c t) (cover1_4)

/-! ## Region 1, output window 5: the array it leaves, index by index -/

/-- The printed index map of the window, decided over the grid: point `t` writes slab `t` along axis 0. -/
theorem slab1_5 : ∀ t : Fin cfg1.N, win1_5.index t (0 : Fin 3) = t.val ∧ win1_5.index t (1 : Fin 3) = 0 ∧ win1_5.index t (2 : Fin 3) = 0 :=
  (by decide +kernel : ∀ t : Fin grid1.N, _)

/-- The grid point whose block holds an index: its coordinate on axis 0. -/
def pointOf1_5 (i : S64x2x128.Idx) : Fin cfg1.N := ⟨(i 0).val, by rw [show cfg1.N = 64 from N_1]; exact (i 0).isLt⟩

/-- An index's coordinates inside its block. -/
def localOf1_5 (i : S64x2x128.Idx) : S1x2x128.Idx := ValueIdx.ix3 (0 : Fin 1) (⟨(i 1).val, (i 1).isLt⟩ : Fin 2) (⟨(i 2).val, (i 2).isLt⟩ : Fin 128)

/-- What the array ends holding: at index `i`, what point `i 0` leaves in its block, at the index's coordinates inside
    the block. -/
def convStatsArr_1 (c : Dev nD) : S64x2x128.Idx → Elt F .f32 := fun i =>
  (convStatsOf_1 (blk1 V c 0 (pointOf1_5 i)) (blk1 V c 1 (pointOf1_5 i)) (blk1 V c 2 (pointOf1_5 i)) (blk1 V c 3 (pointOf1_5 i))) (localOf1_5 i)

/-- `convStatsArr_1` at an index of point `t`'s block with local coordinates `j`. -/
theorem convStatsArr_1_at (c : Dev nD) (t : Fin cfg1.N) (j : S1x2x128.Idx) (i : S64x2x128.Idx) (hp : pointOf1_5 i = t) (hl : localOf1_5 i = j) :
    convStatsArr_1 V c i = (convStatsOf_1 (blk1 V c 0 t) (blk1 V c 1 t) (blk1 V c 2 t) (blk1 V c 3 t)) j := by
  subst hp; subst hl; rfl

/-- An index of the array is in point `t`'s block iff each coordinate is in the block's range on its axis. -/
theorem mem_blk1_5 (t : Fin cfg1.N) (i : S64x2x128.Idx) :
    i ∈ ((cfg1.win 5).blk t).view.set ↔ ∀ a : Fin 3, win1_5.index t a * S1x2x128.size a ≤ (i a).val ∧ (i a).val < win1_5.index t a * S1x2x128.size a + S1x2x128.size a := by
  show i ∈ ((View.whole main_v20_1).slice (win1_5.rect t)).set ↔ _
  rw [View.set_slice_whole, Rect.mem_set_unit]
  exact Iff.rfl

set_option maxHeartbeats 1000000 in
/-- What point `t` writes back is block `t` of `convStatsArr_1`. -/
theorem flushed1_5 (c : Dev nD) (t : Fin cfg1.N) :
    (dat1 V c).flushed 5 t = ((cfg1.win 5).blk t).view.read (Elt F) (convStatsArr_1 V c) := by
  show (cfg1.win 5).cut (grid1.coords t) ((dat1 V c).after 5 t) = _
  rw [after1_5]
  obtain ⟨e0, e1, e2⟩ := slab1_5 t
  funext j
  show (convStatsOf_1 (blk1 V c 0 t) (blk1 V c 1 t) (blk1 V c 2 t) (blk1 V c 3 t)) j = convStatsArr_1 V c (((cfg1.win 5).blk t).view.emb j)
  have hp : pointOf1_5 (((cfg1.win 5).blk t).view.emb j) = t := by
    apply Fin.ext
    show win1_5.index t (0 : Fin 3) * 1 + 1 * (j 0).val = t.val
    have hj : (j 0).val < 1 := (j 0).isLt
    omega
  have hl : localOf1_5 (((cfg1.win 5).blk t).view.emb j) = j := by
    funext a
    apply Fin.ext
    match a with
    | ⟨0, _⟩ => show 0 = (j 0).val; have hj : (j 0).val < 1 := (j 0).isLt; omega
    | ⟨1, _⟩ => show win1_5.index t (1 : Fin 3) * 2 + 1 * (j 1).val = (j 1).val; omega
    | ⟨2, _⟩ => show win1_5.index t (2 : Fin 3) * 128 + 1 * (j 2).val = (j 2).val; omega
  exact (convStatsArr_1_at V c t j _ hp hl).symm

/-- Every index of the array is in some point's block. -/
theorem cover1_5 (i : S64x2x128.Idx) :
    ∃ t : Fin cfg1.N, (cfg1.win 5).flush t = true ∧ i ∈ ((cfg1.win 5).blk t).view.set := by
  refine ⟨pointOf1_5 i, flush1_5 _, ?_⟩
  rw [mem_blk1_5]
  obtain ⟨e0, e1, e2⟩ := slab1_5 (pointOf1_5 i)
  have hv : (pointOf1_5 i).val = (i 0).val := rfl
  intro a
  match a with
    | ⟨0, _⟩ => show win1_5.index (pointOf1_5 i) (0 : Fin 3) * 1 ≤ (i 0).val ∧ (i 0).val < win1_5.index (pointOf1_5 i) (0 : Fin 3) * 1 + 1; omega
    | ⟨1, _⟩ => show win1_5.index (pointOf1_5 i) (1 : Fin 3) * 2 ≤ (i 1).val ∧ (i 1).val < win1_5.index (pointOf1_5 i) (1 : Fin 3) * 2 + 2; have hi : (i 1).val < 2 := (i 1).isLt; omega
    | ⟨2, _⟩ => show win1_5.index (pointOf1_5 i) (2 : Fin 3) * 128 ≤ (i 2).val ∧ (i 2).val < win1_5.index (pointOf1_5 i) (2 : Fin 3) * 128 + 128; have hi : (i 2).val < 128 := (i 2).isLt; omega

/-- THE ARRAY after the region: `convStatsArr_1`. -/
theorem final1_5 (c : Dev nD) : (dat1 V c).arrAt 5 cfg1.N = convStatsArr_1 V c :=
  (dat1 V c).arrAt_eq_of_cover 5 (convStatsArr_1 V c) (fun t _ => flushed1_5 V c t) (cover1_5)

end Cert.ReferenceIdeal.Hand

end
-- ==== Proof.RI.Conv2Arr.lean ====
/-
  Region 2's two output arrays. Point `t` writes image `t`'s block of each and nothing else, and the 64 blocks tile each
  array: the image array ends holding, at (n, h, w, ch), the product for image n at (0, h, w, ch); the statistics array, at
  (n, r, ch), image n's statistics at (0, r, ch).
-/
import proofs.«128858_g2000205668668362_pallasbulk_730_2_alg».proof.Proof.RI.Conv2
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 2, output window 4: the array it leaves, index by index -/

/-- The printed index map of the window, decided over the grid: point `t` writes slab `t` along axis 0. -/
theorem slab2_4 : ∀ t : Fin cfg2.N, win2_4.index t (0 : Fin 4) = t.val ∧ win2_4.index t (1 : Fin 4) = 0 ∧ win2_4.index t (2 : Fin 4) = 0 ∧ win2_4.index t (3 : Fin 4) = 0 :=
  (by decide +kernel : ∀ t : Fin grid2.N, _)

/-- The grid point whose block holds an index: its coordinate on axis 0. -/
def pointOf2_4 (i : S64x32x32x128.Idx) : Fin cfg2.N := ⟨(i 0).val, by rw [show cfg2.N = 64 from N_2]; exact (i 0).isLt⟩

/-- An index's coordinates inside its block. -/
def localOf2_4 (i : S64x32x32x128.Idx) : S1x32x32x128.Idx := ValueIdx.ix4 (0 : Fin 1) (⟨(i 1).val, (i 1).isLt⟩ : Fin 32) (⟨(i 2).val, (i 2).isLt⟩ : Fin 32) (⟨(i 3).val, (i 3).isLt⟩ : Fin 128)

/-- What the array ends holding: at index `i`, what point `i 0` leaves in its block, at the index's coordinates inside
    the block. -/
def convArr_2 (c : Dev nD) : S64x32x32x128.Idx → Elt F .f32 := fun i =>
  (convOf_2 (blk2 V c 0 (pointOf2_4 i)) (blk2 V c 1 (pointOf2_4 i)) (blk2 V c 2 (pointOf2_4 i)) (blk2 V c 3 (pointOf2_4 i))) (localOf2_4 i)

/-- `convArr_2` at an index of point `t`'s block with local coordinates `j`. -/
theorem convArr_2_at (c : Dev nD) (t : Fin cfg2.N) (j : S1x32x32x128.Idx) (i : S64x32x32x128.Idx) (hp : pointOf2_4 i = t) (hl : localOf2_4 i = j) :
    convArr_2 V c i = (convOf_2 (blk2 V c 0 t) (blk2 V c 1 t) (blk2 V c 2 t) (blk2 V c 3 t)) j := by
  subst hp; subst hl; rfl

/-- An index of the array is in point `t`'s block iff each coordinate is in the block's range on its axis. -/
theorem mem_blk2_4 (t : Fin cfg2.N) (i : S64x32x32x128.Idx) :
    i ∈ ((cfg2.win 4).blk t).view.set ↔ ∀ a : Fin 4, win2_4.index t a * S1x32x32x128.size a ≤ (i a).val ∧ (i a).val < win2_4.index t a * S1x32x32x128.size a + S1x32x32x128.size a := by
  show i ∈ ((View.whole main_v38_0).slice (win2_4.rect t)).set ↔ _
  rw [View.set_slice_whole, Rect.mem_set_unit]
  exact Iff.rfl

set_option maxHeartbeats 1000000 in
/-- What point `t` writes back is block `t` of `convArr_2`. -/
theorem flushed2_4 (c : Dev nD) (t : Fin cfg2.N) :
    (dat2 V c).flushed 4 t = ((cfg2.win 4).blk t).view.read (Elt F) (convArr_2 V c) := by
  show (cfg2.win 4).cut (grid2.coords t) ((dat2 V c).after 4 t) = _
  rw [after2_4]
  obtain ⟨e0, e1, e2, e3⟩ := slab2_4 t
  funext j
  show (convOf_2 (blk2 V c 0 t) (blk2 V c 1 t) (blk2 V c 2 t) (blk2 V c 3 t)) j = convArr_2 V c (((cfg2.win 4).blk t).view.emb j)
  have hp : pointOf2_4 (((cfg2.win 4).blk t).view.emb j) = t := by
    apply Fin.ext
    show win2_4.index t (0 : Fin 4) * 1 + 1 * (j 0).val = t.val
    have hj : (j 0).val < 1 := (j 0).isLt
    omega
  have hl : localOf2_4 (((cfg2.win 4).blk t).view.emb j) = j := by
    funext a
    apply Fin.ext
    match a with
    | ⟨0, _⟩ => show 0 = (j 0).val; have hj : (j 0).val < 1 := (j 0).isLt; omega
    | ⟨1, _⟩ => show win2_4.index t (1 : Fin 4) * 32 + 1 * (j 1).val = (j 1).val; omega
    | ⟨2, _⟩ => show win2_4.index t (2 : Fin 4) * 32 + 1 * (j 2).val = (j 2).val; omega
    | ⟨3, _⟩ => show win2_4.index t (3 : Fin 4) * 128 + 1 * (j 3).val = (j 3).val; omega
  exact (convArr_2_at V c t j _ hp hl).symm

/-- Every index of the array is in some point's block. -/
theorem cover2_4 (i : S64x32x32x128.Idx) :
    ∃ t : Fin cfg2.N, (cfg2.win 4).flush t = true ∧ i ∈ ((cfg2.win 4).blk t).view.set := by
  refine ⟨pointOf2_4 i, flush2_4 _, ?_⟩
  rw [mem_blk2_4]
  obtain ⟨e0, e1, e2, e3⟩ := slab2_4 (pointOf2_4 i)
  have hv : (pointOf2_4 i).val = (i 0).val := rfl
  intro a
  match a with
    | ⟨0, _⟩ => show win2_4.index (pointOf2_4 i) (0 : Fin 4) * 1 ≤ (i 0).val ∧ (i 0).val < win2_4.index (pointOf2_4 i) (0 : Fin 4) * 1 + 1; omega
    | ⟨1, _⟩ => show win2_4.index (pointOf2_4 i) (1 : Fin 4) * 32 ≤ (i 1).val ∧ (i 1).val < win2_4.index (pointOf2_4 i) (1 : Fin 4) * 32 + 32; have hi : (i 1).val < 32 := (i 1).isLt; omega
    | ⟨2, _⟩ => show win2_4.index (pointOf2_4 i) (2 : Fin 4) * 32 ≤ (i 2).val ∧ (i 2).val < win2_4.index (pointOf2_4 i) (2 : Fin 4) * 32 + 32; have hi : (i 2).val < 32 := (i 2).isLt; omega
    | ⟨3, _⟩ => show win2_4.index (pointOf2_4 i) (3 : Fin 4) * 128 ≤ (i 3).val ∧ (i 3).val < win2_4.index (pointOf2_4 i) (3 : Fin 4) * 128 + 128; have hi : (i 3).val < 128 := (i 3).isLt; omega

/-- THE ARRAY after the region: `convArr_2`. -/
theorem final2_4 (c : Dev nD) : (dat2 V c).arrAt 4 cfg2.N = convArr_2 V c :=
  (dat2 V c).arrAt_eq_of_cover 4 (convArr_2 V c) (fun t _ => flushed2_4 V c t) (cover2_4)

/-! ## Region 2, output window 5: the array it leaves, index by index -/

/-- The printed index map of the window, decided over the grid: point `t` writes slab `t` along axis 0. -/
theorem slab2_5 : ∀ t : Fin cfg2.N, win2_5.index t (0 : Fin 3) = t.val ∧ win2_5.index t (1 : Fin 3) = 0 ∧ win2_5.index t (2 : Fin 3) = 0 :=
  (by decide +kernel : ∀ t : Fin grid2.N, _)

/-- The grid point whose block holds an index: its coordinate on axis 0. -/
def pointOf2_5 (i : S64x2x128.Idx) : Fin cfg2.N := ⟨(i 0).val, by rw [show cfg2.N = 64 from N_2]; exact (i 0).isLt⟩

/-- An index's coordinates inside its block. -/
def localOf2_5 (i : S64x2x128.Idx) : S1x2x128.Idx := ValueIdx.ix3 (0 : Fin 1) (⟨(i 1).val, (i 1).isLt⟩ : Fin 2) (⟨(i 2).val, (i 2).isLt⟩ : Fin 128)

/-- What the array ends holding: at index `i`, what point `i 0` leaves in its block, at the index's coordinates inside
    the block. -/
def convStatsArr_2 (c : Dev nD) : S64x2x128.Idx → Elt F .f32 := fun i =>
  (convStatsOf_2 (blk2 V c 0 (pointOf2_5 i)) (blk2 V c 1 (pointOf2_5 i)) (blk2 V c 2 (pointOf2_5 i)) (blk2 V c 3 (pointOf2_5 i))) (localOf2_5 i)

/-- `convStatsArr_2` at an index of point `t`'s block with local coordinates `j`. -/
theorem convStatsArr_2_at (c : Dev nD) (t : Fin cfg2.N) (j : S1x2x128.Idx) (i : S64x2x128.Idx) (hp : pointOf2_5 i = t) (hl : localOf2_5 i = j) :
    convStatsArr_2 V c i = (convStatsOf_2 (blk2 V c 0 t) (blk2 V c 1 t) (blk2 V c 2 t) (blk2 V c 3 t)) j := by
  subst hp; subst hl; rfl

/-- An index of the array is in point `t`'s block iff each coordinate is in the block's range on its axis. -/
theorem mem_blk2_5 (t : Fin cfg2.N) (i : S64x2x128.Idx) :
    i ∈ ((cfg2.win 5).blk t).view.set ↔ ∀ a : Fin 3, win2_5.index t a * S1x2x128.size a ≤ (i a).val ∧ (i a).val < win2_5.index t a * S1x2x128.size a + S1x2x128.size a := by
  show i ∈ ((View.whole main_v38_1).slice (win2_5.rect t)).set ↔ _
  rw [View.set_slice_whole, Rect.mem_set_unit]
  exact Iff.rfl

set_option maxHeartbeats 1000000 in
/-- What point `t` writes back is block `t` of `convStatsArr_2`. -/
theorem flushed2_5 (c : Dev nD) (t : Fin cfg2.N) :
    (dat2 V c).flushed 5 t = ((cfg2.win 5).blk t).view.read (Elt F) (convStatsArr_2 V c) := by
  show (cfg2.win 5).cut (grid2.coords t) ((dat2 V c).after 5 t) = _
  rw [after2_5]
  obtain ⟨e0, e1, e2⟩ := slab2_5 t
  funext j
  show (convStatsOf_2 (blk2 V c 0 t) (blk2 V c 1 t) (blk2 V c 2 t) (blk2 V c 3 t)) j = convStatsArr_2 V c (((cfg2.win 5).blk t).view.emb j)
  have hp : pointOf2_5 (((cfg2.win 5).blk t).view.emb j) = t := by
    apply Fin.ext
    show win2_5.index t (0 : Fin 3) * 1 + 1 * (j 0).val = t.val
    have hj : (j 0).val < 1 := (j 0).isLt
    omega
  have hl : localOf2_5 (((cfg2.win 5).blk t).view.emb j) = j := by
    funext a
    apply Fin.ext
    match a with
    | ⟨0, _⟩ => show 0 = (j 0).val; have hj : (j 0).val < 1 := (j 0).isLt; omega
    | ⟨1, _⟩ => show win2_5.index t (1 : Fin 3) * 2 + 1 * (j 1).val = (j 1).val; omega
    | ⟨2, _⟩ => show win2_5.index t (2 : Fin 3) * 128 + 1 * (j 2).val = (j 2).val; omega
  exact (convStatsArr_2_at V c t j _ hp hl).symm

/-- Every index of the array is in some point's block. -/
theorem cover2_5 (i : S64x2x128.Idx) :
    ∃ t : Fin cfg2.N, (cfg2.win 5).flush t = true ∧ i ∈ ((cfg2.win 5).blk t).view.set := by
  refine ⟨pointOf2_5 i, flush2_5 _, ?_⟩
  rw [mem_blk2_5]
  obtain ⟨e0, e1, e2⟩ := slab2_5 (pointOf2_5 i)
  have hv : (pointOf2_5 i).val = (i 0).val := rfl
  intro a
  match a with
    | ⟨0, _⟩ => show win2_5.index (pointOf2_5 i) (0 : Fin 3) * 1 ≤ (i 0).val ∧ (i 0).val < win2_5.index (pointOf2_5 i) (0 : Fin 3) * 1 + 1; omega
    | ⟨1, _⟩ => show win2_5.index (pointOf2_5 i) (1 : Fin 3) * 2 ≤ (i 1).val ∧ (i 1).val < win2_5.index (pointOf2_5 i) (1 : Fin 3) * 2 + 2; have hi : (i 1).val < 2 := (i 1).isLt; omega
    | ⟨2, _⟩ => show win2_5.index (pointOf2_5 i) (2 : Fin 3) * 128 ≤ (i 2).val ∧ (i 2).val < win2_5.index (pointOf2_5 i) (2 : Fin 3) * 128 + 128; have hi : (i 2).val < 128 := (i 2).isLt; omega

/-- THE ARRAY after the region: `convStatsArr_2`. -/
theorem final2_5 (c : Dev nD) : (dat2 V c).arrAt 5 cfg2.N = convStatsArr_2 V c :=
  (dat2 V c).arrAt_eq_of_cover 5 (convStatsArr_2 V c) (fun t _ => flushed2_5 V c t) (cover2_5)

end Cert.ReferenceIdeal.Hand

end
-- ==== Proof.RI.GateArr.lean ====
/-
  Region 3's output array. Point `t` writes image `t`'s block and nothing else, and the 64 blocks tile the array: so the
  array ends holding, at index (n, h, w, ch), what the body leaves for image n at (0, h, w, ch).
-/
import proofs.«128858_g2000205668668362_pallasbulk_730_2_alg».proof.Proof.RI.Gate
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 3, output window 8: the array it leaves, index by index -/

/-- The printed index map of the window, decided over the grid: point `t` writes slab `t` along axis 0. -/
theorem slab3_8 : ∀ t : Fin cfg3.N, win3_8.index t (0 : Fin 4) = t.val ∧ win3_8.index t (1 : Fin 4) = 0 ∧ win3_8.index t (2 : Fin 4) = 0 ∧ win3_8.index t (3 : Fin 4) = 0 :=
  (by decide +kernel : ∀ t : Fin grid3.N, _)

/-- The grid point whose block holds an index: its coordinate on axis 0. -/
def pointOf3_8 (i : S64x32x32x128.Idx) : Fin cfg3.N := ⟨(i 0).val, by rw [show cfg3.N = 64 from N_3]; exact (i 0).isLt⟩

/-- An index's coordinates inside its block. -/
def localOf3_8 (i : S64x32x32x128.Idx) : S1x32x32x128.Idx := ValueIdx.ix4 (0 : Fin 1) (⟨(i 1).val, (i 1).isLt⟩ : Fin 32) (⟨(i 2).val, (i 2).isLt⟩ : Fin 32) (⟨(i 3).val, (i 3).isLt⟩ : Fin 128)

/-- What the array ends holding: at index `i`, what point `i 0` leaves in its block, at the index's coordinates inside
    the block. -/
def gatedArr (c : Dev nD) : S64x32x32x128.Idx → Elt F .f32 := fun i =>
  (gatedOf (blk3 V c 0 (pointOf3_8 i)) (blk3 V c 1 (pointOf3_8 i)) (blk3 V c 2 (pointOf3_8 i)) (blk3 V c 3 (pointOf3_8 i)) (blk3 V c 4 (pointOf3_8 i)) (blk3 V c 5 (pointOf3_8 i)) (blk3 V c 6 (pointOf3_8 i)) (blk3 V c 7 (pointOf3_8 i))) (localOf3_8 i)

/-- `gatedArr` at an index of point `t`'s block with local coordinates `j`. -/
theorem gatedArr_at (c : Dev nD) (t : Fin cfg3.N) (j : S1x32x32x128.Idx) (i : S64x32x32x128.Idx) (hp : pointOf3_8 i = t) (hl : localOf3_8 i = j) :
    gatedArr V c i = (gatedOf (blk3 V c 0 t) (blk3 V c 1 t) (blk3 V c 2 t) (blk3 V c 3 t) (blk3 V c 4 t) (blk3 V c 5 t) (blk3 V c 6 t) (blk3 V c 7 t)) j := by
  subst hp; subst hl; rfl

/-- An index of the array is in point `t`'s block iff each coordinate is in the block's range on its axis. -/
theorem mem_blk3_8 (t : Fin cfg3.N) (i : S64x32x32x128.Idx) :
    i ∈ ((cfg3.win 8).blk t).view.set ↔ ∀ a : Fin 4, win3_8.index t a * S1x32x32x128.size a ≤ (i a).val ∧ (i a).val < win3_8.index t a * S1x32x32x128.size a + S1x32x32x128.size a := by
  show i ∈ ((View.whole main_v56).slice (win3_8.rect t)).set ↔ _
  rw [View.set_slice_whole, Rect.mem_set_unit]
  exact Iff.rfl

set_option maxHeartbeats 1000000 in
/-- What point `t` writes back is block `t` of `gatedArr`. -/
theorem flushed3_8 (c : Dev nD) (t : Fin cfg3.N) :
    (dat3 V c).flushed 8 t = ((cfg3.win 8).blk t).view.read (Elt F) (gatedArr V c) := by
  show (cfg3.win 8).cut (grid3.coords t) ((dat3 V c).after 8 t) = _
  rw [after3_8]
  obtain ⟨e0, e1, e2, e3⟩ := slab3_8 t
  funext j
  show (gatedOf (blk3 V c 0 t) (blk3 V c 1 t) (blk3 V c 2 t) (blk3 V c 3 t) (blk3 V c 4 t) (blk3 V c 5 t) (blk3 V c 6 t) (blk3 V c 7 t)) j = gatedArr V c (((cfg3.win 8).blk t).view.emb j)
  have hp : pointOf3_8 (((cfg3.win 8).blk t).view.emb j) = t := by
    apply Fin.ext
    show win3_8.index t (0 : Fin 4) * 1 + 1 * (j 0).val = t.val
    have hj : (j 0).val < 1 := (j 0).isLt
    omega
  have hl : localOf3_8 (((cfg3.win 8).blk t).view.emb j) = j := by
    funext a
    apply Fin.ext
    match a with
    | ⟨0, _⟩ => show 0 = (j 0).val; have hj : (j 0).val < 1 := (j 0).isLt; omega
    | ⟨1, _⟩ => show win3_8.index t (1 : Fin 4) * 32 + 1 * (j 1).val = (j 1).val; omega
    | ⟨2, _⟩ => show win3_8.index t (2 : Fin 4) * 32 + 1 * (j 2).val = (j 2).val; omega
    | ⟨3, _⟩ => show win3_8.index t (3 : Fin 4) * 128 + 1 * (j 3).val = (j 3).val; omega
  exact (gatedArr_at V c t j _ hp hl).symm

/-- Every index of the array is in some point's block. -/
theorem cover3_8 (i : S64x32x32x128.Idx) :
    ∃ t : Fin cfg3.N, (cfg3.win 8).flush t = true ∧ i ∈ ((cfg3.win 8).blk t).view.set := by
  refine ⟨pointOf3_8 i, flush3_8 _, ?_⟩
  rw [mem_blk3_8]
  obtain ⟨e0, e1, e2, e3⟩ := slab3_8 (pointOf3_8 i)
  have hv : (pointOf3_8 i).val = (i 0).val := rfl
  intro a
  match a with
    | ⟨0, _⟩ => show win3_8.index (pointOf3_8 i) (0 : Fin 4) * 1 ≤ (i 0).val ∧ (i 0).val < win3_8.index (pointOf3_8 i) (0 : Fin 4) * 1 + 1; omega
    | ⟨1, _⟩ => show win3_8.index (pointOf3_8 i) (1 : Fin 4) * 32 ≤ (i 1).val ∧ (i 1).val < win3_8.index (pointOf3_8 i) (1 : Fin 4) * 32 + 32; have hi : (i 1).val < 32 := (i 1).isLt; omega
    | ⟨2, _⟩ => show win3_8.index (pointOf3_8 i) (2 : Fin 4) * 32 ≤ (i 2).val ∧ (i 2).val < win3_8.index (pointOf3_8 i) (2 : Fin 4) * 32 + 32; have hi : (i 2).val < 32 := (i 2).isLt; omega
    | ⟨3, _⟩ => show win3_8.index (pointOf3_8 i) (3 : Fin 4) * 128 ≤ (i 3).val ∧ (i 3).val < win3_8.index (pointOf3_8 i) (3 : Fin 4) * 128 + 128; have hi : (i 3).val < 128 := (i 3).isLt; omega

/-- THE ARRAY after the region: `gatedArr`. -/
theorem final3_8 (c : Dev nD) : (dat3 V c).arrAt 8 cfg3.N = gatedArr V c :=
  (dat3 V c).arrAt_eq_of_cover 8 (gatedArr V c) (fun t _ => flushed3_8 V c t) (cover3_8)

end Cert.ReferenceIdeal.Hand

end
-- ==== Proof.RI.Chain.lean ====
/-
  The chain of values through the run. Each region's output arrays are read off the run's valuations in closed form; each
  host stretch's results — the flattened input, the two weight matrices, and per stage the scale and the shift folded from the
  summed statistics — are read as the stretch's operations of what it was entered with; and a buffer that no host stretch
  writes and no region outputs keeps its contents from one boundary to the next.
-/
import proofs.«128858_g2000205668668362_pallasbulk_730_2_alg».proof.Proof.RI.Run
import proofs.«128858_g2000205668668362_pallasbulk_730_2_alg».proof.Proof.RI.StatsArr
import proofs.«128858_g2000205668668362_pallasbulk_730_2_alg».proof.Proof.RI.Conv1Arr
import proofs.«128858_g2000205668668362_pallasbulk_730_2_alg».proof.Proof.RI.Conv2Arr
import proofs.«128858_g2000205668668362_pallasbulk_730_2_alg».proof.Proof.RI.GateArr
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## Scale and shift from a statistics array -/

/-- The mean: the first row of the summed statistics over the count. -/
def bnMean (s2 : Vec F S2x128 .f32) : Vec F S1x128 .f32 :=
  Host.divf (extractStridedSlice S1x128 ![0, 0] s2 slices_S2x128_S1x128_0_0) (broadcastInDim S1x128 ![] bcast_S_S1x128 (constant S_ .f32 0x47800000#32))

/-- The scale: gamma over the root of (the clamped variance plus epsilon), the variance being the mean of squares less the
    squared mean. -/
def bnScale (s2 : Vec F S2x128 .f32) (g : Vec F S1x128 .f32) : Vec F S1x128 .f32 :=
  mulf g (Host.rsqrt (addf (maximumf (subf (Host.divf (extractStridedSlice S1x128 ![1, 0] s2 slices_S2x128_S1x128_1_0) (broadcastInDim S1x128 ![] bcast_S_S1x128 (constant S_ .f32 0x47800000#32))) (mulf (bnMean s2) (bnMean s2))) (broadcastInDim S1x128 ![] bcast_S_S1x128 (constant S_ .f32 0x00000000#32))) (broadcastInDim S1x128 ![] bcast_S_S1x128 (constant S_ .f32 0x3727C5AC#32))))

/-- The shift: beta less the mean times the scale. -/
def bnShift (s2 : Vec F S2x128 .f32) (g b : Vec F S1x128 .f32) : Vec F S1x128 .f32 :=
  subf b (mulf (bnMean s2) (bnScale s2 g))

/-- The 64 images' statistics added up. -/
def sumOver64 (p : Vec F S64x2x128 .f32) : Vec F S2x128 .f32 :=
  Host.reduceAdd p (constant S_ .f32 0x00000000#32) reducesTo_S64x2x128_S2x128_d0 h_S_

/-! ## The regions' outputs -/

theorem out0 (c : Dev nD) : W2 m ρ c (Proc.devRef .tc main_v3) = statsResult (U1 m ρ) c :=
  (W2_arr m ρ c 1).trans (final0_1 (U1 m ρ) c)
theorem out1_y (c : Dev nD) : W4 m ρ c (Proc.devRef .tc main_v20_0) = convArr_1 (U3 m ρ) c :=
  (W4_arr m ρ c 4).trans (final1_4 (U3 m ρ) c)
theorem out1_p (c : Dev nD) : W4 m ρ c (Proc.devRef .tc main_v20_1) = convStatsArr_1 (U3 m ρ) c :=
  (W4_arr m ρ c 5).trans (final1_5 (U3 m ρ) c)
theorem out2_y (c : Dev nD) : W6 m ρ c (Proc.devRef .tc main_v38_0) = convArr_2 (U5 m ρ) c :=
  (W6_arr m ρ c 4).trans (final2_4 (U5 m ρ) c)
theorem out2_p (c : Dev nD) : W6 m ρ c (Proc.devRef .tc main_v38_1) = convStatsArr_2 (U5 m ρ) c :=
  (W6_arr m ρ c 5).trans (final2_5 (U5 m ρ) c)
theorem out3 (c : Dev nD) : W8 m ρ c (Proc.devRef .tc main_v56) = gatedArr (U7 m ρ) c :=
  (W8_arr m ρ c 8).trans (final3_8 (U7 m ρ) c)

/-! ## The host stretches' results -/

set_option maxHeartbeats 2000000 in
theorem flat_read (c : Dev nD) :
    (W1 m ρ c (Proc.devRef .tc main_v2) : S65536x128.Idx → Elt F .f32)
      = shapeCast S65536x128 (W0 m ρ c (Proc.devRef .tc main_arg0)) shapeCasts_S64x32x32x128_S65536x128 := by
  show StableHlo.after hostOps0 _ (Proc.devRef .tc main_v2) = _
  after_results
  rfl

set_option maxHeartbeats 2000000 in
theorem w1_read (c : Dev nD) :
    (W1 m ρ c (Proc.devRef .tc main_v0) : S1152x128.Idx → Elt F .f32)
      = (shapeCast S1152x128 (W0 m ρ c (Proc.devRef .tc main_arg3)) shapeCasts_S3x3x128x128_S1152x128 : Vec F S1152x128 .f32) := by
  show StableHlo.after hostOps0 _ (Proc.devRef .tc main_v0) = _
  after_results
  rfl

set_option maxHeartbeats 2000000 in
theorem w2_read (c : Dev nD) :
    (W1 m ρ c (Proc.devRef .tc main_v1) : S1152x128.Idx → Elt F .f32)
      = (shapeCast S1152x128 (W0 m ρ c (Proc.devRef .tc main_arg6)) shapeCasts_S3x3x128x128_S1152x128 : Vec F S1152x128 .f32) := by
  show StableHlo.after hostOps0 _ (Proc.devRef .tc main_v1) = _
  after_results
  rfl

set_option maxHeartbeats 2000000 in
theorem scale0_read (c : Dev nD) :
    (W3 m ρ c (Proc.devRef .tc main_v17) : S1x128.Idx → Elt F .f32)
      = bnScale (W2 m ρ c (Proc.devRef .tc main_v3)) (W2 m ρ c (Proc.devRef .tc main_arg1)) := by
  show StableHlo.after hostOps1 _ (Proc.devRef .tc main_v17) = _
  after_results
  rfl

set_option maxHeartbeats 2000000 in
theorem shift0_read (c : Dev nD) :
    (W3 m ρ c (Proc.devRef .tc main_v19) : S1x128.Idx → Elt F .f32)
      = bnShift (W2 m ρ c (Proc.devRef .tc main_v3)) (W2 m ρ c (Proc.devRef .tc main_arg1)) (W2 m ρ c (Proc.devRef .tc main_arg2)) := by
  show StableHlo.after hostOps1 _ (Proc.devRef .tc main_v19) = _
  after_results
  rfl

set_option maxHeartbeats 2000000 in
theorem scale1_read (c : Dev nD) :
    (W5 m ρ c (Proc.devRef .tc main_v35) : S1x128.Idx → Elt F .f32)
      = bnScale (sumOver64 (W4 m ρ c (Proc.devRef .tc main_v20_1))) (W4 m ρ c (Proc.devRef .tc main_arg4)) := by
  show StableHlo.after hostOps2 _ (Proc.devRef .tc main_v35) = _
  after_results
  rfl

set_option maxHeartbeats 2000000 in
theorem shift1_read (c : Dev nD) :
    (W5 m ρ c (Proc.devRef .tc main_v37) : S1x128.Idx → Elt F .f32)
      = bnShift (sumOver64 (W4 m ρ c (Proc.devRef .tc main_v20_1))) (W4 m ρ c (Proc.devRef .tc main_arg4)) (W4 m ρ c (Proc.devRef .tc main_arg5)) := by
  show StableHlo.after hostOps2 _ (Proc.devRef .tc main_v37) = _
  after_results
  rfl

set_option maxHeartbeats 2000000 in
theorem scale2_read (c : Dev nD) :
    (W7 m ρ c (Proc.devRef .tc main_v53) : S1x128.Idx → Elt F .f32)
      = bnScale (sumOver64 (W6 m ρ c (Proc.devRef .tc main_v38_1))) (W6 m ρ c (Proc.devRef .tc main_arg7)) := by
  show StableHlo.after hostOps3 _ (Proc.devRef .tc main_v53) = _
  after_results
  rfl

set_option maxHeartbeats 2000000 in
theorem shift2_read (c : Dev nD) :
    (W7 m ρ c (Proc.devRef .tc main_v55) : S1x128.Idx → Elt F .f32)
      = bnShift (sumOver64 (W6 m ρ c (Proc.devRef .tc main_v38_1))) (W6 m ρ c (Proc.devRef .tc main_arg7)) (W6 m ρ c (Proc.devRef .tc main_arg8)) := by
  show StableHlo.after hostOps3 _ (Proc.devRef .tc main_v55) = _
  after_results
  rfl

/-! ## What passes through unchanged -/

theorem arg1_at2 (c : Dev nD) : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_writes_sub hostOps0 _ hostOps0_writes (by decide)

theorem arg2_at2 (c : Dev nD) : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide)

theorem arg0_at3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)

theorem arg4_at4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)

theorem arg5_at4 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)

theorem arg7_at6 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)

theorem arg8_at6 (c : Dev nD) : W6 m ρ c (Proc.devRef .tc main_arg8) = W0 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)

theorem arg0_at7 (c : Dev nD) : W7 m ρ c (Proc.devRef .tc main_arg0) = W0 m ρ c (Proc.devRef .tc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)

theorem arg9_at7 (c : Dev nD) : W7 m ρ c (Proc.devRef .tc main_arg9) = W0 m ρ c (Proc.devRef .tc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)

theorem arg10_at7 (c : Dev nD) : W7 m ρ c (Proc.devRef .tc main_arg10) = W0 m ρ c (Proc.devRef .tc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)

theorem arg11_at7 (c : Dev nD) : W7 m ρ c (Proc.devRef .tc main_arg11) = W0 m ρ c (Proc.devRef .tc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)

theorem arg12_at7 (c : Dev nD) : W7 m ρ c (Proc.devRef .tc main_arg12) = W0 m ρ c (Proc.devRef .tc main_arg12) :=
  calc W7 m ρ c (Proc.devRef .tc main_arg12)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)

theorem w1_at3 (c : Dev nD) : W3 m ρ c (Proc.devRef .tc main_v0) = W1 m ρ c (Proc.devRef .tc main_v0) :=
  calc W3 m ρ c (Proc.devRef .tc main_v0)
    _ = W2 m ρ c (Proc.devRef .tc main_v0) := StableHlo.after_of_writes_sub hostOps1 _ hostOps1_writes (by decide)
    _ = W1 m ρ c (Proc.devRef .tc main_v0) := W2_of_ne m ρ c main_v0 (by decide)

theorem w2_at5 (c : Dev nD) : W5 m ρ c (Proc.devRef .tc main_v1) = W1 m ρ c (Proc.devRef .tc main_v1) :=
  calc W5 m ρ c (Proc.devRef .tc main_v1)
    _ = W4 m ρ c (Proc.devRef .tc main_v1) := StableHlo.after_of_writes_sub hostOps2 _ hostOps2_writes (by decide)
    _ = W3 m ρ c (Proc.devRef .tc main_v1) := W4_of_ne m ρ c main_v1 (by decide)
    _ = W2 m ρ c (Proc.devRef .tc main_v1) := StableHlo.after_of_writes_sub hostOps1 _ hostOps1_writes (by decide)
    _ = W1 m ρ c (Proc.devRef .tc main_v1) := W2_of_ne m ρ c main_v1 (by decide)

theorem y1_at5 (c : Dev nD) : W5 m ρ c (Proc.devRef .tc main_v20_0) = W4 m ρ c (Proc.devRef .tc main_v20_0) :=
  calc W5 m ρ c (Proc.devRef .tc main_v20_0)
    _ = W4 m ρ c (Proc.devRef .tc main_v20_0) := StableHlo.after_of_writes_sub hostOps2 _ hostOps2_writes (by decide)

theorem y2_at7 (c : Dev nD) : W7 m ρ c (Proc.devRef .tc main_v38_0) = W6 m ρ c (Proc.devRef .tc main_v38_0) :=
  calc W7 m ρ c (Proc.devRef .tc main_v38_0)
    _ = W6 m ρ c (Proc.devRef .tc main_v38_0) := StableHlo.after_of_writes_sub hostOps3 _ hostOps3_writes (by decide)

end Cert.ReferenceIdeal.Hand

end
-- ==== Proof.Bridge.Scratch.lean ====
/-
  The two scratch disciplines leave the same buffer. The reference writes the halo by four plain slice stores (rows 0 and 33,
  columns 0 and 33) and the image by one plain store at rows 1–32, columns 1–32. The kernel program's scratch was shown
  (Padded.lean) to read as: rows 1–32 hold the image at columns 1–32 over a zero background, everything else zero. At an
  interior index both read the image at the same image coordinates; at a halo index the reference's last store is missed
  and one of its four zero stores is hit, and the other form reads its zero background.
-/
import proofs.«128858_g2000205668668362_pallasbulk_730_2_alg».proof.Proof.KI.Padded
import proofs.«128858_g2000205668668362_pallasbulk_730_2_alg».proof.Proof.Gen.ReferenceIdeal.Launch
import proofs.«128858_g2000205668668362_pallasbulk_730_2_alg».proof.Proof.Gen.ReferenceIdeal.Skeleton
import Idealize.ShloMosaic.PureOps.Ideal
import Idealize.ShloMosaic.Lib.ValueIdx

set_option maxRecDepth 16384

noncomputable section

namespace Cert.Bridge

open Idealize.ShloMosaic Idealize.ShloMosaic.TcCoe
open Cert.KernelIdeal.Hand (canon_unit_hit canon_unit_miss all3 localIdx localIdx_val paddedL)
open ValueIdx (ix3)

/-- Inside its window an `updateSlice` gives the update at the coordinates less the window's start. -/
theorem updateSlice_in_apply {α : Type} {s u : Shape} (old : s.Idx → α) (upd : u.Idx → α) (start : Fin s.rank → Nat) (h : s.Slices start u)
    (y : s.Idx) (hin : ∀ a : Fin s.rank, start a ≤ (y a).val ∧ (y a).val < start a + u.size (a.cast h.1.symm)) :
    ∃ x : u.Idx, (∀ b : Fin u.rank, (x b).val = (y (b.cast h.1)).val - start (b.cast h.1)) ∧ updateSlice old upd start h y = upd x := by
  unfold updateSlice
  rw [dif_pos hin]
  exact ⟨_, fun b => rfl, rfl⟩

section

abbrev RS := Cert.ReferenceIdeal.S34x34x128

variable (z : EReal)
  (p1 p2 : Cert.ReferenceIdeal.S1x34x128.Idx → EReal) (p3 p4 : Cert.ReferenceIdeal.S34x1x128.Idx → EReal)
  (a : Cert.ReferenceIdeal.S32x32x128.Idx → EReal)
  (h1 : ∀ x, p1 x = z) (h2 : ∀ x, p2 x = z) (h3 : ∀ x, p3 x = z) (h4 : ∀ x, p4 x = z)

/-- The reference's five stores, last first. -/
def fiveL : List (View.Piece (Elt Ideal) RS .f32) :=
  [⟨Rect.unit (s := RS) ![1, 1, 0] Cert.ReferenceIdeal.S32x32x128.size Cert.ReferenceIdeal.Facts₀.inb_S34x34x128_S32x32x128_1_1_0, a⟩,
    ⟨Rect.unit (s := RS) ![0, 33, 0] Cert.ReferenceIdeal.S34x1x128.size Cert.ReferenceIdeal.Facts₀.inb_S34x34x128_S34x1x128_0_33_0, p4⟩,
    ⟨Rect.unit (s := RS) ![0, 0, 0] Cert.ReferenceIdeal.S34x1x128.size Cert.ReferenceIdeal.Facts₀.inb_S34x34x128_S34x1x128_0_0_0, p3⟩,
    ⟨Rect.unit (s := RS) ![33, 0, 0] Cert.ReferenceIdeal.S1x34x128.size Cert.ReferenceIdeal.Facts₀.inb_S34x34x128_S1x34x128_33_0_0, p2⟩,
    ⟨Rect.unit (s := RS) ![0, 0, 0] Cert.ReferenceIdeal.S1x34x128.size Cert.ReferenceIdeal.Facts₀.inb_S34x34x128_S1x34x128_0_0_0, p1⟩]

include h1 h2 h3 h4 in
set_option maxHeartbeats 1000000 in
/-- At every index the five plain stores leave what the padded form reads. -/
theorem five_eq_padded (i j : Fin 34) (k : Fin 128) :
    View.canon (fiveL p1 p2 p3 p4 a) (ix3 i j k) = View.canon (paddedL (F := Ideal) z a) (ix3 i j k) := by
  have bi := i.isLt
  have bj := j.isLt
  have bk := k.isLt
  unfold fiveL
  by_cases hin : (1 ≤ i.val ∧ i.val ≤ 32) ∧ (1 ≤ j.val ∧ j.val ≤ 32)
  · -- the interior: the image, at the same image coordinates on both sides
    obtain ⟨⟨hi1, hi2⟩, hj1, hj2⟩ := hin
    unfold paddedL
    have hA : ∀ q : Fin RS.rank, (![1, 1, 0] : Fin 3 → Nat) q ≤ ((ix3 i j k : RS.Idx) q).val ∧ ((ix3 i j k : RS.Idx) q).val < (![1, 1, 0] : Fin 3 → Nat) q + Cert.ReferenceIdeal.S32x32x128.size q :=
      all3 (by show 1 ≤ i.val ∧ i.val < 1 + 32; omega) (by show 1 ≤ j.val ∧ j.val < 1 + 32; omega) (by show 0 ≤ k.val ∧ k.val < 0 + 128; omega)
    have hB : ∀ q : Fin Cert.KernelIdeal.S34x34x128.rank, (![1, 0, 0] : Fin 3 → Nat) q ≤ ((ix3 i j k : Cert.KernelIdeal.S34x34x128.Idx) q).val ∧ ((ix3 i j k : Cert.KernelIdeal.S34x34x128.Idx) q).val < (![1, 0, 0] : Fin 3 → Nat) q + Cert.KernelIdeal.S32x34x128.size q :=
      all3 (by show 1 ≤ i.val ∧ i.val < 1 + 32; omega) (by show 0 ≤ j.val ∧ j.val < 0 + 34; omega) (by show 0 ≤ k.val ∧ k.val < 0 + 128; omega)
    rw [canon_unit_hit _ _ Cert.ReferenceIdeal.Facts₀.inb_S34x34x128_S32x32x128_1_1_0 _ _ _ hA,
      canon_unit_hit _ _ Cert.KernelIdeal.Facts₀.inb_S34x34x128_S32x34x128_1_0_0 _ _ _ hB]
    obtain ⟨x, hx, hu⟩ := updateSlice_in_apply (fun _ => z) a ![0, 1, 0] Cert.KernelIdeal.Facts₀.slices_S32x34x128_S32x32x128_0_1_0
      (localIdx _ _ Cert.KernelIdeal.Facts₀.inb_S34x34x128_S32x34x128_1_0_0 (ix3 i j k) hB)
      (all3 (by show 0 ≤ i.val - 1 ∧ i.val - 1 < 0 + 32; omega) (by show 1 ≤ j.val - 0 ∧ j.val - 0 < 1 + 32; omega) (by show 0 ≤ k.val - 0 ∧ k.val - 0 < 0 + 128; omega))
    rw [hu]
    refine congrArg a ?_
    funext b
    apply Fin.ext
    rw [hx b]
    match b with
    | ⟨0, _⟩ => show i.val - 1 = i.val - 1 - 0; omega
    | ⟨1, _⟩ => show j.val - 1 = j.val - 0 - 1; omega
    | ⟨2, _⟩ => show k.val - 0 = k.val - 0 - 0; omega
  · -- the halo: zero on both sides
    have hz : i.val = 0 ∨ i.val = 33 ∨ j.val = 0 ∨ j.val = 33 := by omega
    -- the padded form reads zero
    have hR : View.canon (paddedL (F := Ideal) z a) (ix3 i j k) = z := by
      unfold paddedL
      by_cases hi : 1 ≤ i.val ∧ i.val ≤ 32
      · have hB : ∀ q : Fin Cert.KernelIdeal.S34x34x128.rank, (![1, 0, 0] : Fin 3 → Nat) q ≤ ((ix3 i j k : Cert.KernelIdeal.S34x34x128.Idx) q).val ∧ ((ix3 i j k : Cert.KernelIdeal.S34x34x128.Idx) q).val < (![1, 0, 0] : Fin 3 → Nat) q + Cert.KernelIdeal.S32x34x128.size q :=
          all3 (by show 1 ≤ i.val ∧ i.val < 1 + 32; omega) (by show 0 ≤ j.val ∧ j.val < 0 + 34; omega) (by show 0 ≤ k.val ∧ k.val < 0 + 128; omega)
        rw [canon_unit_hit _ _ Cert.KernelIdeal.Facts₀.inb_S34x34x128_S32x34x128_1_0_0 _ _ _ hB]
        have hj : j.val = 0 ∨ j.val = 33 := by omega
        rcases hj with hj | hj
        · exact Cert.KernelIdeal.Hand.updateSlice_of_out_axis _ _ _ _ _ (⟨1, by decide⟩ : Fin 3) (Or.inl (by show j.val - 0 < 1; omega))
        · exact Cert.KernelIdeal.Hand.updateSlice_of_out_axis _ _ _ _ _ (⟨1, by decide⟩ : Fin 3) (Or.inr (by show 1 + 32 ≤ j.val - 0; omega))
      · rw [canon_unit_miss _ _ Cert.KernelIdeal.Facts₀.inb_S34x34x128_S32x34x128_1_0_0 _ _ _ (⟨0, by decide⟩ : Fin Cert.KernelIdeal.S34x34x128.rank)
            (by show i.val < 1 ∨ 1 + 32 ≤ i.val; omega),
          canon_unit_hit _ _ Cert.KernelIdeal.Facts₀.inb_S34x34x128_S34x34x128_0_0_0 _ _ _ (Cert.KernelIdeal.Hand.in_all i j k)]
    rw [hR]
    -- the five stores: the image store is missed; then the first zero store that holds the index
    have hmissA : View.canon (fiveL p1 p2 p3 p4 a) (ix3 i j k) = View.canon (fiveL p1 p2 p3 p4 a).tail (ix3 i j k) := by
      unfold fiveL
      by_cases hi : 1 ≤ i.val ∧ i.val ≤ 32
      · exact canon_unit_miss _ _ Cert.ReferenceIdeal.Facts₀.inb_S34x34x128_S32x32x128_1_1_0 _ _ _ (⟨1, by decide⟩ : Fin RS.rank) (by show j.val < 1 ∨ 1 + 32 ≤ j.val; omega)
      · exact canon_unit_miss _ _ Cert.ReferenceIdeal.Facts₀.inb_S34x34x128_S32x32x128_1_1_0 _ _ _ (⟨0, by decide⟩ : Fin RS.rank) (by show i.val < 1 ∨ 1 + 32 ≤ i.val; omega)
    unfold fiveL at hmissA
    rw [hmissA]
    simp only [List.tail_cons]
    by_cases hj33 : j.val = 33
    · rw [canon_unit_hit _ _ Cert.ReferenceIdeal.Facts₀.inb_S34x34x128_S34x1x128_0_33_0 _ _ _
        (all3 (by show 0 ≤ i.val ∧ i.val < 0 + 34; omega) (by show 33 ≤ j.val ∧ j.val < 33 + 1; omega) (by show 0 ≤ k.val ∧ k.val < 0 + 128; omega))]
      exact h4 _
    rw [canon_unit_miss _ _ Cert.ReferenceIdeal.Facts₀.inb_S34x34x128_S34x1x128_0_33_0 _ _ _ (⟨1, by decide⟩ : Fin RS.rank) (by show j.val < 33 ∨ 33 + 1 ≤ j.val; omega)]
    by_cases hj0 : j.val = 0
    · rw [canon_unit_hit _ _ Cert.ReferenceIdeal.Facts₀.inb_S34x34x128_S34x1x128_0_0_0 _ _ _
        (all3 (by show 0 ≤ i.val ∧ i.val < 0 + 34; omega) (by show 0 ≤ j.val ∧ j.val < 0 + 1; omega) (by show 0 ≤ k.val ∧ k.val < 0 + 128; omega))]
      exact h3 _
    rw [canon_unit_miss _ _ Cert.ReferenceIdeal.Facts₀.inb_S34x34x128_S34x1x128_0_0_0 _ _ _ (⟨1, by decide⟩ : Fin RS.rank) (by show j.val < 0 ∨ 0 + 1 ≤ j.val; omega)]
    by_cases hi33 : i.val = 33
    · rw [canon_unit_hit _ _ Cert.ReferenceIdeal.Facts₀.inb_S34x34x128_S1x34x128_33_0_0 _ _ _
        (all3 (by show 33 ≤ i.val ∧ i.val < 33 + 1; omega) (by show 0 ≤ j.val ∧ j.val < 0 + 34; omega) (by show 0 ≤ k.val ∧ k.val < 0 + 128; omega))]
      exact h2 _
    rw [canon_unit_miss _ _ Cert.ReferenceIdeal.Facts₀.inb_S34x34x128_S1x34x128_33_0_0 _ _ _ (⟨0, by decide⟩ : Fin RS.rank) (by show i.val < 33 ∨ 33 + 1 ≤ i.val; omega),
      canon_unit_hit _ _ Cert.ReferenceIdeal.Facts₀.inb_S34x34x128_S1x34x128_0_0_0 _ _ _
        (all3 (by show 0 ≤ i.val ∧ i.val < 0 + 1; omega) (by show 0 ≤ j.val ∧ j.val < 0 + 34; omega) (by show 0 ≤ k.val ∧ k.val < 0 + 128; omega))]
    exact h1 _

include h1 h2 h3 h4 in
/-- The same as functions of the index. -/
theorem five_eq_padded' : View.canon (fiveL p1 p2 p3 p4 a) = View.canon (paddedL (F := Ideal) z a) := by
  funext y
  rw [ValueIdx.eq_ix3 y]
  exact five_eq_padded z p1 p2 p3 p4 a h1 h2 h3 h4 _ _ _

end

end Cert.Bridge

end
-- ==== Proof.Bridge.Payloads.lean ====
/-
  At exact arithmetic the two programs compute each region's blocks by the same functions of the input blocks. The
  kernel program's changes of float format are the identity there, so its affine image, its matrix product and its
  statistics are, term for term, the reference's; the two scratch disciplines leave the same padded image (Scratch.lean:
  every halo payload is the zero word of its format, which denotes 0); and the last region's gate and residual are the
  same term once the reference's constant 1.0 is passed in.
-/
import proofs.«128858_g2000205668668362_pallasbulk_730_2_alg».proof.Proof.KI.Conv1
import proofs.«128858_g2000205668668362_pallasbulk_730_2_alg».proof.Proof.KI.Conv2
import proofs.«128858_g2000205668668362_pallasbulk_730_2_alg».proof.Proof.KI.Gate
import proofs.«128858_g2000205668668362_pallasbulk_730_2_alg».proof.Proof.RI.Conv1
import proofs.«128858_g2000205668668362_pallasbulk_730_2_alg».proof.Proof.RI.Conv2
import proofs.«128858_g2000205668668362_pallasbulk_730_2_alg».proof.Proof.RI.Gate
import proofs.«128858_g2000205668668362_pallasbulk_730_2_alg».proof.Proof.Bridge.Scratch
import Idealize.ShloMosaic.PureOps.Ideal
import Idealize.ShloMosaic.PureOps.Ideal.Laws
import Idealize.ShloMosaic.Lib.IdealHost
import Idealize.ShloMosaic.Lib.Pipeline.Value

set_option maxRecDepth 16384

noncomputable section

namespace Cert.Bridge

open Idealize.ShloMosaic Idealize.ShloMosaic.TcCoe

/-! ## Region 1 -/

theorem halo_zero_1 : (Cert.KernelIdeal.Hand.halo0_1 (F := Ideal) : EReal) = 0 := by
  show Ideal.ofBits .bf16 0x0000#16 = 0
  exact Ideal.ofBits_zero_bf16

theorem ri_row0_1 (x : Cert.ReferenceIdeal.S1x34x128.Idx) : (Cert.ReferenceIdeal.Gen.k1_pay5 (F := Ideal) : Cert.ReferenceIdeal.S1x34x128.Idx → EReal) x = (Cert.KernelIdeal.Hand.halo0_1 (F := Ideal) : EReal) := by
  rw [halo_zero_1]; unfold Cert.ReferenceIdeal.Gen.k1_pay5; rw [shapeCast_self]; show Ideal.ofBits .f32 0x00000000#32 = 0; exact Ideal.ofBits_zero_f32
theorem ri_row33_1 (x : Cert.ReferenceIdeal.S1x34x128.Idx) : (Cert.ReferenceIdeal.Gen.k1_pay6 (F := Ideal) : Cert.ReferenceIdeal.S1x34x128.Idx → EReal) x = (Cert.KernelIdeal.Hand.halo0_1 (F := Ideal) : EReal) := by
  rw [halo_zero_1]; unfold Cert.ReferenceIdeal.Gen.k1_pay6; rw [shapeCast_self]; show Ideal.ofBits .f32 0x00000000#32 = 0; exact Ideal.ofBits_zero_f32
theorem ri_col0_1 (x : Cert.ReferenceIdeal.S34x1x128.Idx) : (Cert.ReferenceIdeal.Gen.k1_pay7 (F := Ideal) : Cert.ReferenceIdeal.S34x1x128.Idx → EReal) x = (Cert.KernelIdeal.Hand.halo0_1 (F := Ideal) : EReal) := by
  rw [halo_zero_1]; unfold Cert.ReferenceIdeal.Gen.k1_pay7; rw [shapeCast_self]; show Ideal.ofBits .f32 0x00000000#32 = 0; exact Ideal.ofBits_zero_f32
theorem ri_col33_1 (x : Cert.ReferenceIdeal.S34x1x128.Idx) : (Cert.ReferenceIdeal.Gen.k1_pay8 (F := Ideal) : Cert.ReferenceIdeal.S34x1x128.Idx → EReal) x = (Cert.KernelIdeal.Hand.halo0_1 (F := Ideal) : EReal) := by
  rw [halo_zero_1]; unfold Cert.ReferenceIdeal.Gen.k1_pay8; rw [shapeCast_self]; show Ideal.ofBits .f32 0x00000000#32 = 0; exact Ideal.ofBits_zero_f32

/-- The image the interior store writes is the same function on both sides. -/
theorem img_eq_1 (x0 : Vec Ideal Cert.KernelIdeal.S1x32x32x128 .f32) (x1 x2 : Vec Ideal Cert.KernelIdeal.S1x128 .f32) :
    Cert.KernelIdeal.Hand.imgOf_1 (F := Ideal) x0 x1 x2 = Cert.ReferenceIdeal.Hand.imgOf_1 (F := Ideal) x0 x1 x2 := rfl

set_option maxHeartbeats 2000000 in
/-- The whole scratch as read back is the same function on both sides. -/
theorem padded_eq_1 (x0 : Vec Ideal Cert.KernelIdeal.S1x32x32x128 .f32) (x1 x2 : Vec Ideal Cert.KernelIdeal.S1x128 .f32) :
    Cert.KernelIdeal.Hand.paddedOf_1 (F := Ideal) x0 x1 x2 = Cert.ReferenceIdeal.Hand.paddedOf_1 (F := Ideal) x0 x1 x2 := by
  unfold Cert.KernelIdeal.Hand.paddedOf_1 Cert.ReferenceIdeal.Hand.paddedOf_1
  have h := five_eq_padded' (Cert.KernelIdeal.Hand.halo0_1 (F := Ideal) : EReal) (Cert.ReferenceIdeal.Gen.k1_pay5 (F := Ideal)) (Cert.ReferenceIdeal.Gen.k1_pay6 (F := Ideal)) (Cert.ReferenceIdeal.Gen.k1_pay7 (F := Ideal)) (Cert.ReferenceIdeal.Gen.k1_pay8 (F := Ideal)) (Cert.ReferenceIdeal.Hand.imgOf_1 (F := Ideal) x0 x1 x2)
    ri_row0_1 ri_row33_1 ri_col0_1 ri_col33_1
  show View.ld (View.canon (Cert.KernelIdeal.Hand.paddedL (Cert.KernelIdeal.Hand.halo0_1 (F := Ideal)) (Cert.ReferenceIdeal.Hand.imgOf_1 (F := Ideal) x0 x1 x2))) Cert.KernelIdeal.Hand.rAll = View.ld (View.canon (fiveL (Cert.ReferenceIdeal.Gen.k1_pay5 (F := Ideal)) (Cert.ReferenceIdeal.Gen.k1_pay6 (F := Ideal)) (Cert.ReferenceIdeal.Gen.k1_pay7 (F := Ideal)) (Cert.ReferenceIdeal.Gen.k1_pay8 (F := Ideal)) (Cert.ReferenceIdeal.Hand.imgOf_1 (F := Ideal) x0 x1 x2))) Cert.KernelIdeal.Hand.rAll
  rw [h]

set_option maxHeartbeats 2000000 in
/-- The output image block is the same function of the input blocks on both sides. -/
theorem conv_eq_1 (x0 : Vec Ideal Cert.KernelIdeal.S1x32x32x128 .f32) (x1 x2 : Vec Ideal Cert.KernelIdeal.S1x128 .f32) (x3 : Vec Ideal Cert.KernelIdeal.S1152x128 .bf16) :
    Cert.KernelIdeal.Hand.convOf_1 (F := Ideal) x0 x1 x2 x3 = Cert.ReferenceIdeal.Hand.convOf_1 (F := Ideal) x0 x1 x2 x3 := by
  unfold Cert.KernelIdeal.Hand.convOf_1 Cert.ReferenceIdeal.Hand.convOf_1
  rw [padded_eq_1]
  rfl

set_option maxHeartbeats 2000000 in
/-- The statistics block likewise. -/
theorem convStats_eq_1 (x0 : Vec Ideal Cert.KernelIdeal.S1x32x32x128 .f32) (x1 x2 : Vec Ideal Cert.KernelIdeal.S1x128 .f32) (x3 : Vec Ideal Cert.KernelIdeal.S1152x128 .bf16) :
    Cert.KernelIdeal.Hand.convStatsOf_1 (F := Ideal) x0 x1 x2 x3 = Cert.ReferenceIdeal.Hand.convStatsOf_1 (F := Ideal) x0 x1 x2 x3 := by
  unfold Cert.KernelIdeal.Hand.convStatsOf_1 Cert.ReferenceIdeal.Hand.convStatsOf_1
  rw [padded_eq_1]
  rfl

/-! ## Region 2 -/

theorem halo_zero_2 : (Cert.KernelIdeal.Hand.halo0_2 (F := Ideal) : EReal) = 0 := by
  show Ideal.ofBits .bf16 0x0000#16 = 0
  exact Ideal.ofBits_zero_bf16

theorem ri_row0_2 (x : Cert.ReferenceIdeal.S1x34x128.Idx) : (Cert.ReferenceIdeal.Gen.k2_pay2 (F := Ideal) : Cert.ReferenceIdeal.S1x34x128.Idx → EReal) x = (Cert.KernelIdeal.Hand.halo0_2 (F := Ideal) : EReal) := by
  rw [halo_zero_2]; unfold Cert.ReferenceIdeal.Gen.k2_pay2; rw [shapeCast_self]; show Ideal.ofBits .f32 0x00000000#32 = 0; exact Ideal.ofBits_zero_f32
theorem ri_row33_2 (x : Cert.ReferenceIdeal.S1x34x128.Idx) : (Cert.ReferenceIdeal.Gen.k2_pay3 (F := Ideal) : Cert.ReferenceIdeal.S1x34x128.Idx → EReal) x = (Cert.KernelIdeal.Hand.halo0_2 (F := Ideal) : EReal) := by
  rw [halo_zero_2]; unfold Cert.ReferenceIdeal.Gen.k2_pay3; rw [shapeCast_self]; show Ideal.ofBits .f32 0x00000000#32 = 0; exact Ideal.ofBits_zero_f32
theorem ri_col0_2 (x : Cert.ReferenceIdeal.S34x1x128.Idx) : (Cert.ReferenceIdeal.Gen.k2_pay4 (F := Ideal) : Cert.ReferenceIdeal.S34x1x128.Idx → EReal) x = (Cert.KernelIdeal.Hand.halo0_2 (F := Ideal) : EReal) := by
  rw [halo_zero_2]; unfold Cert.ReferenceIdeal.Gen.k2_pay4; rw [shapeCast_self]; show Ideal.ofBits .f32 0x00000000#32 = 0; exact Ideal.ofBits_zero_f32
theorem ri_col33_2 (x : Cert.ReferenceIdeal.S34x1x128.Idx) : ((Cert.ReferenceIdeal.Gen.k2_pay6 (F := Ideal) (Cert.ReferenceIdeal.Gen.k2_pay5 (F := Ideal))) : Cert.ReferenceIdeal.S34x1x128.Idx → EReal) x = (Cert.KernelIdeal.Hand.halo0_2 (F := Ideal) : EReal) := by
  rw [halo_zero_2]; unfold Cert.ReferenceIdeal.Gen.k2_pay6 Cert.ReferenceIdeal.Gen.k2_pay5; rw [shapeCast_self]; show Ideal.ofBits .f32 0x00000000#32 = 0; exact Ideal.ofBits_zero_f32

/-- The image the interior store writes is the same function on both sides. -/
theorem img_eq_2 (x0 : Vec Ideal Cert.KernelIdeal.S1x32x32x128 .bf16) (x1 x2 : Vec Ideal Cert.KernelIdeal.S1x128 .f32) :
    Cert.KernelIdeal.Hand.imgOf_2 (F := Ideal) x0 x1 x2 = Cert.ReferenceIdeal.Hand.imgOf_2 (F := Ideal) x0 x1 x2 := rfl

set_option maxHeartbeats 2000000 in
/-- The whole scratch as read back is the same function on both sides. -/
theorem padded_eq_2 (x0 : Vec Ideal Cert.KernelIdeal.S1x32x32x128 .bf16) (x1 x2 : Vec Ideal Cert.KernelIdeal.S1x128 .f32) :
    Cert.KernelIdeal.Hand.paddedOf_2 (F := Ideal) x0 x1 x2 = Cert.ReferenceIdeal.Hand.paddedOf_2 (F := Ideal) x0 x1 x2 := by
  unfold Cert.KernelIdeal.Hand.paddedOf_2 Cert.ReferenceIdeal.Hand.paddedOf_2
  have h := five_eq_padded' (Cert.KernelIdeal.Hand.halo0_2 (F := Ideal) : EReal) (Cert.ReferenceIdeal.Gen.k2_pay2 (F := Ideal)) (Cert.ReferenceIdeal.Gen.k2_pay3 (F := Ideal)) (Cert.ReferenceIdeal.Gen.k2_pay4 (F := Ideal)) (Cert.ReferenceIdeal.Gen.k2_pay6 (F := Ideal) (Cert.ReferenceIdeal.Gen.k2_pay5 (F := Ideal))) (Cert.ReferenceIdeal.Hand.imgOf_2 (F := Ideal) x0 x1 x2)
    ri_row0_2 ri_row33_2 ri_col0_2 ri_col33_2
  show View.ld (View.canon (Cert.KernelIdeal.Hand.paddedL (Cert.KernelIdeal.Hand.halo0_2 (F := Ideal)) (Cert.ReferenceIdeal.Hand.imgOf_2 (F := Ideal) x0 x1 x2))) Cert.KernelIdeal.Hand.rAll = View.ld (View.canon (fiveL (Cert.ReferenceIdeal.Gen.k2_pay2 (F := Ideal)) (Cert.ReferenceIdeal.Gen.k2_pay3 (F := Ideal)) (Cert.ReferenceIdeal.Gen.k2_pay4 (F := Ideal)) (Cert.ReferenceIdeal.Gen.k2_pay6 (F := Ideal) (Cert.ReferenceIdeal.Gen.k2_pay5 (F := Ideal))) (Cert.ReferenceIdeal.Hand.imgOf_2 (F := Ideal) x0 x1 x2))) Cert.KernelIdeal.Hand.rAll
  rw [h]

set_option maxHeartbeats 2000000 in
/-- The output image block is the same function of the input blocks on both sides. -/
theorem conv_eq_2 (x0 : Vec Ideal Cert.KernelIdeal.S1x32x32x128 .bf16) (x1 x2 : Vec Ideal Cert.KernelIdeal.S1x128 .f32) (x3 : Vec Ideal Cert.KernelIdeal.S1152x128 .bf16) :
    Cert.KernelIdeal.Hand.convOf_2 (F := Ideal) x0 x1 x2 x3 = Cert.ReferenceIdeal.Hand.convOf_2 (F := Ideal) x0 x1 x2 x3 := by
  unfold Cert.KernelIdeal.Hand.convOf_2 Cert.ReferenceIdeal.Hand.convOf_2
  rw [padded_eq_2]
  rfl

set_option maxHeartbeats 2000000 in
/-- The statistics block likewise. -/
theorem convStats_eq_2 (x0 : Vec Ideal Cert.KernelIdeal.S1x32x32x128 .bf16) (x1 x2 : Vec Ideal Cert.KernelIdeal.S1x128 .f32) (x3 : Vec Ideal Cert.KernelIdeal.S1152x128 .bf16) :
    Cert.KernelIdeal.Hand.convStatsOf_2 (F := Ideal) x0 x1 x2 x3 = Cert.ReferenceIdeal.Hand.convStatsOf_2 (F := Ideal) x0 x1 x2 x3 := by
  unfold Cert.KernelIdeal.Hand.convStatsOf_2 Cert.ReferenceIdeal.Hand.convStatsOf_2
  rw [padded_eq_2]
  rfl

/-! ## Region 3 -/

set_option maxHeartbeats 2000000 in
/-- The output block is the same function of the eight input blocks on both sides. -/
theorem gated_eq (x0 : Vec Ideal Cert.KernelIdeal.S1x32x32x128 .bf16) (x1 : Vec Ideal Cert.KernelIdeal.S1x32x32x128 .f32)
    (x2 x3 : Vec Ideal Cert.KernelIdeal.S1x128 .f32) (x4 : Vec Ideal Cert.KernelIdeal.S128x8 .f32) (x5 : Vec Ideal Cert.KernelIdeal.S1x8 .f32)
    (x6 : Vec Ideal Cert.KernelIdeal.S8x128 .f32) (x7 : Vec Ideal Cert.KernelIdeal.S1x128 .f32) :
    Cert.KernelIdeal.Hand.gatedOf (F := Ideal) x0 x1 x2 x3 x4 x5 x6 x7 = Cert.ReferenceIdeal.Hand.gatedOf (F := Ideal) x0 x1 x2 x3 x4 x5 x6 x7 := rfl

end Cert.Bridge

end
-- ==== Proof.Bridge.Arrays.lean ====
/-
  Region by region, equal inputs give equal outputs. A window's block at a grid point is its array read through the block's
  rectangle, and the two programs' windows have the same index maps and block shapes, so blocks read off equal arrays are
  equal; each output array is, index by index, the body's function of the blocks at the index's grid point (the closed
  forms), and those functions agree (Payloads.lean).
-/
import proofs.«128858_g2000205668668362_pallasbulk_730_2_alg».proof.Proof.KI.Conv1Arr
import proofs.«128858_g2000205668668362_pallasbulk_730_2_alg».proof.Proof.KI.Conv2Arr
import proofs.«128858_g2000205668668362_pallasbulk_730_2_alg».proof.Proof.KI.GateArr
import proofs.«128858_g2000205668668362_pallasbulk_730_2_alg».proof.Proof.RI.Conv1Arr
import proofs.«128858_g2000205668668362_pallasbulk_730_2_alg».proof.Proof.RI.Conv2Arr
import proofs.«128858_g2000205668668362_pallasbulk_730_2_alg».proof.Proof.RI.GateArr
import proofs.«128858_g2000205668668362_pallasbulk_730_2_alg».proof.Proof.Bridge.Payloads

set_option maxRecDepth 16384

noncomputable section

namespace Cert.Bridge

open Idealize.ShloMosaic Idealize.ShloMosaic.TcCoe

variable (VK : (c : Dev Cert.KernelIdeal.nD) → (b : Ref Cert.KernelIdeal.sig .tc) → Buf (Elt Ideal) ((c : Thread Cert.KernelIdeal.nD Cert.KernelIdeal.τ).loc b)) (VR : (c : Dev Cert.ReferenceIdeal.nD) → (b : Ref Cert.ReferenceIdeal.sig .tc) → Buf (Elt Ideal) ((c : Thread Cert.ReferenceIdeal.nD Cert.ReferenceIdeal.τ).loc b)) (c : Dev Cert.KernelIdeal.nD)

/-! ## Blocks read off equal arrays -/

theorem blk1_eq_0 (h : (VK c Cert.KernelIdeal.main_arg0 : Cert.KernelIdeal.S64x32x32x128.Idx → EReal) = VR c Cert.ReferenceIdeal.main_arg0) (t : Fin Cert.KernelIdeal.cfg1.N) :
    (Cert.KernelIdeal.Hand.blk1 VK c 0 t : Cert.KernelIdeal.S1x32x32x128.Idx → EReal) = Cert.ReferenceIdeal.Hand.blk1 VR c 0 t := by
  funext y
  show VK c Cert.KernelIdeal.main_arg0 (((Cert.KernelIdeal.cfg1.win 0).blk t).view.emb y) = VR c Cert.ReferenceIdeal.main_arg0 (((Cert.ReferenceIdeal.cfg1.win 0).blk t).view.emb y)
  exact (congrFun h _).trans rfl

theorem blk1_eq_1 (h : (VK c Cert.KernelIdeal.main_v20 : Cert.KernelIdeal.S1x128.Idx → EReal) = VR c Cert.ReferenceIdeal.main_v17) (t : Fin Cert.KernelIdeal.cfg1.N) :
    (Cert.KernelIdeal.Hand.blk1 VK c 1 t : Cert.KernelIdeal.S1x128.Idx → EReal) = Cert.ReferenceIdeal.Hand.blk1 VR c 1 t := by
  funext y
  show VK c Cert.KernelIdeal.main_v20 (((Cert.KernelIdeal.cfg1.win 1).blk t).view.emb y) = VR c Cert.ReferenceIdeal.main_v17 (((Cert.ReferenceIdeal.cfg1.win 1).blk t).view.emb y)
  exact (congrFun h _).trans rfl

theorem blk1_eq_2 (h : (VK c Cert.KernelIdeal.main_v22 : Cert.KernelIdeal.S1x128.Idx → EReal) = VR c Cert.ReferenceIdeal.main_v19) (t : Fin Cert.KernelIdeal.cfg1.N) :
    (Cert.KernelIdeal.Hand.blk1 VK c 2 t : Cert.KernelIdeal.S1x128.Idx → EReal) = Cert.ReferenceIdeal.Hand.blk1 VR c 2 t := by
  funext y
  show VK c Cert.KernelIdeal.main_v22 (((Cert.KernelIdeal.cfg1.win 2).blk t).view.emb y) = VR c Cert.ReferenceIdeal.main_v19 (((Cert.ReferenceIdeal.cfg1.win 2).blk t).view.emb y)
  exact (congrFun h _).trans rfl

theorem blk1_eq_3 (h : (VK c Cert.KernelIdeal.main_v1 : Cert.KernelIdeal.S1152x128.Idx → EReal) = VR c Cert.ReferenceIdeal.main_v0) (t : Fin Cert.KernelIdeal.cfg1.N) :
    (Cert.KernelIdeal.Hand.blk1 VK c 3 t : Cert.KernelIdeal.S1152x128.Idx → EReal) = Cert.ReferenceIdeal.Hand.blk1 VR c 3 t := by
  funext y
  show VK c Cert.KernelIdeal.main_v1 (((Cert.KernelIdeal.cfg1.win 3).blk t).view.emb y) = VR c Cert.ReferenceIdeal.main_v0 (((Cert.ReferenceIdeal.cfg1.win 3).blk t).view.emb y)
  exact (congrFun h _).trans rfl

theorem blk2_eq_0 (h : (VK c Cert.KernelIdeal.main_v23_0 : Cert.KernelIdeal.S64x32x32x128.Idx → EReal) = VR c Cert.ReferenceIdeal.main_v20_0) (t : Fin Cert.KernelIdeal.cfg2.N) :
    (Cert.KernelIdeal.Hand.blk2 VK c 0 t : Cert.KernelIdeal.S1x32x32x128.Idx → EReal) = Cert.ReferenceIdeal.Hand.blk2 VR c 0 t := by
  funext y
  show VK c Cert.KernelIdeal.main_v23_0 (((Cert.KernelIdeal.cfg2.win 0).blk t).view.emb y) = VR c Cert.ReferenceIdeal.main_v20_0 (((Cert.ReferenceIdeal.cfg2.win 0).blk t).view.emb y)
  exact (congrFun h _).trans rfl

theorem blk2_eq_1 (h : (VK c Cert.KernelIdeal.main_v38 : Cert.KernelIdeal.S1x128.Idx → EReal) = VR c Cert.ReferenceIdeal.main_v35) (t : Fin Cert.KernelIdeal.cfg2.N) :
    (Cert.KernelIdeal.Hand.blk2 VK c 1 t : Cert.KernelIdeal.S1x128.Idx → EReal) = Cert.ReferenceIdeal.Hand.blk2 VR c 1 t := by
  funext y
  show VK c Cert.KernelIdeal.main_v38 (((Cert.KernelIdeal.cfg2.win 1).blk t).view.emb y) = VR c Cert.ReferenceIdeal.main_v35 (((Cert.ReferenceIdeal.cfg2.win 1).blk t).view.emb y)
  exact (congrFun h _).trans rfl

theorem blk2_eq_2 (h : (VK c Cert.KernelIdeal.main_v40 : Cert.KernelIdeal.S1x128.Idx → EReal) = VR c Cert.ReferenceIdeal.main_v37) (t : Fin Cert.KernelIdeal.cfg2.N) :
    (Cert.KernelIdeal.Hand.blk2 VK c 2 t : Cert.KernelIdeal.S1x128.Idx → EReal) = Cert.ReferenceIdeal.Hand.blk2 VR c 2 t := by
  funext y
  show VK c Cert.KernelIdeal.main_v40 (((Cert.KernelIdeal.cfg2.win 2).blk t).view.emb y) = VR c Cert.ReferenceIdeal.main_v37 (((Cert.ReferenceIdeal.cfg2.win 2).blk t).view.emb y)
  exact (congrFun h _).trans rfl

theorem blk2_eq_3 (h : (VK c Cert.KernelIdeal.main_v3 : Cert.KernelIdeal.S1152x128.Idx → EReal) = VR c Cert.ReferenceIdeal.main_v1) (t : Fin Cert.KernelIdeal.cfg2.N) :
    (Cert.KernelIdeal.Hand.blk2 VK c 3 t : Cert.KernelIdeal.S1152x128.Idx → EReal) = Cert.ReferenceIdeal.Hand.blk2 VR c 3 t := by
  funext y
  show VK c Cert.KernelIdeal.main_v3 (((Cert.KernelIdeal.cfg2.win 3).blk t).view.emb y) = VR c Cert.ReferenceIdeal.main_v1 (((Cert.ReferenceIdeal.cfg2.win 3).blk t).view.emb y)
  exact (congrFun h _).trans rfl

theorem blk3_eq_0 (h : (VK c Cert.KernelIdeal.main_v41_0 : Cert.KernelIdeal.S64x32x32x128.Idx → EReal) = VR c Cert.ReferenceIdeal.main_v38_0) (t : Fin Cert.KernelIdeal.cfg3.N) :
    (Cert.KernelIdeal.Hand.blk3 VK c 0 t : Cert.KernelIdeal.S1x32x32x128.Idx → EReal) = Cert.ReferenceIdeal.Hand.blk3 VR c 0 t := by
  funext y
  show VK c Cert.KernelIdeal.main_v41_0 (((Cert.KernelIdeal.cfg3.win 0).blk t).view.emb y) = VR c Cert.ReferenceIdeal.main_v38_0 (((Cert.ReferenceIdeal.cfg3.win 0).blk t).view.emb y)
  exact (congrFun h _).trans rfl

theorem blk3_eq_1 (h : (VK c Cert.KernelIdeal.main_arg0 : Cert.KernelIdeal.S64x32x32x128.Idx → EReal) = VR c Cert.ReferenceIdeal.main_arg0) (t : Fin Cert.KernelIdeal.cfg3.N) :
    (Cert.KernelIdeal.Hand.blk3 VK c 1 t : Cert.KernelIdeal.S1x32x32x128.Idx → EReal) = Cert.ReferenceIdeal.Hand.blk3 VR c 1 t := by
  funext y
  show VK c Cert.KernelIdeal.main_arg0 (((Cert.KernelIdeal.cfg3.win 1).blk t).view.emb y) = VR c Cert.ReferenceIdeal.main_arg0 (((Cert.ReferenceIdeal.cfg3.win 1).blk t).view.emb y)
  exact (congrFun h _).trans rfl

theorem blk3_eq_2 (h : (VK c Cert.KernelIdeal.main_v56 : Cert.KernelIdeal.S1x128.Idx → EReal) = VR c Cert.ReferenceIdeal.main_v53) (t : Fin Cert.KernelIdeal.cfg3.N) :
    (Cert.KernelIdeal.Hand.blk3 VK c 2 t : Cert.KernelIdeal.S1x128.Idx → EReal) = Cert.ReferenceIdeal.Hand.blk3 VR c 2 t := by
  funext y
  show VK c Cert.KernelIdeal.main_v56 (((Cert.KernelIdeal.cfg3.win 2).blk t).view.emb y) = VR c Cert.ReferenceIdeal.main_v53 (((Cert.ReferenceIdeal.cfg3.win 2).blk t).view.emb y)
  exact (congrFun h _).trans rfl

theorem blk3_eq_3 (h : (VK c Cert.KernelIdeal.main_v58 : Cert.KernelIdeal.S1x128.Idx → EReal) = VR c Cert.ReferenceIdeal.main_v55) (t : Fin Cert.KernelIdeal.cfg3.N) :
    (Cert.KernelIdeal.Hand.blk3 VK c 3 t : Cert.KernelIdeal.S1x128.Idx → EReal) = Cert.ReferenceIdeal.Hand.blk3 VR c 3 t := by
  funext y
  show VK c Cert.KernelIdeal.main_v58 (((Cert.KernelIdeal.cfg3.win 3).blk t).view.emb y) = VR c Cert.ReferenceIdeal.main_v55 (((Cert.ReferenceIdeal.cfg3.win 3).blk t).view.emb y)
  exact (congrFun h _).trans rfl

theorem blk3_eq_4 (h : (VK c Cert.KernelIdeal.main_arg9 : Cert.KernelIdeal.S128x8.Idx → EReal) = VR c Cert.ReferenceIdeal.main_arg9) (t : Fin Cert.KernelIdeal.cfg3.N) :
    (Cert.KernelIdeal.Hand.blk3 VK c 4 t : Cert.KernelIdeal.S128x8.Idx → EReal) = Cert.ReferenceIdeal.Hand.blk3 VR c 4 t := by
  funext y
  show VK c Cert.KernelIdeal.main_arg9 (((Cert.KernelIdeal.cfg3.win 4).blk t).view.emb y) = VR c Cert.ReferenceIdeal.main_arg9 (((Cert.ReferenceIdeal.cfg3.win 4).blk t).view.emb y)
  exact (congrFun h _).trans rfl

theorem blk3_eq_5 (h : (VK c Cert.KernelIdeal.main_arg10 : Cert.KernelIdeal.S1x8.Idx → EReal) = VR c Cert.ReferenceIdeal.main_arg10) (t : Fin Cert.KernelIdeal.cfg3.N) :
    (Cert.KernelIdeal.Hand.blk3 VK c 5 t : Cert.KernelIdeal.S1x8.Idx → EReal) = Cert.ReferenceIdeal.Hand.blk3 VR c 5 t := by
  funext y
  show VK c Cert.KernelIdeal.main_arg10 (((Cert.KernelIdeal.cfg3.win 5).blk t).view.emb y) = VR c Cert.ReferenceIdeal.main_arg10 (((Cert.ReferenceIdeal.cfg3.win 5).blk t).view.emb y)
  exact (congrFun h _).trans rfl

theorem blk3_eq_6 (h : (VK c Cert.KernelIdeal.main_arg11 : Cert.KernelIdeal.S8x128.Idx → EReal) = VR c Cert.ReferenceIdeal.main_arg11) (t : Fin Cert.KernelIdeal.cfg3.N) :
    (Cert.KernelIdeal.Hand.blk3 VK c 6 t : Cert.KernelIdeal.S8x128.Idx → EReal) = Cert.ReferenceIdeal.Hand.blk3 VR c 6 t := by
  funext y
  show VK c Cert.KernelIdeal.main_arg11 (((Cert.KernelIdeal.cfg3.win 6).blk t).view.emb y) = VR c Cert.ReferenceIdeal.main_arg11 (((Cert.ReferenceIdeal.cfg3.win 6).blk t).view.emb y)
  exact (congrFun h _).trans rfl

theorem blk3_eq_7 (h : (VK c Cert.KernelIdeal.main_arg12 : Cert.KernelIdeal.S1x128.Idx → EReal) = VR c Cert.ReferenceIdeal.main_arg12) (t : Fin Cert.KernelIdeal.cfg3.N) :
    (Cert.KernelIdeal.Hand.blk3 VK c 7 t : Cert.KernelIdeal.S1x128.Idx → EReal) = Cert.ReferenceIdeal.Hand.blk3 VR c 7 t := by
  funext y
  show VK c Cert.KernelIdeal.main_arg12 (((Cert.KernelIdeal.cfg3.win 7).blk t).view.emb y) = VR c Cert.ReferenceIdeal.main_arg12 (((Cert.ReferenceIdeal.cfg3.win 7).blk t).view.emb y)
  exact (congrFun h _).trans rfl

/-! ## The output arrays -/

set_option maxHeartbeats 2000000 in
/-- Region 1: equal entry arrays give equal `convArr_1`. -/
theorem convArr_1_eq
    (h0 : (VK c Cert.KernelIdeal.main_arg0 : Cert.KernelIdeal.S64x32x32x128.Idx → EReal) = VR c Cert.ReferenceIdeal.main_arg0)
    (h1 : (VK c Cert.KernelIdeal.main_v20 : Cert.KernelIdeal.S1x128.Idx → EReal) = VR c Cert.ReferenceIdeal.main_v17)
    (h2 : (VK c Cert.KernelIdeal.main_v22 : Cert.KernelIdeal.S1x128.Idx → EReal) = VR c Cert.ReferenceIdeal.main_v19)
    (h3 : (VK c Cert.KernelIdeal.main_v1 : Cert.KernelIdeal.S1152x128.Idx → EReal) = VR c Cert.ReferenceIdeal.main_v0) :
    (Cert.KernelIdeal.Hand.convArr_1 VK c : Cert.KernelIdeal.S64x32x32x128.Idx → EReal) = Cert.ReferenceIdeal.Hand.convArr_1 VR c := by
  funext i
  unfold Cert.KernelIdeal.Hand.convArr_1 Cert.ReferenceIdeal.Hand.convArr_1
  rw [blk1_eq_0 VK VR c h0, blk1_eq_1 VK VR c h1, blk1_eq_2 VK VR c h2, blk1_eq_3 VK VR c h3]
  exact congrFun (conv_eq_1 _ _ _ _) _

set_option maxHeartbeats 2000000 in
/-- Region 1: equal entry arrays give equal `convStatsArr_1`. -/
theorem convStatsArr_1_eq
    (h0 : (VK c Cert.KernelIdeal.main_arg0 : Cert.KernelIdeal.S64x32x32x128.Idx → EReal) = VR c Cert.ReferenceIdeal.main_arg0)
    (h1 : (VK c Cert.KernelIdeal.main_v20 : Cert.KernelIdeal.S1x128.Idx → EReal) = VR c Cert.ReferenceIdeal.main_v17)
    (h2 : (VK c Cert.KernelIdeal.main_v22 : Cert.KernelIdeal.S1x128.Idx → EReal) = VR c Cert.ReferenceIdeal.main_v19)
    (h3 : (VK c Cert.KernelIdeal.main_v1 : Cert.KernelIdeal.S1152x128.Idx → EReal) = VR c Cert.ReferenceIdeal.main_v0) :
    (Cert.KernelIdeal.Hand.convStatsArr_1 VK c : Cert.KernelIdeal.S64x2x128.Idx → EReal) = Cert.ReferenceIdeal.Hand.convStatsArr_1 VR c := by
  funext i
  unfold Cert.KernelIdeal.Hand.convStatsArr_1 Cert.ReferenceIdeal.Hand.convStatsArr_1
  rw [blk1_eq_0 VK VR c h0, blk1_eq_1 VK VR c h1, blk1_eq_2 VK VR c h2, blk1_eq_3 VK VR c h3]
  exact congrFun (convStats_eq_1 _ _ _ _) _

set_option maxHeartbeats 2000000 in
/-- Region 2: equal entry arrays give equal `convArr_2`. -/
theorem convArr_2_eq
    (h0 : (VK c Cert.KernelIdeal.main_v23_0 : Cert.KernelIdeal.S64x32x32x128.Idx → EReal) = VR c Cert.ReferenceIdeal.main_v20_0)
    (h1 : (VK c Cert.KernelIdeal.main_v38 : Cert.KernelIdeal.S1x128.Idx → EReal) = VR c Cert.ReferenceIdeal.main_v35)
    (h2 : (VK c Cert.KernelIdeal.main_v40 : Cert.KernelIdeal.S1x128.Idx → EReal) = VR c Cert.ReferenceIdeal.main_v37)
    (h3 : (VK c Cert.KernelIdeal.main_v3 : Cert.KernelIdeal.S1152x128.Idx → EReal) = VR c Cert.ReferenceIdeal.main_v1) :
    (Cert.KernelIdeal.Hand.convArr_2 VK c : Cert.KernelIdeal.S64x32x32x128.Idx → EReal) = Cert.ReferenceIdeal.Hand.convArr_2 VR c := by
  funext i
  unfold Cert.KernelIdeal.Hand.convArr_2 Cert.ReferenceIdeal.Hand.convArr_2
  rw [blk2_eq_0 VK VR c h0, blk2_eq_1 VK VR c h1, blk2_eq_2 VK VR c h2, blk2_eq_3 VK VR c h3]
  exact congrFun (conv_eq_2 _ _ _ _) _

set_option maxHeartbeats 2000000 in
/-- Region 2: equal entry arrays give equal `convStatsArr_2`. -/
theorem convStatsArr_2_eq
    (h0 : (VK c Cert.KernelIdeal.main_v23_0 : Cert.KernelIdeal.S64x32x32x128.Idx → EReal) = VR c Cert.ReferenceIdeal.main_v20_0)
    (h1 : (VK c Cert.KernelIdeal.main_v38 : Cert.KernelIdeal.S1x128.Idx → EReal) = VR c Cert.ReferenceIdeal.main_v35)
    (h2 : (VK c Cert.KernelIdeal.main_v40 : Cert.KernelIdeal.S1x128.Idx → EReal) = VR c Cert.ReferenceIdeal.main_v37)
    (h3 : (VK c Cert.KernelIdeal.main_v3 : Cert.KernelIdeal.S1152x128.Idx → EReal) = VR c Cert.ReferenceIdeal.main_v1) :
    (Cert.KernelIdeal.Hand.convStatsArr_2 VK c : Cert.KernelIdeal.S64x2x128.Idx → EReal) = Cert.ReferenceIdeal.Hand.convStatsArr_2 VR c := by
  funext i
  unfold Cert.KernelIdeal.Hand.convStatsArr_2 Cert.ReferenceIdeal.Hand.convStatsArr_2
  rw [blk2_eq_0 VK VR c h0, blk2_eq_1 VK VR c h1, blk2_eq_2 VK VR c h2, blk2_eq_3 VK VR c h3]
  exact congrFun (convStats_eq_2 _ _ _ _) _

set_option maxHeartbeats 2000000 in
/-- Region 3: equal entry arrays give equal `gatedArr`. -/
theorem gatedArr_eq
    (h0 : (VK c Cert.KernelIdeal.main_v41_0 : Cert.KernelIdeal.S64x32x32x128.Idx → EReal) = VR c Cert.ReferenceIdeal.main_v38_0)
    (h1 : (VK c Cert.KernelIdeal.main_arg0 : Cert.KernelIdeal.S64x32x32x128.Idx → EReal) = VR c Cert.ReferenceIdeal.main_arg0)
    (h2 : (VK c Cert.KernelIdeal.main_v56 : Cert.KernelIdeal.S1x128.Idx → EReal) = VR c Cert.ReferenceIdeal.main_v53)
    (h3 : (VK c Cert.KernelIdeal.main_v58 : Cert.KernelIdeal.S1x128.Idx → EReal) = VR c Cert.ReferenceIdeal.main_v55)
    (h4 : (VK c Cert.KernelIdeal.main_arg9 : Cert.KernelIdeal.S128x8.Idx → EReal) = VR c Cert.ReferenceIdeal.main_arg9)
    (h5 : (VK c Cert.KernelIdeal.main_arg10 : Cert.KernelIdeal.S1x8.Idx → EReal) = VR c Cert.ReferenceIdeal.main_arg10)
    (h6 : (VK c Cert.KernelIdeal.main_arg11 : Cert.KernelIdeal.S8x128.Idx → EReal) = VR c Cert.ReferenceIdeal.main_arg11)
    (h7 : (VK c Cert.KernelIdeal.main_arg12 : Cert.KernelIdeal.S1x128.Idx → EReal) = VR c Cert.ReferenceIdeal.main_arg12) :
    (Cert.KernelIdeal.Hand.gatedArr VK c : Cert.KernelIdeal.S64x32x32x128.Idx → EReal) = Cert.ReferenceIdeal.Hand.gatedArr VR c := by
  funext i
  unfold Cert.KernelIdeal.Hand.gatedArr Cert.ReferenceIdeal.Hand.gatedArr
  rw [blk3_eq_0 VK VR c h0, blk3_eq_1 VK VR c h1, blk3_eq_2 VK VR c h2, blk3_eq_3 VK VR c h3, blk3_eq_4 VK VR c h4, blk3_eq_5 VK VR c h5, blk3_eq_6 VK VR c h6, blk3_eq_7 VK VR c h7]
  exact congrFun (gated_eq _ _ _ _ _ _ _ _) _

end Cert.Bridge

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.Bridge.Stage0.lean ====
/-
  Stage 0 of the comparison: the channel statistics. The kernel program cuts the 65536 rows of the flattened activation
  into 16 chunks of 4096 rows, takes each chunk's column sums and column sums of squares, and adds the sixteen results on
  the host; the reference program cuts the same rows into 512 tiles of 128 rows and adds each tile's column sums to a
  running total. Over the extended reals addition is exact, associative and commutative, so both are the sum of each
  column (and of its squares) over all 65536 rows — the one sum cut into equal runs in two ways.
-/
import proofs.«128858_g2000205668668362_pallasbulk_730_2_alg».proof.Proof.KI.StatsSum
import proofs.«128858_g2000205668668362_pallasbulk_730_2_alg».proof.Proof.RI.StatsArr
import proofs.«128858_g2000205668668362_pallasbulk_730_2_alg».proof.Proof.LibTileSum

set_option maxRecDepth 16384

noncomputable section

namespace Cert.Bridge

open Idealize.ShloMosaic Idealize.ShloMosaic.TcCoe
open Idealize.ShloMosaic.ValueIdx

/-! ## The two programs' channel statistics agree -/

-- the two programs' buffers when their region 0 is entered, over the extended reals, each on its own core
variable (WK : (c : Dev Cert.KernelIdeal.nD) → (b : Ref Cert.KernelIdeal.sig .tc) → Buf (Elt Ideal) ((c : Thread Cert.KernelIdeal.nD Cert.KernelIdeal.τ).loc b))
  (WR : (c : Dev Cert.ReferenceIdeal.nD) → (b : Ref Cert.ReferenceIdeal.sig .tc) → Buf (Elt Ideal) ((c : Thread Cert.ReferenceIdeal.nD Cert.ReferenceIdeal.τ).loc b))
  (cK : Dev Cert.KernelIdeal.nD) (cR : Dev Cert.ReferenceIdeal.nD)

/-- STAGE 0. If the two programs find the same flattened activation, entry by entry, then the statistics they compute
    from it are equal: one adds the column over 16 chunks of 4096 rows and then the sixteen partial sums, the other over
    512 tiles of 128 rows in turn; over the extended reals both are the sum of the column (or of its squares) over all
    65536 rows, cut into equal runs two ways. -/
theorem stats0_eq
    (hx : ∀ (i : Fin 65536) (ch : Fin 128), Cert.KernelIdeal.Hand.actAt WK cK i ch = Cert.ReferenceIdeal.Hand.actAt WR cR i ch) :
    Cert.KernelIdeal.Hand.sumOver16 (Cert.KernelIdeal.Hand.statsArr WK cK) = Cert.ReferenceIdeal.Hand.statsResult WR cR := by
  funext j
  obtain ⟨r, ch, rfl⟩ : ∃ (r : Fin 2) (ch : Fin 128), j = ix2 r ch := ⟨j 0, j 1, eq_ix2 j⟩
  refine (Cert.KernelIdeal.Hand.sumOver16_statsArr_apply WK cK r ch).trans ?_
  refine Eq.trans ?_ (Cert.ReferenceIdeal.Hand.statsResult_apply WR cR r ch).symm
  have eK := TileSum.sum_axis (by decide : 16 * 4096 = 65536)
    (fun i : Fin 65536 => Cert.KernelIdeal.Hand.statOf r (Cert.KernelIdeal.Hand.actAt WK cK i ch))
  have eR := TileSum.sum_axis (by decide : 512 * 128 = 65536)
    (fun i : Fin 65536 => Cert.ReferenceIdeal.Hand.statOf r (Cert.ReferenceIdeal.Hand.actAt WR cR i ch))
  refine eK.symm.trans (Eq.trans ?_ eR)
  refine Finset.sum_congr rfl fun i _ => ?_
  show Cert.KernelIdeal.Hand.statOf r (Cert.KernelIdeal.Hand.actAt WK cK i ch) = Cert.ReferenceIdeal.Hand.statOf r (Cert.ReferenceIdeal.Hand.actAt WR cR i ch)
  rw [hx i ch]
  rfl

end Cert.Bridge

end
-- ==== Proof.Bridge.Main.lean ====
/-
  The two programs end with the same result. Run from memories that agree on the thirteen arguments: the flattened input and
  the two reshaped weight matrices agree (the kernel program's change of format is the identity at exact arithmetic); the
  first statistics agree — the kernel program adds sixteen chunk partials, the reference keeps a running total over 512 row
  tiles, and both are the sum over all 65536 rows (Stage0.lean) —, hence the first scale and shift; then, stage by stage, equal
  entry arrays give equal output arrays (Arrays.lean) and equal summed statistics give equal scales and shifts, down to the
  last region's output array, which is the result.
-/
import proofs.«128858_g2000205668668362_pallasbulk_730_2_alg».proof.Proof.KI.Chain
import proofs.«128858_g2000205668668362_pallasbulk_730_2_alg».proof.Proof.RI.Chain
import proofs.«128858_g2000205668668362_pallasbulk_730_2_alg».proof.Proof.Bridge.Arrays
import proofs.«128858_g2000205668668362_pallasbulk_730_2_alg».proof.Proof.Bridge.Stage0

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (ρ' : Dev Cert.ReferenceIdeal.nD → PrngReg)
  (c : Dev Cert.KernelIdeal.nD)
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
  (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
  (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
  (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))

include a0 a1 a2 a3 a4 a5 a6 a7 a8 a9 a10 a11 a12

/-! ## The arguments, wherever they are read -/

/-- Argument 1 at boundary 2: as launched on both sides, and the launches agree. -/
theorem arg1_at2 : (Cert.KernelIdeal.Hand.W2 (F := Ideal) m ρ c (Proc.devRef .tc Cert.KernelIdeal.main_arg1) : Cert.KernelIdeal.S1x128.Idx → EReal) = Cert.ReferenceIdeal.Hand.W2 (F := Ideal) m' ρ' c (Proc.devRef .tc Cert.ReferenceIdeal.main_arg1) := by
  rw [Cert.KernelIdeal.Hand.arg1_at2 m ρ c, Cert.ReferenceIdeal.Hand.arg1_at2 m' ρ' c]
  exact a1.symm

/-- Argument 2 at boundary 2: as launched on both sides, and the launches agree. -/
theorem arg2_at2 : (Cert.KernelIdeal.Hand.W2 (F := Ideal) m ρ c (Proc.devRef .tc Cert.KernelIdeal.main_arg2) : Cert.KernelIdeal.S1x128.Idx → EReal) = Cert.ReferenceIdeal.Hand.W2 (F := Ideal) m' ρ' c (Proc.devRef .tc Cert.ReferenceIdeal.main_arg2) := by
  rw [Cert.KernelIdeal.Hand.arg2_at2 m ρ c, Cert.ReferenceIdeal.Hand.arg2_at2 m' ρ' c]
  exact a2.symm

/-- Argument 0 at boundary 3: as launched on both sides, and the launches agree. -/
theorem arg0_at3 : (Cert.KernelIdeal.Hand.W3 (F := Ideal) m ρ c (Proc.devRef .tc Cert.KernelIdeal.main_arg0) : Cert.KernelIdeal.S64x32x32x128.Idx → EReal) = Cert.ReferenceIdeal.Hand.W3 (F := Ideal) m' ρ' c (Proc.devRef .tc Cert.ReferenceIdeal.main_arg0) := by
  rw [Cert.KernelIdeal.Hand.arg0_at3 m ρ c, Cert.ReferenceIdeal.Hand.arg0_at3 m' ρ' c]
  exact a0.symm

/-- Argument 4 at boundary 4: as launched on both sides, and the launches agree. -/
theorem arg4_at4 : (Cert.KernelIdeal.Hand.W4 (F := Ideal) m ρ c (Proc.devRef .tc Cert.KernelIdeal.main_arg4) : Cert.KernelIdeal.S1x128.Idx → EReal) = Cert.ReferenceIdeal.Hand.W4 (F := Ideal) m' ρ' c (Proc.devRef .tc Cert.ReferenceIdeal.main_arg4) := by
  rw [Cert.KernelIdeal.Hand.arg4_at4 m ρ c, Cert.ReferenceIdeal.Hand.arg4_at4 m' ρ' c]
  exact a4.symm

/-- Argument 5 at boundary 4: as launched on both sides, and the launches agree. -/
theorem arg5_at4 : (Cert.KernelIdeal.Hand.W4 (F := Ideal) m ρ c (Proc.devRef .tc Cert.KernelIdeal.main_arg5) : Cert.KernelIdeal.S1x128.Idx → EReal) = Cert.ReferenceIdeal.Hand.W4 (F := Ideal) m' ρ' c (Proc.devRef .tc Cert.ReferenceIdeal.main_arg5) := by
  rw [Cert.KernelIdeal.Hand.arg5_at4 m ρ c, Cert.ReferenceIdeal.Hand.arg5_at4 m' ρ' c]
  exact a5.symm

/-- Argument 7 at boundary 6: as launched on both sides, and the launches agree. -/
theorem arg7_at6 : (Cert.KernelIdeal.Hand.W6 (F := Ideal) m ρ c (Proc.devRef .tc Cert.KernelIdeal.main_arg7) : Cert.KernelIdeal.S1x128.Idx → EReal) = Cert.ReferenceIdeal.Hand.W6 (F := Ideal) m' ρ' c (Proc.devRef .tc Cert.ReferenceIdeal.main_arg7) := by
  rw [Cert.KernelIdeal.Hand.arg7_at6 m ρ c, Cert.ReferenceIdeal.Hand.arg7_at6 m' ρ' c]
  exact a7.symm

/-- Argument 8 at boundary 6: as launched on both sides, and the launches agree. -/
theorem arg8_at6 : (Cert.KernelIdeal.Hand.W6 (F := Ideal) m ρ c (Proc.devRef .tc Cert.KernelIdeal.main_arg8) : Cert.KernelIdeal.S1x128.Idx → EReal) = Cert.ReferenceIdeal.Hand.W6 (F := Ideal) m' ρ' c (Proc.devRef .tc Cert.ReferenceIdeal.main_arg8) := by
  rw [Cert.KernelIdeal.Hand.arg8_at6 m ρ c, Cert.ReferenceIdeal.Hand.arg8_at6 m' ρ' c]
  exact a8.symm

/-- Argument 0 at boundary 7: as launched on both sides, and the launches agree. -/
theorem arg0_at7 : (Cert.KernelIdeal.Hand.W7 (F := Ideal) m ρ c (Proc.devRef .tc Cert.KernelIdeal.main_arg0) : Cert.KernelIdeal.S64x32x32x128.Idx → EReal) = Cert.ReferenceIdeal.Hand.W7 (F := Ideal) m' ρ' c (Proc.devRef .tc Cert.ReferenceIdeal.main_arg0) := by
  rw [Cert.KernelIdeal.Hand.arg0_at7 m ρ c, Cert.ReferenceIdeal.Hand.arg0_at7 m' ρ' c]
  exact a0.symm

/-- Argument 9 at boundary 7: as launched on both sides, and the launches agree. -/
theorem arg9_at7 : (Cert.KernelIdeal.Hand.W7 (F := Ideal) m ρ c (Proc.devRef .tc Cert.KernelIdeal.main_arg9) : Cert.KernelIdeal.S128x8.Idx → EReal) = Cert.ReferenceIdeal.Hand.W7 (F := Ideal) m' ρ' c (Proc.devRef .tc Cert.ReferenceIdeal.main_arg9) := by
  rw [Cert.KernelIdeal.Hand.arg9_at7 m ρ c, Cert.ReferenceIdeal.Hand.arg9_at7 m' ρ' c]
  exact a9.symm

/-- Argument 10 at boundary 7: as launched on both sides, and the launches agree. -/
theorem arg10_at7 : (Cert.KernelIdeal.Hand.W7 (F := Ideal) m ρ c (Proc.devRef .tc Cert.KernelIdeal.main_arg10) : Cert.KernelIdeal.S1x8.Idx → EReal) = Cert.ReferenceIdeal.Hand.W7 (F := Ideal) m' ρ' c (Proc.devRef .tc Cert.ReferenceIdeal.main_arg10) := by
  rw [Cert.KernelIdeal.Hand.arg10_at7 m ρ c, Cert.ReferenceIdeal.Hand.arg10_at7 m' ρ' c]
  exact a10.symm

/-- Argument 11 at boundary 7: as launched on both sides, and the launches agree. -/
theorem arg11_at7 : (Cert.KernelIdeal.Hand.W7 (F := Ideal) m ρ c (Proc.devRef .tc Cert.KernelIdeal.main_arg11) : Cert.KernelIdeal.S8x128.Idx → EReal) = Cert.ReferenceIdeal.Hand.W7 (F := Ideal) m' ρ' c (Proc.devRef .tc Cert.ReferenceIdeal.main_arg11) := by
  rw [Cert.KernelIdeal.Hand.arg11_at7 m ρ c, Cert.ReferenceIdeal.Hand.arg11_at7 m' ρ' c]
  exact a11.symm

/-- Argument 12 at boundary 7: as launched on both sides, and the launches agree. -/
theorem arg12_at7 : (Cert.KernelIdeal.Hand.W7 (F := Ideal) m ρ c (Proc.devRef .tc Cert.KernelIdeal.main_arg12) : Cert.KernelIdeal.S1x128.Idx → EReal) = Cert.ReferenceIdeal.Hand.W7 (F := Ideal) m' ρ' c (Proc.devRef .tc Cert.ReferenceIdeal.main_arg12) := by
  rw [Cert.KernelIdeal.Hand.arg12_at7 m ρ c, Cert.ReferenceIdeal.Hand.arg12_at7 m' ρ' c]
  exact a12.symm

/-! ## The first host stretch -/

set_option maxHeartbeats 2000000 in
/-- The flattened input. -/
theorem flat_eq : (Cert.KernelIdeal.Hand.W1 (F := Ideal) m ρ c (Proc.devRef .tc Cert.KernelIdeal.main_v4) : Cert.KernelIdeal.S65536x128.Idx → EReal) = Cert.ReferenceIdeal.Hand.W1 (F := Ideal) m' ρ' c (Proc.devRef .tc Cert.ReferenceIdeal.main_v2) := by
  rw [Cert.KernelIdeal.Hand.flat_read m ρ c, Cert.ReferenceIdeal.Hand.flat_read m' ρ' c]
  have e : Cert.ReferenceIdeal.Hand.W0 (F := Ideal) m' ρ' c (Proc.devRef .tc Cert.ReferenceIdeal.main_arg0) = Cert.KernelIdeal.Hand.W0 (F := Ideal) m ρ c (Proc.devRef .tc Cert.KernelIdeal.main_arg0) := a0
  rw [e]

set_option maxHeartbeats 2000000 in
/-- The first weight matrix. -/
theorem w1_eq : (Cert.KernelIdeal.Hand.W1 (F := Ideal) m ρ c (Proc.devRef .tc Cert.KernelIdeal.main_v1) : Cert.KernelIdeal.S1152x128.Idx → EReal) = Cert.ReferenceIdeal.Hand.W1 (F := Ideal) m' ρ' c (Proc.devRef .tc Cert.ReferenceIdeal.main_v0) := by
  rw [Cert.KernelIdeal.Hand.w1_read m ρ c, Cert.ReferenceIdeal.Hand.w1_read m' ρ' c]
  have e : Cert.ReferenceIdeal.Hand.W0 (F := Ideal) m' ρ' c (Proc.devRef .tc Cert.ReferenceIdeal.main_arg3) = Cert.KernelIdeal.Hand.W0 (F := Ideal) m ρ c (Proc.devRef .tc Cert.KernelIdeal.main_arg3) := a3
  rw [e]
  rfl

set_option maxHeartbeats 2000000 in
/-- The second weight matrix. -/
theorem w2_eq : (Cert.KernelIdeal.Hand.W1 (F := Ideal) m ρ c (Proc.devRef .tc Cert.KernelIdeal.main_v3) : Cert.KernelIdeal.S1152x128.Idx → EReal) = Cert.ReferenceIdeal.Hand.W1 (F := Ideal) m' ρ' c (Proc.devRef .tc Cert.ReferenceIdeal.main_v1) := by
  rw [Cert.KernelIdeal.Hand.w2_read m ρ c, Cert.ReferenceIdeal.Hand.w2_read m' ρ' c]
  have e : Cert.ReferenceIdeal.Hand.W0 (F := Ideal) m' ρ' c (Proc.devRef .tc Cert.ReferenceIdeal.main_arg6) = Cert.KernelIdeal.Hand.W0 (F := Ideal) m ρ c (Proc.devRef .tc Cert.KernelIdeal.main_arg6) := a6
  rw [e]
  rfl

theorem w1_at3_eq : (Cert.KernelIdeal.Hand.W3 (F := Ideal) m ρ c (Proc.devRef .tc Cert.KernelIdeal.main_v1) : Cert.KernelIdeal.S1152x128.Idx → EReal) = Cert.ReferenceIdeal.Hand.W3 (F := Ideal) m' ρ' c (Proc.devRef .tc Cert.ReferenceIdeal.main_v0) := by
  rw [Cert.KernelIdeal.Hand.w1_at3 m ρ c, Cert.ReferenceIdeal.Hand.w1_at3 m' ρ' c]; exact w1_eq m ρ m' ρ' c a0 a1 a2 a3 a4 a5 a6 a7 a8 a9 a10 a11 a12

theorem w2_at5_eq : (Cert.KernelIdeal.Hand.W5 (F := Ideal) m ρ c (Proc.devRef .tc Cert.KernelIdeal.main_v3) : Cert.KernelIdeal.S1152x128.Idx → EReal) = Cert.ReferenceIdeal.Hand.W5 (F := Ideal) m' ρ' c (Proc.devRef .tc Cert.ReferenceIdeal.main_v1) := by
  rw [Cert.KernelIdeal.Hand.w2_at5 m ρ c, Cert.ReferenceIdeal.Hand.w2_at5 m' ρ' c]; exact w2_eq m ρ m' ρ' c a0 a1 a2 a3 a4 a5 a6 a7 a8 a9 a10 a11 a12

/-! ## Stage 0: the first statistics, scale and shift -/

set_option maxHeartbeats 2000000 in
/-- The sixteen chunk partials added up are the reference's running total. -/
theorem sums0_eq : (Cert.KernelIdeal.Hand.sumOver16 (Cert.KernelIdeal.Hand.W2 (F := Ideal) m ρ c (Proc.devRef .tc Cert.KernelIdeal.main_v5)) : Cert.KernelIdeal.S2x128.Idx → EReal) = Cert.ReferenceIdeal.Hand.W2 (F := Ideal) m' ρ' c (Proc.devRef .tc Cert.ReferenceIdeal.main_v3) := by
  rw [Cert.KernelIdeal.Hand.out0 m ρ c, Cert.ReferenceIdeal.Hand.out0 m' ρ' c]
  exact stats0_eq (Cert.KernelIdeal.Hand.U1 (F := Ideal) m ρ) (Cert.ReferenceIdeal.Hand.U1 (F := Ideal) m' ρ') c c (fun i ch => congrFun (flat_eq m ρ m' ρ' c a0 a1 a2 a3 a4 a5 a6 a7 a8 a9 a10 a11 a12) (ValueIdx.ix2 i ch))

set_option maxHeartbeats 2000000 in
/-- Stage 0: the scales agree. -/
theorem scale0_eq : (Cert.KernelIdeal.Hand.W3 (F := Ideal) m ρ c (Proc.devRef .tc Cert.KernelIdeal.main_v20) : Cert.KernelIdeal.S1x128.Idx → EReal) = Cert.ReferenceIdeal.Hand.W3 (F := Ideal) m' ρ' c (Proc.devRef .tc Cert.ReferenceIdeal.main_v17) := by
  rw [Cert.KernelIdeal.Hand.scale0_read m ρ c, Cert.ReferenceIdeal.Hand.scale0_read m' ρ' c, sums0_eq m ρ m' ρ' c a0 a1 a2 a3 a4 a5 a6 a7 a8 a9 a10 a11 a12, arg1_at2 m ρ m' ρ' c a0 a1 a2 a3 a4 a5 a6 a7 a8 a9 a10 a11 a12]
  rfl

set_option maxHeartbeats 2000000 in
/-- Stage 0: the shifts agree. -/
theorem shift0_eq : (Cert.KernelIdeal.Hand.W3 (F := Ideal) m ρ c (Proc.devRef .tc Cert.KernelIdeal.main_v22) : Cert.KernelIdeal.S1x128.Idx → EReal) = Cert.ReferenceIdeal.Hand.W3 (F := Ideal) m' ρ' c (Proc.devRef .tc Cert.ReferenceIdeal.main_v19) := by
  rw [Cert.KernelIdeal.Hand.shift0_read m ρ c, Cert.ReferenceIdeal.Hand.shift0_read m' ρ' c, sums0_eq m ρ m' ρ' c a0 a1 a2 a3 a4 a5 a6 a7 a8 a9 a10 a11 a12, arg1_at2 m ρ m' ρ' c a0 a1 a2 a3 a4 a5 a6 a7 a8 a9 a10 a11 a12, arg2_at2 m ρ m' ρ' c a0 a1 a2 a3 a4 a5 a6 a7 a8 a9 a10 a11 a12]
  rfl

/-! ## Stage 1: the first convolution -/

theorem y1_eq : (Cert.KernelIdeal.Hand.W4 (F := Ideal) m ρ c (Proc.devRef .tc Cert.KernelIdeal.main_v23_0) : Cert.KernelIdeal.S64x32x32x128.Idx → EReal) = Cert.ReferenceIdeal.Hand.W4 (F := Ideal) m' ρ' c (Proc.devRef .tc Cert.ReferenceIdeal.main_v20_0) := by
  rw [Cert.KernelIdeal.Hand.out1_y m ρ c, Cert.ReferenceIdeal.Hand.out1_y m' ρ' c]
  exact convArr_1_eq (Cert.KernelIdeal.Hand.U3 (F := Ideal) m ρ) (Cert.ReferenceIdeal.Hand.U3 (F := Ideal) m' ρ') c (arg0_at3 m ρ m' ρ' c a0 a1 a2 a3 a4 a5 a6 a7 a8 a9 a10 a11 a12) (scale0_eq m ρ m' ρ' c a0 a1 a2 a3 a4 a5 a6 a7 a8 a9 a10 a11 a12) (shift0_eq m ρ m' ρ' c a0 a1 a2 a3 a4 a5 a6 a7 a8 a9 a10 a11 a12) (w1_at3_eq m ρ m' ρ' c a0 a1 a2 a3 a4 a5 a6 a7 a8 a9 a10 a11 a12)

theorem p1_eq : (Cert.KernelIdeal.Hand.W4 (F := Ideal) m ρ c (Proc.devRef .tc Cert.KernelIdeal.main_v23_1) : Cert.KernelIdeal.S64x2x128.Idx → EReal) = Cert.ReferenceIdeal.Hand.W4 (F := Ideal) m' ρ' c (Proc.devRef .tc Cert.ReferenceIdeal.main_v20_1) := by
  rw [Cert.KernelIdeal.Hand.out1_p m ρ c, Cert.ReferenceIdeal.Hand.out1_p m' ρ' c]
  exact convStatsArr_1_eq (Cert.KernelIdeal.Hand.U3 (F := Ideal) m ρ) (Cert.ReferenceIdeal.Hand.U3 (F := Ideal) m' ρ') c (arg0_at3 m ρ m' ρ' c a0 a1 a2 a3 a4 a5 a6 a7 a8 a9 a10 a11 a12) (scale0_eq m ρ m' ρ' c a0 a1 a2 a3 a4 a5 a6 a7 a8 a9 a10 a11 a12) (shift0_eq m ρ m' ρ' c a0 a1 a2 a3 a4 a5 a6 a7 a8 a9 a10 a11 a12) (w1_at3_eq m ρ m' ρ' c a0 a1 a2 a3 a4 a5 a6 a7 a8 a9 a10 a11 a12)

theorem sums1_eq : (Cert.KernelIdeal.Hand.sumOver64 (Cert.KernelIdeal.Hand.W4 (F := Ideal) m ρ c (Proc.devRef .tc Cert.KernelIdeal.main_v23_1)) : Cert.KernelIdeal.S2x128.Idx → EReal) = Cert.ReferenceIdeal.Hand.sumOver64 (Cert.ReferenceIdeal.Hand.W4 (F := Ideal) m' ρ' c (Proc.devRef .tc Cert.ReferenceIdeal.main_v20_1)) := by
  rw [p1_eq m ρ m' ρ' c a0 a1 a2 a3 a4 a5 a6 a7 a8 a9 a10 a11 a12]; rfl

set_option maxHeartbeats 2000000 in
/-- Stage 1: the scales agree. -/
theorem scale1_eq : (Cert.KernelIdeal.Hand.W5 (F := Ideal) m ρ c (Proc.devRef .tc Cert.KernelIdeal.main_v38) : Cert.KernelIdeal.S1x128.Idx → EReal) = Cert.ReferenceIdeal.Hand.W5 (F := Ideal) m' ρ' c (Proc.devRef .tc Cert.ReferenceIdeal.main_v35) := by
  rw [Cert.KernelIdeal.Hand.scale1_read m ρ c, Cert.ReferenceIdeal.Hand.scale1_read m' ρ' c, sums1_eq m ρ m' ρ' c a0 a1 a2 a3 a4 a5 a6 a7 a8 a9 a10 a11 a12, arg4_at4 m ρ m' ρ' c a0 a1 a2 a3 a4 a5 a6 a7 a8 a9 a10 a11 a12]
  rfl

set_option maxHeartbeats 2000000 in
/-- Stage 1: the shifts agree. -/
theorem shift1_eq : (Cert.KernelIdeal.Hand.W5 (F := Ideal) m ρ c (Proc.devRef .tc Cert.KernelIdeal.main_v40) : Cert.KernelIdeal.S1x128.Idx → EReal) = Cert.ReferenceIdeal.Hand.W5 (F := Ideal) m' ρ' c (Proc.devRef .tc Cert.ReferenceIdeal.main_v37) := by
  rw [Cert.KernelIdeal.Hand.shift1_read m ρ c, Cert.ReferenceIdeal.Hand.shift1_read m' ρ' c, sums1_eq m ρ m' ρ' c a0 a1 a2 a3 a4 a5 a6 a7 a8 a9 a10 a11 a12, arg4_at4 m ρ m' ρ' c a0 a1 a2 a3 a4 a5 a6 a7 a8 a9 a10 a11 a12, arg5_at4 m ρ m' ρ' c a0 a1 a2 a3 a4 a5 a6 a7 a8 a9 a10 a11 a12]
  rfl

theorem y1_at5_eq : (Cert.KernelIdeal.Hand.W5 (F := Ideal) m ρ c (Proc.devRef .tc Cert.KernelIdeal.main_v23_0) : Cert.KernelIdeal.S64x32x32x128.Idx → EReal) = Cert.ReferenceIdeal.Hand.W5 (F := Ideal) m' ρ' c (Proc.devRef .tc Cert.ReferenceIdeal.main_v20_0) := by
  rw [Cert.KernelIdeal.Hand.y1_at5 m ρ c, Cert.ReferenceIdeal.Hand.y1_at5 m' ρ' c]; exact y1_eq m ρ m' ρ' c a0 a1 a2 a3 a4 a5 a6 a7 a8 a9 a10 a11 a12

/-! ## Stage 2: the second convolution -/

theorem y2_eq : (Cert.KernelIdeal.Hand.W6 (F := Ideal) m ρ c (Proc.devRef .tc Cert.KernelIdeal.main_v41_0) : Cert.KernelIdeal.S64x32x32x128.Idx → EReal) = Cert.ReferenceIdeal.Hand.W6 (F := Ideal) m' ρ' c (Proc.devRef .tc Cert.ReferenceIdeal.main_v38_0) := by
  rw [Cert.KernelIdeal.Hand.out2_y m ρ c, Cert.ReferenceIdeal.Hand.out2_y m' ρ' c]
  exact convArr_2_eq (Cert.KernelIdeal.Hand.U5 (F := Ideal) m ρ) (Cert.ReferenceIdeal.Hand.U5 (F := Ideal) m' ρ') c (y1_at5_eq m ρ m' ρ' c a0 a1 a2 a3 a4 a5 a6 a7 a8 a9 a10 a11 a12) (scale1_eq m ρ m' ρ' c a0 a1 a2 a3 a4 a5 a6 a7 a8 a9 a10 a11 a12) (shift1_eq m ρ m' ρ' c a0 a1 a2 a3 a4 a5 a6 a7 a8 a9 a10 a11 a12) (w2_at5_eq m ρ m' ρ' c a0 a1 a2 a3 a4 a5 a6 a7 a8 a9 a10 a11 a12)

theorem p2_eq : (Cert.KernelIdeal.Hand.W6 (F := Ideal) m ρ c (Proc.devRef .tc Cert.KernelIdeal.main_v41_1) : Cert.KernelIdeal.S64x2x128.Idx → EReal) = Cert.ReferenceIdeal.Hand.W6 (F := Ideal) m' ρ' c (Proc.devRef .tc Cert.ReferenceIdeal.main_v38_1) := by
  rw [Cert.KernelIdeal.Hand.out2_p m ρ c, Cert.ReferenceIdeal.Hand.out2_p m' ρ' c]
  exact convStatsArr_2_eq (Cert.KernelIdeal.Hand.U5 (F := Ideal) m ρ) (Cert.ReferenceIdeal.Hand.U5 (F := Ideal) m' ρ') c (y1_at5_eq m ρ m' ρ' c a0 a1 a2 a3 a4 a5 a6 a7 a8 a9 a10 a11 a12) (scale1_eq m ρ m' ρ' c a0 a1 a2 a3 a4 a5 a6 a7 a8 a9 a10 a11 a12) (shift1_eq m ρ m' ρ' c a0 a1 a2 a3 a4 a5 a6 a7 a8 a9 a10 a11 a12) (w2_at5_eq m ρ m' ρ' c a0 a1 a2 a3 a4 a5 a6 a7 a8 a9 a10 a11 a12)

theorem sums2_eq : (Cert.KernelIdeal.Hand.sumOver64 (Cert.KernelIdeal.Hand.W6 (F := Ideal) m ρ c (Proc.devRef .tc Cert.KernelIdeal.main_v41_1)) : Cert.KernelIdeal.S2x128.Idx → EReal) = Cert.ReferenceIdeal.Hand.sumOver64 (Cert.ReferenceIdeal.Hand.W6 (F := Ideal) m' ρ' c (Proc.devRef .tc Cert.ReferenceIdeal.main_v38_1)) := by
  rw [p2_eq m ρ m' ρ' c a0 a1 a2 a3 a4 a5 a6 a7 a8 a9 a10 a11 a12]; rfl

set_option maxHeartbeats 2000000 in
/-- Stage 2: the scales agree. -/
theorem scale2_eq : (Cert.KernelIdeal.Hand.W7 (F := Ideal) m ρ c (Proc.devRef .tc Cert.KernelIdeal.main_v56) : Cert.KernelIdeal.S1x128.Idx → EReal) = Cert.ReferenceIdeal.Hand.W7 (F := Ideal) m' ρ' c (Proc.devRef .tc Cert.ReferenceIdeal.main_v53) := by
  rw [Cert.KernelIdeal.Hand.scale2_read m ρ c, Cert.ReferenceIdeal.Hand.scale2_read m' ρ' c, sums2_eq m ρ m' ρ' c a0 a1 a2 a3 a4 a5 a6 a7 a8 a9 a10 a11 a12, arg7_at6 m ρ m' ρ' c a0 a1 a2 a3 a4 a5 a6 a7 a8 a9 a10 a11 a12]
  rfl

set_option maxHeartbeats 2000000 in
/-- Stage 2: the shifts agree. -/
theorem shift2_eq : (Cert.KernelIdeal.Hand.W7 (F := Ideal) m ρ c (Proc.devRef .tc Cert.KernelIdeal.main_v58) : Cert.KernelIdeal.S1x128.Idx → EReal) = Cert.ReferenceIdeal.Hand.W7 (F := Ideal) m' ρ' c (Proc.devRef .tc Cert.ReferenceIdeal.main_v55) := by
  rw [Cert.KernelIdeal.Hand.shift2_read m ρ c, Cert.ReferenceIdeal.Hand.shift2_read m' ρ' c, sums2_eq m ρ m' ρ' c a0 a1 a2 a3 a4 a5 a6 a7 a8 a9 a10 a11 a12, arg7_at6 m ρ m' ρ' c a0 a1 a2 a3 a4 a5 a6 a7 a8 a9 a10 a11 a12, arg8_at6 m ρ m' ρ' c a0 a1 a2 a3 a4 a5 a6 a7 a8 a9 a10 a11 a12]
  rfl

theorem y2_at7_eq : (Cert.KernelIdeal.Hand.W7 (F := Ideal) m ρ c (Proc.devRef .tc Cert.KernelIdeal.main_v41_0) : Cert.KernelIdeal.S64x32x32x128.Idx → EReal) = Cert.ReferenceIdeal.Hand.W7 (F := Ideal) m' ρ' c (Proc.devRef .tc Cert.ReferenceIdeal.main_v38_0) := by
  rw [Cert.KernelIdeal.Hand.y2_at7 m ρ c, Cert.ReferenceIdeal.Hand.y2_at7 m' ρ' c]; exact y2_eq m ρ m' ρ' c a0 a1 a2 a3 a4 a5 a6 a7 a8 a9 a10 a11 a12

/-! ## Stage 3: the gate and the residual — the result -/

/-- The two result arrays agree. -/
theorem result_eq : (Cert.KernelIdeal.Hand.W8 (F := Ideal) m ρ c (Proc.devRef .tc Cert.KernelIdeal.main_v59) : Cert.KernelIdeal.S64x32x32x128.Idx → EReal) = Cert.ReferenceIdeal.Hand.W8 (F := Ideal) m' ρ' c (Proc.devRef .tc Cert.ReferenceIdeal.main_v56) := by
  rw [Cert.KernelIdeal.Hand.out3 m ρ c, Cert.ReferenceIdeal.Hand.out3 m' ρ' c]
  exact gatedArr_eq (Cert.KernelIdeal.Hand.U7 (F := Ideal) m ρ) (Cert.ReferenceIdeal.Hand.U7 (F := Ideal) m' ρ') c (y2_at7_eq m ρ m' ρ' c a0 a1 a2 a3 a4 a5 a6 a7 a8 a9 a10 a11 a12) (arg0_at7 m ρ m' ρ' c a0 a1 a2 a3 a4 a5 a6 a7 a8 a9 a10 a11 a12) (scale2_eq m ρ m' ρ' c a0 a1 a2 a3 a4 a5 a6 a7 a8 a9 a10 a11 a12) (shift2_eq m ρ m' ρ' c a0 a1 a2 a3 a4 a5 a6 a7 a8 a9 a10 a11 a12)
    (arg9_at7 m ρ m' ρ' c a0 a1 a2 a3 a4 a5 a6 a7 a8 a9 a10 a11 a12) (arg10_at7 m ρ m' ρ' c a0 a1 a2 a3 a4 a5 a6 a7 a8 a9 a10 a11 a12) (arg11_at7 m ρ m' ρ' c a0 a1 a2 a3 a4 a5 a6 a7 a8 a9 a10 a11 a12) (arg12_at7 m ρ m' ρ' c a0 a1 a2 a3 a4 a5 a6 a7 a8 a9 a10 a11 a12)

end Cert.Bridge

end
-- ==== Proof.lean ====
/-
  The claim: the word-level kernel program, its idealization and the idealized reference each run to the end without a
  fault and leave their thirteen argument arrays as launched; the idealization is the kernel program printed at exact
  arithmetic with nothing rewritten (no ledger entry, so nothing to preserve); and at exact arithmetic the kernel program and
  the reference, run from memories that agree on the arguments, end with the same result array.

  Each program is four stretches of host operations, each followed by a kernel region: the channel statistics of the input,
  two 3×3 convolutions each preceded by a folded batch-norm affine and followed by the statistics of its output, and the
  squeeze-and-excitation gate with the residual. The frames are proved region by region (K/, KI/, RI/: one module per region,
  one for the run); the two programs differ, at exact arithmetic, only in how the first statistics are summed — sixteen
  chunk partials added by the host against a running total over 512 row tiles — which is a regrouping of one finite sum.
-/
import proofs.«128858_g2000205668668362_pallasbulk_730_2_alg».proof.Defs
import proofs.«128858_g2000205668668362_pallasbulk_730_2_alg».proof.Proof.K.Run
import proofs.«128858_g2000205668668362_pallasbulk_730_2_alg».proof.Proof.KI.Run
import proofs.«128858_g2000205668668362_pallasbulk_730_2_alg».proof.Proof.RI.Run
import proofs.«128858_g2000205668668362_pallasbulk_730_2_alg».proof.Proof.Bridge.Main
import proofs.«128858_g2000205668668362_pallasbulk_730_2_alg».proof.Proof.Gen.Kernel
import proofs.«128858_g2000205668668362_pallasbulk_730_2_alg».proof.Proof.Gen.KernelIdeal
import proofs.«128858_g2000205668668362_pallasbulk_730_2_alg».proof.Proof.Gen.ReferenceIdeal
import proofs.«128858_g2000205668668362_pallasbulk_730_2_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealized reference runs and leaves its arguments as launched. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- At exact arithmetic the kernel program and the reference, run from memories that agree on the arguments, end with the
    same result array: the witness is the kernel program's result; the reference's is equal to it, region by region. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hag
  refine ⟨fun c => Cert.KernelIdeal.Hand.W8 (F := Ideal) m ρ c (Proc.devRef .tc Cert.KernelIdeal.main_v59),
    Cert.KernelIdeal.Hand.run_result (F := Ideal) m ρ, ?_⟩
  refine (θ_run (Cert.ReferenceIdeal.defs (F := Ideal)) _ _).mono (fun r h c => ⟨(h c).1.trans ?_, (h c).2⟩)
    (Cert.ReferenceIdeal.Hand.run_result (F := Ideal) m' ρ')
  obtain ⟨a0, a1, a2, a3, a4, a5, a6, a7, a8, a9, a10, a11, a12⟩ := hag c
  exact (Cert.Bridge.result_eq m ρ m' ρ' c a0 a1 a2 a3 a4 a5 a6 a7 a8 a9 a10 a11 a12).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
